-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x20 : Shape := ⟨2, ![1024, 20]⟩
abbrev S100000x64 : Shape := ⟨2, ![100000, 64]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000 : S_.BroadcastsInDim S100000 (![] : Fin 0 → Fin S100000.rank)
  reducesTo_S100000_S_d0 : S100000.ReducesTo [0] S_
  bcast_S_S1024x20 : S_.BroadcastsInDim S1024x20 (![] : Fin 0 → Fin S1024x20.rank)
  reducesTo_S1024x20_S_d0_1 : S1024x20.ReducesTo [0, 1] S_

variable [Facts]

def fn_part1 {F : FTy → Type} [FloatOps F] (main_arg0 : IVec S1024x20 32) (main_v13 : IVec S_ 1) (main_v15 : IVec S1024x20 1) (main_c_5 : IVec S_ 32) : IVec S_ 1 :=
  let main_v16 : IVec S1024x20 32 := broadcastInDim S1024x20 ![] bcast_S_S1024x20 main_c_5
  let main_v17 : IVec S1024x20 1 := cmpi .sle main_arg0 main_v16
  let main_v18 : IVec S1024x20 1 := andi main_v15 main_v17
  let main_c_6 : IVec S_ 1 := constantI S_ 1 1#1
  let main_v19 : IVec S_ 1 := (fun x v => Host.reduce IntOp.andi x v reducesTo_S1024x20_S_d0_1 h_S_) main_v18 main_c_6
  let main_v20 : IVec S_ 1 := andi main_v13 main_v19
  main_v20

def fn {F : FTy → Type} [FloatOps F] (main_arg0 : IVec S1024x20 32) (main_arg1 : FVec F S100000x64 .f32) (main_arg2 : FVec F S100000x64 .f32) (main_arg3 : FVec F S100000 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_c_4 : IVec S_ 32 := constantI S_ 32 0#32
  let main_v14 : IVec S1024x20 32 := broadcastInDim S1024x20 ![] bcast_S_S1024x20 main_c_4
  let main_v15 : IVec S1024x20 1 := cmpi .sge main_arg0 main_v14
  let main_c_5 : IVec S_ 32 := constantI S_ 32 99999#32
  fn_part1 (F := F) main_arg0 main_v13 main_v15 main_c_5
-- ==== Kernel.lean ====
abbrev S1024x20 : Shape := ⟨2, ![1024, 20]⟩
abbrev S100000x64 : Shape := ⟨2, ![100000, 64]⟩
abbrev S100000 : Shape := ⟨1, ![100000]⟩
abbrev S20x1024 : Shape := ⟨2, ![20, 1024]⟩
abbrev S64x100000 : Shape := ⟨2, ![64, 100000]⟩
abbrev S64x1024 : Shape := ⟨2, ![64, 1024]⟩
abbrev S1024 : Shape := ⟨1, ![1024]⟩
abbrev S_ : Shape := ⟨0, ![]⟩
abbrev S1x100000 : Shape := ⟨2, ![1, 100000]⟩
abbrev S16 : Shape := ⟨1, ![16]⟩
abbrev S1x16 : Shape := ⟨2, ![1, 16]⟩
abbrev S1x1024 : Shape := ⟨2, ![1, 1024]⟩
abbrev S100000x1024 : Shape := ⟨2, ![100000, 1024]⟩
abbrev S64x4096 : Shape := ⟨2, ![64, 4096]⟩
abbrev S1x4096 : Shape := ⟨2, ![1, 4096]⟩
abbrev S4096x1024 : Shape := ⟨2, ![4096, 1024]⟩
abbrev S4096x1 : Shape := ⟨2, ![4096, 1]⟩
abbrev S1024x100000 : Shape := ⟨2, ![1024, 100000]⟩

abbrev nBuf : Table → Nat
  | .hbm => 11
  | .local .tc .vmem => 7
  | .local .scVector .vmem => 3
  | _ => 0

abbrev bufTy : (tb : Table) → Fin (nBuf tb) → BufTy
  | .hbm, ⟨0, _⟩ => ⟨S1024x20, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S20x1024, .i32⟩
  | .hbm, ⟨5, _⟩ => ⟨S64x100000, .f32⟩
  | .hbm, ⟨6, _⟩ => ⟨S64x1024, .f32⟩
  | .hbm, ⟨7, _⟩ => ⟨S64x100000, .f32⟩
  | .hbm, ⟨8, _⟩ => ⟨S1x100000, .f32⟩
  | .hbm, ⟨9, _⟩ => ⟨S100000x1024, .f32⟩
  | .hbm, ⟨10, _⟩ => ⟨S1024x100000, .f32⟩
  | .local .tc .vmem, ⟨0, _⟩ => ⟨S64x4096, .f32⟩
  | .local .tc .vmem, ⟨1, _⟩ => ⟨S64x4096, .f32⟩
  | .local .tc .vmem, ⟨2, _⟩ => ⟨S64x1024, .f32⟩
  | .local .tc .vmem, ⟨3, _⟩ => ⟨S1x4096, .f32⟩
  | .local .tc .vmem, ⟨4, _⟩ => ⟨S1x4096, .f32⟩
  | .local .tc .vmem, ⟨5, _⟩ => ⟨S4096x1024, .f32⟩
  | .local .tc .vmem, ⟨6, _⟩ => ⟨S4096x1024, .f32⟩
  | .local .scVector .vmem, ⟨0, _⟩ => ⟨S20x1024, .i32⟩
  | .local .scVector .vmem, ⟨1, _⟩ => ⟨S100000, .f32⟩
  | .local .scVector .vmem, ⟨2, _⟩ => ⟨S1024, .f32⟩
  | _, _ => ⟨S1024x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_11_r1 : BitVec 32 := 0#32
  ![v3.toNat, 0]
@[reducible] def k0_t1_loop : Scf.Loop 32 :=
  let c0_i32_2 : BitVec 32 := 0#32
  let c64_i32 : BitVec 32 := 64#32
  let v4 : BitVec 32 := Scalar.addi c0_i32_2 c64_i32
  let c1_i32 : BitVec 32 := 1#32
  ⟨c0_i32_2, v4, c1_i32⟩
def k0_off2 (k0_t1 : Fin k0_t1_loop.trips) : Fin 2 → Nat :=
  let c0_i32_11 : BitVec 32 := 0#32
  let v9 : Index := Scalar.indexCast c0_i32_11
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v10 : Index := Scalar.indexCast v8
  ![0, v10.toNat]

def k0_chk1 (v11 : IVec S16 32) : Prop :=
  (∀ a x, ((![v11] : Fin 1 → IVec S16 32) a x).toNat < S100000.size a)
instance k0_chk1.dec : ∀ (v11 : IVec S16 32), Decidable (k0_chk1 v11) := fun v11 => decidable_of_iff' _ (Iff.of_eq (k0_chk1.eq_1 v11))
theorem k0_idx1_inb : ∀ (v11 : IVec S16 32) (k0_hw1 : k0_chk1 v11), ∀ a x, ((![v11] : Fin 1 → IVec S16 32) a x).toNat < S100000.size a := fun v11 k0_hw1 => k0_hw1
def k0_off3 (k0_t1 : Fin k0_t1_loop.trips) : Fin 2 → Nat :=
  let c1_i32_12 : BitVec 32 := 1#32
  let v13 : Index := Scalar.indexCast c1_i32_12
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v14 : Index := Scalar.indexCast v8
  ![1, v14.toNat]

def k0_chk2 (v15 : IVec S16 32) : Prop :=
  (∀ a x, ((![v15] : Fin 1 → IVec S16 32) a x).toNat < S100000.size a)
instance k0_chk2.dec : ∀ (v15 : IVec S16 32), Decidable (k0_chk2 v15) := fun v15 => decidable_of_iff' _ (Iff.of_eq (k0_chk2.eq_1 v15))
theorem k0_idx2_inb : ∀ (v15 : IVec S16 32) (k0_hw2 : k0_chk2 v15), ∀ a x, ((![v15] : Fin 1 → IVec S16 32) a x).toNat < S100000.size a := fun v15 k0_hw2 => k0_hw2
def k0_off4 (k0_t1 : Fin k0_t1_loop.trips) : Fin 2 → Nat :=
  let c2_i32_13 : BitVec 32 := 2#32
  let v18 : Index := Scalar.indexCast c2_i32_13
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v19 : Index := Scalar.indexCast v8
  ![2, v19.toNat]

def k0_chk3 (v20 : IVec S16 32) : Prop :=
  (∀ a x, ((![v20] : Fin 1 → IVec S16 32) a x).toNat < S100000.size a)
instance k0_chk3.dec : ∀ (v20 : IVec S16 32), Decidable (k0_chk3 v20) := fun v20 => decidable_of_iff' _ (Iff.of_eq (k0_chk3.eq_1 v20))
theorem k0_idx3_inb : ∀ (v20 : IVec S16 32) (k0_hw3 : k0_chk3 v20), ∀ a x, ((![v20] : Fin 1 → IVec S16 32) a x).toNat < S100000.size a := fun v20 k0_hw3 => k0_hw3
def k0_off5 (k0_t1 : Fin k0_t1_loop.trips) : Fin 2 → Nat :=
  let c3_i32 : BitVec 32 := 3#32
  let v23 : Index := Scalar.indexCast c3_i32
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v24 : Index := Scalar.indexCast v8
  ![3, v24.toNat]

def k0_chk4 (v25 : IVec S16 32) : Prop :=
  (∀ a x, ((![v25] : Fin 1 → IVec S16 32) a x).toNat < S100000.size a)
instance k0_chk4.dec : ∀ (v25 : IVec S16 32), Decidable (k0_chk4 v25) := fun v25 => decidable_of_iff' _ (Iff.of_eq (k0_chk4.eq_1 v25))
theorem k0_idx4_inb : ∀ (v25 : IVec S16 32) (k0_hw4 : k0_chk4 v25), ∀ a x, ((![v25] : Fin 1 → IVec S16 32) a x).toNat < S100000.size a := fun v25 k0_hw4 => k0_hw4
def k0_off6 (k0_t1 : Fin k0_t1_loop.trips) : Fin 2 → Nat :=
  let c4_i32 : BitVec 32 := 4#32
  let v28 : Index := Scalar.indexCast c4_i32
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v29 : Index := Scalar.indexCast v8
  ![4, v29.toNat]

def k0_chk5 (v30 : IVec S16 32) : Prop :=
  (∀ a x, ((![v30] : Fin 1 → IVec S16 32) a x).toNat < S100000.size a)
instance k0_chk5.dec : ∀ (v30 : IVec S16 32), Decidable (k0_chk5 v30) := fun v30 => decidable_of_iff' _ (Iff.of_eq (k0_chk5.eq_1 v30))
theorem k0_idx5_inb : ∀ (v30 : IVec S16 32) (k0_hw5 : k0_chk5 v30), ∀ a x, ((![v30] : Fin 1 → IVec S16 32) a x).toNat < S100000.size a := fun v30 k0_hw5 => k0_hw5
def k0_off7 (k0_t1 : Fin k0_t1_loop.trips) : Fin 2 → Nat :=
  let c5_i32 : BitVec 32 := 5#32
  let v33 : Index := Scalar.indexCast c5_i32
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v34 : Index := Scalar.indexCast v8
  ![5, v34.toNat]

def k0_chk6 (v35 : IVec S16 32) : Prop :=
  (∀ a x, ((![v35] : Fin 1 → IVec S16 32) a x).toNat < S100000.size a)
instance k0_chk6.dec : ∀ (v35 : IVec S16 32), Decidable (k0_chk6 v35) := fun v35 => decidable_of_iff' _ (Iff.of_eq (k0_chk6.eq_1 v35))
theorem k0_idx6_inb : ∀ (v35 : IVec S16 32) (k0_hw6 : k0_chk6 v35), ∀ a x, ((![v35] : Fin 1 → IVec S16 32) a x).toNat < S100000.size a := fun v35 k0_hw6 => k0_hw6
def k0_off8 (k0_t1 : Fin k0_t1_loop.trips) : Fin 2 → Nat :=
  let c6_i32 : BitVec 32 := 6#32
  let v38 : Index := Scalar.indexCast c6_i32
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v39 : Index := Scalar.indexCast v8
  ![6, v39.toNat]

def k0_chk7 (v40 : IVec S16 32) : Prop :=
  (∀ a x, ((![v40] : Fin 1 → IVec S16 32) a x).toNat < S100000.size a)
instance k0_chk7.dec : ∀ (v40 : IVec S16 32), Decidable (k0_chk7 v40) := fun v40 => decidable_of_iff' _ (Iff.of_eq (k0_chk7.eq_1 v40))
theorem k0_idx7_inb : ∀ (v40 : IVec S16 32) (k0_hw7 : k0_chk7 v40), ∀ a x, ((![v40] : Fin 1 → IVec S16 32) a x).toNat < S100000.size a := fun v40 k0_hw7 => k0_hw7
def k0_off9 (k0_t1 : Fin k0_t1_loop.trips) : Fin 2 → Nat :=
  let c7_i32 : BitVec 32 := 7#32
  let v43 : Index := Scalar.indexCast c7_i32
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v44 : Index := Scalar.indexCast v8
  ![7, v44.toNat]

def k0_chk8 (v45 : IVec S16 32) : Prop :=
  (∀ a x, ((![v45] : Fin 1 → IVec S16 32) a x).toNat < S100000.size a)
instance k0_chk8.dec : ∀ (v45 : IVec S16 32), Decidable (k0_chk8 v45) := fun v45 => decidable_of_iff' _ (Iff.of_eq (k0_chk8.eq_1 v45))
theorem k0_idx8_inb : ∀ (v45 : IVec S16 32) (k0_hw8 : k0_chk8 v45), ∀ a x, ((![v45] : Fin 1 → IVec S16 32) a x).toNat < S100000.size a := fun v45 k0_hw8 => k0_hw8
def k0_off10 (k0_t1 : Fin k0_t1_loop.trips) : Fin 2 → Nat :=
  let c8_i32 : BitVec 32 := 8#32
  let v48 : Index := Scalar.indexCast c8_i32
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v49 : Index := Scalar.indexCast v8
  ![8, v49.toNat]

def k0_chk9 (v50 : IVec S16 32) : Prop :=
  (∀ a x, ((![v50] : Fin 1 → IVec S16 32) a x).toNat < S100000.size a)
instance k0_chk9.dec : ∀ (v50 : IVec S16 32), Decidable (k0_chk9 v50) := fun v50 => decidable_of_iff' _ (Iff.of_eq (k0_chk9.eq_1 v50))
theorem k0_idx9_inb : ∀ (v50 : IVec S16 32) (k0_hw9 : k0_chk9 v50), ∀ a x, ((![v50] : Fin 1 → IVec S16 32) a x).toNat < S100000.size a := fun v50 k0_hw9 => k0_hw9
def k0_off11 (k0_t1 : Fin k0_t1_loop.trips) : Fin 2 → Nat :=
  let c9_i32 : BitVec 32 := 9#32
  let v53 : Index := Scalar.indexCast c9_i32
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v54 : Index := Scalar.indexCast v8
  ![9, v54.toNat]

def k0_chk10 (v55 : IVec S16 32) : Prop :=
  (∀ a x, ((![v55] : Fin 1 → IVec S16 32) a x).toNat < S100000.size a)
instance k0_chk10.dec : ∀ (v55 : IVec S16 32), Decidable (k0_chk10 v55) := fun v55 => decidable_of_iff' _ (Iff.of_eq (k0_chk10.eq_1 v55))
theorem k0_idx10_inb : ∀ (v55 : IVec S16 32) (k0_hw10 : k0_chk10 v55), ∀ a x, ((![v55] : Fin 1 → IVec S16 32) a x).toNat < S100000.size a := fun v55 k0_hw10 => k0_hw10
def k0_off12 (k0_t1 : Fin k0_t1_loop.trips) : Fin 2 → Nat :=
  let c10_i32 : BitVec 32 := 10#32
  let v58 : Index := Scalar.indexCast c10_i32
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v59 : Index := Scalar.indexCast v8
  ![10, v59.toNat]

def k0_chk11 (v60 : IVec S16 32) : Prop :=
  (∀ a x, ((![v60] : Fin 1 → IVec S16 32) a x).toNat < S100000.size a)
instance k0_chk11.dec : ∀ (v60 : IVec S16 32), Decidable (k0_chk11 v60) := fun v60 => decidable_of_iff' _ (Iff.of_eq (k0_chk11.eq_1 v60))
theorem k0_idx11_inb : ∀ (v60 : IVec S16 32) (k0_hw11 : k0_chk11 v60), ∀ a x, ((![v60] : Fin 1 → IVec S16 32) a x).toNat < S100000.size a := fun v60 k0_hw11 => k0_hw11
def k0_off13 (k0_t1 : Fin k0_t1_loop.trips) : Fin 2 → Nat :=
  let c11_i32 : BitVec 32 := 11#32
  let v63 : Index := Scalar.indexCast c11_i32
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v64 : Index := Scalar.indexCast v8
  ![11, v64.toNat]

def k0_chk12 (v65 : IVec S16 32) : Prop :=
  (∀ a x, ((![v65] : Fin 1 → IVec S16 32) a x).toNat < S100000.size a)
instance k0_chk12.dec : ∀ (v65 : IVec S16 32), Decidable (k0_chk12 v65) := fun v65 => decidable_of_iff' _ (Iff.of_eq (k0_chk12.eq_1 v65))
theorem k0_idx12_inb : ∀ (v65 : IVec S16 32) (k0_hw12 : k0_chk12 v65), ∀ a x, ((![v65] : Fin 1 → IVec S16 32) a x).toNat < S100000.size a := fun v65 k0_hw12 => k0_hw12
def k0_off14 (k0_t1 : Fin k0_t1_loop.trips) : Fin 2 → Nat :=
  let c12_i32 : BitVec 32 := 12#32
  let v68 : Index := Scalar.indexCast c12_i32
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v69 : Index := Scalar.indexCast v8
  ![12, v69.toNat]

def k0_chk13 (v70 : IVec S16 32) : Prop :=
  (∀ a x, ((![v70] : Fin 1 → IVec S16 32) a x).toNat < S100000.size a)
instance k0_chk13.dec : ∀ (v70 : IVec S16 32), Decidable (k0_chk13 v70) := fun v70 => decidable_of_iff' _ (Iff.of_eq (k0_chk13.eq_1 v70))
theorem k0_idx13_inb : ∀ (v70 : IVec S16 32) (k0_hw13 : k0_chk13 v70), ∀ a x, ((![v70] : Fin 1 → IVec S16 32) a x).toNat < S100000.size a := fun v70 k0_hw13 => k0_hw13
def k0_off15 (k0_t1 : Fin k0_t1_loop.trips) : Fin 2 → Nat :=
  let c13_i32 : BitVec 32 := 13#32
  let v73 : Index := Scalar.indexCast c13_i32
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v74 : Index := Scalar.indexCast v8
  ![13, v74.toNat]

def k0_chk14 (v75 : IVec S16 32) : Prop :=
  (∀ a x, ((![v75] : Fin 1 → IVec S16 32) a x).toNat < S100000.size a)
instance k0_chk14.dec : ∀ (v75 : IVec S16 32), Decidable (k0_chk14 v75) := fun v75 => decidable_of_iff' _ (Iff.of_eq (k0_chk14.eq_1 v75))
theorem k0_idx14_inb : ∀ (v75 : IVec S16 32) (k0_hw14 : k0_chk14 v75), ∀ a x, ((![v75] : Fin 1 → IVec S16 32) a x).toNat < S100000.size a := fun v75 k0_hw14 => k0_hw14
def k0_off16 (k0_t1 : Fin k0_t1_loop.trips) : Fin 2 → Nat :=
  let c14_i32 : BitVec 32 := 14#32
  let v78 : Index := Scalar.indexCast c14_i32
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v79 : Index := Scalar.indexCast v8
  ![14, v79.toNat]

def k0_chk15 (v80 : IVec S16 32) : Prop :=
  (∀ a x, ((![v80] : Fin 1 → IVec S16 32) a x).toNat < S100000.size a)
instance k0_chk15.dec : ∀ (v80 : IVec S16 32), Decidable (k0_chk15 v80) := fun v80 => decidable_of_iff' _ (Iff.of_eq (k0_chk15.eq_1 v80))
theorem k0_idx15_inb : ∀ (v80 : IVec S16 32) (k0_hw15 : k0_chk15 v80), ∀ a x, ((![v80] : Fin 1 → IVec S16 32) a x).toNat < S100000.size a := fun v80 k0_hw15 => k0_hw15
def k0_off17 (k0_t1 : Fin k0_t1_loop.trips) : Fin 2 → Nat :=
  let c15_i32 : BitVec 32 := 15#32
  let v83 : Index := Scalar.indexCast c15_i32
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v84 : Index := Scalar.indexCast v8
  ![15, v84.toNat]

def k0_chk16 (v85 : IVec S16 32) : Prop :=
  (∀ a x, ((![v85] : Fin 1 → IVec S16 32) a x).toNat < S100000.size a)
instance k0_chk16.dec : ∀ (v85 : IVec S16 32), Decidable (k0_chk16 v85) := fun v85 => decidable_of_iff' _ (Iff.of_eq (k0_chk16.eq_1 v85))
theorem k0_idx16_inb : ∀ (v85 : IVec S16 32) (k0_hw16 : k0_chk16 v85), ∀ a x, ((![v85] : Fin 1 → IVec S16 32) a x).toNat < S100000.size a := fun v85 k0_hw16 => k0_hw16
def k0_off18 (k0_t1 : Fin k0_t1_loop.trips) : Fin 2 → Nat :=
  let c16_i32_14 : BitVec 32 := 16#32
  let v88 : Index := Scalar.indexCast c16_i32_14
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v89 : Index := Scalar.indexCast v8
  ![16, v89.toNat]

def k0_chk17 (v90 : IVec S16 32) : Prop :=
  (∀ a x, ((![v90] : Fin 1 → IVec S16 32) a x).toNat < S100000.size a)
instance k0_chk17.dec : ∀ (v90 : IVec S16 32), Decidable (k0_chk17 v90) := fun v90 => decidable_of_iff' _ (Iff.of_eq (k0_chk17.eq_1 v90))
theorem k0_idx17_inb : ∀ (v90 : IVec S16 32) (k0_hw17 : k0_chk17 v90), ∀ a x, ((![v90] : Fin 1 → IVec S16 32) a x).toNat < S100000.size a := fun v90 k0_hw17 => k0_hw17
def k0_off19 (k0_t1 : Fin k0_t1_loop.trips) : Fin 2 → Nat :=
  let c17_i32 : BitVec 32 := 17#32
  let v93 : Index := Scalar.indexCast c17_i32
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v94 : Index := Scalar.indexCast v8
  ![17, v94.toNat]

def k0_chk18 (v95 : IVec S16 32) : Prop :=
  (∀ a x, ((![v95] : Fin 1 → IVec S16 32) a x).toNat < S100000.size a)
instance k0_chk18.dec : ∀ (v95 : IVec S16 32), Decidable (k0_chk18 v95) := fun v95 => decidable_of_iff' _ (Iff.of_eq (k0_chk18.eq_1 v95))
theorem k0_idx18_inb : ∀ (v95 : IVec S16 32) (k0_hw18 : k0_chk18 v95), ∀ a x, ((![v95] : Fin 1 → IVec S16 32) a x).toNat < S100000.size a := fun v95 k0_hw18 => k0_hw18
def k0_off20 (k0_t1 : Fin k0_t1_loop.trips) : Fin 2 → Nat :=
  let c18_i32 : BitVec 32 := 18#32
  let v98 : Index := Scalar.indexCast c18_i32
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v99 : Index := Scalar.indexCast v8
  ![18, v99.toNat]

def k0_chk19 (v100 : IVec S16 32) : Prop :=
  (∀ a x, ((![v100] : Fin 1 → IVec S16 32) a x).toNat < S100000.size a)
instance k0_chk19.dec : ∀ (v100 : IVec S16 32), Decidable (k0_chk19 v100) := fun v100 => decidable_of_iff' _ (Iff.of_eq (k0_chk19.eq_1 v100))
theorem k0_idx19_inb : ∀ (v100 : IVec S16 32) (k0_hw19 : k0_chk19 v100), ∀ a x, ((![v100] : Fin 1 → IVec S16 32) a x).toNat < S100000.size a := fun v100 k0_hw19 => k0_hw19
def k0_off21 (k0_t1 : Fin k0_t1_loop.trips) : Fin 2 → Nat :=
  let c19_i32 : BitVec 32 := 19#32
  let v103 : Index := Scalar.indexCast c19_i32
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v104 : Index := Scalar.indexCast v8
  ![19, v104.toNat]

def k0_chk20 (v105 : IVec S16 32) : Prop :=
  (∀ a x, ((![v105] : Fin 1 → IVec S16 32) a x).toNat < S100000.size a)
instance k0_chk20.dec : ∀ (v105 : IVec S16 32), Decidable (k0_chk20 v105) := fun v105 => decidable_of_iff' _ (Iff.of_eq (k0_chk20.eq_1 v105))
theorem k0_idx20_inb : ∀ (v105 : IVec S16 32) (k0_hw20 : k0_chk20 v105), ∀ a x, ((![v105] : Fin 1 → IVec S16 32) a x).toNat < S100000.size a := fun v105 k0_hw20 => k0_hw20
def k0_off22 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v108 : Index := Scalar.indexCast v8
  ![v108.toNat]
def k0_off23 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_11_r2 : BitVec 32 := 0#32
  ![v3.toNat, 0]
@[reducible] def k0_t2_loop : Scf.Loop 32 :=
  let c0_i32_7 : BitVec 32 := 0#32
  let c64_i32_8 : BitVec 32 := 64#32
  let v7 : BitVec 32 := Scalar.addi c0_i32_7 c64_i32_8
  let c1_i32_9 : BitVec 32 := 1#32
  ⟨c0_i32_7, v7, c1_i32_9⟩
def k0_off24 (k0_t2 : Fin k0_t2_loop.trips) : Fin 2 → Nat :=
  let c0_i32_11 : BitVec 32 := 0#32
  let v9 : Index := Scalar.indexCast c0_i32_11
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v10 : Index := Scalar.indexCast v8
  ![0, v10.toNat]

def k0_chk21 (v11 : IVec S16 32) : Prop :=
  (∀ a x, ((![v11] : Fin 1 → IVec S16 32) a x).toNat < S100000.size a)
instance k0_chk21.dec : ∀ (v11 : IVec S16 32), Decidable (k0_chk21 v11) := fun v11 => decidable_of_iff' _ (Iff.of_eq (k0_chk21.eq_1 v11))
theorem k0_idx21_inb : ∀ (v11 : IVec S16 32) (k0_hw21 : k0_chk21 v11), ∀ a x, ((![v11] : Fin 1 → IVec S16 32) a x).toNat < S100000.size a := fun v11 k0_hw21 => k0_hw21
def k0_off25 (k0_t2 : Fin k0_t2_loop.trips) : Fin 2 → Nat :=
  let c1_i32_12 : BitVec 32 := 1#32
  let v13 : Index := Scalar.indexCast c1_i32_12
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v14 : Index := Scalar.indexCast v8
  ![1, v14.toNat]

def k0_chk22 (v15 : IVec S16 32) : Prop :=
  (∀ a x, ((![v15] : Fin 1 → IVec S16 32) a x).toNat < S100000.size a)
instance k0_chk22.dec : ∀ (v15 : IVec S16 32), Decidable (k0_chk22 v15) := fun v15 => decidable_of_iff' _ (Iff.of_eq (k0_chk22.eq_1 v15))
theorem k0_idx22_inb : ∀ (v15 : IVec S16 32) (k0_hw22 : k0_chk22 v15), ∀ a x, ((![v15] : Fin 1 → IVec S16 32) a x).toNat < S100000.size a := fun v15 k0_hw22 => k0_hw22
def k0_off26 (k0_t2 : Fin k0_t2_loop.trips) : Fin 2 → Nat :=
  let c2_i32_13 : BitVec 32 := 2#32
  let v18 : Index := Scalar.indexCast c2_i32_13
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v19 : Index := Scalar.indexCast v8
  ![2, v19.toNat]

def k0_chk23 (v20 : IVec S16 32) : Prop :=
  (∀ a x, ((![v20] : Fin 1 → IVec S16 32) a x).toNat < S100000.size a)
instance k0_chk23.dec : ∀ (v20 : IVec S16 32), Decidable (k0_chk23 v20) := fun v20 => decidable_of_iff' _ (Iff.of_eq (k0_chk23.eq_1 v20))
theorem k0_idx23_inb : ∀ (v20 : IVec S16 32) (k0_hw23 : k0_chk23 v20), ∀ a x, ((![v20] : Fin 1 → IVec S16 32) a x).toNat < S100000.size a := fun v20 k0_hw23 => k0_hw23
def k0_off27 (k0_t2 : Fin k0_t2_loop.trips) : Fin 2 → Nat :=
  let c3_i32 : BitVec 32 := 3#32
  let v23 : Index := Scalar.indexCast c3_i32
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v24 : Index := Scalar.indexCast v8
  ![3, v24.toNat]

def k0_chk24 (v25 : IVec S16 32) : Prop :=
  (∀ a x, ((![v25] : Fin 1 → IVec S16 32) a x).toNat < S100000.size a)
instance k0_chk24.dec : ∀ (v25 : IVec S16 32), Decidable (k0_chk24 v25) := fun v25 => decidable_of_iff' _ (Iff.of_eq (k0_chk24.eq_1 v25))
theorem k0_idx24_inb : ∀ (v25 : IVec S16 32) (k0_hw24 : k0_chk24 v25), ∀ a x, ((![v25] : Fin 1 → IVec S16 32) a x).toNat < S100000.size a := fun v25 k0_hw24 => k0_hw24
def k0_off28 (k0_t2 : Fin k0_t2_loop.trips) : Fin 2 → Nat :=
  let c4_i32 : BitVec 32 := 4#32
  let v28 : Index := Scalar.indexCast c4_i32
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v29 : Index := Scalar.indexCast v8
  ![4, v29.toNat]

def k0_chk25 (v30 : IVec S16 32) : Prop :=
  (∀ a x, ((![v30] : Fin 1 → IVec S16 32) a x).toNat < S100000.size a)
instance k0_chk25.dec : ∀ (v30 : IVec S16 32), Decidable (k0_chk25 v30) := fun v30 => decidable_of_iff' _ (Iff.of_eq (k0_chk25.eq_1 v30))
theorem k0_idx25_inb : ∀ (v30 : IVec S16 32) (k0_hw25 : k0_chk25 v30), ∀ a x, ((![v30] : Fin 1 → IVec S16 32) a x).toNat < S100000.size a := fun v30 k0_hw25 => k0_hw25
def k0_off29 (k0_t2 : Fin k0_t2_loop.trips) : Fin 2 → Nat :=
  let c5_i32 : BitVec 32 := 5#32
  let v33 : Index := Scalar.indexCast c5_i32
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v34 : Index := Scalar.indexCast v8
  ![5, v34.toNat]

def k0_chk26 (v35 : IVec S16 32) : Prop :=
  (∀ a x, ((![v35] : Fin 1 → IVec S16 32) a x).toNat < S100000.size a)
instance k0_chk26.dec : ∀ (v35 : IVec S16 32), Decidable (k0_chk26 v35) := fun v35 => decidable_of_iff' _ (Iff.of_eq (k0_chk26.eq_1 v35))
theorem k0_idx26_inb : ∀ (v35 : IVec S16 32) (k0_hw26 : k0_chk26 v35), ∀ a x, ((![v35] : Fin 1 → IVec S16 32) a x).toNat < S100000.size a := fun v35 k0_hw26 => k0_hw26
def k0_off30 (k0_t2 : Fin k0_t2_loop.trips) : Fin 2 → Nat :=
  let c6_i32 : BitVec 32 := 6#32
  let v38 : Index := Scalar.indexCast c6_i32
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v39 : Index := Scalar.indexCast v8
  ![6, v39.toNat]

def k0_chk27 (v40 : IVec S16 32) : Prop :=
  (∀ a x, ((![v40] : Fin 1 → IVec S16 32) a x).toNat < S100000.size a)
instance k0_chk27.dec : ∀ (v40 : IVec S16 32), Decidable (k0_chk27 v40) := fun v40 => decidable_of_iff' _ (Iff.of_eq (k0_chk27.eq_1 v40))
theorem k0_idx27_inb : ∀ (v40 : IVec S16 32) (k0_hw27 : k0_chk27 v40), ∀ a x, ((![v40] : Fin 1 → IVec S16 32) a x).toNat < S100000.size a := fun v40 k0_hw27 => k0_hw27
def k0_off31 (k0_t2 : Fin k0_t2_loop.trips) : Fin 2 → Nat :=
  let c7_i32 : BitVec 32 := 7#32
  let v43 : Index := Scalar.indexCast c7_i32
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v44 : Index := Scalar.indexCast v8
  ![7, v44.toNat]

def k0_chk28 (v45 : IVec S16 32) : Prop :=
  (∀ a x, ((![v45] : Fin 1 → IVec S16 32) a x).toNat < S100000.size a)
instance k0_chk28.dec : ∀ (v45 : IVec S16 32), Decidable (k0_chk28 v45) := fun v45 => decidable_of_iff' _ (Iff.of_eq (k0_chk28.eq_1 v45))
theorem k0_idx28_inb : ∀ (v45 : IVec S16 32) (k0_hw28 : k0_chk28 v45), ∀ a x, ((![v45] : Fin 1 → IVec S16 32) a x).toNat < S100000.size a := fun v45 k0_hw28 => k0_hw28
def k0_off32 (k0_t2 : Fin k0_t2_loop.trips) : Fin 2 → Nat :=
  let c8_i32 : BitVec 32 := 8#32
  let v48 : Index := Scalar.indexCast c8_i32
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v49 : Index := Scalar.indexCast v8
  ![8, v49.toNat]

def k0_chk29 (v50 : IVec S16 32) : Prop :=
  (∀ a x, ((![v50] : Fin 1 → IVec S16 32) a x).toNat < S100000.size a)
instance k0_chk29.dec : ∀ (v50 : IVec S16 32), Decidable (k0_chk29 v50) := fun v50 => decidable_of_iff' _ (Iff.of_eq (k0_chk29.eq_1 v50))
theorem k0_idx29_inb : ∀ (v50 : IVec S16 32) (k0_hw29 : k0_chk29 v50), ∀ a x, ((![v50] : Fin 1 → IVec S16 32) a x).toNat < S100000.size a := fun v50 k0_hw29 => k0_hw29
def k0_off33 (k0_t2 : Fin k0_t2_loop.trips) : Fin 2 → Nat :=
  let c9_i32 : BitVec 32 := 9#32
  let v53 : Index := Scalar.indexCast c9_i32
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v54 : Index := Scalar.indexCast v8
  ![9, v54.toNat]

def k0_chk30 (v55 : IVec S16 32) : Prop :=
  (∀ a x, ((![v55] : Fin 1 → IVec S16 32) a x).toNat < S100000.size a)
instance k0_chk30.dec : ∀ (v55 : IVec S16 32), Decidable (k0_chk30 v55) := fun v55 => decidable_of_iff' _ (Iff.of_eq (k0_chk30.eq_1 v55))
theorem k0_idx30_inb : ∀ (v55 : IVec S16 32) (k0_hw30 : k0_chk30 v55), ∀ a x, ((![v55] : Fin 1 → IVec S16 32) a x).toNat < S100000.size a := fun v55 k0_hw30 => k0_hw30
def k0_off34 (k0_t2 : Fin k0_t2_loop.trips) : Fin 2 → Nat :=
  let c10_i32 : BitVec 32 := 10#32
  let v58 : Index := Scalar.indexCast c10_i32
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v59 : Index := Scalar.indexCast v8
  ![10, v59.toNat]

def k0_chk31 (v60 : IVec S16 32) : Prop :=
  (∀ a x, ((![v60] : Fin 1 → IVec S16 32) a x).toNat < S100000.size a)
instance k0_chk31.dec : ∀ (v60 : IVec S16 32), Decidable (k0_chk31 v60) := fun v60 => decidable_of_iff' _ (Iff.of_eq (k0_chk31.eq_1 v60))
theorem k0_idx31_inb : ∀ (v60 : IVec S16 32) (k0_hw31 : k0_chk31 v60), ∀ a x, ((![v60] : Fin 1 → IVec S16 32) a x).toNat < S100000.size a := fun v60 k0_hw31 => k0_hw31
def k0_off35 (k0_t2 : Fin k0_t2_loop.trips) : Fin 2 → Nat :=
  let c11_i32 : BitVec 32 := 11#32
  let v63 : Index := Scalar.indexCast c11_i32
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v64 : Index := Scalar.indexCast v8
  ![11, v64.toNat]

def k0_chk32 (v65 : IVec S16 32) : Prop :=
  (∀ a x, ((![v65] : Fin 1 → IVec S16 32) a x).toNat < S100000.size a)
instance k0_chk32.dec : ∀ (v65 : IVec S16 32), Decidable (k0_chk32 v65) := fun v65 => decidable_of_iff' _ (Iff.of_eq (k0_chk32.eq_1 v65))
theorem k0_idx32_inb : ∀ (v65 : IVec S16 32) (k0_hw32 : k0_chk32 v65), ∀ a x, ((![v65] : Fin 1 → IVec S16 32) a x).toNat < S100000.size a := fun v65 k0_hw32 => k0_hw32
def k0_off36 (k0_t2 : Fin k0_t2_loop.trips) : Fin 2 → Nat :=
  let c12_i32 : BitVec 32 := 12#32
  let v68 : Index := Scalar.indexCast c12_i32
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v69 : Index := Scalar.indexCast v8
  ![12, v69.toNat]

def k0_chk33 (v70 : IVec S16 32) : Prop :=
  (∀ a x, ((![v70] : Fin 1 → IVec S16 32) a x).toNat < S100000.size a)
instance k0_chk33.dec : ∀ (v70 : IVec S16 32), Decidable (k0_chk33 v70) := fun v70 => decidable_of_iff' _ (Iff.of_eq (k0_chk33.eq_1 v70))
theorem k0_idx33_inb : ∀ (v70 : IVec S16 32) (k0_hw33 : k0_chk33 v70), ∀ a x, ((![v70] : Fin 1 → IVec S16 32) a x).toNat < S100000.size a := fun v70 k0_hw33 => k0_hw33
def k0_off37 (k0_t2 : Fin k0_t2_loop.trips) : Fin 2 → Nat :=
  let c13_i32 : BitVec 32 := 13#32
  let v73 : Index := Scalar.indexCast c13_i32
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v74 : Index := Scalar.indexCast v8
  ![13, v74.toNat]

def k0_chk34 (v75 : IVec S16 32) : Prop :=
  (∀ a x, ((![v75] : Fin 1 → IVec S16 32) a x).toNat < S100000.size a)
instance k0_chk34.dec : ∀ (v75 : IVec S16 32), Decidable (k0_chk34 v75) := fun v75 => decidable_of_iff' _ (Iff.of_eq (k0_chk34.eq_1 v75))
theorem k0_idx34_inb : ∀ (v75 : IVec S16 32) (k0_hw34 : k0_chk34 v75), ∀ a x, ((![v75] : Fin 1 → IVec S16 32) a x).toNat < S100000.size a := fun v75 k0_hw34 => k0_hw34
def k0_off38 (k0_t2 : Fin k0_t2_loop.trips) : Fin 2 → Nat :=
  let c14_i32 : BitVec 32 := 14#32
  let v78 : Index := Scalar.indexCast c14_i32
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v79 : Index := Scalar.indexCast v8
  ![14, v79.toNat]

def k0_chk35 (v80 : IVec S16 32) : Prop :=
  (∀ a x, ((![v80] : Fin 1 → IVec S16 32) a x).toNat < S100000.size a)
instance k0_chk35.dec : ∀ (v80 : IVec S16 32), Decidable (k0_chk35 v80) := fun v80 => decidable_of_iff' _ (Iff.of_eq (k0_chk35.eq_1 v80))
theorem k0_idx35_inb : ∀ (v80 : IVec S16 32) (k0_hw35 : k0_chk35 v80), ∀ a x, ((![v80] : Fin 1 → IVec S16 32) a x).toNat < S100000.size a := fun v80 k0_hw35 => k0_hw35
def k0_off39 (k0_t2 : Fin k0_t2_loop.trips) : Fin 2 → Nat :=
  let c15_i32 : BitVec 32 := 15#32
  let v83 : Index := Scalar.indexCast c15_i32
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v84 : Index := Scalar.indexCast v8
  ![15, v84.toNat]

def k0_chk36 (v85 : IVec S16 32) : Prop :=
  (∀ a x, ((![v85] : Fin 1 → IVec S16 32) a x).toNat < S100000.size a)
instance k0_chk36.dec : ∀ (v85 : IVec S16 32), Decidable (k0_chk36 v85) := fun v85 => decidable_of_iff' _ (Iff.of_eq (k0_chk36.eq_1 v85))
theorem k0_idx36_inb : ∀ (v85 : IVec S16 32) (k0_hw36 : k0_chk36 v85), ∀ a x, ((![v85] : Fin 1 → IVec S16 32) a x).toNat < S100000.size a := fun v85 k0_hw36 => k0_hw36
def k0_off40 (k0_t2 : Fin k0_t2_loop.trips) : Fin 2 → Nat :=
  let c16_i32_14 : BitVec 32 := 16#32
  let v88 : Index := Scalar.indexCast c16_i32_14
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v89 : Index := Scalar.indexCast v8
  ![16, v89.toNat]

def k0_chk37 (v90 : IVec S16 32) : Prop :=
  (∀ a x, ((![v90] : Fin 1 → IVec S16 32) a x).toNat < S100000.size a)
instance k0_chk37.dec : ∀ (v90 : IVec S16 32), Decidable (k0_chk37 v90) := fun v90 => decidable_of_iff' _ (Iff.of_eq (k0_chk37.eq_1 v90))
theorem k0_idx37_inb : ∀ (v90 : IVec S16 32) (k0_hw37 : k0_chk37 v90), ∀ a x, ((![v90] : Fin 1 → IVec S16 32) a x).toNat < S100000.size a := fun v90 k0_hw37 => k0_hw37
def k0_off41 (k0_t2 : Fin k0_t2_loop.trips) : Fin 2 → Nat :=
  let c17_i32 : BitVec 32 := 17#32
  let v93 : Index := Scalar.indexCast c17_i32
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v94 : Index := Scalar.indexCast v8
  ![17, v94.toNat]

def k0_chk38 (v95 : IVec S16 32) : Prop :=
  (∀ a x, ((![v95] : Fin 1 → IVec S16 32) a x).toNat < S100000.size a)
instance k0_chk38.dec : ∀ (v95 : IVec S16 32), Decidable (k0_chk38 v95) := fun v95 => decidable_of_iff' _ (Iff.of_eq (k0_chk38.eq_1 v95))
theorem k0_idx38_inb : ∀ (v95 : IVec S16 32) (k0_hw38 : k0_chk38 v95), ∀ a x, ((![v95] : Fin 1 → IVec S16 32) a x).toNat < S100000.size a := fun v95 k0_hw38 => k0_hw38
def k0_off42 (k0_t2 : Fin k0_t2_loop.trips) : Fin 2 → Nat :=
  let c18_i32 : BitVec 32 := 18#32
  let v98 : Index := Scalar.indexCast c18_i32
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v99 : Index := Scalar.indexCast v8
  ![18, v99.toNat]

def k0_chk39 (v100 : IVec S16 32) : Prop :=
  (∀ a x, ((![v100] : Fin 1 → IVec S16 32) a x).toNat < S100000.size a)
instance k0_chk39.dec : ∀ (v100 : IVec S16 32), Decidable (k0_chk39 v100) := fun v100 => decidable_of_iff' _ (Iff.of_eq (k0_chk39.eq_1 v100))
theorem k0_idx39_inb : ∀ (v100 : IVec S16 32) (k0_hw39 : k0_chk39 v100), ∀ a x, ((![v100] : Fin 1 → IVec S16 32) a x).toNat < S100000.size a := fun v100 k0_hw39 => k0_hw39
def k0_off43 (k0_t2 : Fin k0_t2_loop.trips) : Fin 2 → Nat :=
  let c19_i32 : BitVec 32 := 19#32
  let v103 : Index := Scalar.indexCast c19_i32
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v104 : Index := Scalar.indexCast v8
  ![19, v104.toNat]

def k0_chk40 (v105 : IVec S16 32) : Prop :=
  (∀ a x, ((![v105] : Fin 1 → IVec S16 32) a x).toNat < S100000.size a)
instance k0_chk40.dec : ∀ (v105 : IVec S16 32), Decidable (k0_chk40 v105) := fun v105 => decidable_of_iff' _ (Iff.of_eq (k0_chk40.eq_1 v105))
theorem k0_idx40_inb : ∀ (v105 : IVec S16 32) (k0_hw40 : k0_chk40 v105), ∀ a x, ((![v105] : Fin 1 → IVec S16 32) a x).toNat < S100000.size a := fun v105 k0_hw40 => k0_hw40
def k0_off44 (k0_t2 : Fin k0_t2_loop.trips) : Fin 1 → Nat :=
  let c0_i32_7 : BitVec 32 := 0#32
  let c1_i32_9 : BitVec 32 := 1#32
  let arg9 : BitVec 32 := Scf.iv c0_i32_7 c1_i32_9 k0_t2
  let c16_i32 : BitVec 32 := 16#32
  let v8 : BitVec 32 := Scalar.muli arg9 c16_i32
  let v108 : Index := Scalar.indexCast v8
  ![v108.toNat]
abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1024x20_S20x1024_1_0 : S1024x20.Transposes [1, 0] S20x1024
  transposes_S100000x64_S64x100000_1_0 : S100000x64.Transposes [1, 0] S64x100000
  squeezes_S1x100000_S100000 : S1x100000.Squeezes S100000
  h_S1x16 : 0 < S1x16.numel
  shapeCasts_S1x16_S16 : S1x16.ShapeCasts S16
  h_S100000 : 0 < S100000.numel
  h_S16 : 0 < S16.numel
  squeezes_S1x1024_S1024 : S1x1024.Squeezes S1024
  shapeCasts_S100000_S1x100000 : S100000.ShapeCasts S1x100000
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  transposes_S1x4096_p1_0_S4096x1 : S1x4096.Transposes [1, 0] S4096x1
  broadcasts_S4096x1_S4096x1024 : S4096x1.Broadcasts S4096x1024
  inb_S4096x1024_S4096x1024_0_0 : ∀ a, (![0, 0] : Fin 2 → Nat) a + S4096x1024.size a ≤ S4096x1024.size a
  h_S4096x1024 : 0 < S4096x1024.numel
  transposes_S100000x1024_S1024x100000_1_0 : S100000x1024.Transposes [1, 0] S1024x100000
  dot_S64x4096_S64x1024_S4096x1024_0_0_1_1_n_n_wf : DotDims.WF S64x4096 S64x1024 S4096x1024 [0] [0] [1] [1] [] []
  hcc0_scratch3 : 0 + S_.numel ≤ 13
  hcc0_scoped0 : 1 + S_.numel ≤ 13
  hcc0_scoped1 : 2 + S_.numel ≤ 13
  hcc0_scoped2 : 3 + S_.numel ≤ 13
  hcc0_scoped3 : 4 + S_.numel ≤ 13
  hcc0_scoped4 : 5 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 r.val)) a + S1x100000.size a ≤ S64x100000.size a
  k0_t1_ok : k0_t1_loop.OK
  k0_off2_inb : ∀ k0_t1 : Fin k0_t1_loop.trips, ∀ a, (k0_off2 k0_t1) a + S1x16.size a ≤ S20x1024.size a
  k0_off3_inb : ∀ k0_t1 : Fin k0_t1_loop.trips, ∀ a, (k0_off3 k0_t1) a + S1x16.size a ≤ S20x1024.size a
  k0_off4_inb : ∀ k0_t1 : Fin k0_t1_loop.trips, ∀ a, (k0_off4 k0_t1) a + S1x16.size a ≤ S20x1024.size a
  k0_off5_inb : ∀ k0_t1 : Fin k0_t1_loop.trips, ∀ a, (k0_off5 k0_t1) a + S1x16.size a ≤ S20x1024.size a
  k0_off6_inb : ∀ k0_t1 : Fin k0_t1_loop.trips, ∀ a, (k0_off6 k0_t1) a + S1x16.size a ≤ S20x1024.size a
  k0_off7_inb : ∀ k0_t1 : Fin k0_t1_loop.trips, ∀ a, (k0_off7 k0_t1) a + S1x16.size a ≤ S20x1024.size a
  k0_off8_inb : ∀ k0_t1 : Fin k0_t1_loop.trips, ∀ a, (k0_off8 k0_t1) a + S1x16.size a ≤ S20x1024.size a
  k0_off9_inb : ∀ k0_t1 : Fin k0_t1_loop.trips, ∀ a, (k0_off9 k0_t1) a + S1x16.size a ≤ S20x1024.size a
  k0_off10_inb : ∀ k0_t1 : Fin k0_t1_loop.trips, ∀ a, (k0_off10 k0_t1) a + S1x16.size a ≤ S20x1024.size a
  k0_off11_inb : ∀ k0_t1 : Fin k0_t1_loop.trips, ∀ a, (k0_off11 k0_t1) a + S1x16.size a ≤ S20x1024.size a
  k0_off12_inb : ∀ k0_t1 : Fin k0_t1_loop.trips, ∀ a, (k0_off12 k0_t1) a + S1x16.size a ≤ S20x1024.size a
  k0_off13_inb : ∀ k0_t1 : Fin k0_t1_loop.trips, ∀ a, (k0_off13 k0_t1) a + S1x16.size a ≤ S20x1024.size a
  k0_off14_inb : ∀ k0_t1 : Fin k0_t1_loop.trips, ∀ a, (k0_off14 k0_t1) a + S1x16.size a ≤ S20x1024.size a
  k0_off15_inb : ∀ k0_t1 : Fin k0_t1_loop.trips, ∀ a, (k0_off15 k0_t1) a + S1x16.size a ≤ S20x1024.size a
  k0_off16_inb : ∀ k0_t1 : Fin k0_t1_loop.trips, ∀ a, (k0_off16 k0_t1) a + S1x16.size a ≤ S20x1024.size a
  k0_off17_inb : ∀ k0_t1 : Fin k0_t1_loop.trips, ∀ a, (k0_off17 k0_t1) a + S1x16.size a ≤ S20x1024.size a
  k0_off18_inb : ∀ k0_t1 : Fin k0_t1_loop.trips, ∀ a, (k0_off18 k0_t1) a + S1x16.size a ≤ S20x1024.size a
  k0_off19_inb : ∀ k0_t1 : Fin k0_t1_loop.trips, ∀ a, (k0_off19 k0_t1) a + S1x16.size a ≤ S20x1024.size a
  k0_off20_inb : ∀ k0_t1 : Fin k0_t1_loop.trips, ∀ a, (k0_off20 k0_t1) a + S1x16.size a ≤ S20x1024.size a
  k0_off21_inb : ∀ k0_t1 : Fin k0_t1_loop.trips, ∀ a, (k0_off21 k0_t1) a + S1x16.size a ≤ S20x1024.size a
  k0_off22_inb : ∀ k0_t1 : Fin k0_t1_loop.trips, ∀ a, (k0_off22 k0_t1) a + S16.size a ≤ S1024.size a
  k0_off23_inb : ∀ i : grid0.Coords, ∀ (r : Fin 2), ∀ a, (k0_off23 i (BitVec.ofNat 32 r.val)) a + S1x1024.size a ≤ S64x1024.size a
  k0_t2_ok : k0_t2_loop.OK
  k0_off24_inb : ∀ k0_t2 : Fin k0_t2_loop.trips, ∀ a, (k0_off24 k0_t2) a + S1x16.size a ≤ S20x1024.size a
  k0_off25_inb : ∀ k0_t2 : Fin k0_t2_loop.trips, ∀ a, (k0_off25 k0_t2) a + S1x16.size a ≤ S20x1024.size a
  k0_off26_inb : ∀ k0_t2 : Fin k0_t2_loop.trips, ∀ a, (k0_off26 k0_t2) a + S1x16.size a ≤ S20x1024.size a
  k0_off27_inb : ∀ k0_t2 : Fin k0_t2_loop.trips, ∀ a, (k0_off27 k0_t2) a + S1x16.size a ≤ S20x1024.size a
  k0_off28_inb : ∀ k0_t2 : Fin k0_t2_loop.trips, ∀ a, (k0_off28 k0_t2) a + S1x16.size a ≤ S20x1024.size a
  k0_off29_inb : ∀ k0_t2 : Fin k0_t2_loop.trips, ∀ a, (k0_off29 k0_t2) a + S1x16.size a ≤ S20x1024.size a
  k0_off30_inb : ∀ k0_t2 : Fin k0_t2_loop.trips, ∀ a, (k0_off30 k0_t2) a + S1x16.size a ≤ S20x1024.size a
  k0_off31_inb : ∀ k0_t2 : Fin k0_t2_loop.trips, ∀ a, (k0_off31 k0_t2) a + S1x16.size a ≤ S20x1024.size a
  k0_off32_inb : ∀ k0_t2 : Fin k0_t2_loop.trips, ∀ a, (k0_off32 k0_t2) a + S1x16.size a ≤ S20x1024.size a
  k0_off33_inb : ∀ k0_t2 : Fin k0_t2_loop.trips, ∀ a, (k0_off33 k0_t2) a + S1x16.size a ≤ S20x1024.size a
  k0_off34_inb : ∀ k0_t2 : Fin k0_t2_loop.trips, ∀ a, (k0_off34 k0_t2) a + S1x16.size a ≤ S20x1024.size a
  k0_off35_inb : ∀ k0_t2 : Fin k0_t2_loop.trips, ∀ a, (k0_off35 k0_t2) a + S1x16.size a ≤ S20x1024.size a
  k0_off36_inb : ∀ k0_t2 : Fin k0_t2_loop.trips, ∀ a, (k0_off36 k0_t2) a + S1x16.size a ≤ S20x1024.size a
  k0_off37_inb : ∀ k0_t2 : Fin k0_t2_loop.trips, ∀ a, (k0_off37 k0_t2) a + S1x16.size a ≤ S20x1024.size a
  k0_off38_inb : ∀ k0_t2 : Fin k0_t2_loop.trips, ∀ a, (k0_off38 k0_t2) a + S1x16.size a ≤ S20x1024.size a
  k0_off39_inb : ∀ k0_t2 : Fin k0_t2_loop.trips, ∀ a, (k0_off39 k0_t2) a + S1x16.size a ≤ S20x1024.size a
  k0_off40_inb : ∀ k0_t2 : Fin k0_t2_loop.trips, ∀ a, (k0_off40 k0_t2) a + S1x16.size a ≤ S20x1024.size a
  k0_off41_inb : ∀ k0_t2 : Fin k0_t2_loop.trips, ∀ a, (k0_off41 k0_t2) a + S1x16.size a ≤ S20x1024.size a
  k0_off42_inb : ∀ k0_t2 : Fin k0_t2_loop.trips, ∀ a, (k0_off42 k0_t2) a + S1x16.size a ≤ S20x1024.size a
  k0_off43_inb : ∀ k0_t2 : Fin k0_t2_loop.trips, ∀ a, (k0_off43 k0_t2) a + S1x16.size a ≤ S20x1024.size a
  k0_off44_inb : ∀ k0_t2 : Fin k0_t2_loop.trips, ∀ a, (k0_off44 k0_t2) a + S16.size a ≤ S1024.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S64x4096.size a < S64x100000.size a
  hwx1_0 : ∀ i : grid1.Coords, EltTy.bits .f32 = 32 ∨ (Rect.unit (s := S64x100000) (fun a => cc1_transform_0 i a * S64x4096.size a) (fun a => (Pipeline.Clip.of (cc1_transform_0 i a) (S64x4096.size a) (S64x100000.size a)).extent (S64x4096.size a)) fun a => Pipeline.Clip.inb (Pipeline.Clip.ok_of (hstart1_0 i a))).WholeWords (EltTy.packing .f32)
  hwxs1_0 : ∀ i : grid1.Coords, EltTy.bits .f32 = 32 ∨ (Rect.unit (s := S64x4096) (fun _ => 0) (fun a => (Pipeline.Clip.of (cc1_transform_0 i a) (S64x4096.size a) (S64x100000.size a)).extent (S64x4096.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1024.size a ≤ S64x1024.size a
  hwx1_1 : ∀ i : grid1.Coords, EltTy.bits .f32 = 32 ∨ (Rect.block (s := S64x1024) S64x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x4096.size a < S1x100000.size a
  hwx1_2 : ∀ i : grid1.Coords, EltTy.bits .f32 = 32 ∨ (Rect.unit (s := S1x100000) (fun a => cc1_transform_2 i a * S1x4096.size a) (fun a => (Pipeline.Clip.of (cc1_transform_2 i a) (S1x4096.size a) (S1x100000.size a)).extent (S1x4096.size a)) fun a => Pipeline.Clip.inb (Pipeline.Clip.ok_of (hstart1_2 i a))).WholeWords (EltTy.packing .f32)
  hwxs1_2 : ∀ i : grid1.Coords, EltTy.bits .f32 = 32 ∨ (Rect.unit (s := S1x4096) (fun _ => 0) (fun a => (Pipeline.Clip.of (cc1_transform_2 i a) (S1x4096.size a) (S1x100000.size a)).extent (S1x4096.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S4096x1024.size a < S100000x1024.size a
  hwx1_3 : ∀ i : grid1.Coords, EltTy.bits .f32 = 32 ∨ (Rect.unit (s := S100000x1024) (fun a => cc1_transform_3 i a * S4096x1024.size a) (fun a => (Pipeline.Clip.of (cc1_transform_3 i a) (S4096x1024.size a) (S100000x1024.size a)).extent (S4096x1024.size a)) fun a => Pipeline.Clip.inb (Pipeline.Clip.ok_of (hstart1_3 i a))).WholeWords (EltTy.packing .f32)
  hwxs1_3 : ∀ i : grid1.Coords, EltTy.bits .f32 = 32 ∨ (Rect.unit (s := S4096x1024) (fun _ => 0) (fun a => (Pipeline.Clip.of (cc1_transform_3 i a) (S4096x1024.size a) (S100000x1024.size a)).extent (S4096x1024.size a)) fun a => (Nat.zero_add _).trans_le (Pipeline.Clip.extent_le (Pipeline.Clip.ok_of (hstart1_3 i a)))).WholeWords (EltTy.packing .f32)

variable [Facts₀]

abbrev cc0_scratch3 : DmaSems sig S_ := SemArray.consecutive 0 S_ hcc0_scratch3
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc0_scoped3 : DmaSems sig S_ := SemArray.consecutive 4 S_ hcc0_scoped3
abbrev cc0_scoped4 : DmaSems sig S_ := SemArray.consecutive 5 S_ hcc0_scoped4
def dot_S64x4096_S64x1024_S4096x1024_0_0_1_1_n_n : DotDims S64x4096 S64x1024 S4096x1024 where
  lhsContracting := [0]
  rhsContracting := [0]
  lhsNonContracting := [1]
  rhsNonContracting := [1]
  lhsBatch := []
  rhsBatch := []
  wf := dot_S64x4096_S64x1024_S4096x1024_0_0_1_1_n_n_wf

abbrev win1_0 : Pipeline.Window sig grid1 :=
  Pipeline.Window.ofSpecClip (Memref.whole main_v3) S64x4096.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v2) S64x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpecClip (Memref.whole main_v4) S1x4096.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v5) S4096x1024.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024x20 : Shape := ⟨2, ![1024, 20]⟩
abbrev S100000x64 : Shape := ⟨2, ![100000, 64]⟩
abbrev S100000 : Shape := ⟨1, ![100000]⟩
abbrev S_ : Shape := ⟨0, ![]⟩
abbrev S1024x20x1 : Shape := ⟨3, ![1024, 20, 1]⟩
abbrev S1 : Shape := ⟨1, ![1]⟩
abbrev S1x1x1 : Shape := ⟨3, ![1, 1, 1]⟩
abbrev S1024x20x64 : Shape := ⟨3, ![1024, 20, 64]⟩
abbrev S1024x64 : Shape := ⟨2, ![1024, 64]⟩
abbrev S64x100000 : Shape := ⟨2, ![64, 100000]⟩
abbrev S1024x100000 : Shape := ⟨2, ![1024, 100000]⟩
abbrev S1x100000 : Shape := ⟨2, ![1, 100000]⟩

abbrev nBuf : Space → Nat
  | .hbm => 34
  | .vmem => 0
  | .smem => 0
  | _ => 0

abbrev bufTy : (tb : Table) → Fin (tcTables nBuf tb) → BufTy
  | .hbm, ⟨0, _⟩ => ⟨S1024x20, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S_, .i32⟩
  | .hbm, ⟨5, _⟩ => ⟨S1024x20, .i32⟩
  | .hbm, ⟨6, _⟩ => ⟨S1024x20, .i1⟩
  | .hbm, ⟨7, _⟩ => ⟨S_, .i32⟩
  | .hbm, ⟨8, _⟩ => ⟨S1024x20, .i32⟩
  | .hbm, ⟨9, _⟩ => ⟨S1024x20, .i32⟩
  | .hbm, ⟨10, _⟩ => ⟨S1024x20, .i32⟩
  | .hbm, ⟨11, _⟩ => ⟨S1024x20x1, .i32⟩
  | .hbm, ⟨12, _⟩ => ⟨S1, .i32⟩
  | .hbm, ⟨13, _⟩ => ⟨S_, .i32⟩
  | .hbm, ⟨14, _⟩ => ⟨S1024x20x1, .i32⟩
  | .hbm, ⟨15, _⟩ => ⟨S1024x20x1, .i1⟩
  | .hbm, ⟨16, _⟩ => ⟨S1x1x1, .i32⟩
  | .hbm, ⟨17, _⟩ => ⟨S1024x20x1, .i32⟩
  | .hbm, ⟨18, _⟩ => ⟨S1024x20x1, .i1⟩
  | .hbm, ⟨19, _⟩ => ⟨S1024x20x1, .i1⟩
  | .hbm, ⟨20, _⟩ => ⟨S_, .i1⟩
  | .hbm, ⟨21, _⟩ => ⟨S1024x20, .i1⟩
  | .hbm, ⟨22, _⟩ => ⟨S1024x20x64, .f32⟩
  | .hbm, ⟨23, _⟩ => ⟨S1024x20x64, .i1⟩
  | .hbm, ⟨24, _⟩ => ⟨S_, .f32⟩
  | .hbm, ⟨25, _⟩ => ⟨S1024x20x64, .f32⟩
  | .hbm, ⟨26, _⟩ => ⟨S1024x20x64, .f32⟩
  | .hbm, ⟨27, _⟩ => ⟨S_, .f32⟩
  | .hbm, ⟨28, _⟩ => ⟨S1024x64, .f32⟩
  | .hbm, ⟨29, _⟩ => ⟨S64x100000, .f32⟩
  | .hbm, ⟨30, _⟩ => ⟨S1024x100000, .f32⟩
  | .hbm, ⟨31, _⟩ => ⟨S1x100000, .f32⟩
  | .hbm, ⟨32, _⟩ => ⟨S1024x100000, .f32⟩
  | .hbm, ⟨33, _⟩ => ⟨S1024x100000, .f32⟩
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩

abbrev nD : Nat := 1
abbrev τ : Topo := Topo.v7x

variable {F : FTy → Type} [FloatOps F]

class Facts₀ : Prop where
  bcast_S_S1024x20 : S_.BroadcastsInDim S1024x20 (![] : Fin 0 → Fin S1024x20.rank)
  bcast_S1024x20_S1024x20x1_0_1 : S1024x20.BroadcastsInDim S1024x20x1 (![0, 1] : Fin 2 → Fin S1024x20x1.rank)
  bcast_S_S1024x20x1 : S_.BroadcastsInDim S1024x20x1 (![] : Fin 0 → Fin S1024x20x1.rank)
  bcast_S1_S1x1x1_2 : S1.BroadcastsInDim S1x1x1 (![2] : Fin 1 → Fin S1x1x1.rank)
  bcast_S1x1x1_S1024x20x1_0_1_2 : S1x1x1.BroadcastsInDim S1024x20x1 (![0, 1, 2] : Fin 3 → Fin S1024x20x1.rank)
  reducesTo_S1024x20x1_S1024x20_d2 : S1024x20x1.ReducesTo [2] S1024x20
  h_S_ : 0 < S_.numel
  bcast_S1024x20_S1024x20x64_0_1 : S1024x20.BroadcastsInDim S1024x20x64 (![0, 1] : Fin 2 → Fin S1024x20x64.rank)
  bcast_S_S1024x20x64 : S_.BroadcastsInDim S1024x20x64 (![] : Fin 0 → Fin S1024x20x64.rank)
  reducesTo_S1024x20x64_S1024x64_d1 : S1024x20x64.ReducesTo [1] S1024x64
  transposes_S100000x64_S64x100000_1_0 : S100000x64.Transposes [1, 0] S64x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  gather_S100000x64_S1024x20x1_S1024x20x64_2_0_n_n_0_2_164_wf : GatherDims.WF S100000x64 S1024x20x1 S1024x20x64 [2] [0] [] [0] [] 2 ![1, 64]
  dot_S1024x64_S64x100000_S1024x100000_1_0_0_1_n_n_wf : DotDims.WF S1024x64 S64x100000 S1024x100000 [1] [0] [0] [1] [] []

variable [Facts₀]

def gather_S100000x64_S1024x20x1_S1024x20x64_2_0_n_n_0_2_164 : GatherDims S100000x64 S1024x20x1 S1024x20x64 where
  offsetDims := [2]
  collapsedSliceDims := [0]
  operandBatchingDims := []
  startIndicesBatchingDims := []
  startIndexMap := [0]
  indexVectorDim := 2
  sliceSizes := ![1, 64]
  wf := gather_S100000x64_S1024x20x1_S1024x20x64_2_0_n_n_0_2_164_wf
def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf

class Facts : Prop extends Facts₀ where

variable [Facts]
-- ==== Proof.SetupI.lean ====
/-
  Shared vocabulary for the frame and value proofs of the idealized kernel: the program as a SparseCore launch
  (one vector-subcore call on two SparseCores × sixteen tiles, then one TensorCore pipeline), the ghost state
  (the launch handshakes' rounds, the pipeline's staging cells' rounds, the transfers' counters), and the
  arrays' locations.
-/
import proofs.«204094_g4578435138101_retrytranche1_754_22_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«204094_g4578435138101_retrytranche1_754_22_alg».proof.Proof.Gen.KernelIdeal
import proofs.«204094_g4578435138101_retrytranche1_754_22_alg».proof.Proof.Gen.KernelIdeal.Skeleton
import proofs.«204094_g4578435138101_retrytranche1_754_22_alg».proof.Proof.Gen.KernelIdeal.Launch
import proofs.«204094_g4578435138101_retrytranche1_754_22_alg».proof.Proof.Gen.KernelIdeal.Points

noncomputable section

namespace Cert.Proof.I

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP [FloatOps F] : Labels := Pipeline.Sig Λ₀ (Fin 1) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline cells' rounds, the transfers' counters -/

abbrev UH : Type := URounds (GSem nD τ sig) ℕ
abbrev UP : Type := URounds (GSem nD τ sig) Unit
abbrev UU : Type := (UH × UP) × Counters

def EH : Emb UH (MT nD τ sig (HIx 1) (Elt F) ℕ UU ℕ) :=
  ((Emb.inl : Emb UH (UH × UP)).trans (Emb.inl : Emb (UH × UP) UU)).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inr : Emb UP (UH × UP)).trans (Emb.inl : Emb (UH × UP) UU)).trans (uEmb (nD := nD) (sig := sig) (Ix := HIx 1) (Val := Elt F) (Name := ℕ) (U := UU) (Lvl := ℕ)).toEmb

instance EH_landsIn : (EH : Emb UH (MT nD τ sig (HIx 1) (Elt F) ℕ UU ℕ)).LandsIn (upEmb : UEmb _ (MT nD τ sig (HIx 1) (Elt F) ℕ UU ℕ)) := by unfold EH; infer_instance
instance EP_landsIn : (EP : Emb UP (MT nD τ sig (HIx 1) (Elt F) ℕ UU ℕ)).LandsIn (upEmb : UEmb _ (MT nD τ sig (HIx 1) (Elt F) ℕ UU ℕ)) := by unfold EP; infer_instance

example : CountersIn UU := inferInstance

end Cert.Proof.I

end
-- ==== Proof.RowsI.lean ====
/-
  What the SparseCore call's handshakes carry.  The call reads the transposed index array and the transposed
  table (every tile reads both whole: each gets a read share) and writes the 64 rows of the transposed
  embedding sums, two rows per tile: tile `s` of SparseCore `c` owns rows `4 s + 2 c` and `4 s + 2 c + 1`.
  The sixty-four rows tile the array, so the array whole is the separating conjunction of its rows, regrouped
  by SparseCore, tile and row-in-tile.
-/
import proofs.«204094_g4578435138101_retrytranche1_754_22_alg».proof.Proof.SetupI

noncomputable section

namespace Cert.Proof.I

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => MT nD τ sig (HIx 1) (Elt F) ℕ UU ℕ

/-! ## Locations -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5
abbrev v6Loc (d : Dev nD) : Loc nD τ sig := (SparseCore.T d).loc main_v6

/-! ## The rows of the transposed embedding sums -/

theorem hdiv64 : 64 ∣ S64x1024.size 0 := ⟨1, rfl⟩
abbrev row (r : Fin 64) : Rect S64x1024 := Rect.part (s := S64x1024) (a₀ := 0) hdiv64 r
abbrev rowSet (r : Fin 64) : Finset S64x1024.Idx := ((Memref.whole main_v2_scv : Memref sig .scVector .hbm S64x1024 .f32).view.slice (row r)).set

/-- The row tile `i` of SparseCore `c` writes on its `k`-th pass. -/
def rowIx (c : Fin 2) (i : Fin 16) (k : Fin 2) : Fin 64 := ⟨4 * i.val + 2 * c.val + k.val, by omega⟩

theorem rowSet_eq (r : Fin 64) : rowSet r = (row r).set := by
  show ((View.whole (main_v2_scv : Ref sig .scVector)).slice (row r)).set = _
  rw [View.set_slice]; exact Finset.map_refl

theorem rowIx_inj : ∀ t t' : Fin 2 × Fin 16 × Fin 2, t ≠ t' → rowIx t.1 t.2.1 t.2.2 ≠ rowIx t'.1 t'.2.1 t'.2.2 := by
  rintro ⟨c, i, k⟩ ⟨c', i', k'⟩ h e
  apply h
  have e' : 4 * i.val + 2 * c.val + k.val = 4 * i'.val + 2 * c'.val + k'.val := congrArg Fin.val e
  have hc := c.isLt; have hc' := c'.isLt; have hk := k.isLt; have hk' := k'.isLt
  have h1 : i.val = i'.val := by omega
  have h2 : c.val = c'.val := by omega
  have h3 : k.val = k'.val := by omega
  exact Prod.ext (Fin.ext h2) (Prod.ext (Fin.ext h1) (Fin.ext h3))

theorem rowIx_surj (r : Fin 64) : ∃ t : Fin 2 × Fin 16 × Fin 2, rowIx t.1 t.2.1 t.2.2 = r :=
  ⟨(⟨(r.val % 4) / 2, by omega⟩, ⟨r.val / 4, by omega⟩, ⟨r.val % 2, by omega⟩), Fin.ext (by show 4 * (r.val / 4) + 2 * ((r.val % 4) / 2) + r.val % 2 = r.val; omega)⟩

theorem rows_disjoint : ∀ t ∈ (Finset.univ : Finset (Fin 2 × Fin 16 × Fin 2)), ∀ t' ∈ (Finset.univ : Finset (Fin 2 × Fin 16 × Fin 2)), t ≠ t' →
    Disjoint (rowSet (rowIx t.1 t.2.1 t.2.2)) (rowSet (rowIx t'.1 t'.2.1 t'.2.2)) :=
  fun t _ t' _ h => by rw [rowSet_eq, rowSet_eq]; exact Rect.part_disjoint hdiv64 (rowIx_inj t t' h)

theorem rows_cover : (Finset.univ : Finset (Fin 2 × Fin 16 × Fin 2)).biUnion (fun t => rowSet (rowIx t.1 t.2.1 t.2.2)) = Finset.univ := by
  apply Finset.eq_univ_of_forall
  intro x
  have hx : x ∈ (Finset.univ : Finset (Fin 64)).biUnion fun r => (row r).set := by rw [Rect.biUnion_part hdiv64]; exact Finset.mem_univ x
  obtain ⟨r, -, hr⟩ := Finset.mem_biUnion.mp hx
  obtain ⟨t, ht⟩ := rowIx_surj r
  exact Finset.mem_biUnion.mpr ⟨t, Finset.mem_univ t, by rw [ht, rowSet_eq]; exact hr⟩

/-- The array whole is its sixty-four rows, grouped by SparseCore, tile and pass. -/
theorem v2_rows (d : Dev nD) (f : Buf (Elt F) (v2Loc d)) :
    (v2Loc d ↦{fullShare} f : sProp 𝕄)
      = bigSep Finset.univ fun c : Fin 2 => bigSep Finset.univ fun i : Fin 16 => bigSep Finset.univ fun k : Fin 2 =>
          v2Loc d ↦[rowSet (rowIx c i k)]{fullShare} f := by
  rw [show (v2Loc d ↦{fullShare} f : sProp 𝕄) = (v2Loc d ↦[(Finset.univ : Finset (Fin 2 × Fin 16 × Fin 2)).biUnion (fun t => rowSet (rowIx t.1 t.2.1 t.2.2))]{fullShare} f) from by rw [rows_cover],
    pointsTo_biUnion Finset.univ (ℓ := v2Loc d) (fun t : Fin 2 × Fin 16 × Fin 2 => rowSet (rowIx t.1 t.2.1 t.2.2)) rows_disjoint,
    bigSep_univ_prod]
  exact bigSep_congr fun c _ => bigSep_univ_prod _

end Cert.Proof.I

end
-- ==== Proof.PayI.lean ====
/-
  What the SparseCore call's handshakes carry: each SparseCore a read share of the transposed index array and of
  the transposed table and the thirty-two rows of the output its tiles write; each tile a read share of both inputs
  and its own two rows.  Before the call the rows hold whatever the output array held; after it, the one
  whole-array function `X` the tiles compute.
-/
import proofs.«204094_g4578435138101_retrytranche1_754_22_alg».proof.Proof.RowsI

noncomputable section

namespace Cert.Proof.I

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => MT nD τ sig (HIx 1) (Elt F) ℕ UU ℕ

variable (I : (d : Dev nD) → Buf (Elt F) (v0Loc d)) (Tb : (d : Dev nD) → Buf (Elt F) (v1Loc d))
  (O X : (d : Dev nD) → Buf (Elt F) (v2Loc d))

/-- SparseCore `c`'s read share of an input, and tile `i`'s share of that. -/
abbrev tok2 (c : Fin 2) : PosShare TreeShare := shareTok fullShare 2 c
abbrev tok16 (c : Fin 2) (i : Fin 16) : PosShare TreeShare := shareTok (tok2 c) 16 i

/-- A tile's two rows of the output, at `f`. -/
def rows2 (d : Dev nD) (c : Fin 2) (i : Fin 16) (f : Buf (Elt F) (v2Loc d)) : sProp 𝕄 :=
  iprop((v2Loc d ↦[rowSet (rowIx c i 0)]{fullShare} f) ∗ (v2Loc d ↦[rowSet (rowIx c i 1)]{fullShare} f))

/-- What SparseCore `c` is handed: its shares of the inputs and its tiles' rows at `f`. -/
def coreRes (d : Dev nD) (c : Fin 2) (f : Buf (Elt F) (v2Loc d)) : sProp 𝕄 :=
  iprop((v0Loc d ↦{tok2 c} I d) ∗ (v1Loc d ↦{tok2 c} Tb d) ∗ bigSep Finset.univ fun i : Fin 16 => rows2 d c i f)

/-- What tile `i` of SparseCore `c` is handed. -/
def tileRes (d : Dev nD) (c : Fin 2) (i : Fin 16) (f : Buf (Elt F) (v2Loc d)) : sProp 𝕄 :=
  iprop((v0Loc d ↦{tok16 c i} I d) ∗ (v1Loc d ↦{tok16 c i} Tb d) ∗ rows2 d c i f)

def P : (K (F := F)).Pay (nD := nD) (Val := Elt F) (Name := ℕ) (U := UU) where
  st := fun q d c => match q with | 0 => coreRes I Tb d (Fin.cast nCore_zero c) (O d)
  dn := fun q d c => match q with | 0 => coreRes I Tb d (Fin.cast nCore_zero c) (X d)
  go := fun q d c i => match q with | 0 => tileRes I Tb d (Fin.cast nCore_zero c) (Fin.cast nSub_zero i) (O d)
  td := fun q d c i => match q with | 0 => tileRes I Tb d (Fin.cast nCore_zero c) (Fin.cast nSub_zero i) (X d)
  x := fun _ _ => iprop(emp)

instance rows2_storable (d : Dev nD) (c : Fin 2) (i : Fin 16) (f : Buf (Elt F) (v2Loc d)) : BI.Storable (upEmb : UEmb _ 𝕄) (rows2 d c i f) := by
  unfold rows2; infer_instance
instance coreRes_storable (d : Dev nD) (c : Fin 2) (f : Buf (Elt F) (v2Loc d)) : BI.Storable (upEmb : UEmb _ 𝕄) (coreRes I Tb d c f) := by
  unfold coreRes; infer_instance
instance tileRes_storable (d : Dev nD) (c : Fin 2) (i : Fin 16) (f : Buf (Elt F) (v2Loc d)) : BI.Storable (upEmb : UEmb _ 𝕄) (tileRes I Tb d c i f) := by
  unfold tileRes; infer_instance

instance P_storable : (P I Tb O X).IsStorable where
  st q d c := match q with | 0 => (inferInstance : BI.Storable (upEmb : UEmb _ 𝕄) (coreRes I Tb d (Fin.cast nCore_zero c) (O d)))
  dn q d c := match q with | 0 => (inferInstance : BI.Storable (upEmb : UEmb _ 𝕄) (coreRes I Tb d (Fin.cast nCore_zero c) (X d)))
  go q d c i := match q with | 0 => (inferInstance : BI.Storable (upEmb : UEmb _ 𝕄) (tileRes I Tb d (Fin.cast nCore_zero c) (Fin.cast nSub_zero i) (O d)))
  td q d c i := match q with | 0 => (inferInstance : BI.Storable (upEmb : UEmb _ 𝕄) (tileRes I Tb d (Fin.cast nCore_zero c) (Fin.cast nSub_zero i) (X d)))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's holdings split into its tiles', and the tiles' results gather into its own. -/
theorem vecSplit : (K (F := F)).VecSplit' (P I Tb O X) 0 := by
  intro d c
  show coreRes I Tb d (Fin.cast nCore_zero c) (O d) ⊢ |={Set.univ}=> iprop(
      (bigSep Finset.univ fun i : Fin ((K (F := F)).nSub 0) => tileRes I Tb d (Fin.cast nCore_zero c) (Fin.cast nSub_zero i) (O d))
      ∗ ((bigSep Finset.univ fun i : Fin ((K (F := F)).nSub 0) => tileRes I Tb d (Fin.cast nCore_zero c) (Fin.cast nSub_zero i) (X d))
          -∗ coreRes I Tb d (Fin.cast nCore_zero c) (X d)))
  generalize (Fin.cast nCore_zero c) = c'
  rw [bigSep_tasks (F := F) (fun i => tileRes I Tb d c' i (O d)), bigSep_tasks (F := F) (fun i => tileRes I Tb d c' i (X d))]
  unfold coreRes tileRes
  rw [bigSep_sep', bigSep_sep', bigSep_sep', bigSep_sep']
  iintro ⟨H0, H1, Hr⟩
  ihave H0' := (pointsTo_toks_split (tok2 c') 16) $$ H0
  ihave H1' := (pointsTo_toks_split (tok2 c') 16) $$ H1
  icases H0' with ⟨H0d, H0t⟩
  icases H1' with ⟨H1d, H1t⟩
  imodintro
  isplitl [H0t H1t Hr]
  · isplitl [H0t]; · iexact H0t
    isplitl [H1t]; · iexact H1t
    iexact Hr
  iintro ⟨H0t, H1t, Hr⟩
  isplitl [H0d H0t]
  · iapply (pointsTo_toks_join (tok2 c') 16); isplitl [H0d] <;> iassumption
  isplitl [H1d H1t]
  · iapply (pointsTo_toks_join (tok2 c') 16); isplitl [H1d] <;> iassumption
  iexact Hr

end Cert.Proof.I

end
-- ==== Proof.TileIdeal.lean ====
/-
  The vector-subcore kernel's task, once, at a symbolic tile.

  The kernel runs on two SparseCores of sixteen vector subcores each; the subcore at core `c`, subcore `s` has the
  number `wid = 2·s + c` and computes rows `2·wid` and `2·wid + 1` of the result.  It first fetches the whole index
  array (twenty rows of 1024 words) into its index scratch.  Then, for each of its two rows `r`: it fetches row `r` of
  the transposed table (100000 entries) into its row scratch; in sixty-four trips, trip `k` loads for each of the
  twenty index rows `j` the sixteen words at columns `16k … 16k+15`, which must name entries of the row (they do:
  every word of the index array is below 100000), reads the row scratch at those sixteen words, adds the twenty
  vectors of sixteen from the left and stores the sum at columns `16k … 16k+15` of its result scratch; and it
  writes the result scratch out as row `r` of the result.  Each copy is waited for, on a semaphore of its own,
  before anything touches either of its ends, so no two accesses race.

  `XT I Tb` is the result as ONE function of the index array `I` and the transposed table `Tb`: entry `(r, b)` is
  the left-to-right sum over `j = 0 … 19` of `Tb (r, I (j, b))`, a word read modulo the row length so that the
  definition is total.  `tile_body`: holding read shares of the two input arrays whole, its two rows of the result,
  and its own scratch buffers and semaphores, the subcore's task terminates with the two rows at `XT I Tb` and
  everything else as it was.  The loop invariant carries the value: before trip `k` the result scratch holds the
  row's sums below column `16k`.  `set_oRow0` / `set_oRow1`: the two rows' element sets are rows
  `4·s + 2·c` and `4·s + 2·c + 1` of the cut of the result into its sixty-four rows.
-/
import proofs.«204094_g4578435138101_retrytranche1_754_22_alg».proof.Proof.Gen.KernelIdeal
import proofs.«204094_g4578435138101_retrytranche1_754_22_alg».proof.Proof.Gen.KernelIdeal.Skeleton
import Idealize.ShloMosaic.Lib.Pipeline.Value
import Idealize.ShloMosaic.Lib.Writes
import Idealize.ShloMosaic.Lib.SparseCore.Launch
import Idealize.ShloMosaic.Lib.SparseCore.Ops
import Idealize.ShloMosaic.Lib.Pipeline.Kit
import Idealize.ShloMosaic.Lib.ValueIdx
import Idealize.ShloMosaic.Lib.Tactic

noncomputable section

namespace Cert.Proof.TileI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {U : Type} [URA U] [CountersIn U]

local notation "𝕄" => MT nD τ sig (HIx 1) (Elt F) ℕ U ℕ

/-! ## The tile, its arrays and the value it leaves -/

/-- The program's SparseCore configuration and the (empty) variants, as the launch theorem names them. -/
abbrev K : SparseCore.Cfg τ sig (Pipeline.Sig Λ₀ (Fin 1) fun p => (pcfgs (F := F) p).Adm) 1 := sc (F := F)
abbrev 𝒱₀ : Variants := Variants.none

/-- The vector subcore at grid point `L` of device `d`. -/
abbrev thr (d : Dev nD) (L : grid0.Coords) : Thread nD τ := V d ((L 0).castLE hcore0) ((L 1).castLE hsub0)

-- the kernel's memrefs, spelt as the body table passes them
local notation "idxW" => (Memref.whole Cert.KernelIdeal.main_v0_scv : Memref Cert.KernelIdeal.sig Kind.scVector Space.hbm Cert.KernelIdeal.S20x1024 EltTy.i32)
local notation "tabW" => (Memref.whole Cert.KernelIdeal.main_v1_scv : Memref Cert.KernelIdeal.sig Kind.scVector Space.hbm Cert.KernelIdeal.S64x100000 EltTy.f32)
local notation "outW" => (Memref.whole Cert.KernelIdeal.main_v2_scv : Memref Cert.KernelIdeal.sig Kind.scVector Space.hbm Cert.KernelIdeal.S64x1024 EltTy.f32)
local notation "sIdx" => (Memref.whole Cert.KernelIdeal.cc0_scratch0 : Memref Cert.KernelIdeal.sig Kind.scVector Space.vmem Cert.KernelIdeal.S20x1024 EltTy.i32)
local notation "sRow" => (Memref.whole Cert.KernelIdeal.cc0_scratch1 : Memref Cert.KernelIdeal.sig Kind.scVector Space.vmem Cert.KernelIdeal.S100000 EltTy.f32)
local notation "sOut" => (Memref.whole Cert.KernelIdeal.cc0_scratch2 : Memref Cert.KernelIdeal.sig Kind.scVector Space.vmem Cert.KernelIdeal.S1024 EltTy.f32)

/-- Row `2·wid` of the result, as the kernel slices it for its first write-out (`wid = 2·s + c`). -/
abbrev oRow0 (L : grid0.Coords) : Memref sig .scVector .hbm S1024 .f32 :=
  ((outW).slice (Rect.unit (s := S64x1024) (k0_off23 L 0#32) S1x1024.size (k0_off23_inb L 0)) (fun _ => rfl)).squeeze S1024 squeezes_S1x1024_S1024
/-- Row `2·wid + 1` of the result, as the kernel slices it for its second write-out. -/
abbrev oRow1 (L : grid0.Coords) : Memref sig .scVector .hbm S1024 .f32 :=
  ((outW).slice (Rect.unit (s := S64x1024) (k0_off23 L 1#32) S1x1024.size (k0_off23_inb L 1)) (fun _ => rfl)).squeeze S1024 squeezes_S1x1024_S1024
/-- Row `2·wid` of the transposed table, as the kernel slices it for its first fetch. -/
abbrev tRow0 (L : grid0.Coords) : Memref sig .scVector .hbm S100000 .f32 :=
  ((tabW).slice (Rect.unit (s := S64x100000) (k0_off1 L 0#32) S1x100000.size (k0_off1_inb L 0)) (fun _ => rfl)).squeeze S100000 squeezes_S1x100000_S100000
/-- Row `2·wid + 1` of the transposed table, as the kernel slices it for its second fetch. -/
abbrev tRow1 (L : grid0.Coords) : Memref sig .scVector .hbm S100000 .f32 :=
  ((tabW).slice (Rect.unit (s := S64x100000) (k0_off1 L 1#32) S1x100000.size (k0_off1_inb L 1)) (fun _ => rfl)).squeeze S100000 squeezes_S1x100000_S100000

/-- The table entry context word `j` of batch column `b` names in table row `r`: the word's 32 bits as a natural
    number, reduced modulo the row's length so that the definition is total. -/
def gat (I : IVec S20x1024 32) (Tb : FVec F S64x100000 .f32) (r : Fin 64) (b : Fin 1024) (j : Fin 20) : F .f32 :=
  Tb (ix2 r ⟨(I (ix2 j b)).toNat % 100000, Nat.mod_lt _ (by norm_num)⟩)

/-- The twenty entries added up from the left, as the kernel adds them. -/
def chain20 (g : Fin 20 → F .f32) : F .f32 :=
  FloatOps.addf (FloatOps.addf (FloatOps.addf (FloatOps.addf (FloatOps.addf (FloatOps.addf (FloatOps.addf (FloatOps.addf (FloatOps.addf (FloatOps.addf
  (FloatOps.addf (FloatOps.addf (FloatOps.addf (FloatOps.addf (FloatOps.addf (FloatOps.addf (FloatOps.addf (FloatOps.addf (FloatOps.addf
    (g 0) (g 1)) (g 2)) (g 3)) (g 4)) (g 5)) (g 6)) (g 7)) (g 8)) (g 9)) (g 10)) (g 11)) (g 12)) (g 13)) (g 14)) (g 15)) (g 16)) (g 17)) (g 18)) (g 19)

/-- The kernel's result as ONE function of the index array and the transposed table: entry `(r, b)` is the
    left-to-right sum over the twenty context words of batch column `b` of the entries they name in table row `r`. -/
def XT (I : IVec S20x1024 32) (Tb : FVec F S64x100000 .f32) : FVec F S64x1024 .f32 :=
  fun i => chain20 (gat I Tb (i 0) (i 1))

/-! ## The two output rows are rows of the result -/

theorem hdiv64 : 64 ∣ S64x1024.size 0 := ⟨1, rfl⟩

theorem rowIx_lt (L : grid0.Coords) (r : Fin 2) : 4 * (L 1).val + 2 * (L 0).val + r.val < 64 := by
  have h0 : (L 0).val < 2 := (L 0).isLt
  have h1 : (L 1).val < 16 := (L 1).isLt
  have h2 := r.isLt
  omega

/-- The row of the result the tile at `L` writes on its pass `r`: `2·wid + r`, `wid = 2·s + c`. -/
abbrev rowIx (L : grid0.Coords) (r : Fin 2) : Fin 64 := ⟨4 * (L 1).val + 2 * (L 0).val + r.val, rowIx_lt L r⟩

/-- The rectangle the kernel slices for its write-out on pass `r` is row `rowIx L r` of the cut of the result into its
    sixty-four rows. -/
theorem rect_oRow (L : grid0.Coords) (r : Fin 2) :
    Rect.unit (s := S64x1024) (k0_off23 L (BitVec.ofNat 32 r.val)) S1x1024.size (k0_off23_inb L r)
      = Rect.part (s := S64x1024) (a₀ := 0) hdiv64 (rowIx L r) := by
  unfold Rect.part Rect.block
  congr 1 <;> funext a
  · rw [k0_off23_eq]
    match a with
    | 0 => simp [Shape.partIx, Shape.partSize]
    | 1 => simp [Shape.partIx, Shape.partSize]
  · match a with
    | 0 => simp [Shape.partSize]
    | 1 => simp [Shape.partSize]

theorem set_oRow0 (L : grid0.Coords) :
    (oRow0 L).view.set = ((outW).view.slice (Rect.part (s := S64x1024) (a₀ := 0) hdiv64 (rowIx L 0))).set := by
  show (((outW).view.slice (Rect.unit (s := S64x1024) (k0_off23 L 0#32) S1x1024.size (k0_off23_inb L 0))).reshape S1024
    squeezes_S1x1024_S1024.numel_eq).set = _
  rw [View.set_reshape]
  exact rect_oRow L 0 ▸ rfl

theorem set_oRow1 (L : grid0.Coords) :
    (oRow1 L).view.set = ((outW).view.slice (Rect.part (s := S64x1024) (a₀ := 0) hdiv64 (rowIx L 1))).set := by
  show (((outW).view.slice (Rect.unit (s := S64x1024) (k0_off23 L 1#32) S1x1024.size (k0_off23_inb L 1))).reshape S1024
    squeezes_S1x1024_S1024.numel_eq).set = _
  rw [View.set_reshape]
  exact rect_oRow L 1 ▸ rfl

/-- Sixteen words read from the index scratch at any rectangle are words of `I`, hence in range of a table row. -/
theorem chk_read (I : IVec S20x1024 32) (hI : ∀ i, (I i).toNat < 100000) (off : Fin 2 → Nat)
    (inb : ∀ a, off a + (![1, 16] : Fin 2 → Nat) a ≤ S20x1024.size a) :
    ∀ a x, ((![shapeCast S16 (View.readAt (Elt F) (sIdx).view (Rect.unit (s := S20x1024) off ![1, 16] inb).toLoadRect I) shapeCasts_S1x16_S16]
      : Fin 1 → IVec S16 32) a x).toNat < S100000.size a := by
  intro a x
  obtain rfl : a = 0 := Subsingleton.elim _ _
  show (shapeCast S16 (View.readAt (Elt F) (sIdx).view (Rect.unit (s := S20x1024) off ![1, 16] inb).toLoadRect I) shapeCasts_S1x16_S16 x).toNat < 100000
  unfold shapeCast
  rw [View.readAt_apply]
  exact hI _

/-! ## Reading what a trip loads and stores -/

/-- Lane `c` of a one-row block of sixteen and lane `c` of a vector of sixteen sit at the same row-major position. -/
theorem rm16 : ∀ c : Fin 16, ((S1x16).rowMajor (ix2 (0 : Fin 1) c)).val = ((S16).rowMajor (ix1 c)).val := by decide

/-- Sixteen words loaded from the index scratch at row `j`, columns `c …`: lane `x` is the array's word at `(j, c + x)`. -/
theorem lane_idx (I : IVec S20x1024 32) (off : Fin 2 → Nat) (inb : ∀ a, off a + (![1, 16] : Fin 2 → Nat) a ≤ S20x1024.size a)
    (j : Fin 20) (c : Nat) (hoff : off = ![j.val, c]) (x : Fin 16) (hc : c + x.val < 1024) :
    shapeCast S16 (View.readAt (Elt F) (sIdx).view (Rect.unit (s := S20x1024) off ![1, 16] inb).toLoadRect I) shapeCasts_S1x16_S16 (ix1 x)
      = I (ix2 j ⟨c + x.val, hc⟩) := by
  subst hoff
  rw [shapeCast_apply _ _ (ix1 x) (ix2 (0 : Fin 1) x) (rm16 x), View.readAt_apply]
  show I _ = I _
  congr 1
  funext a
  match a with
  | ⟨0, _⟩ => exact Fin.ext (by simp [LoadRect.idx_apply])
  | ⟨1, _⟩ => exact Fin.ext (by simp [LoadRect.idx_apply])

/-- The entry an indexed load of the row scratch reads at lane `x`, the index words those loaded from row `j` of the
    index scratch: the row's entry the word at `(j, c + x)` names. -/
theorem gather_lane (I : IVec S20x1024 32) (hI : ∀ i, (I i).toNat < 100000) (fR : FVec F S100000 .f32) (off : Fin 2 → Nat)
    (inb : ∀ a, off a + (![1, 16] : Fin 2 → Nat) a ≤ S20x1024.size a) (h)
    (j : Fin 20) (c : Nat) (hoff : off = ![j.val, c]) (x : Fin 16) (hc : c + x.val < 1024) :
    loadIdx (View.readAt (Elt F) (sRow).view (LoadRect.whole S100000) fR)
        ![shapeCast S16 (View.readAt (Elt F) (sIdx).view (Rect.unit (s := S20x1024) off ![1, 16] inb).toLoadRect I) shapeCasts_S1x16_S16] h (ix1 x)
      = fR (ix1 ⟨(I (ix2 j ⟨c + x.val, hc⟩)).toNat % 100000, Nat.mod_lt _ (by norm_num)⟩) := by
  unfold loadIdx
  rw [View.readAt_apply]
  show fR _ = fR _
  congr 1
  funext (a : Fin 1)
  obtain rfl : a = 0 := Subsingleton.elim _ _
  apply Fin.ext
  have e := lane_idx (F := F) I off inb j c hoff x hc
  simp only [LoadRect.idx_apply]
  show _ = (I (ix2 j ⟨c + x.val, hc⟩)).toNat % 100000
  rw [Nat.mod_eq_of_lt (hI _), ← e]
  show (0 : Nat) + 1 * _ = _
  rw [Nat.zero_add, Nat.one_mul]
  rfl

/-- Entry `b` of the row a tile is summing, from the row `fR` held in its scratch: the left-to-right sum of the row's
    entries that the twenty context words of batch column `b` name. -/
def rowVal (I : IVec S20x1024 32) (fR : FVec F S100000 .f32) (b : Fin 1024) : F .f32 :=
  chain20 fun j => fR (ix1 ⟨(I (ix2 j b)).toNat % 100000, Nat.mod_lt _ (by norm_num)⟩)

/-- The result scratch is finished below column `n`. -/
def Done (I : IVec S20x1024 32) (fR : FVec F S100000 .f32) (n : Nat) (g : FVec F S1024 .f32) : Prop :=
  ∀ b : Fin 1024, b.val < n → g (ix1 b) = rowVal I fR b

/-- A trip's store of sixteen finished entries at columns `c …` extends the finished part by sixteen. -/
theorem done_step (I : IVec S20x1024 32) (fR : FVec F S100000 .f32) (g : FVec F S1024 .f32) (off : Fin 1 → Nat)
    (inb : ∀ a, off a + (![16] : Fin 1 → Nat) a ≤ S1024.size a) (w : S16.Idx → F .f32) (c n' : Nat) (hoff : off = ![c]) (hc : c + 16 ≤ 1024)
    (hn : n' = c + 16) (hg : Done I fR c g) (hw : ∀ x : Fin 16, w (ix1 x) = rowVal I fR ⟨c + x.val, by omega⟩) :
    Done I fR n' ((sOut).view.writes (Elt F) g [⟨Rect.unit (s := S1024) off ![16] inb, w⟩]) := by
  subst hoff hn
  intro b hb
  by_cases hlt : b.val < c
  · have h1 := View.read_writes_apply_of_forall_not_mem (Val := Elt F) (sOut).view g (ix1 b) [⟨Rect.unit (s := S1024) ![c] ![16] inb, w⟩] (by
      intro p hp
      rw [List.mem_singleton] at hp
      subst hp
      rw [Rect.mem_set_unit]
      intro h
      have h0 : c ≤ b.val := (h 0).1
      omega)
    exact h1.trans (hg b hlt)
  · have hx : b.val - c < 16 := by omega
    have e : (ix1 b : S1024.Idx) = (Rect.unit (s := S1024) ![c] ![16] inb).emb (ix1 ⟨b.val - c, hx⟩) := by
      funext (a : Fin 1)
      obtain rfl : a = 0 := Subsingleton.elim _ _
      apply Fin.ext
      show b.val = c + 1 * (b.val - c)
      omega
    have h2 := View.read_writes_cons_emb (Val := Elt F) (sOut).view g (Rect.unit (s := S1024) ![c] ![16] inb) w [] (ix1 ⟨b.val - c, hx⟩)
    rw [← e] at h2
    refine h2.trans ((hw _).trans ?_)
    congr 1
    apply Fin.ext
    show c + (b.val - c) = b.val
    omega

/-! ## The fetched row and the written row, by coordinates -/

/-- A vector of `n` entries seen as a one-row block: entry `v` sits at `(0, v)`. -/
theorem reshape_row {n : Nat} (h : (⟨1, ![n]⟩ : Shape).numel = (⟨2, ![1, n]⟩ : Shape).numel) (v : Fin n) :
    Shape.reshapeEquiv (s' := ⟨1, ![n]⟩) (s := ⟨2, ![1, n]⟩) h (ix1 v) = ix2 (0 : Fin 1) v :=
  Shape.reshapeEquiv_eq_of_rowMajor h (by
    rw [Shape.rowMajor_val_two, Shape.rowMajor_val_one]
    show (0 : Nat) * n + v.val = v.val
    omega)

/-- Where entry `v` of the table row fetched on pass `r` lies in the transposed table: row `rowIx L r`, column `v`. -/
theorem tRow_emb (L : grid0.Coords) (r : Fin 2) (v : Fin 100000) :
    (Rect.unit (s := S64x100000) (k0_off1 L (BitVec.ofNat 32 r.val)) S1x100000.size (k0_off1_inb L r)).emb
        (Shape.reshapeEquiv (s' := S100000) (s := S1x100000) squeezes_S1x100000_S100000.numel_eq (ix1 v))
      = ix2 (rowIx L r) v := by
  rw [reshape_row]
  funext a
  match a with
  | ⟨0, h0⟩ => exact Fin.ext (by
      have e : k0_off1 L (BitVec.ofNat 32 r.val) ⟨0, h0⟩ = 4 * (L 1).val + 2 * (L 0).val + r.val := congrFun (k0_off1_eq L r) ⟨0, h0⟩
      show k0_off1 L (BitVec.ofNat 32 r.val) ⟨0, h0⟩ + 1 * 0 = 4 * (L 1).val + 2 * (L 0).val + r.val
      omega)
  | ⟨1, h1⟩ => exact Fin.ext (by
      have e : k0_off1 L (BitVec.ofNat 32 r.val) ⟨1, h1⟩ = 0 := congrFun (k0_off1_eq L r) ⟨1, h1⟩
      show k0_off1 L (BitVec.ofNat 32 r.val) ⟨1, h1⟩ + 1 * v.val = v.val
      omega)

/-- Where column `b` of the row written out on pass `r` lies in the result: row `rowIx L r`, column `b`. -/
theorem oRow_emb (L : grid0.Coords) (r : Fin 2) (b : Fin 1024) :
    (Rect.unit (s := S64x1024) (k0_off23 L (BitVec.ofNat 32 r.val)) S1x1024.size (k0_off23_inb L r)).emb
        (Shape.reshapeEquiv (s' := S1024) (s := S1x1024) squeezes_S1x1024_S1024.numel_eq (ix1 b))
      = ix2 (rowIx L r) b := by
  rw [reshape_row]
  funext a
  match a with
  | ⟨0, h0⟩ => exact Fin.ext (by
      have e : k0_off23 L (BitVec.ofNat 32 r.val) ⟨0, h0⟩ = 4 * (L 1).val + 2 * (L 0).val + r.val := congrFun (k0_off23_eq L r) ⟨0, h0⟩
      show k0_off23 L (BitVec.ofNat 32 r.val) ⟨0, h0⟩ + 1 * 0 = 4 * (L 1).val + 2 * (L 0).val + r.val
      omega)
  | ⟨1, h1⟩ => exact Fin.ext (by
      have e : k0_off23 L (BitVec.ofNat 32 r.val) ⟨1, h1⟩ = 0 := congrFun (k0_off23_eq L r) ⟨1, h1⟩
      show k0_off23 L (BitVec.ofNat 32 r.val) ⟨1, h1⟩ + 1 * b.val = b.val
      omega)

/-- The table row fetched on the first pass, read at entry `v`. -/
theorem tRow0_read (L : grid0.Coords) (Tb : FVec F S64x100000 .f32) (v : Fin 100000) :
    (tRow0 L).view.read (Elt F) Tb (ix1 v) = Tb (ix2 (rowIx L 0) v) :=
  ((View.read_apply (v := (tRow0 L).view) (Val := Elt F) Tb (ix1 v)).trans (cast_eq _ _)).trans (congrArg Tb (tRow_emb L 0 v))
/-- The table row fetched on the second pass, read at entry `v`. -/
theorem tRow1_read (L : grid0.Coords) (Tb : FVec F S64x100000 .f32) (v : Fin 100000) :
    (tRow1 L).view.read (Elt F) Tb (ix1 v) = Tb (ix2 (rowIx L 1) v) :=
  ((View.read_apply (v := (tRow1 L).view) (Val := Elt F) Tb (ix1 v)).trans (cast_eq _ _)).trans (congrArg Tb (tRow_emb L 1 v))

/-- A finished result scratch, for the table row `rowIx L r`, is that row of `XT`. -/
theorem done_XT (L : grid0.Coords) (r : Fin 2) (I : IVec S20x1024 32) (Tb : FVec F S64x100000 .f32) (fR : FVec F S100000 .f32)
    (hfR : ∀ v : Fin 100000, fR (ix1 v) = Tb (ix2 (rowIx L r) v)) (b : Fin 1024) :
    rowVal I fR b = XT I Tb (ix2 (rowIx L r) b) := by
  unfold rowVal XT gat
  simp only [hfR]

/-- The output row of pass `r`, spelt over the pass number. -/
abbrev oRowR (L : grid0.Coords) (r : Fin 2) : Memref sig .scVector .hbm S1024 .f32 :=
  ((outW).slice (Rect.unit (s := S64x1024) (k0_off23 L (BitVec.ofNat 32 r.val)) S1x1024.size (k0_off23_inb L r)) (fun _ => rfl)).squeeze S1024
    squeezes_S1x1024_S1024

theorem trips1 : Scf.trips k0_t1_loop.lb k0_t1_loop.ub k0_t1_loop.st = 64 := by decide
theorem trips2 : Scf.trips k0_t2_loop.lb k0_t2_loop.ub k0_t2_loop.st = 64 := by decide

/-- A finished result scratch written out whole over the output row of pass `r`: on that row's elements the result holds
    `XT`, whatever it held before. -/
theorem oRow_final (L : grid0.Coords) (r : Fin 2) (I : IVec S20x1024 32) (Tb : FVec F S64x100000 .f32) (fR : FVec F S100000 .f32)
    (hfR : ∀ v : Fin 100000, fR (ix1 v) = Tb (ix2 (rowIx L r) v)) (g : FVec F S1024 .f32) (n : Nat) (hn : n = 1024) (hg : Done I fR n g)
    (junk : (oRowR L r).view.ty.Contents (Elt F)) :
    ∀ i ∈ (oRowR L r).view.set, (oRowR L r).view.writes (Elt F) junk [⟨Rect.whole S1024, g⟩] i = XT I Tb i := by
  subst hn
  intro i hi
  obtain ⟨x, -, rfl⟩ := Finset.mem_map.mp hi
  obtain ⟨b, rfl⟩ : ∃ b, x = ix1 b := ⟨x 0, eq_ix1 x⟩
  have hwx : (Rect.whole S1024).emb (ix1 b) = ix1 b := by
    funext (a : Fin 1)
    obtain rfl : a = 0 := Subsingleton.elim _ _
    apply Fin.ext
    show 0 + 1 * b.val = b.val
    omega
  have h1 := View.read_writes_cons_emb (Val := Elt F) (oRowR L r).view junk (Rect.whole S1024) g [] (ix1 b)
  rw [hwx, View.read_apply, cast_eq] at h1
  rw [h1, hg b b.isLt, done_XT L r I Tb fR hfR b]
  congr 1
  exact (oRow_emb L r b).symm

/-! ## A row's loop -/

/-- Before trip `k` of a row's loop: the index scratch holds the index array, the row scratch the table row `fR`, and the
    result scratch is finished below column `16k`. -/
def inv1 (L : grid0.Coords) (d : Dev nD) (I : IVec S20x1024 32) (fR : FVec F S100000 .f32) (k : Nat) (_ : Unit) : sProp 𝕄 :=
  iprop(((sIdx).view.loc (thr d L) ↦{fullShare} I) ∗ ((sRow).view.loc (thr d L) ↦{fullShare} fR)
    ∗ ∃ g : FVec F S1024 .f32, ((sOut).view.loc (thr d L) ↦{fullShare} g) ∗ ⌜Done I fR (16 * k) g⌝)

theorem inv1_eq (L : grid0.Coords) (d : Dev nD) (I : IVec S20x1024 32) (fR : FVec F S100000 .f32) (k : Nat) (a : Unit) :
    inv1 (U := U) L d I fR k a
      = iprop(((sIdx).view.loc (thr d L) ↦{fullShare} I) ∗ ((sRow).view.loc (thr d L) ↦{fullShare} fR)
          ∗ ∃ g : FVec F S1024 .f32, ((sOut).view.loc (thr d L) ↦{fullShare} g) ∗ ⌜Done I fR (16 * k) g⌝) := rfl

/-- Trip `k` of the first row's loop: the twenty groups of sixteen index words loaded, each passing its range check, the
    twenty indexed loads of the row scratch added up from the left and stored at columns `16k …` of the result
    scratch — which is then finished below column `16(k+1)`. -/
theorem trip1 (L : grid0.Coords) (d : Dev nD) (I : IVec S20x1024 32) (fR : FVec F S100000 .f32) (hI : ∀ i, (I i).toNat < 100000)
    (k : Fin k0_t1_loop.trips) (a : Unit) :
    inv1 (U := U) L d I fR k.val a
      ⊢ wp frame (wpE (defs₀ (F := F)) 𝒱₀ (thr d L) none) Set.univ
          (k0_t1_body L idxW (Memref.isWhole_whole _) tabW (Memref.isWhole_whole _) outW (Memref.isWhole_whole _)
            sIdx (Memref.isWhole_whole _) sRow (Memref.isWhole_whole _) sOut (Memref.isWhole_whole _)
            cc0_scratch3 cc0_scoped0 cc0_scoped1 cc0_scoped2 cc0_scoped3 cc0_scoped4 k a)
          (inv1 (U := U) L d I fR (k.val + 1)) := by
  have hk : k.val < 64 := lt_of_lt_of_le k.isLt k0_t1_abs.2.1
  unfold k0_t1_body
  simp only [k0_part1_eq_skeleton, k0_part2_eq_skeleton]
  unfold k0_part1_skel k0_part2_skel
  simp only [SparseCore.vectorLoadIdx_bind (thr d L)]
  rw [inv1_eq]
  iintro ⟨HI, HR, %g, HO, %hg⟩
  sl_exec (disch := exact chk_read I hI _ _)
  sl_step
  rw [inv1_eq]
  isplitl [HI]; · iexact HI
  isplitl [HR]; · iexact HR
  iexists _
  isplitl [HO]; · iexact HO
  ipureintro
  refine done_step I fR g (k0_off22 k) (k0_off22_inb k) _ (16 * k.val) _ (k0_off22_eq k) (by omega) (by omega) hg ?_
  intro x
  unfold rowVal chain20
  simp only [k0_pay6, k0_pay3, k0_pay2, Idealize.ShloMosaic.addf]
  rw [gather_lane I hI fR _ _ _ 0 _ (k0_off2_eq k) x (by omega),
    gather_lane I hI fR _ _ _ 1 _ (k0_off3_eq k) x (by omega),
    gather_lane I hI fR _ _ _ 2 _ (k0_off4_eq k) x (by omega),
    gather_lane I hI fR _ _ _ 3 _ (k0_off5_eq k) x (by omega),
    gather_lane I hI fR _ _ _ 4 _ (k0_off6_eq k) x (by omega),
    gather_lane I hI fR _ _ _ 5 _ (k0_off7_eq k) x (by omega),
    gather_lane I hI fR _ _ _ 6 _ (k0_off8_eq k) x (by omega),
    gather_lane I hI fR _ _ _ 7 _ (k0_off9_eq k) x (by omega),
    gather_lane I hI fR _ _ _ 8 _ (k0_off10_eq k) x (by omega),
    gather_lane I hI fR _ _ _ 9 _ (k0_off11_eq k) x (by omega),
    gather_lane I hI fR _ _ _ 10 _ (k0_off12_eq k) x (by omega),
    gather_lane I hI fR _ _ _ 11 _ (k0_off13_eq k) x (by omega),
    gather_lane I hI fR _ _ _ 12 _ (k0_off14_eq k) x (by omega),
    gather_lane I hI fR _ _ _ 13 _ (k0_off15_eq k) x (by omega),
    gather_lane I hI fR _ _ _ 14 _ (k0_off16_eq k) x (by omega),
    gather_lane I hI fR _ _ _ 15 _ (k0_off17_eq k) x (by omega),
    gather_lane I hI fR _ _ _ 16 _ (k0_off18_eq k) x (by omega),
    gather_lane I hI fR _ _ _ 17 _ (k0_off19_eq k) x (by omega),
    gather_lane I hI fR _ _ _ 18 _ (k0_off20_eq k) x (by omega),
    gather_lane I hI fR _ _ _ 19 _ (k0_off21_eq k) x (by omega)]

/-- Trip `k` of the second row's loop: the twenty groups of sixteen index words loaded, each passing its range check, the
    twenty indexed loads of the row scratch added up from the left and stored at columns `16k …` of the result
    scratch — which is then finished below column `16(k+1)`. -/
theorem trip2 (L : grid0.Coords) (d : Dev nD) (I : IVec S20x1024 32) (fR : FVec F S100000 .f32) (hI : ∀ i, (I i).toNat < 100000)
    (k : Fin k0_t2_loop.trips) (a : Unit) :
    inv1 (U := U) L d I fR k.val a
      ⊢ wp frame (wpE (defs₀ (F := F)) 𝒱₀ (thr d L) none) Set.univ
          (k0_t2_body L idxW (Memref.isWhole_whole _) tabW (Memref.isWhole_whole _) outW (Memref.isWhole_whole _)
            sIdx (Memref.isWhole_whole _) sRow (Memref.isWhole_whole _) sOut (Memref.isWhole_whole _)
            cc0_scratch3 cc0_scoped0 cc0_scoped1 cc0_scoped2 cc0_scoped3 cc0_scoped4 k a)
          (inv1 (U := U) L d I fR (k.val + 1)) := by
  have hk : k.val < 64 := lt_of_lt_of_le k.isLt k0_t2_abs.2.1
  unfold k0_t2_body
  simp only [k0_part3_eq_skeleton, k0_part4_eq_skeleton]
  unfold k0_part3_skel k0_part4_skel
  simp only [SparseCore.vectorLoadIdx_bind (thr d L)]
  rw [inv1_eq]
  iintro ⟨HI, HR, %g, HO, %hg⟩
  sl_exec (disch := exact chk_read I hI _ _)
  sl_step
  rw [inv1_eq]
  isplitl [HI]; · iexact HI
  isplitl [HR]; · iexact HR
  iexists _
  isplitl [HO]; · iexact HO
  ipureintro
  refine done_step I fR g (k0_off44 k) (k0_off44_inb k) _ (16 * k.val) _ (k0_off44_eq k) (by omega) (by omega) hg ?_
  intro x
  unfold rowVal chain20
  simp only [k0_pay1, k0_pay5, k0_pay4, Idealize.ShloMosaic.addf]
  rw [gather_lane I hI fR _ _ _ 0 _ (k0_off24_eq k) x (by omega),
    gather_lane I hI fR _ _ _ 1 _ (k0_off25_eq k) x (by omega),
    gather_lane I hI fR _ _ _ 2 _ (k0_off26_eq k) x (by omega),
    gather_lane I hI fR _ _ _ 3 _ (k0_off27_eq k) x (by omega),
    gather_lane I hI fR _ _ _ 4 _ (k0_off28_eq k) x (by omega),
    gather_lane I hI fR _ _ _ 5 _ (k0_off29_eq k) x (by omega),
    gather_lane I hI fR _ _ _ 6 _ (k0_off30_eq k) x (by omega),
    gather_lane I hI fR _ _ _ 7 _ (k0_off31_eq k) x (by omega),
    gather_lane I hI fR _ _ _ 8 _ (k0_off32_eq k) x (by omega),
    gather_lane I hI fR _ _ _ 9 _ (k0_off33_eq k) x (by omega),
    gather_lane I hI fR _ _ _ 10 _ (k0_off34_eq k) x (by omega),
    gather_lane I hI fR _ _ _ 11 _ (k0_off35_eq k) x (by omega),
    gather_lane I hI fR _ _ _ 12 _ (k0_off36_eq k) x (by omega),
    gather_lane I hI fR _ _ _ 13 _ (k0_off37_eq k) x (by omega),
    gather_lane I hI fR _ _ _ 14 _ (k0_off38_eq k) x (by omega),
    gather_lane I hI fR _ _ _ 15 _ (k0_off39_eq k) x (by omega),
    gather_lane I hI fR _ _ _ 16 _ (k0_off40_eq k) x (by omega),
    gather_lane I hI fR _ _ _ 17 _ (k0_off41_eq k) x (by omega),
    gather_lane I hI fR _ _ _ 18 _ (k0_off42_eq k) x (by omega),
    gather_lane I hI fR _ _ _ 19 _ (k0_off43_eq k) x (by omega)]

/-! ## The subcore's own semaphores and buffers -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The subcore's counter for one of its DMA semaphores. -/
abbrev cell (d : Dev nD) (L : grid0.Coords) (sm : DmaSems sig S_) : GSem nD τ sig := (thr d L, .dma sm.sem)

omit [FloatOps F] [CountersIn U] in
/-- The five semaphores of the kernel's five copies are among the subcore's own: they are them, and the rest. -/
theorem ownSems0_V (d : Dev nD) (L : grid0.Coords) :
    (ownSems0 (thr d L) : sProp 𝕄)
      = iprop(semVal (cell d L cc0_scoped0) 0 ∗ semVal (cell d L cc0_scoped1) 0 ∗ semVal (cell d L cc0_scoped2) 0
          ∗ semVal (cell d L cc0_scoped3) 0 ∗ semVal (cell d L cc0_scoped4) 0
          ∗ bigSep ((((((ownCells (thr d L)).erase (cell d L cc0_scoped0)).erase (cell d L cc0_scoped1)).erase (cell d L cc0_scoped2)).erase
              (cell d L cc0_scoped3)).erase (cell d L cc0_scoped4)) fun g => semVal g 0) := by
  have hm : ∀ sm : DmaSems sig S_, (SemLoc.dma sm.sem : SemLoc sig).isScoped .scVector = true → cell d L sm ∈ ownCells (thr d L) :=
    fun sm h => mem_ownCells.mpr ⟨rfl, h⟩
  have hne : ∀ a b : DmaSems sig S_, (SemLoc.dma a.sem : SemLoc sig) ≠ .dma b.sem → cell d L a ≠ cell d L b :=
    fun a b h e => h (congrArg Prod.snd e)
  unfold SparseCore.Cfg.ownSems0
  rw [SparseCore.bigSep_erase' (hm cc0_scoped0 (by decide)),
    SparseCore.bigSep_erase' (Finset.mem_erase.mpr ⟨hne cc0_scoped1 cc0_scoped0 (by decide), hm cc0_scoped1 (by decide)⟩),
    SparseCore.bigSep_erase' (Finset.mem_erase.mpr ⟨hne cc0_scoped2 cc0_scoped1 (by decide),
      Finset.mem_erase.mpr ⟨hne cc0_scoped2 cc0_scoped0 (by decide), hm cc0_scoped2 (by decide)⟩⟩),
    SparseCore.bigSep_erase' (Finset.mem_erase.mpr ⟨hne cc0_scoped3 cc0_scoped2 (by decide),
      Finset.mem_erase.mpr ⟨hne cc0_scoped3 cc0_scoped1 (by decide),
      Finset.mem_erase.mpr ⟨hne cc0_scoped3 cc0_scoped0 (by decide), hm cc0_scoped3 (by decide)⟩⟩⟩),
    SparseCore.bigSep_erase' (Finset.mem_erase.mpr ⟨hne cc0_scoped4 cc0_scoped3 (by decide),
      Finset.mem_erase.mpr ⟨hne cc0_scoped4 cc0_scoped2 (by decide),
      Finset.mem_erase.mpr ⟨hne cc0_scoped4 cc0_scoped1 (by decide),
      Finset.mem_erase.mpr ⟨hne cc0_scoped4 cc0_scoped0 (by decide), hm cc0_scoped4 (by decide)⟩⟩⟩⟩)]

omit [FloatOps F] [CountersIn U] in
/-- The three scratch buffers are among the subcore's own: they are them, at some contents, and the rest. -/
theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector ((L 0).castLE hcore0) ((L 1).castLE hsub0))).erase
              ((Proc.scVector ((L 0).castLE hcore0) ((L 1).castLE hsub0)).devRef cc0_scratch0)).erase
              ((Proc.scVector ((L 0).castLE hcore0) ((L 1).castLE hsub0)).devRef cc0_scratch1)).erase
              ((Proc.scVector ((L 0).castLE hcore0) ((L 1).castLE hsub0)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore0) ((L 1).castLE hsub0))
    (b := (Proc.scVector ((L 0).castLE hcore0) ((L 1).castLE hsub0)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector ((L 0).castLE hcore0) ((L 1).castLE hsub0))
      (b := (Proc.scVector ((L 0).castLE hcore0) ((L 1).castLE hsub0)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector ((L 0).castLE hcore0) ((L 1).castLE hsub0))
      (b := (Proc.scVector ((L 0).castLE hcore0) ((L 1).castLE hsub0)).devRef cc0_scratch2) rfl⟩⟩)]

omit [FloatOps F] [CountersIn U] in
theorem pts_s0 (d : Dev nD) (L : grid0.Coords) (f : Buf (Elt F) ((thr d L).loc cc0_scratch0)) :
    (((sIdx).view.loc (thr d L) ↦{fullShare} f : sProp 𝕄)) = ((thr d L).loc cc0_scratch0 ↦{fullShare} f) := rfl
omit [FloatOps F] [CountersIn U] in
theorem pts_s1 (d : Dev nD) (L : grid0.Coords) (f : Buf (Elt F) ((thr d L).loc cc0_scratch1)) :
    (((sRow).view.loc (thr d L) ↦{fullShare} f : sProp 𝕄)) = ((thr d L).loc cc0_scratch1 ↦{fullShare} f) := rfl
omit [FloatOps F] [CountersIn U] in
theorem pts_s2 (d : Dev nD) (L : grid0.Coords) (f : Buf (Elt F) ((thr d L).loc cc0_scratch2)) :
    (((sOut).view.loc (thr d L) ↦{fullShare} f : sProp 𝕄)) = ((thr d L).loc cc0_scratch2 ↦{fullShare} f) := rfl

/-- The task of the vector subcore at grid point `L`: the index array fetched whole, then for each of its two rows the
    table row fetched, sixty-four trips of twenty indexed loads added up and stored, and the row written out. -/
theorem tile_body (L : grid0.Coords) (d : Dev nD) (q qT : PosShare TreeShare)
    (I : IVec S20x1024 32) (Tb : FVec F S64x100000 .f32) (f0 : FVec F S64x1024 .f32)
    (hI : ∀ i, (I i).toNat < 100000)
    (O : CellTallies nD τ sig (HIx 1)) (W : Waits sig (HIx 1)) (hO : ∀ g, O g none = 0) :
    iprop(levAts (K (F := F)).L (K (F := F)).lev
        ∗ ((idxW).view.loc (thr d L) ↦{q} I)
        ∗ ((tabW).view.loc (thr d L) ↦{qT} Tb)
        ∗ ((oRow0 L).view.loc (thr d L) ↦[(oRow0 L).view.set]{fullShare} f0)
        ∗ ((oRow1 L).view.loc (thr d L) ↦[(oRow1 L).view.set]{fullShare} f0)
        ∗ scopedBufs (thr d L) ∗ scopedSems0 (thr d L) ∗ owes (thr d L) O W : sProp 𝕄)
      ⊢ wp frame (wpE (defs₀ (F := F)) 𝒱₀ (thr d L) none) Set.univ
          (cc0__gather_sum_t L idxW (Memref.isWhole_whole _) tabW (Memref.isWhole_whole _) outW (Memref.isWhole_whole _)
            sIdx (Memref.isWhole_whole _) sRow (Memref.isWhole_whole _) sOut (Memref.isWhole_whole _)
            cc0_scratch3 cc0_scoped0 cc0_scoped1 cc0_scoped2 cc0_scoped3 cc0_scoped4)
          fun _ => iprop(((idxW).view.loc (thr d L) ↦{q} I)
            ∗ ((tabW).view.loc (thr d L) ↦{qT} Tb)
            ∗ ((oRow0 L).view.loc (thr d L) ↦[(oRow0 L).view.set]{fullShare} XT I Tb)
            ∗ ((oRow1 L).view.loc (thr d L) ↦[(oRow1 L).view.set]{fullShare} XT I Tb)
            ∗ scopedBufs (thr d L) ∗ scopedSems0 (thr d L)
            ∗ ∃ W', ⌜∀ p ∈ W', p ∈ W ∨ p.2 = none⌝ ∗ owes (thr d L) O W') := by
  rw [(K (F := F)).scopedBufs_V facts d _ _, SparseCore.Cfg.scopedSems0_V (Val := Elt F) d _ _, ownSems0_V, ownBufs_V]
  iintro ⟨#Hlv, Hidx, Htab, Ho0, Ho1, ⟨⟨%fs0, Hs0⟩, ⟨%fs1, Hs1⟩, ⟨%fs2, Hs2⟩, Hbufs⟩, ⟨Hm0, Hm1, Hm2, Hm3, Hm4, Hsems⟩, HO⟩
  ihave Hmw := ((K (F := F)).mayWaits_none (thr := thr d L) hO) $$ Hlv
  ihave Hs0' := (Entails.of_eq (pts_s0 (F := F) (U := U) d L fs0).symm) $$ Hs0
  ihave Hs1' := (Entails.of_eq (pts_s1 (F := F) (U := U) d L fs1).symm) $$ Hs1
  ihave Hs2' := (Entails.of_eq (pts_s2 (F := F) (U := U) d L fs2).symm) $$ Hs2
  sl_unfold [cc0__gather_sum_t]
  sl_exec
  sl_for (inv1 (U := U) L d I ((tRow0 L).view.read (Elt F) Tb)) $$ [Hs0' Hs1' Hs2']
  case region => intro k acc; exact trip1 L d I _ hI k acc
  · rw [inv1_eq]
    isplitl [Hs0']
    · iapply (Entails.of_eq (congrArg (fun f => ((sIdx).view.loc (thr d L) ↦{fullShare} f : sProp 𝕄)) (View.write_whole_univ (Val := Elt F) cc0_scratch0 _ I)))
      iexact Hs0'
    isplitl [Hs1']
    · iapply (Entails.of_eq (congrArg (fun f => ((sRow).view.loc (thr d L) ↦{fullShare} f : sProp 𝕄))
        (View.write_whole_univ (Val := Elt F) cc0_scratch1 _ ((tRow0 L).view.read (Elt F) Tb))))
      iexact Hs1'
    iexists _
    isplitl [Hs2']; · iexact Hs2'
    ipureintro
    intro b hb
    exact absurd hb (by omega)
  iintro %acc1 HI
  ihave HI' := (Entails.of_eq (inv1_eq (U := U) L d I _ _ acc1)) $$ HI
  icases HI' with ⟨Hs0, Hs1, %g1, Hs2, %hg1⟩
  sl_exec
  sl_for (inv1 (U := U) L d I ((tRow1 L).view.read (Elt F) Tb)) $$ [Hs0 Hs1 Hs2]
  case region => intro k acc; exact trip2 L d I _ hI k acc
  · rw [inv1_eq]
    isplitl [Hs0]; · iexact Hs0
    isplitl [Hs1]
    · iapply (Entails.of_eq (congrArg (fun f => ((sRow).view.loc (thr d L) ↦{fullShare} f : sProp 𝕄))
        (View.write_whole_univ (Val := Elt F) cc0_scratch1 _ ((tRow1 L).view.read (Elt F) Tb))))
      iexact Hs1
    iexists _
    isplitl [Hs2]; · iexact Hs2
    ipureintro
    intro b hb
    exact absurd hb (by omega)
  iintro %acc2 HI
  ihave HI' := (Entails.of_eq (inv1_eq (U := U) L d I _ _ acc2)) $$ HI
  icases HI' with ⟨Hs0, Hs1, %g2, Hs2, %hg2⟩
  sl_exec
  sl_step
  isplitl [Hidx]; · iexact Hidx
  isplitl [Htab]; · iexact Htab
  isplitl [Ho0]
  · iapply (Entails.of_eq (pointsTo_congr (oRow_final L 0 I Tb _ (tRow0_read L Tb) g1 _ (by rw [trips1]) hg1 _)))
    iexact Ho0
  isplitl [Ho1]
  · iapply (Entails.of_eq (pointsTo_congr (oRow_final L 1 I Tb _ (tRow1_read L Tb) g2 _ (by rw [trips2]) hg2 _)))
    iexact Ho1
  isplitl [Hs0 Hs1 Hs2 Hbufs]
  · isplitl [Hs0]; · iexists _; iexact Hs0
    isplitl [Hs1]; · iexists _; iexact Hs1
    isplitl [Hs2]; · iexists _; iexact Hs2
    iexact Hbufs
  isplitl [Hm0 Hm1 Hm2 Hm3 Hm4 Hsems]
  · isplitl [Hm0]; · iexact Hm0
    isplitl [Hm1]; · iexact Hm1
    isplitl [Hm2]; · iexact Hm2
    isplitl [Hm3]; · iexact Hm3
    isplitl [Hm4]; · iexact Hm4
    iexact Hsems
  iexists _
  isplitr
  rotate_left
  · iexact HO
  · ipureintro
    intro p hp
    simp only [Finset.mem_insert] at hp
    rcases hp with hp | hp | hp | hp | hp | hp
    · exact .inr (hp ▸ rfl)
    · exact .inr (hp ▸ rfl)
    · exact .inr (hp ▸ rfl)
    · exact .inr (hp ▸ rfl)
    · exact .inr (hp ▸ rfl)
    · exact .inl hp

end Cert.Proof.TileI

end
-- ==== Proof.TileOblI.lean ====
/-
  The tile's obligation for the launch theorem: a tile's share of the call's operands is what the tile body takes,
  spelt as the tile addresses it — the two inputs whole through its read shares, its two rows of the output
  through the row memrefs it copies into — and the body's result is the tile's share of the call's results.
-/
import proofs.«204094_g4578435138101_retrytranche1_754_22_alg».proof.Proof.PayI
import proofs.«204094_g4578435138101_retrytranche1_754_22_alg».proof.Proof.TileIdeal

noncomputable section

namespace Cert.Proof.I

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (I : (d : Dev nD) → Buf (Elt F) (v0Loc d)) (Tb : (d : Dev nD) → Buf (Elt F) (v1Loc d))
  (O : (d : Dev nD) → Buf (Elt F) (v2Loc d))

/-- The transposed embedding sums, as the tiles compute them. -/
abbrev Xt (d : Dev nD) : Buf (Elt F) (v2Loc d) := TileI.XT (I d) (Tb d)

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_sum_t (coordsV c s)
          (Memref.whole main_v0_scv) (Memref.isWhole_whole _) (Memref.whole main_v1_scv) (Memref.isWhole_whole _) (Memref.whole main_v2_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scoped0 cc0_scoped1 cc0_scoped2 cc0_scoped3 cc0_scoped4) ⟨⟩ c s := rfl

section Spell
variable (d : Dev nD) (L : grid0.Coords)

/-- The tile's coordinates among the two SparseCores and the sixteen tiles. -/
abbrev cL (L : grid0.Coords) : Fin 2 := Fin.cast (rfl : grid0.bound 0 = 2) (L 0)
abbrev iL (L : grid0.Coords) : Fin 16 := Fin.cast (rfl : grid0.bound 1 = 16) (L 1)

theorem pts_idx (q : PosShare TreeShare) (f : Buf (Elt F) (v0Loc d)) :
    (((Memref.whole main_v0_scv : Memref sig .scVector .hbm S20x1024 .i32).view.loc (TileI.thr d L) ↦{q} f : sProp 𝕄)) = v0Loc d ↦{q} f := by
  simp only [Memref.view_whole, View.set_whole]
theorem pts_tab (q : PosShare TreeShare) (f : Buf (Elt F) (v1Loc d)) :
    (((Memref.whole main_v1_scv : Memref sig .scVector .hbm S64x100000 .f32).view.loc (TileI.thr d L) ↦{q} f : sProp 𝕄)) = v1Loc d ↦{q} f := by
  simp only [Memref.view_whole, View.set_whole]
theorem pts_row0 (f : Buf (Elt F) (v2Loc d)) :
    (((TileI.oRow0 L).view.loc (TileI.thr d L) ↦[(TileI.oRow0 L).view.set]{fullShare} f : sProp 𝕄)) = v2Loc d ↦[rowSet (rowIx (cL L) (iL L) 0)]{fullShare} f := by
  rw [TileI.set_oRow0]; rfl
theorem pts_row1 (f : Buf (Elt F) (v2Loc d)) :
    (((TileI.oRow1 L).view.loc (TileI.thr d L) ↦[(TileI.oRow1 L).view.set]{fullShare} f : sProp 𝕄)) = v2Loc d ↦[rowSet (rowIx (cL L) (iL L) 1)]{fullShare} f := by
  rw [TileI.set_oRow1]; rfl

end Spell

theorem tileObl (hI : ∀ d i, (I d i).toNat < 100000) :
    (K (F := F)).TileObl (D (F := F)) 𝒱 (P I Tb O (Xt I Tb)) v₀ 0 := by
  intro d c i O' W hO _ _
  simp only [show (P I Tb O (Xt I Tb)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine BI.Entails.trans ?_ ((TileI.tile_body (U := UU) (coordsV ⟨_, hc.1⟩ ⟨_, hc.2⟩) d (tok16 (Fin.cast nCore_zero c) (Fin.cast nSub_zero i)) (tok16 (Fin.cast nCore_zero c) (Fin.cast nSub_zero i))
    (I d) (Tb d) (O d) (hI d) O' W hO).trans (wp_mono frame _ _ fun _ => ?_))
  · show iprop(_ ∗ emp ∗ tileRes I Tb d (Fin.cast nCore_zero c) (Fin.cast nSub_zero i) (O d) ∗ _ ∗ _ ∗ _) ⊢ _
    unfold tileRes rows2
    rw [pts_idx, pts_tab, pts_row0, pts_row1,
      show cL (coordsV ⟨_, hc.1⟩ ⟨_, hc.2⟩) = Fin.cast nCore_zero c from Fin.ext rfl, show iL (coordsV ⟨_, hc.1⟩ ⟨_, hc.2⟩) = Fin.cast nSub_zero i from Fin.ext rfl]
    iintro ⟨Hlv, -, ⟨H0, H1, Hr0, Hr1⟩, Hsb, Hss, HO⟩
    isplitl [Hlv]; · iexact Hlv
    isplitl [H0]; · iexact H0
    isplitl [H1]; · iexact H1
    isplitl [Hr0]; · iexact Hr0
    isplitl [Hr1]; · iexact Hr1
    isplitl [Hsb]; · iexact Hsb
    isplitl [Hss]; · iexact Hss
    iexact HO
  · show _ ⊢ iprop(tileRes I Tb d (Fin.cast nCore_zero c) (Fin.cast nSub_zero i) (Xt I Tb d) ∗ _ ∗ _ ∗ _)
    unfold tileRes rows2
    rw [pts_idx, pts_tab, pts_row0, pts_row1,
      show cL (coordsV ⟨_, hc.1⟩ ⟨_, hc.2⟩) = Fin.cast nCore_zero c from Fin.ext rfl, show iL (coordsV ⟨_, hc.1⟩ ⟨_, hc.2⟩) = Fin.cast nSub_zero i from Fin.ext rfl]
    iintro ⟨H0, H1, Hr0, Hr1, Hsb, Hss, %W', %hW', HO⟩
    isplitl [H0 H1 Hr0 Hr1]
    · isplitl [H0]; · iexact H0
      isplitl [H1]; · iexact H1
      isplitl [Hr0]; · iexact Hr0
      iexact Hr1
    isplitl [Hsb]; · iexact Hsb
    isplitl [Hss]; · iexact Hss
    iexists W'; isplitr
    · ipureintro; exact fun p hp => (hW' p hp).imp_right Or.inl
    · iexact HO

end Cert.Proof.I

end
-- ==== Proof.ElemI.lean ====
/-
  The launch element of the ghost state: the launch handshakes' rounds, the pipeline's staging cells' rounds (dealt to
  each device's TensorCore as its cells' ghost state and duty tokens), and the transfers' counters (dropped: the
  tiles' copies need no schedule).
-/
import proofs.«204094_g4578435138101_retrytranche1_754_22_alg».proof.Proof.PayI

noncomputable section

namespace Cert.Proof.I

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (I : (d : Dev nD) → Buf (Elt F) (v0Loc d)) (Tb : (d : Dev nD) → Buf (Elt F) (v1Loc d))
  (O X : (d : Dev nD) → Buf (Elt F) (v2Loc d))

abbrev adm : (p : Fin 1) → (pcfgs (F := F) p).Adm := fun p => (cfgs p).toPCfg_adm

/-- What @main's proof starts from on device `d`: the pipeline's cells' ghost state and its duty tokens. -/
def G (d : Dev nD) : sProp 𝕄 :=
  iprop(Pipeline.cellsGhost (nD := nD) (τ := τ) cfgs EP 0 d ∗ Pipeline.toksInit (nD := nD) (τ := τ) cfgs EP 0 d)

def u₀ : UU := ((initOf (K (F := F)).hsCells (K (F := F)).hsToks, initOf (Pipeline.cells (nD := nD) (τ := τ) cfgs cellOf_inj) (Pipeline.launchToks (nD := nD) (τ := τ) cfgs cellOf_inj)), 1)

theorem ownU_split3 (a : UH) (b : UP) : (ownU (((a, b), (1 : Counters)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (Prod.mk_mem_op (URA.mem_op_one a) (URA.mem_one_op b)) (URA.mem_op_one (1 : Counters))))

theorem bigSep_emp' {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P I Tb O X).x q thr) := by
  unfold u₀
  iintro Hu
  ihave H := (ownU_split3 (F := F) _ _) $$ Hu
  icases H with ⟨HH, HP⟩
  imod (Pipeline.fund_ghost (nD := nD) (τ := τ) cfgs EP cellOf_inj) $$ HP with ⟨Hg, Ht⟩
  imodintro
  isplitl [HH]; · iexact HH
  isplitl [Hg Ht]
  · unfold G
    rw [bigSep_sep']
    isplitl [Hg]
    · iapply (Entails.of_eq (show (bigSep Finset.univ fun c : Dev nD => bigSep Finset.univ fun p : Fin 1 => (Pipeline.cellsGhost (nD := nD) (τ := τ) cfgs EP p c : sProp 𝕄))
          = bigSep Finset.univ fun c : Dev nD => Pipeline.cellsGhost (nD := nD) (τ := τ) cfgs EP 0 c from bigSep_congr fun c _ => bigSep_univ_of_subsingleton (0 : Fin 1)))
      iexact Hg
    · iapply (Entails.of_eq (show (bigSep Finset.univ fun c : Dev nD => bigSep Finset.univ fun p : Fin 1 => (Pipeline.toksInit (nD := nD) (τ := τ) cfgs EP p c : sProp 𝕄))
          = bigSep Finset.univ fun c : Dev nD => Pipeline.toksInit (nD := nD) (τ := τ) cfgs EP 0 c from bigSep_congr fun c _ => bigSep_univ_of_subsingleton (0 : Fin 1)))
      iexact Ht
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.Proof.I

end
-- ==== Proof.RegionIdeal.lean ====
/-
  The TensorCore pallas_call of the program (custom_call 1, pipeline 0): a grid of 25 points over four windows —
  the first operand (64 × 100000) in blocks of 4096 columns, the second (64 × 1024) whole and fetched once, the
  third (1 × 100000) in blocks of 4096 columns, the result (100000 × 1024) in blocks of 4096 rows written back at
  every point — whose last blocks overhang the arrays: the cut fetches leave the staging rows past the arrays' end
  at words nothing names, and the cut write-back writes only the rows inside the array.

  The body contracts the first operand's block with the second operand over their leading axis into a zero
  accumulator, adds the third operand's block transposed and broadcast along the rows, and stores the whole
  result block. At a generic float instance the contraction is not known to read, for a row inside the array,
  only the words inside the array, so the proof data is RELATIONAL: the three operands' staging buffers are left
  as found, and the result's holds the payload at the operands' blocks filled out past the arrays' end with SOME
  words. The region's record: entered with the four arrays whole at any contents, it returns the three operands
  as they were and the result at contents the write-backs may leave (`Final`).
-/
import proofs.«204094_g4578435138101_retrytranche1_754_22_alg».proof.Proof.Gen.KernelIdeal.Launch
import proofs.«204094_g4578435138101_retrytranche1_754_22_alg».proof.Proof.Gen.KernelIdeal.Points
import proofs.«204094_g4578435138101_retrytranche1_754_22_alg».proof.Proof.Gen.KernelIdeal.Skeleton
import Idealize.ShloMosaic.Lib.Pipeline.Regions
import Idealize.ShloMosaic.Lib.Tactic

noncomputable section

namespace Cert.Proof.RegionI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]
variable {Ix : Type} [DecidableEq Ix] {U : Type} [URA U] {Lvl : Type} [Preorder Lvl]

local notation "𝕄" => MT nD τ sig Ix (Elt F) ℕ U Lvl

/-- The contents type of a TensorCore buffer on core `c`. -/
abbrev Bf (c : Dev nD) (b : Ref sig .tc) : Type := Buf (Elt F) ((c : Thread nD τ).loc b)

/-- The first point of the grid. -/
abbrev t0 : Fin cfg1.N := ⟨0, by decide⟩

section Data

variable (c : Dev nD) (A3 : Bf (F := F) c main_v3) (X2 : Bf (F := F) c main_v2) (B4 : Bf (F := F) c main_v4) (O5 : Bf (F := F) c main_v5)

/-- The block of the first operand the fetch at point `t` reads: its part inside the array. -/
def wblk (t : Fin cfg1.N) : (win1_0.xblock (grid1.coords t)).Idx → Elt F .f32 :=
  (win1_0.blk t).view.read (Elt F) A3
/-- The second operand's one block, as the fetch at the first point reads it. -/
def xblk : (win1_1.xblock (grid1.coords t0)).Idx → Elt F .f32 :=
  (win1_1.blk t0).view.read (Elt F) X2
/-- The block of the third operand the fetch at point `t` reads: its part inside the array. -/
def bblk (t : Fin cfg1.N) : (win1_2.xblock (grid1.coords t)).Idx → Elt F .f32 :=
  (win1_2.blk t).view.read (Elt F) B4

/-- What the body may leave in the result's staging buffer at point `t`: its payload at the three operands'
    blocks as the fetches leave them in the staging buffers — the part inside the array, filled out with some words. -/
def OutAt (t : Fin cfg1.N) (Z : S4096x1024.Idx → Elt F .f32) : Prop :=
  ∃ (d0 : S64x4096.Idx → Elt F .f32) (d1 : S64x1024.Idx → Elt F .f32) (d2 : S1x4096.Idx → Elt F .f32),
    Z = k1_pay1 (win1_0.fill (grid1.coords t) d0 (wblk c A3 t)) (win1_1.fill (grid1.coords t0) d1 (xblk c X2))
      (win1_2.fill (grid1.coords t) d2 (bblk c B4 t))

variable (O : CellTallies nD τ sig Ix) (W₀ : Waits sig Ix)

/-- The proof data of the pipeline on core `c`, entered with the four arrays at `A3`, `X2`, `B4`, `O5`, the core
    owing `O` throughout and its recorded wait pairs within `W₀`: the three operands' staging buffers are left as
    found; the result's holds the payload. -/
def rdat : RDat τ (Elt F) Ix ℕ U Lvl cfg1 c where
  A w := match w with
    | ⟨0, _⟩ => A3
    | ⟨1, _⟩ => X2
    | ⟨2, _⟩ => B4
    | ⟨3, _⟩ => O5
  after w t := match w with
    | ⟨0, _⟩ => fun Y Z => Z = Y
    | ⟨1, _⟩ => fun Y Z => Z = Y
    | ⟨2, _⟩ => fun Y Z => Z = Y
    | ⟨3, _⟩ => fun _ Z => OutAt c A3 X2 B4 t Z
  Φ _ := iprop(emp)
  q _ := fullShare
  owed _ := O
  recorded _ := ↑W₀

/-! ### What the body finds in the operands' staging buffers -/

/-- The first operand's buffer, fetched at every point: its block, filled out. -/
theorem finds0 (t : Fin cfg1.N) (Y : S64x4096.Idx → Elt F .f32)
    (h : (rdat (U := U) (Lvl := Lvl) c A3 X2 B4 O5 O W₀).Finds 0 t Y) : ∃ d, Y = win1_0.fill (grid1.coords t) d (wblk c A3 t) :=
  ((rdat (U := U) (Lvl := Lvl) c A3 X2 B4 O5 O W₀).finds_of_fetch (w := 0) (fetch1_0 t) Y).mp h

/-- The third operand's likewise. -/
theorem finds2 (t : Fin cfg1.N) (Y : S1x4096.Idx → Elt F .f32)
    (h : (rdat (U := U) (Lvl := Lvl) c A3 X2 B4 O5 O W₀).Finds 2 t Y) : ∃ d, Y = win1_2.fill (grid1.coords t) d (bblk c B4 t) :=
  ((rdat (U := U) (Lvl := Lvl) c A3 X2 B4 O5 O W₀).finds_of_fetch (w := 2) (fetch1_2 t) Y).mp h

/-- The second operand's one buffer, fetched at the first point and left as found by every body: what that fetch left. -/
theorem finds1 : ∀ (n : Nat) (t : Fin cfg1.N), t.val = n → ∀ (Y : S64x1024.Idx → Elt F .f32),
    (rdat (U := U) (Lvl := Lvl) c A3 X2 B4 O5 O W₀).Finds 1 t Y → ∃ d, Y = win1_1.fill (grid1.coords t0) d (xblk c X2)
  | 0, t, ht, Y, h => by
    obtain rfl : t = t0 := Fin.ext ht
    exact ((rdat (U := U) (Lvl := Lvl) c A3 X2 B4 O5 O W₀).finds_of_fetch (w := 1) ((fetch1_1 t0).mpr rfl) Y).mp h
  | n + 1, t, ht, Y, h => by
    have hlt := t.isLt
    have hN : cfg1.N = 25 := N_1
    have hf : (cfg1.win 1).fetch t = false :=
      Bool.eq_false_iff.mpr fun hh => by have := (fetch1_1 t).mp hh; omega
    have hfl : ∀ u, (cfg1.win 1).flush u = false := fun u => by simp [Window.flush]
    rw [(rdat (U := U) (Lvl := Lvl) c A3 X2 B4 O5 O W₀).finds_of_pos hf (by omega)] at h
    rcases h with h | ⟨Y', hY', hafter⟩
    · rw [hfl] at h; exact absurd h Bool.false_ne_true
    · have e : Y = Y' := hafter
      subst e
      exact finds1 n _ (by simp only [ht]; omega) Y hY'

end Data

section Body

variable (c : Dev nD)

/-- One case of the body's triple: the four staging memrefs are the whole buffers `b0` … `b3`. The loads are
    at offsets zero and the buffers' own sizes, so each reads the contents; the unmasked store writes the payload. -/
local macro "body_case" b0:ident b1:ident b2:ident b3:ident : tactic => `(tactic| (
    have hz : (![0, 0] : Fin 2 → Nat) = fun _ => 0 := funext fun a => by fin_cases a <;> rfl
    have hr0 : (Memref.whole $b0 : Memref sig .tc _ _ _).view.readAt (Elt F) (Rect.unit (s := S64x4096) ![0, 0] S64x4096.size
        inb_S64x4096_S64x4096_0_0).toLoadRect = id := funext (Memref.readAt_unit_zero (Elt F) $b0 hz _)
    have hr1 : (Memref.whole $b1 : Memref sig .tc _ _ _).view.readAt (Elt F) (Rect.unit (s := S64x1024) ![0, 0] S64x1024.size
        inb_S64x1024_S64x1024_0_0).toLoadRect = id := funext (Memref.readAt_unit_zero (Elt F) $b1 hz _)
    have hr2 : (Memref.whole $b2 : Memref sig .tc _ _ _).view.readAt (Elt F) (Rect.unit (s := S1x4096) ![0, 0] S1x4096.size
        inb_S1x4096_S1x4096_0_0).toLoadRect = id := funext (Memref.readAt_unit_zero (Elt F) $b2 hz _)
    have hw3 : ∀ f w, (((Memref.whole $b3).access (Rect.unit (s := S4096x1024) ![0, 0] S4096x1024.size inb_S4096x1024_S4096x1024_0_0)) :
        View sig .tc _ _ _).write (Elt F) f w Finset.univ = w := Memref.write_access_unit_zero_univ (Elt F) $b3 hz _
    simp only [owns_whole_eq, cc1__proj_body_eq_skeleton]; unfold cc1__proj_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k1_pay1 f0 f1 f2; isplitr; · ipureintro; rw [hf0, hf1, hf2]
      iexact H3))

set_option maxHeartbeats 4000000 in
/-- The kernel body on staging buffers `s0` … `s3` of the four windows: the whole loads of the three operands'
    buffers, the payload, the dead load of the result's buffer, the whole store — the result's buffer ends holding
    the payload of what the other three hold, those unchanged. -/
theorem sound_kernel (E : Set ℕ) (i : grid1.Coords) (s0 : Fin 2) (s1 : Fin 1) (s2 : Fin 2) (s3 : Fin 2)
    (Y0 : S64x4096.Idx → Elt F .f32) (Y1 : S64x1024.Idx → Elt F .f32) (Y2 : S1x4096.Idx → Elt F .f32)
    (Y3 : S4096x1024.Idx → Elt F .f32) (K : PUnit → sProp 𝕄) :
    iprop((owns (c : Thread nD τ) (stage1_0 s0) fullShare Y0 ∗ owns (c : Thread nD τ) (stage1_1 s1) fullShare Y1
            ∗ owns (c : Thread nD τ) (stage1_2 s2) fullShare Y2 ∗ owns (c : Thread nD τ) (stage1_3 s3) fullShare Y3)
          ∗ (iprop(owns (c : Thread nD τ) (stage1_0 s0) fullShare Y0 ∗ owns (c : Thread nD τ) (stage1_1 s1) fullShare Y1
                  ∗ owns (c : Thread nD τ) (stage1_2 s2) fullShare Y2
                  ∗ owns (c : Thread nD τ) (stage1_3 s3) fullShare (k1_pay1 Y0 Y1 Y2)) -∗ K ⟨⟩))
      ⊢ wp frame (wpE (defs₀ (F := F)) Variants.none c none) E
          (cc1__proj_body i (stage1_0 s0) (hstage1_0 s0) (stage1_1 s1) (hstage1_1 s1) (stage1_2 s2) (hstage1_2 s2)
            (stage1_3 s3) (hstage1_3 s3)) K := by
  fin_cases s0 <;> fin_cases s1 <;> fin_cases s2 <;> fin_cases s3
  · body_case cc1_stg0_0 cc1_stg1_0 cc1_stg2_0 cc1_stg3_0
  · body_case cc1_stg0_0 cc1_stg1_0 cc1_stg2_0 cc1_stg3_1
  · body_case cc1_stg0_0 cc1_stg1_0 cc1_stg2_1 cc1_stg3_0
  · body_case cc1_stg0_0 cc1_stg1_0 cc1_stg2_1 cc1_stg3_1
  · body_case cc1_stg0_1 cc1_stg1_0 cc1_stg2_0 cc1_stg3_0
  · body_case cc1_stg0_1 cc1_stg1_0 cc1_stg2_0 cc1_stg3_1
  · body_case cc1_stg0_1 cc1_stg1_0 cc1_stg2_1 cc1_stg3_0
  · body_case cc1_stg0_1 cc1_stg1_0 cc1_stg2_1 cc1_stg3_1

end Body

section Obligation

variable (c : Dev nD) (A3 : Bf (F := F) c main_v3) (X2 : Bf (F := F) c main_v2) (B4 : Bf (F := F) c main_v4) (O5 : Bf (F := F) c main_v5)
  (O : CellTallies nD τ sig Ix) (W₀ : Waits sig Ix) (ι : Ix)

/-- The library's body obligation, from `sound_kernel` at the point's staging buffers: the operands' buffers arrive
    holding what the fetches left (`finds0`, `finds1`, `finds2`) and leave holding that; the result's leaves
    holding the payload of those, which is what `OutAt` says; the invariant is `emp` and the dues are constant. -/
theorem body_obligation : (rdat (U := U) (Lvl := Lvl) c A3 X2 B4 O5 O W₀).BodyObligation (defs₀ (F := F)) Variants.none ι Set.univ :=
  fun t Y hY => by
    obtain ⟨d0, h0⟩ := finds0 (U := U) (Lvl := Lvl) c A3 X2 B4 O5 O W₀ t (Y 0) (hY 0)
    obtain ⟨d1, h1⟩ := finds1 (U := U) (Lvl := Lvl) c A3 X2 B4 O5 O W₀ t.val t rfl (Y 1) (hY 1)
    obtain ⟨d2, h2⟩ := finds2 (U := U) (Lvl := Lvl) c A3 X2 B4 O5 O W₀ t (Y 2) (hY 2)
    rw [bigSep_W1, bigSep_W1]
    rw [show (rdat (U := U) (Lvl := Lvl) c A3 X2 B4 O5 O W₀).Φ t.succ = (rdat (U := U) (Lvl := Lvl) c A3 X2 B4 O5 O W₀).Φ t.castSucc from rfl,
      show (rdat (U := U) (Lvl := Lvl) c A3 X2 B4 O5 O W₀).owesAt ι t.succ = (rdat (U := U) (Lvl := Lvl) c A3 X2 B4 O5 O W₀).owesAt ι t.castSucc from rfl]
    iintro ⟨HΦ, Ho, H0, H1, H2, H3⟩
    iapply (sound_kernel (F := F) c Set.univ (grid1.coords t) ((cfg1.slots t 0).cast nbuf1_0) ((cfg1.slots t 1).cast nbuf1_1)
      ((cfg1.slots t 2).cast nbuf1_2) ((cfg1.slots t 3).cast nbuf1_3) (Y 0) (Y 1) (Y 2) (Y 3) _)
    isplitl [H0 H1 H2 H3]
    · isplitl [H0]; · iexact H0
      isplitl [H1]; · iexact H1
      isplitl [H2]; · iexact H2
      iexact H3
    iintro ⟨H0, H1, H2, H3⟩
    isplitl [HΦ]; · iexact HΦ
    isplitl [Ho]; · iexact Ho
    isplitl [H0]
    · iexists Y 0; isplitr; · ipureintro; exact rfl
      iexact H0
    isplitl [H1]
    · iexists Y 1; isplitr; · ipureintro; exact rfl
      iexact H1
    isplitl [H2]
    · iexists Y 2; isplitr; · ipureintro; exact rfl
      iexact H2
    · iexists k1_pay1 (Y 0) (Y 1) (Y 2); isplitr
      · ipureintro; exact ⟨d0, d1, d2, by rw [← h0, ← h1, ← h2]⟩
      iexact H3

end Obligation

section Region
variable (ι : Ix) (L : GSem nD τ sig → Finset Ix) (lv : GSem nD τ sig → Ix → Lvl)

/-- The prefetched tables' admissible contents: the pallas_call has no table. -/
abbrev adm : (p : Fin 1) → (pcfgs (F := F) p).Adm := fun p => (cfgs p).toPCfg_adm
/-- The kernel's variants: none. -/
abbrev 𝒱₀ : Variants := Variants.none

variable (A3 : (c : Dev nD) → Bf (F := F) c main_v3) (X2 : (c : Dev nD) → Bf (F := F) c main_v2)
  (B4 : (c : Dev nD) → Bf (F := F) c main_v4) (O5 : (c : Dev nD) → Bf (F := F) c main_v5)
  (O : Dev nD → CellTallies nD τ sig Ix) (W₀ : Dev nD → Waits sig Ix)

/-- The proof data family: the one pipeline's, on every core. -/
def rdats : (p : Fin 1) → (c : Dev nD) → RDat τ (Elt F) Ix ℕ U Lvl (Pipeline.pin (pcfgs (F := F)) adm p) c :=
  fun _ c => rdat (U := U) (Lvl := Lvl) c (A3 c) (X2 c) (B4 c) (O5 c) (O c) (W₀ c)

/-- What the result array may hold after the region: its entry contents overwritten, in point order, at each
    point's block (the part inside the array) by the rows inside the array of a payload the body may have left.
    (It does not depend on `O` or `W₀`: the relation `ArrAt` reads the arrays and `after` only.) -/
def Final (c : Dev nD) (R : Bf (F := F) c main_v5) : Prop :=
  (rdat (Ix := Ix) (U := U) (Lvl := Lvl) c (A3 c) (X2 c) (B4 c) (O5 c) (O c) (W₀ c)).ArrAt 3 cfg1.N R

/-- The arrays after the write-backs, as points-tos of the buffers behind them at the full share. -/
theorem arraysAt_eq (c : Dev nD) (n : Nat) :
    (rdats (Ix := Ix) (U := U) (Lvl := Lvl) A3 X2 B4 O5 O W₀ 0 c).arraysAt n
      = bigSep Finset.univ fun w : Fin 4 => (iprop(∃ G, ⌜(rdats (Ix := Ix) (U := U) (Lvl := Lvl) A3 X2 B4 O5 O W₀ 0 c).ArrAt w n G⌝
          ∗ ((cfg1.win w).arr.view.loc (c : Thread nD τ) ↦{fullShare} G)) : sProp 𝕄) := by
  unfold RDat.arraysAt
  exact bigSep_congr fun w _ => by
    rw [(launch1.arr_whole w).set_eq_univ, (rdats (Ix := Ix) (U := U) (Lvl := Lvl) A3 X2 B4 O5 O W₀ 0 c).share_full fun _ => rfl]

set_option backward.isDefEq.respectTransparency.types false in
/-- The region over the thread state "the four arrays whole, what rides along, the core's dues": entered with the
    arrays at `A3`, `X2`, `B4`, `O5`; left with the three operands as they were and the result at contents
    `Final` holds of; every wait pair the region records is at index `ι`. -/
def reg (Rst : Dev nD → sProp 𝕄)
    (hmw : ∀ (c : Dev nD) (sm : SemLoc sig), (levAts L lv : sProp 𝕄) ⊢ MayWait (c : Thread nD τ) sm ι (O c)) :
    Pipeline.RDat.RegionSeg (pcfgs (F := F)) adm (rdats (Ix := Ix) (U := U) (Lvl := Lvl) A3 X2 B4 O5 O W₀) ι defs₀ 𝒱₀ L lv 0 where
  win := launch1.win.to₀
  block_pos := launch1.block_pos
  stage_whole := launch1.stage_whole
  K := PEmpty
  osem k := k.elim
  ho := Pipeline.OwnSemFacts.none _
  hbody c := body_obligation (U := U) (Lvl := Lvl) c (A3 c) (X2 c) (B4 c) (O5 c) (O c) (W₀ c) ι
  hwaits c := Pipeline.RDat.cellsWaits_intro (Pipeline.pin (pcfgs (F := F)) adm) (rdats (Ix := Ix) (U := U) (Lvl := Lvl) A3 X2 B4 O5 O W₀) ι 0 c
    fun w s t => hmw c _
  pre c := iprop(((c : Thread nD τ).loc main_v3 ↦{fullShare} A3 c) ∗ ((c : Thread nD τ).loc main_v2 ↦{fullShare} X2 c)
      ∗ ((c : Thread nD τ).loc main_v4 ↦{fullShare} B4 c) ∗ ((c : Thread nD τ).loc main_v5 ↦{fullShare} O5 c)
      ∗ Rst c ∗ owes (c : Thread nD τ) (O c) (W₀ c))
  post c := iprop(((c : Thread nD τ).loc main_v3 ↦{fullShare} A3 c) ∗ ((c : Thread nD τ).loc main_v2 ↦{fullShare} X2 c)
      ∗ ((c : Thread nD τ).loc main_v4 ↦{fullShare} B4 c)
      ∗ (∃ R, ⌜Final (Ix := Ix) (U := U) (Lvl := Lvl) A3 X2 B4 O5 O W₀ c R⌝ ∗ ((c : Thread nD τ).loc main_v5 ↦{fullShare} R))
      ∗ Rst c ∗ ∃ W, ⌜∀ p ∈ W, p ∈ W₀ c ∨ p.2 = ι⌝ ∗ owes (c : Thread nD τ) (O c) W)
  X _ := BI.emp
  Y _ := BI.emp
  Z c := Rst c
  hentry c := by
    rw [Pipeline.ownSems0_none, Pipeline.RDat.arrays_eq (pcfgs (F := F)) adm (rdats (Ix := Ix) (U := U) (Lvl := Lvl) A3 X2 B4 O5 O W₀) 0 c
      launch1.arr_whole ((rdats (Ix := Ix) (U := U) (Lvl := Lvl) A3 X2 B4 O5 O W₀ 0 c).share_full fun _ => rfl), bigSep_W1]
    iintro ⟨⟨H3, H2, H4, H5, HR, HO⟩, -, -⟩
    imodintro
    isplitl [H3 H2 H4 H5]
    · isplitl [H3]; · iexact H3
      isplitl [H2]; · iexact H2
      isplitl [H4]; · iexact H4
      iexact H5
    isplitr; · unfold Pipeline.prefHeld; rw [show (Finset.univ : Finset (Fin 0)) = ∅ from rfl, BI.bigSep_empty]; iempintro
    isplitl [HO]
    · unfold RDat.owesAt Pipeline.owesWithin
      iexists W₀ c; isplitr; · ipureintro; exact fun _ h => Or.inl h
      iexact HO
    isplitr; · iempintro
    iexact HR
  hin c := by
    iintro ⟨-, -, -⟩; iempintro
  hout c := by
    rw [Pipeline.ownSems0_none, scopedRest1_eq]
    iintro -
    isplitr; · iempintro
    isplitr <;> iempintro
  hexit c := by
    rw [arraysAt_eq, bigSep_W1]
    iintro ⟨⟨⟨%F3, %h3, H3⟩, ⟨%F2, %h2, H2⟩, ⟨%F4, %h4, H4⟩, ⟨%F5, %h5, H5⟩⟩, HO, -, HR⟩
    have e3 : F3 = A3 c := Eq.mp (congrFun (RDat.ArrAt_in (rdats (Ix := Ix) (U := U) (Lvl := Lvl) A3 X2 B4 O5 O W₀ 0 c) (0 : Fin 4) rfl _) F3) h3
    have e2 : F2 = X2 c := Eq.mp (congrFun (RDat.ArrAt_in (rdats (Ix := Ix) (U := U) (Lvl := Lvl) A3 X2 B4 O5 O W₀ 0 c) (1 : Fin 4) rfl _) F2) h2
    have e4 : F4 = B4 c := Eq.mp (congrFun (RDat.ArrAt_in (rdats (Ix := Ix) (U := U) (Lvl := Lvl) A3 X2 B4 O5 O W₀ 0 c) (2 : Fin 4) rfl _) F4) h4
    subst e3; subst e2; subst e4
    imodintro
    isplitl [H3]; · iexact H3
    isplitl [H2]; · iexact H2
    isplitl [H4]; · iexact H4
    isplitl [H5]
    · iexists F5; isplitr; · ipureintro; exact h5
      iexact H5
    isplitl [HR]; · iexact HR
    unfold RDat.owesAt Pipeline.owesWithin
    icases HO with ⟨%W, %hW, HO⟩; iexists W; isplitr
    · ipureintro; intro p hp
      rcases hW (Finset.mem_coe.mpr hp) with h | ⟨w, s, rfl⟩
      · exact Or.inl (Finset.mem_coe.mp h)
      · exact Or.inr rfl
    iexact HO

end Region

/-- info: 'Cert.Proof.RegionI.reg' depends on axioms: [propext, Classical.choice, Quot.sound] -/
#guard_msgs in #print axioms reg

end Cert.Proof.RegionI

end
-- ==== Proof.MainI.lean ====
/-
  @main on the TensorCore: two transposes on the host, the SparseCore call (the inputs' read shares and the
  output's rows handed to the two SparseCores and taken back), a transpose and a reshape on the host, the
  projection pipeline's region, and the final transpose.  Every array is carried at a named value: a host
  operation's result at the operation's function of its operands, the SparseCore call's at the tiles'
  whole-array function, the region's at contents its relation `Final` holds of.
-/
import proofs.«204094_g4578435138101_retrytranche1_754_22_alg».proof.Proof.ElemI
import proofs.«204094_g4578435138101_retrytranche1_754_22_alg».proof.Proof.RegionIdeal

noncomputable section

namespace Cert.Proof.I

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_sdiff_result wp_hlo_within)
open Idealize.ShloMosaic.Tactic
open Idealize.ShloMosaic.Transfers (shareTok shareDrop pointsTo_toks_split pointsTo_toks_join)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's arrays and the host operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

/-- The TensorCore's unscoped buffers: @main's eleven arrays. -/
abbrev tcRefs : Finset (DevRef τ sig) := {a0', a1', a2', a3', v0', v1', v2', v3', v4', v5', v6'}

abbrev op0 : HloOp τ sig (Elt F) := StableHlo.unary main_arg0 main_v0 ((transpose S20x1024 [1, 0] · Facts₀.transposes_S1024x20_S20x1024_1_0) : (⟨S1024x20, .i32⟩ : BufTy).Contents (Elt F) → (⟨S20x1024, .i32⟩ : BufTy).Contents (Elt F))
abbrev op1 : HloOp τ sig (Elt F) := StableHlo.unary main_arg1 main_v1 ((transpose S64x100000 [1, 0] · Facts₀.transposes_S100000x64_S64x100000_1_0) : (⟨S100000x64, .f32⟩ : BufTy).Contents (Elt F) → (⟨S64x100000, .f32⟩ : BufTy).Contents (Elt F))
abbrev op2 : HloOp τ sig (Elt F) := StableHlo.unary main_arg2 main_v3 ((transpose S64x100000 [1, 0] · Facts₀.transposes_S100000x64_S64x100000_1_0) : (⟨S100000x64, .f32⟩ : BufTy).Contents (Elt F) → (⟨S64x100000, .f32⟩ : BufTy).Contents (Elt F))
abbrev op3 : HloOp τ sig (Elt F) := StableHlo.reshape main_arg3 main_v4 rfl Facts₀.shapeCasts_S100000_S1x100000
abbrev op4 : HloOp τ sig (Elt F) := StableHlo.unary main_v5 main_v6 ((transpose S1024x100000 [1, 0] · Facts₀.transposes_S100000x1024_S1024x100000_1_0) : (⟨S100000x1024, .f32⟩ : BufTy).Contents (Elt F) → (⟨S1024x100000, .f32⟩ : BufTy).Contents (Elt F))

theorem h0 : (op0 (F := F)).bufs ⊆ tcRefs := show ({a0', v0'} : Finset (DevRef τ sig)) ⊆ tcRefs by decide
theorem h1 : (op1 (F := F)).bufs ⊆ tcRefs := show ({a1', v1'} : Finset (DevRef τ sig)) ⊆ tcRefs by decide
theorem h2 : (op2 (F := F)).bufs ⊆ tcRefs := show ({a2', v3'} : Finset (DevRef τ sig)) ⊆ tcRefs by decide
theorem h3 : (op3 (F := F)).bufs ⊆ tcRefs := show ({a3', v4'} : Finset (DevRef τ sig)) ⊆ tcRefs by decide
theorem h4 : (op4 (F := F)).bufs ⊆ tcRefs := show ({v5', v6'} : Finset (DevRef τ sig)) ⊆ tcRefs by decide

/-- The launch valuation, and the arrays' values along @main. -/
def V0 (d : Dev nD) : Valuation τ sig (Elt F) := fun b => m (d, b)
def Va (d : Dev nD) : Valuation τ sig (Elt F) := (op1 (F := F)).result ((op0 (F := F)).result (V0 m d))

variable (X : (d : Dev nD) → Buf (Elt F) (v2Loc d))

def Vb (d : Dev nD) : Valuation τ sig (Elt F) := Function.update (Va m d) v2' (X d)
def Vc (d : Dev nD) : Valuation τ sig (Elt F) := (op3 (F := F)).result ((op2 (F := F)).result (Vb m X d))
def Vd (d : Dev nD) (R : Buf (Elt F) (v5Loc d)) : Valuation τ sig (Elt F) := Function.update (Vc m X d) v5' R
def Ve (d : Dev nD) (R : Buf (Elt F) (v5Loc d)) : Valuation τ sig (Elt F) := (op4 (F := F)).result (Vd m X d R)

/-- The SparseCore call's operands and the output array's contents before it. -/
abbrev Iv (d : Dev nD) : Buf (Elt F) (v0Loc d) := Va m d v0'
abbrev Tv (d : Dev nD) : Buf (Elt F) (v1Loc d) := Va m d v1'
abbrev Ov (d : Dev nD) : Buf (Elt F) (v2Loc d) := Va m d v2'

theorem unscoped_held (d : Dev nD) : (unscopedBufs d (fun b => m ((SparseCore.T d).loc b)) : sProp 𝕄) = held (T d) tcRefs (V0 m d) := by
  unfold unscopedBufs held
  rw [show tcRefs = (Finset.univ.filter fun b : Ref sig .tc => ¬ b.isScoped).map ⟨Proc.devRef .tc, Proc.devRef_injective _⟩ by decide, bigSep_map]
  rfl

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem v2_rows2 (d : Dev nD) (f : Buf (Elt F) (v2Loc d)) :
    (v2Loc d ↦{fullShare} f : sProp 𝕄) = bigSep Finset.univ fun c : Fin 2 => bigSep Finset.univ fun i : Fin 16 => rows2 d c i f := by
  rw [v2_rows]; exact bigSep_congr fun c _ => bigSep_congr fun i _ => bigSep_fin2 _

section Call
variable (I : (d : Dev nD) → Buf (Elt F) (v0Loc d)) (Tb : (d : Dev nD) → Buf (Elt F) (v1Loc d)) (O : (d : Dev nD) → Buf (Elt F) (v2Loc d))

theorem st0_eq (d : Dev nD) : (bigSep Finset.univ fun c : Fin ((K (F := F)).nCore 0) => (P I Tb O X).st 0 d c)
    = iprop((bigSep Finset.univ fun c : Fin 2 => (v0Loc d ↦{tok2 c} I d : sProp 𝕄)) ∗ (bigSep Finset.univ fun c : Fin 2 => (v1Loc d ↦{tok2 c} Tb d : sProp 𝕄))
        ∗ bigSep Finset.univ fun c : Fin 2 => bigSep Finset.univ fun i : Fin 16 => rows2 d c i (O d)) := by
  show (bigSep Finset.univ fun c : Fin ((K (F := F)).nCore 0) => coreRes I Tb d (Fin.cast nCore_zero c) (O d)) = _
  rw [bigSep_cores (F := F) (fun c => coreRes I Tb d c (O d))]
  unfold coreRes
  rw [bigSep_sep', bigSep_sep']
theorem dn0_eq (d : Dev nD) : (bigSep Finset.univ fun c : Fin ((K (F := F)).nCore 0) => (P I Tb O X).dn 0 d c)
    = iprop((bigSep Finset.univ fun c : Fin 2 => (v0Loc d ↦{tok2 c} I d : sProp 𝕄)) ∗ (bigSep Finset.univ fun c : Fin 2 => (v1Loc d ↦{tok2 c} Tb d : sProp 𝕄))
        ∗ bigSep Finset.univ fun c : Fin 2 => bigSep Finset.univ fun i : Fin 16 => rows2 d c i (X d)) := by
  show (bigSep Finset.univ fun c : Fin ((K (F := F)).nCore 0) => coreRes I Tb d (Fin.cast nCore_zero c) (X d)) = _
  rw [bigSep_cores (F := F) (fun c => coreRes I Tb d c (X d))]
  unfold coreRes
  rw [bigSep_sep', bigSep_sep']
end Call

theorem held_pick3 (d : Dev nD) (V : Valuation τ sig (Elt F)) :
    (held (T d) tcRefs V : sProp 𝕄) = iprop(((v0Loc d ↦{fullShare} V v0') ∗ (v1Loc d ↦{fullShare} V v1') ∗ (v2Loc d ↦{fullShare} V v2'))
      ∗ held (T d) (tcRefs \ {v0', v1', v2'}) V) := by
  rw [held_sub_split (T d) (show ({v0', v1', v2'} : Finset (DevRef τ sig)) ⊆ tcRefs by decide) V]
  unfold held
  rw [SparseCore.bigSep_insert' (by decide), SparseCore.bigSep_insert' (by decide), bigSep_singleton]
theorem held_pick4 (d : Dev nD) (V : Valuation τ sig (Elt F)) :
    (held (T d) tcRefs V : sProp 𝕄) = iprop(((v3Loc d ↦{fullShare} V v3') ∗ (v2Loc d ↦{fullShare} V v2') ∗ (v4Loc d ↦{fullShare} V v4') ∗ (v5Loc d ↦{fullShare} V v5'))
      ∗ held (T d) (tcRefs \ {v3', v2', v4', v5'}) V) := by
  rw [held_sub_split (T d) (show ({v3', v2', v4', v5'} : Finset (DevRef τ sig)) ⊆ tcRefs by decide) V]
  unfold held
  rw [SparseCore.bigSep_insert' (by decide), SparseCore.bigSep_insert' (by decide), SparseCore.bigSep_insert' (by decide), bigSep_singleton]
theorem held_pick5 (d : Dev nD) (V : Valuation τ sig (Elt F)) :
    (held (T d) tcRefs V : sProp 𝕄) = iprop(((a0Loc d ↦{fullShare} V a0') ∗ (a1Loc d ↦{fullShare} V a1') ∗ (a2Loc d ↦{fullShare} V a2') ∗ (a3Loc d ↦{fullShare} V a3') ∗ (v6Loc d ↦{fullShare} V v6'))
      ∗ held (T d) (tcRefs \ {a0', a1', a2', a3', v6'}) V) := by
  rw [held_sub_split (T d) (show ({a0', a1', a2', a3', v6'} : Finset (DevRef τ sig)) ⊆ tcRefs by decide) V]
  unfold held
  rw [SparseCore.bigSep_insert' (by decide), SparseCore.bigSep_insert' (by decide), SparseCore.bigSep_insert' (by decide), SparseCore.bigSep_insert' (by decide), bigSep_singleton]

theorem held_update_rest (d : Dev nD) (V : Valuation τ sig (Elt F)) (b : DevRef τ sig) (f : b.ty.Contents (Elt F)) (S : Finset (DevRef τ sig)) (hb : b ∉ S) :
    (held (T d) S (Function.update V b f) : sProp 𝕄) = held (T d) S V :=
  bigSep_congr fun b' hb' => by rw [Function.update_of_ne (fun e : b' = b => hb (by rw [← e]; exact hb'))]

/-- After the call: the three arrays back among the eleven, the output at the tiles' function. -/
theorem held_call_back (d : Dev nD) :
    iprop(((v0Loc d ↦{fullShare} Va m d v0') ∗ (v1Loc d ↦{fullShare} Va m d v1') ∗ (v2Loc d ↦{fullShare} X d))
      ∗ held (T d) (tcRefs \ {v0', v1', v2'}) (Va m d)) = (held (T d) tcRefs (Vb m X d) : sProp 𝕄) := by
  unfold Vb
  rw [held_pick3 (F := F) d (Function.update (Va m d) v2' (X d)), held_update_rest (F := F) d (Va m d) v2' (X d) _ (by decide),
    Function.update_of_ne (show v0' ≠ v2' by decide), Function.update_of_ne (show v1' ≠ v2' by decide), Function.update_self]

/-! ## The region's arrays, as families over the devices -/

abbrev A3f (c : Dev nD) : RegionI.Bf (F := F) c main_v3 := Vc m X c v3'
abbrev X2f (c : Dev nD) : RegionI.Bf (F := F) c main_v2 := Vc m X c v2'
abbrev B4f (c : Dev nD) : RegionI.Bf (F := F) c main_v4 := Vc m X c v4'
abbrev O5f (c : Dev nD) : RegionI.Bf (F := F) c main_v5 := Vc m X c v5'
abbrev Otc (c : Dev nD) : CellTallies nD τ sig (HIx 1) := (K (F := F)).Otc c 1

/-- The result array's contents after the region: what the pipeline's relation holds of. -/
def FinalR (W : Waits sig (HIx 1)) (d : Dev nD) (R : Buf (Elt F) (v5Loc d)) : Prop :=
  RegionI.Final (Ix := HIx 1) (U := UU) (Lvl := ℕ) (A3f m X) (X2f m X) (B4f m X) (O5f m X) (Otc (F := F)) (fun _ => W) d R

/-- What @main leaves: the eleven arrays at their final values, the result of the region at contents `FinalR` holds of. -/
def FIN (d : Dev nD) : sProp 𝕄 := iprop(∃ W R, ⌜FinalR m X W d R⌝ ∗ held (T d) tcRefs (Ve m X d R))

theorem held_region_back (d : Dev nD) (R : Buf (Elt F) (v5Loc d)) :
    iprop(((v3Loc d ↦{fullShare} Vc m X d v3') ∗ (v2Loc d ↦{fullShare} Vc m X d v2') ∗ (v4Loc d ↦{fullShare} Vc m X d v4') ∗ (v5Loc d ↦{fullShare} R))
      ∗ held (T d) (tcRefs \ {v3', v2', v4', v5'}) (Vc m X d)) = (held (T d) tcRefs (Vd m X d R) : sProp 𝕄) := by
  unfold Vd
  rw [held_pick4 (F := F) d (Function.update (Vc m X d) v5' R), held_update_rest (F := F) d (Vc m X d) v5' R _ (by decide),
    Function.update_of_ne (show v3' ≠ v5' by decide), Function.update_of_ne (show v2' ≠ v5' by decide), Function.update_of_ne (show v4' ≠ v5' by decide), Function.update_self]

/-- An array no operation of @main writes ends at its launch contents. -/
theorem Ve_arg (d : Dev nD) (R : Buf (Elt F) (v5Loc d)) (b : DevRef τ sig) (h0 : b ∉ ({v0'} : Finset (DevRef τ sig))) (h1 : b ∉ ({v1'} : Finset (DevRef τ sig))) (h2 : b ≠ v2')
    (h3 : b ∉ ({v3'} : Finset (DevRef τ sig))) (h4 : b ∉ ({v4'} : Finset (DevRef τ sig))) (h5 : b ≠ v5') (h6 : b ∉ ({v6'} : Finset (DevRef τ sig))) :
    Ve m X d R b = V0 m d b := by
  unfold Ve Vd Vc Vb Va
  rw [(op4 (F := F)).result_of_not_mem _ h6, Function.update_of_ne h5, (op3 (F := F)).result_of_not_mem _ h4, (op2 (F := F)).result_of_not_mem _ h3,
    Function.update_of_ne h2, (op1 (F := F)).result_of_not_mem _ h1, (op0 (F := F)).result_of_not_mem _ h0]

section RegPrePost
open Idealize.ShloMosaic.TcCoe
variable {Ix : Type} [DecidableEq Ix] {U : Type} [URA U] {Lvl : Type} [Preorder Lvl]
variable (ι : Ix) (L : GSem nD τ sig → Finset Ix) (lv : GSem nD τ sig → Ix → Lvl)
  (A3 : (c : Dev nD) → RegionI.Bf (F := F) c main_v3) (X2 : (c : Dev nD) → RegionI.Bf (F := F) c main_v2)
  (B4 : (c : Dev nD) → RegionI.Bf (F := F) c main_v4) (O5 : (c : Dev nD) → RegionI.Bf (F := F) c main_v5)
  (O : Dev nD → CellTallies nD τ sig Ix) (W₀ : Dev nD → Waits sig Ix) (Rst : Dev nD → sProp (MT nD τ sig Ix (Elt F) ℕ U Lvl))
  (hmw : ∀ (c : Dev nD) (sm : SemLoc sig), (levAts L lv : sProp (MT nD τ sig Ix (Elt F) ℕ U Lvl)) ⊢ MayWait (c : Thread nD τ) sm ι (O c))
theorem reg_pre (c : Dev nD) : (RegionI.reg ι L lv A3 X2 B4 O5 O W₀ Rst hmw).pre c
    = iprop(((c : Thread nD τ).loc main_v3 ↦{fullShare} A3 c) ∗ ((c : Thread nD τ).loc main_v2 ↦{fullShare} X2 c)
      ∗ ((c : Thread nD τ).loc main_v4 ↦{fullShare} B4 c) ∗ ((c : Thread nD τ).loc main_v5 ↦{fullShare} O5 c)
      ∗ Rst c ∗ owes (c : Thread nD τ) (O c) (W₀ c)) := rfl
theorem reg_post (c : Dev nD) : (RegionI.reg ι L lv A3 X2 B4 O5 O W₀ Rst hmw).post c
    = iprop(((c : Thread nD τ).loc main_v3 ↦{fullShare} A3 c) ∗ ((c : Thread nD τ).loc main_v2 ↦{fullShare} X2 c)
      ∗ ((c : Thread nD τ).loc main_v4 ↦{fullShare} B4 c)
      ∗ (∃ R, ⌜RegionI.Final (Ix := Ix) (U := U) (Lvl := Lvl) A3 X2 B4 O5 O W₀ c R⌝ ∗ ((c : Thread nD τ).loc main_v5 ↦{fullShare} R))
      ∗ Rst c ∗ ∃ W, ⌜∀ p ∈ W, p ∈ W₀ c ∨ p.2 = ι⌝ ∗ owes (c : Thread nD τ) (O c) W) := rfl
end RegPrePost

/-- The TensorCore's handshake state but what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))
theorem tcSt_eq (d : Dev nD) (n : ℕ) : ((K (F := F)).tcSt EH d n : sProp 𝕄)
    = iprop((∃ W, ⌜(K (F := F)).WBelow (T d) W (8 * n)⌝ ∗ owes (T d) ((K (F := F)).Otc d n) W) ∗ tcRest (F := F) d n) := rfl

theorem hmain [∀ e, Nonempty (Elt F e)] (κ : GSem nD τ sig → ℕ) (d : Dev nD) :
    iprop((K (F := F)).ctx EH (P (Iv m) (Tv m) (Ov m) X) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m X d) := by
  unfold SparseCore.Cfg.tcRes
  rw [unscoped_held]
  simp only [main, wp_bind, wp_pure]
  iintro ⟨#Hctx, Hst, ⟨Hb, Hheld, -, -⟩, HG⟩
  -- the two transposes
  iapply (wp_hlo_within 𝒱 (SparseCore.T d) none Set.univ (op := op0) (S := tcRefs) h0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := tcRefs) h1 (V := (op0 (F := F)).result (V0 m d))) $$ [Hb Hheld]
  · isplitl [Hb]; · iexact Hb
    iexact Hheld
  iintro ⟨Hb, Hheld⟩
  rw [wp_ret]; imodintro
  -- the SparseCore call: the inputs' read shares and the output's rows out, and back
  ihave Hheld := (Entails.of_eq (show (held (T d) tcRefs ((op1 (F := F)).result ((op0 (F := F)).result (V0 m d))) : sProp 𝕄) = held (T d) tcRefs (Va m d) from rfl)) $$ Hheld
  ihave Hh := (Entails.of_eq (held_pick3 (F := F) d (Va m d))) $$ Hheld
  icases Hh with ⟨⟨H0, H1, H2⟩, Hrest⟩
  ihave H0' := (pointsTo_toks_split fullShare 2) $$ H0
  icases H0' with ⟨H0d, H0t⟩
  ihave H1' := (pointsTo_toks_split fullShare 2) $$ H1
  icases H1' with ⟨H1d, H1t⟩
  ihave H2' := (Entails.of_eq (v2_rows2 (F := F) d _)) $$ H2
  iapply ((K (F := F)).wp_run (D (F := F)) 𝒱 (EH := EH) (P := P (Iv m) (Tv m) (Ov m) X) κ d 0) $$ [Hst H0t H1t H2' H0d H1d Hrest Hb HG]
  isplitr; · iexact Hctx
  isplitl [Hst]; · iexact Hst
  isplitl [H0t H1t H2']
  · rw [st0_eq]
    isplitl [H0t]; · iexact H0t
    isplitl [H1t]; · iexact H1t
    iexact H2'
  iintro ⟨Hst, Hdn⟩
  ihave Hdn' := (Entails.of_eq (dn0_eq (F := F) X (Iv m) (Tv m) (Ov m) d)) $$ Hdn
  icases Hdn' with ⟨H0t, H1t, H2'⟩
  ihave H0 := (pointsTo_toks_join fullShare 2) $$ [H0d H0t]
  · isplitl [H0d] <;> iassumption
  ihave H1 := (pointsTo_toks_join fullShare 2) $$ [H1d H1t]
  · isplitl [H1d] <;> iassumption
  ihave H2 := (Entails.of_eq (v2_rows2 (F := F) d (X d)).symm) $$ H2'
  ihave Hheld := (Entails.of_eq (held_call_back (F := F) m X d)) $$ [H0 H1 H2 Hrest]
  · isplitl [H0 H1 H2]
    · isplitl [H0]; · iexact H0
      isplitl [H1]; · iexact H1
      iexact H2
    · iexact Hrest
  -- a transpose and a reshape
  iapply (wp_hlo_within 𝒱 (SparseCore.T d) none Set.univ (op := op2) (S := tcRefs) h2 (V := Vb m X d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := tcRefs) h3 (V := (op2 (F := F)).result (Vb m X d))) $$ [Hb Hheld]
  · isplitl [Hb]; · iexact Hb
    iexact Hheld
  iintro ⟨Hb, Hheld⟩
  rw [wp_ret]; imodintro
  -- the projection pipeline's region
  ihave Hheld := (Entails.of_eq (show (held (T d) tcRefs ((op3 (F := F)).result ((op2 (F := F)).result (Vb m X d))) : sProp 𝕄) = held (T d) tcRefs (Vc m X d) from rfl)) $$ Hheld
  ihave Hh := (Entails.of_eq (held_pick4 (F := F) d (Vc m X d))) $$ Hheld
  icases Hh with ⟨⟨H3, H2, H4, H5⟩, Hrest⟩
  ihave Hst := (Entails.of_eq (show ((K (F := F)).tcSt EH d ((0 : Fin 1).val + 1) : sProp 𝕄) = (K (F := F)).tcSt EH d 1 from rfl)) $$ Hst
  ihave Hst' := (Entails.of_eq (tcSt_eq (F := F) d 1)) $$ Hst
  icases Hst' with ⟨⟨%W, %hW, HO⟩, Hstr⟩
  ihave HG' := (Entails.of_eq (show G (F := F) d = iprop(Pipeline.cellsGhost (nD := nD) (τ := τ) cfgs EP 0 d ∗ Pipeline.toksInit (nD := nD) (τ := τ) cfgs EP 0 d) from rfl)) $$ HG
  icases HG' with ⟨Hcg, Htk⟩
  ihave Hlev := (SparseCore.Cfg.ctx_levAts κ) $$ Hctx
  have hOtc : ∀ (c : Dev nD) (g : GSem nD τ sig), Otc (F := F) c g none = 0 := fun c g => by
    show (K (F := F)).Otc c 1 g none = 0
    rw [(K (F := F)).Otc_end c (le_refl 1)]; rfl
  iapply ((K (F := F)).wp_liftProg (D (F := F)) 𝒱 (SparseCore.T d) Set.univ none (Prog.lift (.customCall (Pipeline.entry 0) ())) _)
  iapply (Pipeline.RDat.RegionSeg.wp (pcfgs (F := F)) RegionI.adm
      (RegionI.rdats (Ix := HIx 1) (U := UU) (Lvl := ℕ) (A3f m X) (X2f m X) (B4f m X) (O5f m X) (Otc (F := F)) (fun _ => W))
      (none : HIx 1) cellOf_inj EP defs₀ RegionI.𝒱₀ (K (F := F)).L (K (F := F)).lev
      (RegionI.reg (none : HIx 1) (K (F := F)).L (K (F := F)).lev (A3f m X) (X2f m X) (B4f m X) (O5f m X) (Otc (F := F)) (fun _ => W) (fun _ => iprop(emp))
        (fun c sm => (K (F := F)).mayWait_none sm (hOtc c)))
      d none (fun _ h => nomatch h) (fun a => .ret a) _) $$ [H3 H2 H4 H5 HO Hb Hcg Htk Hrest Hstr]
  isplitl [Hrest Hstr]
  · rw [reg_post]
    iintro ⟨Hb, H3, H2, H4, ⟨%R, %hR, H5⟩, -, ⟨%W', %hW', HO⟩⟩
    rw [wp_ret]; imodintro
    ihave Hheld := (Entails.of_eq (held_region_back (F := F) m X d R)) $$ [H3 H2 H4 H5 Hrest]
    · isplitl [H3 H2 H4 H5]
      · isplitl [H3]; · iexact H3
        isplitl [H2]; · iexact H2
        isplitl [H4]; · iexact H4
        iexact H5
      · iexact Hrest
    -- the final transpose
    iapply (wp_hlo_within 𝒱 (SparseCore.T d) none Set.univ (op := op4) (S := tcRefs) h4 (V := Vd m X d R)) $$ [Hb Hheld]
    · isplitl [Hb]; · iexact Hb
      iexact Hheld
    iintro ⟨Hb, Hheld⟩
    rw [wp_ret]; imodintro; imodintro
    isplitl [HO Hstr]
    · iapply (Entails.of_eq (tcSt_eq (F := F) d 1).symm)
      isplitl [HO]
      · iexists W'; isplitr
        · ipureintro
          intro p hp
          rcases hW' p hp with h | h
          · exact hW p h
          · rw [h]; exact Nat.zero_le _
        · iexact HO
      · iexact Hstr
    · unfold FIN
      iexists W, R; isplitr
      · ipureintro; exact hR
      · iexact Hheld
  isplitl [Hb]; · iexact Hb
  isplitl [H3 H2 H4 H5 HO]
  · rw [reg_pre]
    isplitl [H3]; · iexact H3
    isplitl [H2]; · iexact H2
    isplitl [H4]; · iexact H4
    isplitl [H5]; · iexact H5
    isplitr; · iempintro
    iexact HO
  isplitr; · iexact Hlev
  isplitl [Hcg]; · iexact Hcg
  iexact Htk

/-! ## Reading the claim off the final memory -/

def fq (d : Dev nD) (s' : Phys nD τ sig (Elt F)) : Prop :=
  (∃ W R, FinalR m X W d R ∧ s'.mem.mem (v6Loc d) = Ve m X d R v6') ∧ s'.mem.mem (a0Loc d) = m (a0Loc d) ∧ s'.mem.mem (a1Loc d) = m (a1Loc d)
    ∧ s'.mem.mem (a2Loc d) = m (a2Loc d) ∧ s'.mem.mem (a3Loc d) = m (a3Loc d)

theorem hfin (d : Dev nD) (s' : Phys nD τ sig (Elt F)) : iprop(FIN m X d ∗ SI s') ⊢ (⌜fq m X d s'⌝ : sProp 𝕄) := by
  unfold FIN
  iintro ⟨⟨%W, %R, %hR, Hheld⟩, HSI⟩
  ihave Hh := (Entails.of_eq (held_pick5 (F := F) d (Ve m X d R))) $$ Hheld
  icases Hh with ⟨⟨Ha0, Ha1, Ha2, Ha3, Hv6⟩, -⟩
  ihave H := (persistent_entails_right (SI_pointsTo_agree (st := s') (ℓ := a0Loc d) (I := Finset.univ) (q := fullShare) (f := Ve m X d R a0'))) $$ [HSI Ha0]
  · isplitl [HSI] <;> iassumption
  icases H with ⟨%h0, HSI, -⟩
  ihave H := (persistent_entails_right (SI_pointsTo_agree (st := s') (ℓ := a1Loc d) (I := Finset.univ) (q := fullShare) (f := Ve m X d R a1'))) $$ [HSI Ha1]
  · isplitl [HSI] <;> iassumption
  icases H with ⟨%h1, HSI, -⟩
  ihave H := (persistent_entails_right (SI_pointsTo_agree (st := s') (ℓ := a2Loc d) (I := Finset.univ) (q := fullShare) (f := Ve m X d R a2'))) $$ [HSI Ha2]
  · isplitl [HSI] <;> iassumption
  icases H with ⟨%h2, HSI, -⟩
  ihave H := (persistent_entails_right (SI_pointsTo_agree (st := s') (ℓ := a3Loc d) (I := Finset.univ) (q := fullShare) (f := Ve m X d R a3'))) $$ [HSI Ha3]
  · isplitl [HSI] <;> iassumption
  icases H with ⟨%h3, HSI, -⟩
  ihave H := (SI_pointsTo_agree (st := s') (ℓ := v6Loc d) (I := Finset.univ) (q := fullShare) (f := Ve m X d R v6')) $$ [HSI Hv6]
  · isplitl [HSI] <;> iassumption
  icases H with %h6
  ipureintro
  refine ⟨⟨W, R, hR, funext fun i => h6 i (Finset.mem_univ i)⟩, ?_, ?_, ?_, ?_⟩
  · exact (funext fun i => h0 i (Finset.mem_univ i)).trans (Ve_arg (F := F) m X d R a0' (by decide) (by decide) (by decide) (by decide) (by decide) (by decide) (by decide))
  · exact (funext fun i => h1 i (Finset.mem_univ i)).trans (Ve_arg (F := F) m X d R a1' (by decide) (by decide) (by decide) (by decide) (by decide) (by decide) (by decide))
  · exact (funext fun i => h2 i (Finset.mem_univ i)).trans (Ve_arg (F := F) m X d R a2' (by decide) (by decide) (by decide) (by decide) (by decide) (by decide) (by decide))
  · exact (funext fun i => h3 i (Finset.mem_univ i)).trans (Ve_arg (F := F) m X d R a3' (by decide) (by decide) (by decide) (by decide) (by decide) (by decide) (by decide))

end Cert.Proof.I

end
-- ==== Proof.Spec.lean ====
/-
  The function both programs compute, as ONE pure function of the four argument arrays at the exact (extended-real)
  reading of floats.  A batch row `b` has twenty context words `inp[b, j]`; its embedding is the sum over `j` of the
  table rows those words name, `x[b, d] = ∑ j, emb[inp[b, j], d]`; the result is that embedding projected on every
  vocabulary row of `W` and shifted by the bias: `out[b, v] = (∑ d, x[b, d] · W[v, d]) + bias[v]`.
  A context word is read as the natural number its 32 bits spell, reduced modulo the table's height so that the
  definition is total; where every word is already a row number (`0 ≤ word < 100000`) the reduction does nothing.
-/
import Idealize.ShloMosaic.PureOps.Ideal
import Idealize.ShloMosaic.Lib.ValueIdx

noncomputable section

open scoped BigOperators

namespace Cert.Spec

open Idealize.ShloMosaic Idealize.ShloMosaic.ValueIdx

abbrev SInp : Shape := ⟨2, ![1024, 20]⟩
abbrev STab : Shape := ⟨2, ![100000, 64]⟩
abbrev SBias : Shape := ⟨1, ![100000]⟩
abbrev SOut : Shape := ⟨2, ![1024, 100000]⟩

/-- The table row a context word names: the word's 32 bits as a natural number, modulo the table's height. -/
def rowOf (w : BitVec 32) : Fin 100000 := ⟨w.toNat % 100000, Nat.mod_lt _ (by norm_num)⟩

/-- Where the word is a row number already, `rowOf` is that number. -/
theorem rowOf_val {w : BitVec 32} (h : w.toNat < 100000) : (rowOf w).val = w.toNat := Nat.mod_eq_of_lt h

/-- The summed context embedding of batch row `b`, coordinate `d`. -/
def embSum (inp : IVec SInp 32) (emb : FVec Ideal STab .f32) (b : Fin 1024) (d : Fin 64) : EReal :=
  ∑ j : Fin 20, emb (ix2 (rowOf (inp (ix2 b j))) d)

/-- The whole result: the summed embedding projected on each vocabulary row, plus that row's bias. -/
def G (inp : IVec SInp 32) (emb W : FVec Ideal STab .f32) (bias : FVec Ideal SBias .f32) : FVec Ideal SOut .f32 :=
  fun i => (∑ d : Fin 64, embSum inp emb (i 0) d * W (ix2 (i 1) d)) + bias (ix1 (i 1))

end Cert.Spec

end
-- ==== Proof.BridgeValue.lean ====
/-
  The kernel's result is the target function.  The kernel's entry function transposes the context words, the table and
  the projection, reshapes the bias to one row, and transposes the last stage's result `R : [100000, 1024]` into the
  result.  Given what the two middle stages compute — the summed context embedding `Xv[d, b] = ∑ j, embᵀ[d, inpᵀ[j, b]]`
  and the projection `R[v, b] = (∑ d, Wᵀ[d, v] · Xv[d, b]) + biasRow[0, v]` — the transposed `R` at `(b, v)` is
  `(∑ d, (∑ j, emb[inp[b, j], d]) · W[v, d]) + bias[v]`: every transpose read at an index swaps the two coordinates, the
  reshape to one row reads the bias at the column, and the product of extended reals commutes.
-/
import proofs.«204094_g4578435138101_retrytranche1_754_22_alg».proof.Proof.Gen.KernelIdeal
import proofs.«204094_g4578435138101_retrytranche1_754_22_alg».proof.Proof.Spec
import Idealize.ShloMosaic.Lib.StableHlo
import Idealize.ShloMosaic.Lib.ValueIdx
import Idealize.ShloMosaic.Lib.ValueLayout
import Idealize.ShloMosaic.PureOps.Ideal

noncomputable section

open scoped BigOperators

namespace Cert.Bridge

open Cert.KernelIdeal Idealize.ShloMosaic Idealize.ShloMosaic.ValueIdx

variable [Cert.KernelIdeal.Facts]

/-- The bias as one row: the reshape of `[100000]` to `[1, 100000]`. -/
abbrev biasRow {F : FTy → Type} (bias : FVec F S100000 .f32) : FVec F S1x100000 .f32 :=
  shapeCast S1x100000 bias Facts₀.shapeCasts_S100000_S1x100000

/-- The bias row at `(u, v)` is the bias at `v`. -/
theorem biasRow_apply {F : FTy → Type} (bias : FVec F S100000 .f32) (u : Fin 1) (v : Fin 100000) :
    biasRow bias (ix2 u v) = bias (ix1 v) :=
  shapeCast_a_1a_apply bias _ u v

/-- What the reshape operation leaves in its result buffer is the bias row of its operand's contents. -/
theorem reshape_result_eq {F : FTy → Type} [FloatOps F] (V : Valuation τ sig (Elt F)) :
    (StableHlo.reshape main_arg3 main_v4 rfl Facts₀.shapeCasts_S100000_S1x100000 : HloOp τ sig (Elt F)).result V
        (Proc.devRef .tc main_v4)
      = biasRow (V (Proc.devRef .tc main_arg3)) := by
  rw [StableHlo.reshape_result]
  rfl

/-- THE KERNEL'S RESULT IS THE TARGET FUNCTION, for any bias row that reads the bias at the column. -/
theorem out_eq_G' (inp : IVec S1024x20 32) (emb W : FVec Ideal S100000x64 .f32) (bias : FVec Ideal S100000 .f32)
    (Xv : FVec Ideal S64x1024 .f32) (R : FVec Ideal S100000x1024 .f32) (bR : FVec Ideal S1x100000 .f32)
    (hb : ∀ v : Fin 100000, bR (ix2 (0 : Fin 1) v) = bias (ix1 v))
    (hX : ∀ (r : Fin 64) (b : Fin 1024), Xv (ix2 r b)
      = ∑ j : Fin 20, (transpose S64x100000 [1, 0] emb Facts₀.transposes_S100000x64_S64x100000_1_0)
          (ix2 r (Cert.Spec.rowOf ((transpose S20x1024 [1, 0] inp Facts₀.transposes_S1024x20_S20x1024_1_0) (ix2 j b)))))
    (hR : ∀ (v : Fin 100000) (b : Fin 1024), R (ix2 v b)
      = (∑ d : Fin 64, (transpose S64x100000 [1, 0] W Facts₀.transposes_S100000x64_S64x100000_1_0) (ix2 d v) * Xv (ix2 d b))
        + bR (ix2 (0 : Fin 1) v)) :
    transpose S1024x100000 [1, 0] R Facts₀.transposes_S100000x1024_S1024x100000_1_0 = Cert.Spec.G inp emb W bias := by
  funext i
  obtain ⟨b, v, rfl⟩ : ∃ b v, i = ix2 b v := ⟨i 0, i 1, eq_ix2 i⟩
  show transpose S1024x100000 [1, 0] R Facts₀.transposes_S100000x1024_S1024x100000_1_0 (ix2 b v)
    = (∑ d : Fin 64, Cert.Spec.embSum inp emb b d * W (ix2 v d)) + bias (ix1 v)
  rw [transpose_ix2_apply, hR, hb]
  congr 1
  refine Finset.sum_congr rfl fun d _ => ?_
  rw [transpose_ix2_apply, hX, mul_comm]
  congr 1
  unfold Cert.Spec.embSum
  refine Finset.sum_congr rfl fun j _ => ?_
  rw [transpose_ix2_apply, transpose_ix2_apply]

/-- THE KERNEL'S RESULT IS THE TARGET FUNCTION, with the bias row spelled as the reshape of the bias. -/
theorem out_eq_G (inp : IVec S1024x20 32) (emb W : FVec Ideal S100000x64 .f32) (bias : FVec Ideal S100000 .f32)
    (Xv : FVec Ideal S64x1024 .f32) (R : FVec Ideal S100000x1024 .f32)
    (hin : ∀ b j, (inp (ix2 b j)).toNat < 100000)
    (hX : ∀ (r : Fin 64) (b : Fin 1024), Xv (ix2 r b)
      = ∑ j : Fin 20, (transpose S64x100000 [1, 0] emb Facts₀.transposes_S100000x64_S64x100000_1_0)
          (ix2 r (Cert.Spec.rowOf ((transpose S20x1024 [1, 0] inp Facts₀.transposes_S1024x20_S20x1024_1_0) (ix2 j b)))))
    (hR : ∀ (v : Fin 100000) (b : Fin 1024), R (ix2 v b)
      = (∑ d : Fin 64, (transpose S64x100000 [1, 0] W Facts₀.transposes_S100000x64_S64x100000_1_0) (ix2 d v) * Xv (ix2 d b))
        + (shapeCast S1x100000 bias Facts₀.shapeCasts_S100000_S1x100000 : FVec Ideal S1x100000 .f32) (ix2 (0 : Fin 1) v)) :
    transpose S1024x100000 [1, 0] R Facts₀.transposes_S100000x1024_S1024x100000_1_0 = Cert.Spec.G inp emb W bias :=
  out_eq_G' inp emb W bias Xv R (biasRow bias) (fun v => biasRow_apply bias 0 v) hX hR

end Cert.Bridge

end
-- ==== Proof.ValsI.lean ====
/-
  The arrays' values along @main, read off the valuations: each host operation's result is the operation's
  function of its operand, and an array an operation does not write keeps its value.
-/
import proofs.«204094_g4578435138101_retrytranche1_754_22_alg».proof.Proof.MainI
import proofs.«204094_g4578435138101_retrytranche1_754_22_alg».proof.Proof.BridgeValue

noncomputable section

namespace Cert.Proof.I

open Cert.KernelIdeal Cert.KernelIdeal.Gen

open Idealize.ShloMosaic
open Idealize.ShloMosaic.SparseCore (S V T)
open Idealize.SL Idealize.SL.Sem

variable {F : FTy → Type} [FloatOps F]
variable (m : (ℓ : Loc nD τ sig) → Buf (Elt F) ℓ) (X : (d : Dev nD) → Buf (Elt F) (v2Loc d))

theorem Iv_eq (d : Dev nD) : Iv m d = transpose S20x1024 [1, 0] (m (a0Loc d)) Facts₀.transposes_S1024x20_S20x1024_1_0 := by
  show (op1 (F := F)).result ((op0 (F := F)).result (V0 m d)) v0' = _
  rw [(op1 (F := F)).result_of_not_mem _ (show v0' ∉ ({v1'} : Finset (DevRef τ sig)) by decide)]
  exact StableHlo.unary_result _ _ _ _ _ _

theorem Tv_eq (d : Dev nD) : Tv m d = transpose S64x100000 [1, 0] (m (a1Loc d)) Facts₀.transposes_S100000x64_S64x100000_1_0 := by
  show (op1 (F := F)).result ((op0 (F := F)).result (V0 m d)) v1' = _
  rw [StableHlo.unary_result]
  rw [(op0 (F := F)).result_of_not_mem _ (show a1' ∉ ({v0'} : Finset (DevRef τ sig)) by decide)]
  rfl

theorem Vb_arg (d : Dev nD) (b : DevRef τ sig) (h0 : b ∉ ({v0'} : Finset (DevRef τ sig))) (h1 : b ∉ ({v1'} : Finset (DevRef τ sig))) (h2 : b ≠ v2') :
    Vb m X d b = V0 m d b := by
  unfold Vb Va
  rw [Function.update_of_ne h2, (op1 (F := F)).result_of_not_mem _ h1, (op0 (F := F)).result_of_not_mem _ h0]

theorem A3_eq (d : Dev nD) : Vc m X d v3' = transpose S64x100000 [1, 0] (m (a2Loc d)) Facts₀.transposes_S100000x64_S64x100000_1_0 := by
  show (op3 (F := F)).result ((op2 (F := F)).result (Vb m X d)) v3' = _
  rw [(op3 (F := F)).result_of_not_mem _ (show v3' ∉ ({v4'} : Finset (DevRef τ sig)) by decide), StableHlo.unary_result,
    Vb_arg (F := F) m X d a2' (by decide) (by decide) (by decide)]
  rfl

theorem X2_eq (d : Dev nD) : Vc m X d v2' = X d := by
  show (op3 (F := F)).result ((op2 (F := F)).result (Vb m X d)) v2' = _
  rw [(op3 (F := F)).result_of_not_mem _ (show v2' ∉ ({v4'} : Finset (DevRef τ sig)) by decide),
    (op2 (F := F)).result_of_not_mem _ (show v2' ∉ ({v3'} : Finset (DevRef τ sig)) by decide)]
  exact Function.update_self _ _ _

theorem B4_eq (d : Dev nD) : Vc m X d v4' = Cert.Bridge.biasRow (m (a3Loc d)) := by
  show (op3 (F := F)).result ((op2 (F := F)).result (Vb m X d)) v4' = _
  rw [Cert.Bridge.reshape_result_eq, (op2 (F := F)).result_of_not_mem _ (show a3' ∉ ({v3'} : Finset (DevRef τ sig)) by decide),
    Vb_arg (F := F) m X d a3' (by decide) (by decide) (by decide)]
  rfl

theorem Ve_v6 (d : Dev nD) (R : Buf (Elt F) (v5Loc d)) :
    Ve m X d R v6' = transpose S1024x100000 [1, 0] R Facts₀.transposes_S100000x1024_S1024x100000_1_0 := by
  show (op4 (F := F)).result (Vd m X d R) v6' = _
  rw [StableHlo.unary_result]
  unfold Vd
  rw [Function.update_self]

end Cert.Proof.I

end
-- ==== Proof.RefPre.lean ====
/-
  The precondition's integer part, read back.  The domain predicate is a conjunction whose last conjunct says that
  every context word, compared as a signed integer, is at least 0 and at most 99999; where the predicate is all ones
  every word therefore satisfies both bounds.
-/
import proofs.«204094_g4578435138101_retrytranche1_754_22_alg».proof.Pre_input_domain
import Idealize.ShloMosaic.Lib.ReduceAll
import Idealize.ShloMosaic.Lib.ValueIdx
import Idealize.ShloMosaic.PureOps.Ideal

namespace Cert.RefSide

open Idealize.ShloMosaic Idealize.ShloMosaic.ValueIdx

/-- Where the domain predicate holds, every context word lies in `[0, 99999]` as a signed integer. -/
theorem pre_range [Cert.Pre_input_domain.Facts] {F : FTy → Type} [FloatOps F]
    (inp : IVec Cert.Pre_input_domain.S1024x20 32) (emb W : FVec F Cert.Pre_input_domain.S100000x64 .f32)
    (bias : FVec F Cert.Pre_input_domain.S100000 .f32)
    (h : Cert.Pre_input_domain.fn (F := F) inp emb W bias = fun _ => 1#1) (b : Fin 1024) (j : Fin 20) :
    0 ≤ (inp (ix2 b j)).toInt ∧ (inp (ix2 b j)).toInt ≤ 99999 := by
  haveI : Subsingleton Cert.Pre_input_domain.S_.Idx := ⟨fun a b => funext fun d => d.elim0⟩
  have h0 := congrFun h ix0
  dsimp only [Cert.Pre_input_domain.fn, Cert.Pre_input_domain.fn_part1] at h0
  have h1 := (IntOp.andi_eq_one.1 h0).2
  have h2 := Host.reduce_andi_all _ _ _ _ _ h1 (ix2 b j)
  obtain ⟨h3, h4⟩ := IntOp.andi_eq_one.1 h2
  have h3' : IntOp.cmpi .sge (inp (ix2 b j)) 0#32 = 1#1 := h3
  have h4' : IntOp.cmpi .sle (inp (ix2 b j)) 99999#32 = 1#1 := h4
  have e0 : (0#32 : BitVec 32).toInt = 0 := by decide
  have e1 : (99999#32 : BitVec 32).toInt = 99999 := by decide
  refine ⟨?_, ?_⟩
  · have := IntOp.cmpi_sge.1 h3'
    rw [e0] at this
    exact this
  · have := IntOp.cmpi_sle.1 h4'
    rw [e1] at this
    exact this

/-- The same as bounds on the word read as a natural number: a word in that range is its own row number. -/
theorem toNat_of_range {w : BitVec 32} (h : 0 ≤ w.toInt ∧ w.toInt ≤ 99999) : w.toInt.toNat = w.toNat ∧ w.toNat < 100000 := by
  obtain ⟨h0, h1⟩ := h
  have hw : w.toNat < 2 ^ 32 := w.isLt
  rw [BitVec.toInt_eq_toNat_cond] at h0 h1 ⊢
  split at h0 <;> rename_i hc
  · rw [if_pos hc] at h1 ⊢
    omega
  · rw [if_neg hc] at h1
    omega

end Cert.RefSide
-- ==== Proof.IdxRange.lean ====
/-
  The context words after the transpose are row numbers.  The kernel's entry function transposes the array of
  context words before anything reads it; where the domain predicate holds every word of the original array lies
  between 0 and 99999, so every word of the transposed array, read as a natural number, is below the table's height.
-/
import proofs.«204094_g4578435138101_retrytranche1_754_22_alg».proof.Proof.Gen.KernelIdeal
import proofs.«204094_g4578435138101_retrytranche1_754_22_alg».proof.Proof.RefPre
import Idealize.ShloMosaic.Lib.ValueIdx
import Idealize.ShloMosaic.Lib.ValueLayout

namespace Cert.Bridge

open Cert.KernelIdeal Idealize.ShloMosaic Idealize.ShloMosaic.ValueIdx

variable [Cert.KernelIdeal.Facts]

/-- The transposed array of context words at `(j, b)` is the original at `(b, j)`. -/
theorem inpT_apply (inp : IVec S1024x20 32) (j : Fin 20) (b : Fin 1024) :
    (transpose S20x1024 [1, 0] inp Facts₀.transposes_S1024x20_S20x1024_1_0) (ix2 j b) = inp (ix2 b j) :=
  transpose_ix2_apply inp _ j b

/-- Where the domain predicate holds, every word of the transposed array is a row number. -/
theorem idxT_range [Cert.Pre_input_domain.Facts] {F : FTy → Type} [FloatOps F]
    (inp : IVec S1024x20 32) (emb W : FVec F S100000x64 .f32) (bias : FVec F S100000 .f32)
    (h : Cert.Pre_input_domain.fn (F := F) inp emb W bias = fun _ => 1#1) :
    ∀ i, ((transpose S20x1024 [1, 0] inp Facts₀.transposes_S1024x20_S20x1024_1_0) i).toNat < 100000 := by
  intro i
  obtain ⟨j, b, rfl⟩ : ∃ j b, i = ix2 j b := ⟨i 0, i 1, eq_ix2 i⟩
  rw [inpT_apply]
  exact (Cert.RefSide.toNat_of_range (Cert.RefSide.pre_range inp emb W bias h b j)).2

/-- The same of the original array. -/
theorem idx_range [Cert.Pre_input_domain.Facts] {F : FTy → Type} [FloatOps F]
    (inp : IVec S1024x20 32) (emb W : FVec F S100000x64 .f32) (bias : FVec F S100000 .f32)
    (h : Cert.Pre_input_domain.fn (F := F) inp emb W bias = fun _ => 1#1) (b : Fin 1024) (j : Fin 20) :
    (inp (ix2 b j)).toNat < 100000 :=
  (Cert.RefSide.toNat_of_range (Cert.RefSide.pre_range inp emb W bias h b j)).2

end Cert.Bridge
-- ==== Proof.RunI.lean ====
/-
  The idealized kernel's run: every weakly fair execution of the TensorCore's @main beside the SparseCores'
  sequencers and tiles terminates, faults nowhere, leaves the four arguments as they were and the result at the
  transpose of contents the projection pipeline's relation holds of.  Read at the exact instance those contents are
  the projection of the summed embeddings plus the bias: the reference's function.
-/
import proofs.«204094_g4578435138101_retrytranche1_754_22_alg».proof.Proof.TileOblI
import proofs.«204094_g4578435138101_retrytranche1_754_22_alg».proof.Proof.ValsI
import proofs.«204094_g4578435138101_retrytranche1_754_22_alg».proof.Proof.IdxRange

noncomputable section

namespace Cert.Proof.I

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-- The transposed embedding sums the SparseCore call leaves. -/
abbrev Xm (d : Dev nD) : Buf (Elt F) (v2Loc d) := Xt (Iv m) (Tv m) d

/-- What every final memory satisfies. -/
def QC : PUnit × MemSt nD τ sig (Elt F) → Prop := fun r => ∀ c : Dev nD,
  (∃ W R, FinalR m (Xm m) W c R ∧ r.2.mem (v6Loc c) = Ve m (Xm m) c R v6') ∧ r.2.mem (a0Loc c) = m (a0Loc c) ∧ r.2.mem (a1Loc c) = m (a1Loc c)
    ∧ r.2.mem (a2Loc c) = m (a2Loc c) ∧ r.2.mem (a3Loc c) = m (a3Loc c)

theorem run_main [∀ e, Nonempty (Elt F e)] (hI : ∀ d i, (Iv m d i).toNat < 100000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (Iv m) (Tv m) (Ov m) (Xm m)) facts v₀
    (fun q hq => match q with | 0 => nomatch hq)
    (fun q _ => match q with | 0 => tileObl (Iv m) (Tv m) (Ov m) hI)
    (fun q _ => match q with | 0 => SparseCore.Cfg.VecSplit.of_plain (vecSplit (Iv m) (Tv m) (Ov m) (Xm m)))
    m ρ main (G (F := F)) (FIN m (Xm m)) (u₀ (F := F)) (sep_elim_left.trans (hu₀ (Iv m) (Tv m) (Ov m) (Xm m))) (hmain m ρ (Xm m)) (fq m (Xm m)) (hfin m (Xm m)) (QC m) (fun _ h => h)

/-- The precondition bounds every context word, so every word the tiles read names a table row. -/
theorem hI_of_pre [Cert.Pre_input_domain.Facts]
    (hpre : ∀ c : Dev nD, Cert.Pre_input_domain.fn (F := F) (m (a0Loc c)) (m (a1Loc c)) (m (a2Loc c)) (m (a3Loc c)) = fun _ => 1#1) :
    ∀ d i, (Iv m d i).toNat < 100000 := by
  intro d i
  rw [Iv_eq]
  exact Cert.Bridge.idxT_range (m (a0Loc d)) (m (a1Loc d)) (m (a2Loc d)) (m (a3Loc d)) (hpre d) i

end Cert.Proof.I

end
-- ==== Proof.SetupW.lean ====
/-
  Shared vocabulary for the frame proof of the kernel as printed, at the word level: the program as a SparseCore launch
  (one vector-subcore call on two SparseCores × sixteen tiles, then one TensorCore pipeline), the ghost state
  (the launch handshakes' rounds, the pipeline's staging cells' rounds, the transfers' counters), and the
  arrays' locations.
-/
import proofs.«204094_g4578435138101_retrytranche1_754_22_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«204094_g4578435138101_retrytranche1_754_22_alg».proof.Proof.Gen.Kernel
import proofs.«204094_g4578435138101_retrytranche1_754_22_alg».proof.Proof.Gen.Kernel.Skeleton
import proofs.«204094_g4578435138101_retrytranche1_754_22_alg».proof.Proof.Gen.Kernel.Launch
import proofs.«204094_g4578435138101_retrytranche1_754_22_alg».proof.Proof.Gen.Kernel.Points

noncomputable section

namespace Cert.Proof.W

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP [FloatOps F] : Labels := Pipeline.Sig Λ₀ (Fin 1) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline cells' rounds, the transfers' counters -/

abbrev UH : Type := URounds (GSem nD τ sig) ℕ
abbrev UP : Type := URounds (GSem nD τ sig) Unit
abbrev UU : Type := (UH × UP) × Counters

def EH : Emb UH (MT nD τ sig (HIx 1) (Elt F) ℕ UU ℕ) :=
  ((Emb.inl : Emb UH (UH × UP)).trans (Emb.inl : Emb (UH × UP) UU)).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inr : Emb UP (UH × UP)).trans (Emb.inl : Emb (UH × UP) UU)).trans (uEmb (nD := nD) (sig := sig) (Ix := HIx 1) (Val := Elt F) (Name := ℕ) (U := UU) (Lvl := ℕ)).toEmb

instance EH_landsIn : (EH : Emb UH (MT nD τ sig (HIx 1) (Elt F) ℕ UU ℕ)).LandsIn (upEmb : UEmb _ (MT nD τ sig (HIx 1) (Elt F) ℕ UU ℕ)) := by unfold EH; infer_instance
instance EP_landsIn : (EP : Emb UP (MT nD τ sig (HIx 1) (Elt F) ℕ UU ℕ)).LandsIn (upEmb : UEmb _ (MT nD τ sig (HIx 1) (Elt F) ℕ UU ℕ)) := by unfold EP; infer_instance

example : CountersIn UU := inferInstance

end Cert.Proof.W

end
-- ==== Proof.RowsW.lean ====
/-
  What the SparseCore call's handshakes carry.  The call reads the transposed index array and the transposed
  table (every tile reads both whole: each gets a read share) and writes the 64 rows of the transposed
  embedding sums, two rows per tile: tile `s` of SparseCore `c` owns rows `4 s + 2 c` and `4 s + 2 c + 1`.
  The sixty-four rows tile the array, so the array whole is the separating conjunction of its rows, regrouped
  by SparseCore, tile and row-in-tile.
-/
import proofs.«204094_g4578435138101_retrytranche1_754_22_alg».proof.Proof.SetupW

noncomputable section

namespace Cert.Proof.W

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => MT nD τ sig (HIx 1) (Elt F) ℕ UU ℕ

/-! ## Locations -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5
abbrev v6Loc (d : Dev nD) : Loc nD τ sig := (SparseCore.T d).loc main_v6

/-! ## The rows of the transposed embedding sums -/

theorem hdiv64 : 64 ∣ S64x1024.size 0 := ⟨1, rfl⟩
abbrev row (r : Fin 64) : Rect S64x1024 := Rect.part (s := S64x1024) (a₀ := 0) hdiv64 r
abbrev rowSet (r : Fin 64) : Finset S64x1024.Idx := ((Memref.whole main_v2_scv : Memref sig .scVector .hbm S64x1024 .f32).view.slice (row r)).set

/-- The row tile `i` of SparseCore `c` writes on its `k`-th pass. -/
def rowIx (c : Fin 2) (i : Fin 16) (k : Fin 2) : Fin 64 := ⟨4 * i.val + 2 * c.val + k.val, by omega⟩

theorem rowSet_eq (r : Fin 64) : rowSet r = (row r).set := by
  show ((View.whole (main_v2_scv : Ref sig .scVector)).slice (row r)).set = _
  rw [View.set_slice]; exact Finset.map_refl

theorem rowIx_inj : ∀ t t' : Fin 2 × Fin 16 × Fin 2, t ≠ t' → rowIx t.1 t.2.1 t.2.2 ≠ rowIx t'.1 t'.2.1 t'.2.2 := by
  rintro ⟨c, i, k⟩ ⟨c', i', k'⟩ h e
  apply h
  have e' : 4 * i.val + 2 * c.val + k.val = 4 * i'.val + 2 * c'.val + k'.val := congrArg Fin.val e
  have hc := c.isLt; have hc' := c'.isLt; have hk := k.isLt; have hk' := k'.isLt
  have h1 : i.val = i'.val := by omega
  have h2 : c.val = c'.val := by omega
  have h3 : k.val = k'.val := by omega
  exact Prod.ext (Fin.ext h2) (Prod.ext (Fin.ext h1) (Fin.ext h3))

theorem rowIx_surj (r : Fin 64) : ∃ t : Fin 2 × Fin 16 × Fin 2, rowIx t.1 t.2.1 t.2.2 = r :=
  ⟨(⟨(r.val % 4) / 2, by omega⟩, ⟨r.val / 4, by omega⟩, ⟨r.val % 2, by omega⟩), Fin.ext (by show 4 * (r.val / 4) + 2 * ((r.val % 4) / 2) + r.val % 2 = r.val; omega)⟩

theorem rows_disjoint : ∀ t ∈ (Finset.univ : Finset (Fin 2 × Fin 16 × Fin 2)), ∀ t' ∈ (Finset.univ : Finset (Fin 2 × Fin 16 × Fin 2)), t ≠ t' →
    Disjoint (rowSet (rowIx t.1 t.2.1 t.2.2)) (rowSet (rowIx t'.1 t'.2.1 t'.2.2)) :=
  fun t _ t' _ h => by rw [rowSet_eq, rowSet_eq]; exact Rect.part_disjoint hdiv64 (rowIx_inj t t' h)

theorem rows_cover : (Finset.univ : Finset (Fin 2 × Fin 16 × Fin 2)).biUnion (fun t => rowSet (rowIx t.1 t.2.1 t.2.2)) = Finset.univ := by
  apply Finset.eq_univ_of_forall
  intro x
  have hx : x ∈ (Finset.univ : Finset (Fin 64)).biUnion fun r => (row r).set := by rw [Rect.biUnion_part hdiv64]; exact Finset.mem_univ x
  obtain ⟨r, -, hr⟩ := Finset.mem_biUnion.mp hx
  obtain ⟨t, ht⟩ := rowIx_surj r
  exact Finset.mem_biUnion.mpr ⟨t, Finset.mem_univ t, by rw [ht, rowSet_eq]; exact hr⟩

/-- The array whole is its sixty-four rows, grouped by SparseCore, tile and pass. -/
theorem v2_rows (d : Dev nD) (f : Buf (Elt F) (v2Loc d)) :
    (v2Loc d ↦{fullShare} f : sProp 𝕄)
      = bigSep Finset.univ fun c : Fin 2 => bigSep Finset.univ fun i : Fin 16 => bigSep Finset.univ fun k : Fin 2 =>
          v2Loc d ↦[rowSet (rowIx c i k)]{fullShare} f := by
  rw [show (v2Loc d ↦{fullShare} f : sProp 𝕄) = (v2Loc d ↦[(Finset.univ : Finset (Fin 2 × Fin 16 × Fin 2)).biUnion (fun t => rowSet (rowIx t.1 t.2.1 t.2.2))]{fullShare} f) from by rw [rows_cover],
    pointsTo_biUnion Finset.univ (ℓ := v2Loc d) (fun t : Fin 2 × Fin 16 × Fin 2 => rowSet (rowIx t.1 t.2.1 t.2.2)) rows_disjoint,
    bigSep_univ_prod]
  exact bigSep_congr fun c _ => bigSep_univ_prod _

end Cert.Proof.W

end
-- ==== Proof.PayW.lean ====
/-
  What the SparseCore call's handshakes carry: each SparseCore a read share of the transposed index array and of
  the transposed table and the thirty-two rows of the output its tiles write; each tile a read share of both inputs
  and its own two rows.  Before the call the rows hold whatever the output array held; after it, the one
  whole-array function `X` the tiles compute.
-/
import proofs.«204094_g4578435138101_retrytranche1_754_22_alg».proof.Proof.RowsW

noncomputable section

namespace Cert.Proof.W

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => MT nD τ sig (HIx 1) (Elt F) ℕ UU ℕ

variable (I : (d : Dev nD) → Buf (Elt F) (v0Loc d)) (Tb : (d : Dev nD) → Buf (Elt F) (v1Loc d))
  (O X : (d : Dev nD) → Buf (Elt F) (v2Loc d))

/-- SparseCore `c`'s read share of an input, and tile `i`'s share of that. -/
abbrev tok2 (c : Fin 2) : PosShare TreeShare := shareTok fullShare 2 c
abbrev tok16 (c : Fin 2) (i : Fin 16) : PosShare TreeShare := shareTok (tok2 c) 16 i

/-- A tile's two rows of the output, at `f`. -/
def rows2 (d : Dev nD) (c : Fin 2) (i : Fin 16) (f : Buf (Elt F) (v2Loc d)) : sProp 𝕄 :=
  iprop((v2Loc d ↦[rowSet (rowIx c i 0)]{fullShare} f) ∗ (v2Loc d ↦[rowSet (rowIx c i 1)]{fullShare} f))

/-- What SparseCore `c` is handed: its shares of the inputs and its tiles' rows at `f`. -/
def coreRes (d : Dev nD) (c : Fin 2) (f : Buf (Elt F) (v2Loc d)) : sProp 𝕄 :=
  iprop((v0Loc d ↦{tok2 c} I d) ∗ (v1Loc d ↦{tok2 c} Tb d) ∗ bigSep Finset.univ fun i : Fin 16 => rows2 d c i f)

/-- What tile `i` of SparseCore `c` is handed. -/
def tileRes (d : Dev nD) (c : Fin 2) (i : Fin 16) (f : Buf (Elt F) (v2Loc d)) : sProp 𝕄 :=
  iprop((v0Loc d ↦{tok16 c i} I d) ∗ (v1Loc d ↦{tok16 c i} Tb d) ∗ rows2 d c i f)

def P : (K (F := F)).Pay (nD := nD) (Val := Elt F) (Name := ℕ) (U := UU) where
  st := fun q d c => match q with | 0 => coreRes I Tb d (Fin.cast nCore_zero c) (O d)
  dn := fun q d c => match q with | 0 => coreRes I Tb d (Fin.cast nCore_zero c) (X d)
  go := fun q d c i => match q with | 0 => tileRes I Tb d (Fin.cast nCore_zero c) (Fin.cast nSub_zero i) (O d)
  td := fun q d c i => match q with | 0 => tileRes I Tb d (Fin.cast nCore_zero c) (Fin.cast nSub_zero i) (X d)
  x := fun _ _ => iprop(emp)

instance rows2_storable (d : Dev nD) (c : Fin 2) (i : Fin 16) (f : Buf (Elt F) (v2Loc d)) : BI.Storable (upEmb : UEmb _ 𝕄) (rows2 d c i f) := by
  unfold rows2; infer_instance
instance coreRes_storable (d : Dev nD) (c : Fin 2) (f : Buf (Elt F) (v2Loc d)) : BI.Storable (upEmb : UEmb _ 𝕄) (coreRes I Tb d c f) := by
  unfold coreRes; infer_instance
instance tileRes_storable (d : Dev nD) (c : Fin 2) (i : Fin 16) (f : Buf (Elt F) (v2Loc d)) : BI.Storable (upEmb : UEmb _ 𝕄) (tileRes I Tb d c i f) := by
  unfold tileRes; infer_instance

instance P_storable : (P I Tb O X).IsStorable where
  st q d c := match q with | 0 => (inferInstance : BI.Storable (upEmb : UEmb _ 𝕄) (coreRes I Tb d (Fin.cast nCore_zero c) (O d)))
  dn q d c := match q with | 0 => (inferInstance : BI.Storable (upEmb : UEmb _ 𝕄) (coreRes I Tb d (Fin.cast nCore_zero c) (X d)))
  go q d c i := match q with | 0 => (inferInstance : BI.Storable (upEmb : UEmb _ 𝕄) (tileRes I Tb d (Fin.cast nCore_zero c) (Fin.cast nSub_zero i) (O d)))
  td q d c i := match q with | 0 => (inferInstance : BI.Storable (upEmb : UEmb _ 𝕄) (tileRes I Tb d (Fin.cast nCore_zero c) (Fin.cast nSub_zero i) (X d)))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's holdings split into its tiles', and the tiles' results gather into its own. -/
theorem vecSplit : (K (F := F)).VecSplit' (P I Tb O X) 0 := by
  intro d c
  show coreRes I Tb d (Fin.cast nCore_zero c) (O d) ⊢ |={Set.univ}=> iprop(
      (bigSep Finset.univ fun i : Fin ((K (F := F)).nSub 0) => tileRes I Tb d (Fin.cast nCore_zero c) (Fin.cast nSub_zero i) (O d))
      ∗ ((bigSep Finset.univ fun i : Fin ((K (F := F)).nSub 0) => tileRes I Tb d (Fin.cast nCore_zero c) (Fin.cast nSub_zero i) (X d))
          -∗ coreRes I Tb d (Fin.cast nCore_zero c) (X d)))
  generalize (Fin.cast nCore_zero c) = c'
  rw [bigSep_tasks (F := F) (fun i => tileRes I Tb d c' i (O d)), bigSep_tasks (F := F) (fun i => tileRes I Tb d c' i (X d))]
  unfold coreRes tileRes
  rw [bigSep_sep', bigSep_sep', bigSep_sep', bigSep_sep']
  iintro ⟨H0, H1, Hr⟩
  ihave H0' := (pointsTo_toks_split (tok2 c') 16) $$ H0
  ihave H1' := (pointsTo_toks_split (tok2 c') 16) $$ H1
  icases H0' with ⟨H0d, H0t⟩
  icases H1' with ⟨H1d, H1t⟩
  imodintro
  isplitl [H0t H1t Hr]
  · isplitl [H0t]; · iexact H0t
    isplitl [H1t]; · iexact H1t
    iexact Hr
  iintro ⟨H0t, H1t, Hr⟩
  isplitl [H0d H0t]
  · iapply (pointsTo_toks_join (tok2 c') 16); isplitl [H0d] <;> iassumption
  isplitl [H1d H1t]
  · iapply (pointsTo_toks_join (tok2 c') 16); isplitl [H1d] <;> iassumption
  iexact Hr

end Cert.Proof.W

end
-- ==== Proof.TileWord.lean ====
/-
  The vector-subcore kernel's task, once, at a symbolic tile.

  The kernel runs on two SparseCores of sixteen vector subcores each; the subcore at core `c`, subcore `s` has the
  number `wid = 2·s + c` and computes rows `2·wid` and `2·wid + 1` of the result.  It first fetches the whole index
  array (twenty rows of 1024 words) into its index scratch.  Then, for each of its two rows `r`: it fetches row `r` of
  the transposed table (100000 entries) into its row scratch; in sixty-four trips, trip `k` loads for each of the
  twenty index rows `j` the sixteen words at columns `16k … 16k+15`, which must name entries of the row (they do:
  every word of the index array is below 100000), reads the row scratch at those sixteen words, adds the twenty
  vectors of sixteen from the left and stores the sum at columns `16k … 16k+15` of its result scratch; and it
  writes the result scratch out as row `r` of the result.  Each copy is waited for, on a semaphore of its own,
  before anything touches either of its ends, so no two accesses race.

  `XT I Tb` is the result as ONE function of the index array `I` and the transposed table `Tb`: entry `(r, b)` is
  the left-to-right sum over `j = 0 … 19` of `Tb (r, I (j, b))`, a word read modulo the row length so that the
  definition is total.  `tile_body`: holding read shares of the two input arrays whole, its two rows of the result,
  and its own scratch buffers and semaphores, the subcore's task terminates with the two rows at `XT I Tb` and
  everything else as it was.  The loop invariant carries the value: before trip `k` the result scratch holds the
  row's sums below column `16k`.  `set_oRow0` / `set_oRow1`: the two rows' element sets are rows
  `4·s + 2·c` and `4·s + 2·c + 1` of the cut of the result into its sixty-four rows.
-/
import proofs.«204094_g4578435138101_retrytranche1_754_22_alg».proof.Proof.Gen.Kernel
import proofs.«204094_g4578435138101_retrytranche1_754_22_alg».proof.Proof.Gen.Kernel.Skeleton
import Idealize.ShloMosaic.Lib.Pipeline.Value
import Idealize.ShloMosaic.Lib.Writes
import Idealize.ShloMosaic.Lib.SparseCore.Launch
import Idealize.ShloMosaic.Lib.SparseCore.Ops
import Idealize.ShloMosaic.Lib.Pipeline.Kit
import Idealize.ShloMosaic.Lib.ValueIdx
import Idealize.ShloMosaic.Lib.Tactic

noncomputable section

namespace Cert.Proof.TileW

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {U : Type} [URA U] [CountersIn U]

local notation "𝕄" => MT nD τ sig (HIx 1) (Elt F) ℕ U ℕ

/-! ## The tile, its arrays and the value it leaves -/

/-- The program's SparseCore configuration and the (empty) variants, as the launch theorem names them. -/
abbrev K : SparseCore.Cfg τ sig (Pipeline.Sig Λ₀ (Fin 1) fun p => (pcfgs (F := F) p).Adm) 1 := sc (F := F)
abbrev 𝒱₀ : Variants := Variants.none

/-- The vector subcore at grid point `L` of device `d`. -/
abbrev thr (d : Dev nD) (L : grid0.Coords) : Thread nD τ := V d ((L 0).castLE hcore0) ((L 1).castLE hsub0)

-- the kernel's memrefs, spelt as the body table passes them
local notation "idxW" => (Memref.whole Cert.Kernel.main_v0_scv : Memref Cert.Kernel.sig Kind.scVector Space.hbm Cert.Kernel.S20x1024 EltTy.i32)
local notation "tabW" => (Memref.whole Cert.Kernel.main_v1_scv : Memref Cert.Kernel.sig Kind.scVector Space.hbm Cert.Kernel.S64x100000 EltTy.f32)
local notation "outW" => (Memref.whole Cert.Kernel.main_v2_scv : Memref Cert.Kernel.sig Kind.scVector Space.hbm Cert.Kernel.S64x1024 EltTy.f32)
local notation "sIdx" => (Memref.whole Cert.Kernel.cc0_scratch0 : Memref Cert.Kernel.sig Kind.scVector Space.vmem Cert.Kernel.S20x1024 EltTy.i32)
local notation "sRow" => (Memref.whole Cert.Kernel.cc0_scratch1 : Memref Cert.Kernel.sig Kind.scVector Space.vmem Cert.Kernel.S100000 EltTy.f32)
local notation "sOut" => (Memref.whole Cert.Kernel.cc0_scratch2 : Memref Cert.Kernel.sig Kind.scVector Space.vmem Cert.Kernel.S1024 EltTy.f32)

/-- Row `2·wid` of the result, as the kernel slices it for its first write-out (`wid = 2·s + c`). -/
abbrev oRow0 (L : grid0.Coords) : Memref sig .scVector .hbm S1024 .f32 :=
  ((outW).slice (Rect.unit (s := S64x1024) (k0_off23 L 0#32) S1x1024.size (k0_off23_inb L 0)) (fun _ => rfl)).squeeze S1024 squeezes_S1x1024_S1024
/-- Row `2·wid + 1` of the result, as the kernel slices it for its second write-out. -/
abbrev oRow1 (L : grid0.Coords) : Memref sig .scVector .hbm S1024 .f32 :=
  ((outW).slice (Rect.unit (s := S64x1024) (k0_off23 L 1#32) S1x1024.size (k0_off23_inb L 1)) (fun _ => rfl)).squeeze S1024 squeezes_S1x1024_S1024
/-- Row `2·wid` of the transposed table, as the kernel slices it for its first fetch. -/
abbrev tRow0 (L : grid0.Coords) : Memref sig .scVector .hbm S100000 .f32 :=
  ((tabW).slice (Rect.unit (s := S64x100000) (k0_off1 L 0#32) S1x100000.size (k0_off1_inb L 0)) (fun _ => rfl)).squeeze S100000 squeezes_S1x100000_S100000
/-- Row `2·wid + 1` of the transposed table, as the kernel slices it for its second fetch. -/
abbrev tRow1 (L : grid0.Coords) : Memref sig .scVector .hbm S100000 .f32 :=
  ((tabW).slice (Rect.unit (s := S64x100000) (k0_off1 L 1#32) S1x100000.size (k0_off1_inb L 1)) (fun _ => rfl)).squeeze S100000 squeezes_S1x100000_S100000

/-- The table entry context word `j` of batch column `b` names in table row `r`: the word's 32 bits as a natural
    number, reduced modulo the row's length so that the definition is total. -/
def gat (I : IVec S20x1024 32) (Tb : FVec F S64x100000 .f32) (r : Fin 64) (b : Fin 1024) (j : Fin 20) : F .f32 :=
  Tb (ix2 r ⟨(I (ix2 j b)).toNat % 100000, Nat.mod_lt _ (by norm_num)⟩)

/-- The twenty entries added up from the left, as the kernel adds them. -/
def chain20 (g : Fin 20 → F .f32) : F .f32 :=
  FloatOps.addf (FloatOps.addf (FloatOps.addf (FloatOps.addf (FloatOps.addf (FloatOps.addf (FloatOps.addf (FloatOps.addf (FloatOps.addf (FloatOps.addf
  (FloatOps.addf (FloatOps.addf (FloatOps.addf (FloatOps.addf (FloatOps.addf (FloatOps.addf (FloatOps.addf (FloatOps.addf (FloatOps.addf
    (g 0) (g 1)) (g 2)) (g 3)) (g 4)) (g 5)) (g 6)) (g 7)) (g 8)) (g 9)) (g 10)) (g 11)) (g 12)) (g 13)) (g 14)) (g 15)) (g 16)) (g 17)) (g 18)) (g 19)

/-- The kernel's result as ONE function of the index array and the transposed table: entry `(r, b)` is the
    left-to-right sum over the twenty context words of batch column `b` of the entries they name in table row `r`. -/
def XT (I : IVec S20x1024 32) (Tb : FVec F S64x100000 .f32) : FVec F S64x1024 .f32 :=
  fun i => chain20 (gat I Tb (i 0) (i 1))

/-! ## The two output rows are rows of the result -/

theorem hdiv64 : 64 ∣ S64x1024.size 0 := ⟨1, rfl⟩

theorem rowIx_lt (L : grid0.Coords) (r : Fin 2) : 4 * (L 1).val + 2 * (L 0).val + r.val < 64 := by
  have h0 : (L 0).val < 2 := (L 0).isLt
  have h1 : (L 1).val < 16 := (L 1).isLt
  have h2 := r.isLt
  omega

/-- The row of the result the tile at `L` writes on its pass `r`: `2·wid + r`, `wid = 2·s + c`. -/
abbrev rowIx (L : grid0.Coords) (r : Fin 2) : Fin 64 := ⟨4 * (L 1).val + 2 * (L 0).val + r.val, rowIx_lt L r⟩

/-- The rectangle the kernel slices for its write-out on pass `r` is row `rowIx L r` of the cut of the result into its
    sixty-four rows. -/
theorem rect_oRow (L : grid0.Coords) (r : Fin 2) :
    Rect.unit (s := S64x1024) (k0_off23 L (BitVec.ofNat 32 r.val)) S1x1024.size (k0_off23_inb L r)
      = Rect.part (s := S64x1024) (a₀ := 0) hdiv64 (rowIx L r) := by
  unfold Rect.part Rect.block
  congr 1 <;> funext a
  · rw [k0_off23_eq]
    match a with
    | 0 => simp [Shape.partIx, Shape.partSize]
    | 1 => simp [Shape.partIx, Shape.partSize]
  · match a with
    | 0 => simp [Shape.partSize]
    | 1 => simp [Shape.partSize]

theorem set_oRow0 (L : grid0.Coords) :
    (oRow0 L).view.set = ((outW).view.slice (Rect.part (s := S64x1024) (a₀ := 0) hdiv64 (rowIx L 0))).set := by
  show (((outW).view.slice (Rect.unit (s := S64x1024) (k0_off23 L 0#32) S1x1024.size (k0_off23_inb L 0))).reshape S1024
    squeezes_S1x1024_S1024.numel_eq).set = _
  rw [View.set_reshape]
  exact rect_oRow L 0 ▸ rfl

theorem set_oRow1 (L : grid0.Coords) :
    (oRow1 L).view.set = ((outW).view.slice (Rect.part (s := S64x1024) (a₀ := 0) hdiv64 (rowIx L 1))).set := by
  show (((outW).view.slice (Rect.unit (s := S64x1024) (k0_off23 L 1#32) S1x1024.size (k0_off23_inb L 1))).reshape S1024
    squeezes_S1x1024_S1024.numel_eq).set = _
  rw [View.set_reshape]
  exact rect_oRow L 1 ▸ rfl

/-- Sixteen words read from the index scratch at any rectangle are words of `I`, hence in range of a table row. -/
theorem chk_read (I : IVec S20x1024 32) (hI : ∀ i, (I i).toNat < 100000) (off : Fin 2 → Nat)
    (inb : ∀ a, off a + (![1, 16] : Fin 2 → Nat) a ≤ S20x1024.size a) :
    ∀ a x, ((![shapeCast S16 (View.readAt (Elt F) (sIdx).view (Rect.unit (s := S20x1024) off ![1, 16] inb).toLoadRect I) shapeCasts_S1x16_S16]
      : Fin 1 → IVec S16 32) a x).toNat < S100000.size a := by
  intro a x
  obtain rfl : a = 0 := Subsingleton.elim _ _
  show (shapeCast S16 (View.readAt (Elt F) (sIdx).view (Rect.unit (s := S20x1024) off ![1, 16] inb).toLoadRect I) shapeCasts_S1x16_S16 x).toNat < 100000
  unfold shapeCast
  rw [View.readAt_apply]
  exact hI _

/-! ## Reading what a trip loads and stores -/

/-- Lane `c` of a one-row block of sixteen and lane `c` of a vector of sixteen sit at the same row-major position. -/
theorem rm16 : ∀ c : Fin 16, ((S1x16).rowMajor (ix2 (0 : Fin 1) c)).val = ((S16).rowMajor (ix1 c)).val := by decide

/-- Sixteen words loaded from the index scratch at row `j`, columns `c …`: lane `x` is the array's word at `(j, c + x)`. -/
theorem lane_idx (I : IVec S20x1024 32) (off : Fin 2 → Nat) (inb : ∀ a, off a + (![1, 16] : Fin 2 → Nat) a ≤ S20x1024.size a)
    (j : Fin 20) (c : Nat) (hoff : off = ![j.val, c]) (x : Fin 16) (hc : c + x.val < 1024) :
    shapeCast S16 (View.readAt (Elt F) (sIdx).view (Rect.unit (s := S20x1024) off ![1, 16] inb).toLoadRect I) shapeCasts_S1x16_S16 (ix1 x)
      = I (ix2 j ⟨c + x.val, hc⟩) := by
  subst hoff
  rw [shapeCast_apply _ _ (ix1 x) (ix2 (0 : Fin 1) x) (rm16 x), View.readAt_apply]
  show I _ = I _
  congr 1
  funext a
  match a with
  | ⟨0, _⟩ => exact Fin.ext (by simp [LoadRect.idx_apply])
  | ⟨1, _⟩ => exact Fin.ext (by simp [LoadRect.idx_apply])

/-- The entry an indexed load of the row scratch reads at lane `x`, the index words those loaded from row `j` of the
    index scratch: the row's entry the word at `(j, c + x)` names. -/
theorem gather_lane (I : IVec S20x1024 32) (hI : ∀ i, (I i).toNat < 100000) (fR : FVec F S100000 .f32) (off : Fin 2 → Nat)
    (inb : ∀ a, off a + (![1, 16] : Fin 2 → Nat) a ≤ S20x1024.size a) (h)
    (j : Fin 20) (c : Nat) (hoff : off = ![j.val, c]) (x : Fin 16) (hc : c + x.val < 1024) :
    loadIdx (View.readAt (Elt F) (sRow).view (LoadRect.whole S100000) fR)
        ![shapeCast S16 (View.readAt (Elt F) (sIdx).view (Rect.unit (s := S20x1024) off ![1, 16] inb).toLoadRect I) shapeCasts_S1x16_S16] h (ix1 x)
      = fR (ix1 ⟨(I (ix2 j ⟨c + x.val, hc⟩)).toNat % 100000, Nat.mod_lt _ (by norm_num)⟩) := by
  unfold loadIdx
  rw [View.readAt_apply]
  show fR _ = fR _
  congr 1
  funext (a : Fin 1)
  obtain rfl : a = 0 := Subsingleton.elim _ _
  apply Fin.ext
  have e := lane_idx (F := F) I off inb j c hoff x hc
  simp only [LoadRect.idx_apply]
  show _ = (I (ix2 j ⟨c + x.val, hc⟩)).toNat % 100000
  rw [Nat.mod_eq_of_lt (hI _), ← e]
  show (0 : Nat) + 1 * _ = _
  rw [Nat.zero_add, Nat.one_mul]
  rfl

/-- Entry `b` of the row a tile is summing, from the row `fR` held in its scratch: the left-to-right sum of the row's
    entries that the twenty context words of batch column `b` name. -/
def rowVal (I : IVec S20x1024 32) (fR : FVec F S100000 .f32) (b : Fin 1024) : F .f32 :=
  chain20 fun j => fR (ix1 ⟨(I (ix2 j b)).toNat % 100000, Nat.mod_lt _ (by norm_num)⟩)

/-- The result scratch is finished below column `n`. -/
def Done (I : IVec S20x1024 32) (fR : FVec F S100000 .f32) (n : Nat) (g : FVec F S1024 .f32) : Prop :=
  ∀ b : Fin 1024, b.val < n → g (ix1 b) = rowVal I fR b

/-- A trip's store of sixteen finished entries at columns `c …` extends the finished part by sixteen. -/
theorem done_step (I : IVec S20x1024 32) (fR : FVec F S100000 .f32) (g : FVec F S1024 .f32) (off : Fin 1 → Nat)
    (inb : ∀ a, off a + (![16] : Fin 1 → Nat) a ≤ S1024.size a) (w : S16.Idx → F .f32) (c n' : Nat) (hoff : off = ![c]) (hc : c + 16 ≤ 1024)
    (hn : n' = c + 16) (hg : Done I fR c g) (hw : ∀ x : Fin 16, w (ix1 x) = rowVal I fR ⟨c + x.val, by omega⟩) :
    Done I fR n' ((sOut).view.writes (Elt F) g [⟨Rect.unit (s := S1024) off ![16] inb, w⟩]) := by
  subst hoff hn
  intro b hb
  by_cases hlt : b.val < c
  · have h1 := View.read_writes_apply_of_forall_not_mem (Val := Elt F) (sOut).view g (ix1 b) [⟨Rect.unit (s := S1024) ![c] ![16] inb, w⟩] (by
      intro p hp
      rw [List.mem_singleton] at hp
      subst hp
      rw [Rect.mem_set_unit]
      intro h
      have h0 : c ≤ b.val := (h 0).1
      omega)
    exact h1.trans (hg b hlt)
  · have hx : b.val - c < 16 := by omega
    have e : (ix1 b : S1024.Idx) = (Rect.unit (s := S1024) ![c] ![16] inb).emb (ix1 ⟨b.val - c, hx⟩) := by
      funext (a : Fin 1)
      obtain rfl : a = 0 := Subsingleton.elim _ _
      apply Fin.ext
      show b.val = c + 1 * (b.val - c)
      omega
    have h2 := View.read_writes_cons_emb (Val := Elt F) (sOut).view g (Rect.unit (s := S1024) ![c] ![16] inb) w [] (ix1 ⟨b.val - c, hx⟩)
    rw [← e] at h2
    refine h2.trans ((hw _).trans ?_)
    congr 1
    apply Fin.ext
    show c + (b.val - c) = b.val
    omega

/-! ## The fetched row and the written row, by coordinates -/

/-- A vector of `n` entries seen as a one-row block: entry `v` sits at `(0, v)`. -/
theorem reshape_row {n : Nat} (h : (⟨1, ![n]⟩ : Shape).numel = (⟨2, ![1, n]⟩ : Shape).numel) (v : Fin n) :
    Shape.reshapeEquiv (s' := ⟨1, ![n]⟩) (s := ⟨2, ![1, n]⟩) h (ix1 v) = ix2 (0 : Fin 1) v :=
  Shape.reshapeEquiv_eq_of_rowMajor h (by
    rw [Shape.rowMajor_val_two, Shape.rowMajor_val_one]
    show (0 : Nat) * n + v.val = v.val
    omega)

/-- Where entry `v` of the table row fetched on pass `r` lies in the transposed table: row `rowIx L r`, column `v`. -/
theorem tRow_emb (L : grid0.Coords) (r : Fin 2) (v : Fin 100000) :
    (Rect.unit (s := S64x100000) (k0_off1 L (BitVec.ofNat 32 r.val)) S1x100000.size (k0_off1_inb L r)).emb
        (Shape.reshapeEquiv (s' := S100000) (s := S1x100000) squeezes_S1x100000_S100000.numel_eq (ix1 v))
      = ix2 (rowIx L r) v := by
  rw [reshape_row]
  funext a
  match a with
  | ⟨0, h0⟩ => exact Fin.ext (by
      have e : k0_off1 L (BitVec.ofNat 32 r.val) ⟨0, h0⟩ = 4 * (L 1).val + 2 * (L 0).val + r.val := congrFun (k0_off1_eq L r) ⟨0, h0⟩
      show k0_off1 L (BitVec.ofNat 32 r.val) ⟨0, h0⟩ + 1 * 0 = 4 * (L 1).val + 2 * (L 0).val + r.val
      omega)
  | ⟨1, h1⟩ => exact Fin.ext (by
      have e : k0_off1 L (BitVec.ofNat 32 r.val) ⟨1, h1⟩ = 0 := congrFun (k0_off1_eq L r) ⟨1, h1⟩
      show k0_off1 L (BitVec.ofNat 32 r.val) ⟨1, h1⟩ + 1 * v.val = v.val
      omega)

/-- Where column `b` of the row written out on pass `r` lies in the result: row `rowIx L r`, column `b`. -/
theorem oRow_emb (L : grid0.Coords) (r : Fin 2) (b : Fin 1024) :
    (Rect.unit (s := S64x1024) (k0_off23 L (BitVec.ofNat 32 r.val)) S1x1024.size (k0_off23_inb L r)).emb
        (Shape.reshapeEquiv (s' := S1024) (s := S1x1024) squeezes_S1x1024_S1024.numel_eq (ix1 b))
      = ix2 (rowIx L r) b := by
  rw [reshape_row]
  funext a
  match a with
  | ⟨0, h0⟩ => exact Fin.ext (by
      have e : k0_off23 L (BitVec.ofNat 32 r.val) ⟨0, h0⟩ = 4 * (L 1).val + 2 * (L 0).val + r.val := congrFun (k0_off23_eq L r) ⟨0, h0⟩
      show k0_off23 L (BitVec.ofNat 32 r.val) ⟨0, h0⟩ + 1 * 0 = 4 * (L 1).val + 2 * (L 0).val + r.val
      omega)
  | ⟨1, h1⟩ => exact Fin.ext (by
      have e : k0_off23 L (BitVec.ofNat 32 r.val) ⟨1, h1⟩ = 0 := congrFun (k0_off23_eq L r) ⟨1, h1⟩
      show k0_off23 L (BitVec.ofNat 32 r.val) ⟨1, h1⟩ + 1 * b.val = b.val
      omega)

/-- The table row fetched on the first pass, read at entry `v`. -/
theorem tRow0_read (L : grid0.Coords) (Tb : FVec F S64x100000 .f32) (v : Fin 100000) :
    (tRow0 L).view.read (Elt F) Tb (ix1 v) = Tb (ix2 (rowIx L 0) v) :=
  ((View.read_apply (v := (tRow0 L).view) (Val := Elt F) Tb (ix1 v)).trans (cast_eq _ _)).trans (congrArg Tb (tRow_emb L 0 v))
/-- The table row fetched on the second pass, read at entry `v`. -/
theorem tRow1_read (L : grid0.Coords) (Tb : FVec F S64x100000 .f32) (v : Fin 100000) :
    (tRow1 L).view.read (Elt F) Tb (ix1 v) = Tb (ix2 (rowIx L 1) v) :=
  ((View.read_apply (v := (tRow1 L).view) (Val := Elt F) Tb (ix1 v)).trans (cast_eq _ _)).trans (congrArg Tb (tRow_emb L 1 v))

/-- A finished result scratch, for the table row `rowIx L r`, is that row of `XT`. -/
theorem done_XT (L : grid0.Coords) (r : Fin 2) (I : IVec S20x1024 32) (Tb : FVec F S64x100000 .f32) (fR : FVec F S100000 .f32)
    (hfR : ∀ v : Fin 100000, fR (ix1 v) = Tb (ix2 (rowIx L r) v)) (b : Fin 1024) :
    rowVal I fR b = XT I Tb (ix2 (rowIx L r) b) := by
  unfold rowVal XT gat
  simp only [hfR]

/-- The output row of pass `r`, spelt over the pass number. -/
abbrev oRowR (L : grid0.Coords) (r : Fin 2) : Memref sig .scVector .hbm S1024 .f32 :=
  ((outW).slice (Rect.unit (s := S64x1024) (k0_off23 L (BitVec.ofNat 32 r.val)) S1x1024.size (k0_off23_inb L r)) (fun _ => rfl)).squeeze S1024
    squeezes_S1x1024_S1024

theorem trips1 : Scf.trips k0_t1_loop.lb k0_t1_loop.ub k0_t1_loop.st = 64 := by decide
theorem trips2 : Scf.trips k0_t2_loop.lb k0_t2_loop.ub k0_t2_loop.st = 64 := by decide

/-- A finished result scratch written out whole over the output row of pass `r`: on that row's elements the result holds
    `XT`, whatever it held before. -/
theorem oRow_final (L : grid0.Coords) (r : Fin 2) (I : IVec S20x1024 32) (Tb : FVec F S64x100000 .f32) (fR : FVec F S100000 .f32)
    (hfR : ∀ v : Fin 100000, fR (ix1 v) = Tb (ix2 (rowIx L r) v)) (g : FVec F S1024 .f32) (n : Nat) (hn : n = 1024) (hg : Done I fR n g)
    (junk : (oRowR L r).view.ty.Contents (Elt F)) :
    ∀ i ∈ (oRowR L r).view.set, (oRowR L r).view.writes (Elt F) junk [⟨Rect.whole S1024, g⟩] i = XT I Tb i := by
  subst hn
  intro i hi
  obtain ⟨x, -, rfl⟩ := Finset.mem_map.mp hi
  obtain ⟨b, rfl⟩ : ∃ b, x = ix1 b := ⟨x 0, eq_ix1 x⟩
  have hwx : (Rect.whole S1024).emb (ix1 b) = ix1 b := by
    funext (a : Fin 1)
    obtain rfl : a = 0 := Subsingleton.elim _ _
    apply Fin.ext
    show 0 + 1 * b.val = b.val
    omega
  have h1 := View.read_writes_cons_emb (Val := Elt F) (oRowR L r).view junk (Rect.whole S1024) g [] (ix1 b)
  rw [hwx, View.read_apply, cast_eq] at h1
  rw [h1, hg b b.isLt, done_XT L r I Tb fR hfR b]
  congr 1
  exact (oRow_emb L r b).symm

/-! ## A row's loop -/

/-- Before trip `k` of a row's loop: the index scratch holds the index array, the row scratch the table row `fR`, and the
    result scratch is finished below column `16k`. -/
def inv1 (L : grid0.Coords) (d : Dev nD) (I : IVec S20x1024 32) (fR : FVec F S100000 .f32) (k : Nat) (_ : Unit) : sProp 𝕄 :=
  iprop(((sIdx).view.loc (thr d L) ↦{fullShare} I) ∗ ((sRow).view.loc (thr d L) ↦{fullShare} fR)
    ∗ ∃ g : FVec F S1024 .f32, ((sOut).view.loc (thr d L) ↦{fullShare} g) ∗ ⌜Done I fR (16 * k) g⌝)

theorem inv1_eq (L : grid0.Coords) (d : Dev nD) (I : IVec S20x1024 32) (fR : FVec F S100000 .f32) (k : Nat) (a : Unit) :
    inv1 (U := U) L d I fR k a
      = iprop(((sIdx).view.loc (thr d L) ↦{fullShare} I) ∗ ((sRow).view.loc (thr d L) ↦{fullShare} fR)
          ∗ ∃ g : FVec F S1024 .f32, ((sOut).view.loc (thr d L) ↦{fullShare} g) ∗ ⌜Done I fR (16 * k) g⌝) := rfl

/-- Trip `k` of the first row's loop: the twenty groups of sixteen index words loaded, each passing its range check, the
    twenty indexed loads of the row scratch added up from the left and stored at columns `16k …` of the result
    scratch — which is then finished below column `16(k+1)`. -/
theorem trip1 (L : grid0.Coords) (d : Dev nD) (I : IVec S20x1024 32) (fR : FVec F S100000 .f32) (hI : ∀ i, (I i).toNat < 100000)
    (k : Fin k0_t1_loop.trips) (a : Unit) :
    inv1 (U := U) L d I fR k.val a
      ⊢ wp frame (wpE (defs₀ (F := F)) 𝒱₀ (thr d L) none) Set.univ
          (k0_t1_body L idxW (Memref.isWhole_whole _) tabW (Memref.isWhole_whole _) outW (Memref.isWhole_whole _)
            sIdx (Memref.isWhole_whole _) sRow (Memref.isWhole_whole _) sOut (Memref.isWhole_whole _)
            cc0_scratch3 cc0_scoped0 cc0_scoped1 cc0_scoped2 cc0_scoped3 cc0_scoped4 k a)
          (inv1 (U := U) L d I fR (k.val + 1)) := by
  have hk : k.val < 64 := lt_of_lt_of_le k.isLt k0_t1_abs.2.1
  unfold k0_t1_body
  simp only [k0_part1_eq_skeleton, k0_part2_eq_skeleton]
  unfold k0_part1_skel k0_part2_skel
  simp only [SparseCore.vectorLoadIdx_bind (thr d L)]
  rw [inv1_eq]
  iintro ⟨HI, HR, %g, HO, %hg⟩
  sl_exec (disch := exact chk_read I hI _ _)
  sl_step
  rw [inv1_eq]
  isplitl [HI]; · iexact HI
  isplitl [HR]; · iexact HR
  iexists _
  isplitl [HO]; · iexact HO
  ipureintro
  refine done_step I fR g (k0_off22 k) (k0_off22_inb k) _ (16 * k.val) _ (k0_off22_eq k) (by omega) (by omega) hg ?_
  intro x
  unfold rowVal chain20
  simp only [k0_pay6, k0_pay3, k0_pay2, Idealize.ShloMosaic.addf]
  rw [gather_lane I hI fR _ _ _ 0 _ (k0_off2_eq k) x (by omega),
    gather_lane I hI fR _ _ _ 1 _ (k0_off3_eq k) x (by omega),
    gather_lane I hI fR _ _ _ 2 _ (k0_off4_eq k) x (by omega),
    gather_lane I hI fR _ _ _ 3 _ (k0_off5_eq k) x (by omega),
    gather_lane I hI fR _ _ _ 4 _ (k0_off6_eq k) x (by omega),
    gather_lane I hI fR _ _ _ 5 _ (k0_off7_eq k) x (by omega),
    gather_lane I hI fR _ _ _ 6 _ (k0_off8_eq k) x (by omega),
    gather_lane I hI fR _ _ _ 7 _ (k0_off9_eq k) x (by omega),
    gather_lane I hI fR _ _ _ 8 _ (k0_off10_eq k) x (by omega),
    gather_lane I hI fR _ _ _ 9 _ (k0_off11_eq k) x (by omega),
    gather_lane I hI fR _ _ _ 10 _ (k0_off12_eq k) x (by omega),
    gather_lane I hI fR _ _ _ 11 _ (k0_off13_eq k) x (by omega),
    gather_lane I hI fR _ _ _ 12 _ (k0_off14_eq k) x (by omega),
    gather_lane I hI fR _ _ _ 13 _ (k0_off15_eq k) x (by omega),
    gather_lane I hI fR _ _ _ 14 _ (k0_off16_eq k) x (by omega),
    gather_lane I hI fR _ _ _ 15 _ (k0_off17_eq k) x (by omega),
    gather_lane I hI fR _ _ _ 16 _ (k0_off18_eq k) x (by omega),
    gather_lane I hI fR _ _ _ 17 _ (k0_off19_eq k) x (by omega),
    gather_lane I hI fR _ _ _ 18 _ (k0_off20_eq k) x (by omega),
    gather_lane I hI fR _ _ _ 19 _ (k0_off21_eq k) x (by omega)]

/-- Trip `k` of the second row's loop: the twenty groups of sixteen index words loaded, each passing its range check, the
    twenty indexed loads of the row scratch added up from the left and stored at columns `16k …` of the result
    scratch — which is then finished below column `16(k+1)`. -/
theorem trip2 (L : grid0.Coords) (d : Dev nD) (I : IVec S20x1024 32) (fR : FVec F S100000 .f32) (hI : ∀ i, (I i).toNat < 100000)
    (k : Fin k0_t2_loop.trips) (a : Unit) :
    inv1 (U := U) L d I fR k.val a
      ⊢ wp frame (wpE (defs₀ (F := F)) 𝒱₀ (thr d L) none) Set.univ
          (k0_t2_body L idxW (Memref.isWhole_whole _) tabW (Memref.isWhole_whole _) outW (Memref.isWhole_whole _)
            sIdx (Memref.isWhole_whole _) sRow (Memref.isWhole_whole _) sOut (Memref.isWhole_whole _)
            cc0_scratch3 cc0_scoped0 cc0_scoped1 cc0_scoped2 cc0_scoped3 cc0_scoped4 k a)
          (inv1 (U := U) L d I fR (k.val + 1)) := by
  have hk : k.val < 64 := lt_of_lt_of_le k.isLt k0_t2_abs.2.1
  unfold k0_t2_body
  simp only [k0_part3_eq_skeleton, k0_part4_eq_skeleton]
  unfold k0_part3_skel k0_part4_skel
  simp only [SparseCore.vectorLoadIdx_bind (thr d L)]
  rw [inv1_eq]
  iintro ⟨HI, HR, %g, HO, %hg⟩
  sl_exec (disch := exact chk_read I hI _ _)
  sl_step
  rw [inv1_eq]
  isplitl [HI]; · iexact HI
  isplitl [HR]; · iexact HR
  iexists _
  isplitl [HO]; · iexact HO
  ipureintro
  refine done_step I fR g (k0_off44 k) (k0_off44_inb k) _ (16 * k.val) _ (k0_off44_eq k) (by omega) (by omega) hg ?_
  intro x
  unfold rowVal chain20
  simp only [k0_pay1, k0_pay5, k0_pay4, Idealize.ShloMosaic.addf]
  rw [gather_lane I hI fR _ _ _ 0 _ (k0_off24_eq k) x (by omega),
    gather_lane I hI fR _ _ _ 1 _ (k0_off25_eq k) x (by omega),
    gather_lane I hI fR _ _ _ 2 _ (k0_off26_eq k) x (by omega),
    gather_lane I hI fR _ _ _ 3 _ (k0_off27_eq k) x (by omega),
    gather_lane I hI fR _ _ _ 4 _ (k0_off28_eq k) x (by omega),
    gather_lane I hI fR _ _ _ 5 _ (k0_off29_eq k) x (by omega),
    gather_lane I hI fR _ _ _ 6 _ (k0_off30_eq k) x (by omega),
    gather_lane I hI fR _ _ _ 7 _ (k0_off31_eq k) x (by omega),
    gather_lane I hI fR _ _ _ 8 _ (k0_off32_eq k) x (by omega),
    gather_lane I hI fR _ _ _ 9 _ (k0_off33_eq k) x (by omega),
    gather_lane I hI fR _ _ _ 10 _ (k0_off34_eq k) x (by omega),
    gather_lane I hI fR _ _ _ 11 _ (k0_off35_eq k) x (by omega),
    gather_lane I hI fR _ _ _ 12 _ (k0_off36_eq k) x (by omega),
    gather_lane I hI fR _ _ _ 13 _ (k0_off37_eq k) x (by omega),
    gather_lane I hI fR _ _ _ 14 _ (k0_off38_eq k) x (by omega),
    gather_lane I hI fR _ _ _ 15 _ (k0_off39_eq k) x (by omega),
    gather_lane I hI fR _ _ _ 16 _ (k0_off40_eq k) x (by omega),
    gather_lane I hI fR _ _ _ 17 _ (k0_off41_eq k) x (by omega),
    gather_lane I hI fR _ _ _ 18 _ (k0_off42_eq k) x (by omega),
    gather_lane I hI fR _ _ _ 19 _ (k0_off43_eq k) x (by omega)]

/-! ## The subcore's own semaphores and buffers -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The subcore's counter for one of its DMA semaphores. -/
abbrev cell (d : Dev nD) (L : grid0.Coords) (sm : DmaSems sig S_) : GSem nD τ sig := (thr d L, .dma sm.sem)

omit [FloatOps F] [CountersIn U] in
/-- The five semaphores of the kernel's five copies are among the subcore's own: they are them, and the rest. -/
theorem ownSems0_V (d : Dev nD) (L : grid0.Coords) :
    (ownSems0 (thr d L) : sProp 𝕄)
      = iprop(semVal (cell d L cc0_scoped0) 0 ∗ semVal (cell d L cc0_scoped1) 0 ∗ semVal (cell d L cc0_scoped2) 0
          ∗ semVal (cell d L cc0_scoped3) 0 ∗ semVal (cell d L cc0_scoped4) 0
          ∗ bigSep ((((((ownCells (thr d L)).erase (cell d L cc0_scoped0)).erase (cell d L cc0_scoped1)).erase (cell d L cc0_scoped2)).erase
              (cell d L cc0_scoped3)).erase (cell d L cc0_scoped4)) fun g => semVal g 0) := by
  have hm : ∀ sm : DmaSems sig S_, (SemLoc.dma sm.sem : SemLoc sig).isScoped .scVector = true → cell d L sm ∈ ownCells (thr d L) :=
    fun sm h => mem_ownCells.mpr ⟨rfl, h⟩
  have hne : ∀ a b : DmaSems sig S_, (SemLoc.dma a.sem : SemLoc sig) ≠ .dma b.sem → cell d L a ≠ cell d L b :=
    fun a b h e => h (congrArg Prod.snd e)
  unfold SparseCore.Cfg.ownSems0
  rw [SparseCore.bigSep_erase' (hm cc0_scoped0 (by decide)),
    SparseCore.bigSep_erase' (Finset.mem_erase.mpr ⟨hne cc0_scoped1 cc0_scoped0 (by decide), hm cc0_scoped1 (by decide)⟩),
    SparseCore.bigSep_erase' (Finset.mem_erase.mpr ⟨hne cc0_scoped2 cc0_scoped1 (by decide),
      Finset.mem_erase.mpr ⟨hne cc0_scoped2 cc0_scoped0 (by decide), hm cc0_scoped2 (by decide)⟩⟩),
    SparseCore.bigSep_erase' (Finset.mem_erase.mpr ⟨hne cc0_scoped3 cc0_scoped2 (by decide),
      Finset.mem_erase.mpr ⟨hne cc0_scoped3 cc0_scoped1 (by decide),
      Finset.mem_erase.mpr ⟨hne cc0_scoped3 cc0_scoped0 (by decide), hm cc0_scoped3 (by decide)⟩⟩⟩),
    SparseCore.bigSep_erase' (Finset.mem_erase.mpr ⟨hne cc0_scoped4 cc0_scoped3 (by decide),
      Finset.mem_erase.mpr ⟨hne cc0_scoped4 cc0_scoped2 (by decide),
      Finset.mem_erase.mpr ⟨hne cc0_scoped4 cc0_scoped1 (by decide),
      Finset.mem_erase.mpr ⟨hne cc0_scoped4 cc0_scoped0 (by decide), hm cc0_scoped4 (by decide)⟩⟩⟩⟩)]

omit [FloatOps F] [CountersIn U] in
/-- The three scratch buffers are among the subcore's own: they are them, at some contents, and the rest. -/
theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector ((L 0).castLE hcore0) ((L 1).castLE hsub0))).erase
              ((Proc.scVector ((L 0).castLE hcore0) ((L 1).castLE hsub0)).devRef cc0_scratch0)).erase
              ((Proc.scVector ((L 0).castLE hcore0) ((L 1).castLE hsub0)).devRef cc0_scratch1)).erase
              ((Proc.scVector ((L 0).castLE hcore0) ((L 1).castLE hsub0)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore0) ((L 1).castLE hsub0))
    (b := (Proc.scVector ((L 0).castLE hcore0) ((L 1).castLE hsub0)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector ((L 0).castLE hcore0) ((L 1).castLE hsub0))
      (b := (Proc.scVector ((L 0).castLE hcore0) ((L 1).castLE hsub0)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector ((L 0).castLE hcore0) ((L 1).castLE hsub0))
      (b := (Proc.scVector ((L 0).castLE hcore0) ((L 1).castLE hsub0)).devRef cc0_scratch2) rfl⟩⟩)]

omit [FloatOps F] [CountersIn U] in
theorem pts_s0 (d : Dev nD) (L : grid0.Coords) (f : Buf (Elt F) ((thr d L).loc cc0_scratch0)) :
    (((sIdx).view.loc (thr d L) ↦{fullShare} f : sProp 𝕄)) = ((thr d L).loc cc0_scratch0 ↦{fullShare} f) := rfl
omit [FloatOps F] [CountersIn U] in
theorem pts_s1 (d : Dev nD) (L : grid0.Coords) (f : Buf (Elt F) ((thr d L).loc cc0_scratch1)) :
    (((sRow).view.loc (thr d L) ↦{fullShare} f : sProp 𝕄)) = ((thr d L).loc cc0_scratch1 ↦{fullShare} f) := rfl
omit [FloatOps F] [CountersIn U] in
theorem pts_s2 (d : Dev nD) (L : grid0.Coords) (f : Buf (Elt F) ((thr d L).loc cc0_scratch2)) :
    (((sOut).view.loc (thr d L) ↦{fullShare} f : sProp 𝕄)) = ((thr d L).loc cc0_scratch2 ↦{fullShare} f) := rfl

/-- The task of the vector subcore at grid point `L`: the index array fetched whole, then for each of its two rows the
    table row fetched, sixty-four trips of twenty indexed loads added up and stored, and the row written out. -/
theorem tile_body (L : grid0.Coords) (d : Dev nD) (q qT : PosShare TreeShare)
    (I : IVec S20x1024 32) (Tb : FVec F S64x100000 .f32) (f0 : FVec F S64x1024 .f32)
    (hI : ∀ i, (I i).toNat < 100000)
    (O : CellTallies nD τ sig (HIx 1)) (W : Waits sig (HIx 1)) (hO : ∀ g, O g none = 0) :
    iprop(levAts (K (F := F)).L (K (F := F)).lev
        ∗ ((idxW).view.loc (thr d L) ↦{q} I)
        ∗ ((tabW).view.loc (thr d L) ↦{qT} Tb)
        ∗ ((oRow0 L).view.loc (thr d L) ↦[(oRow0 L).view.set]{fullShare} f0)
        ∗ ((oRow1 L).view.loc (thr d L) ↦[(oRow1 L).view.set]{fullShare} f0)
        ∗ scopedBufs (thr d L) ∗ scopedSems0 (thr d L) ∗ owes (thr d L) O W : sProp 𝕄)
      ⊢ wp frame (wpE (defs₀ (F := F)) 𝒱₀ (thr d L) none) Set.univ
          (cc0__gather_sum_t L idxW (Memref.isWhole_whole _) tabW (Memref.isWhole_whole _) outW (Memref.isWhole_whole _)
            sIdx (Memref.isWhole_whole _) sRow (Memref.isWhole_whole _) sOut (Memref.isWhole_whole _)
            cc0_scratch3 cc0_scoped0 cc0_scoped1 cc0_scoped2 cc0_scoped3 cc0_scoped4)
          fun _ => iprop(((idxW).view.loc (thr d L) ↦{q} I)
            ∗ ((tabW).view.loc (thr d L) ↦{qT} Tb)
            ∗ ((oRow0 L).view.loc (thr d L) ↦[(oRow0 L).view.set]{fullShare} XT I Tb)
            ∗ ((oRow1 L).view.loc (thr d L) ↦[(oRow1 L).view.set]{fullShare} XT I Tb)
            ∗ scopedBufs (thr d L) ∗ scopedSems0 (thr d L)
            ∗ ∃ W', ⌜∀ p ∈ W', p ∈ W ∨ p.2 = none⌝ ∗ owes (thr d L) O W') := by
  rw [(K (F := F)).scopedBufs_V facts d _ _, SparseCore.Cfg.scopedSems0_V (Val := Elt F) d _ _, ownSems0_V, ownBufs_V]
  iintro ⟨#Hlv, Hidx, Htab, Ho0, Ho1, ⟨⟨%fs0, Hs0⟩, ⟨%fs1, Hs1⟩, ⟨%fs2, Hs2⟩, Hbufs⟩, ⟨Hm0, Hm1, Hm2, Hm3, Hm4, Hsems⟩, HO⟩
  ihave Hmw := ((K (F := F)).mayWaits_none (thr := thr d L) hO) $$ Hlv
  ihave Hs0' := (Entails.of_eq (pts_s0 (F := F) (U := U) d L fs0).symm) $$ Hs0
  ihave Hs1' := (Entails.of_eq (pts_s1 (F := F) (U := U) d L fs1).symm) $$ Hs1
  ihave Hs2' := (Entails.of_eq (pts_s2 (F := F) (U := U) d L fs2).symm) $$ Hs2
  sl_unfold [cc0__gather_sum_t]
  sl_exec
  sl_for (inv1 (U := U) L d I ((tRow0 L).view.read (Elt F) Tb)) $$ [Hs0' Hs1' Hs2']
  case region => intro k acc; exact trip1 L d I _ hI k acc
  · rw [inv1_eq]
    isplitl [Hs0']
    · iapply (Entails.of_eq (congrArg (fun f => ((sIdx).view.loc (thr d L) ↦{fullShare} f : sProp 𝕄)) (View.write_whole_univ (Val := Elt F) cc0_scratch0 _ I)))
      iexact Hs0'
    isplitl [Hs1']
    · iapply (Entails.of_eq (congrArg (fun f => ((sRow).view.loc (thr d L) ↦{fullShare} f : sProp 𝕄))
        (View.write_whole_univ (Val := Elt F) cc0_scratch1 _ ((tRow0 L).view.read (Elt F) Tb))))
      iexact Hs1'
    iexists _
    isplitl [Hs2']; · iexact Hs2'
    ipureintro
    intro b hb
    exact absurd hb (by omega)
  iintro %acc1 HI
  ihave HI' := (Entails.of_eq (inv1_eq (U := U) L d I _ _ acc1)) $$ HI
  icases HI' with ⟨Hs0, Hs1, %g1, Hs2, %hg1⟩
  sl_exec
  sl_for (inv1 (U := U) L d I ((tRow1 L).view.read (Elt F) Tb)) $$ [Hs0 Hs1 Hs2]
  case region => intro k acc; exact trip2 L d I _ hI k acc
  · rw [inv1_eq]
    isplitl [Hs0]; · iexact Hs0
    isplitl [Hs1]
    · iapply (Entails.of_eq (congrArg (fun f => ((sRow).view.loc (thr d L) ↦{fullShare} f : sProp 𝕄))
        (View.write_whole_univ (Val := Elt F) cc0_scratch1 _ ((tRow1 L).view.read (Elt F) Tb))))
      iexact Hs1
    iexists _
    isplitl [Hs2]; · iexact Hs2
    ipureintro
    intro b hb
    exact absurd hb (by omega)
  iintro %acc2 HI
  ihave HI' := (Entails.of_eq (inv1_eq (U := U) L d I _ _ acc2)) $$ HI
  icases HI' with ⟨Hs0, Hs1, %g2, Hs2, %hg2⟩
  sl_exec
  sl_step
  isplitl [Hidx]; · iexact Hidx
  isplitl [Htab]; · iexact Htab
  isplitl [Ho0]
  · iapply (Entails.of_eq (pointsTo_congr (oRow_final L 0 I Tb _ (tRow0_read L Tb) g1 _ (by rw [trips1]) hg1 _)))
    iexact Ho0
  isplitl [Ho1]
  · iapply (Entails.of_eq (pointsTo_congr (oRow_final L 1 I Tb _ (tRow1_read L Tb) g2 _ (by rw [trips2]) hg2 _)))
    iexact Ho1
  isplitl [Hs0 Hs1 Hs2 Hbufs]
  · isplitl [Hs0]; · iexists _; iexact Hs0
    isplitl [Hs1]; · iexists _; iexact Hs1
    isplitl [Hs2]; · iexists _; iexact Hs2
    iexact Hbufs
  isplitl [Hm0 Hm1 Hm2 Hm3 Hm4 Hsems]
  · isplitl [Hm0]; · iexact Hm0
    isplitl [Hm1]; · iexact Hm1
    isplitl [Hm2]; · iexact Hm2
    isplitl [Hm3]; · iexact Hm3
    isplitl [Hm4]; · iexact Hm4
    iexact Hsems
  iexists _
  isplitr
  rotate_left
  · iexact HO
  · ipureintro
    intro p hp
    simp only [Finset.mem_insert] at hp
    rcases hp with hp | hp | hp | hp | hp | hp
    · exact .inr (hp ▸ rfl)
    · exact .inr (hp ▸ rfl)
    · exact .inr (hp ▸ rfl)
    · exact .inr (hp ▸ rfl)
    · exact .inr (hp ▸ rfl)
    · exact .inl hp

end Cert.Proof.TileW

end
-- ==== Proof.TileOblW.lean ====
/-
  The tile's obligation for the launch theorem: a tile's share of the call's operands is what the tile body takes,
  spelt as the tile addresses it — the two inputs whole through its read shares, its two rows of the output
  through the row memrefs it copies into — and the body's result is the tile's share of the call's results.
-/
import proofs.«204094_g4578435138101_retrytranche1_754_22_alg».proof.Proof.PayW
import proofs.«204094_g4578435138101_retrytranche1_754_22_alg».proof.Proof.TileWord

noncomputable section

namespace Cert.Proof.W

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (I : (d : Dev nD) → Buf (Elt F) (v0Loc d)) (Tb : (d : Dev nD) → Buf (Elt F) (v1Loc d))
  (O : (d : Dev nD) → Buf (Elt F) (v2Loc d))

/-- The transposed embedding sums, as the tiles compute them. -/
abbrev Xt (d : Dev nD) : Buf (Elt F) (v2Loc d) := TileW.XT (I d) (Tb d)

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_sum_t (coordsV c s)
          (Memref.whole main_v0_scv) (Memref.isWhole_whole _) (Memref.whole main_v1_scv) (Memref.isWhole_whole _) (Memref.whole main_v2_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scoped0 cc0_scoped1 cc0_scoped2 cc0_scoped3 cc0_scoped4) ⟨⟩ c s := rfl

section Spell
variable (d : Dev nD) (L : grid0.Coords)

/-- The tile's coordinates among the two SparseCores and the sixteen tiles. -/
abbrev cL (L : grid0.Coords) : Fin 2 := Fin.cast (rfl : grid0.bound 0 = 2) (L 0)
abbrev iL (L : grid0.Coords) : Fin 16 := Fin.cast (rfl : grid0.bound 1 = 16) (L 1)

theorem pts_idx (q : PosShare TreeShare) (f : Buf (Elt F) (v0Loc d)) :
    (((Memref.whole main_v0_scv : Memref sig .scVector .hbm S20x1024 .i32).view.loc (TileW.thr d L) ↦{q} f : sProp 𝕄)) = v0Loc d ↦{q} f := by
  simp only [Memref.view_whole, View.set_whole]
theorem pts_tab (q : PosShare TreeShare) (f : Buf (Elt F) (v1Loc d)) :
    (((Memref.whole main_v1_scv : Memref sig .scVector .hbm S64x100000 .f32).view.loc (TileW.thr d L) ↦{q} f : sProp 𝕄)) = v1Loc d ↦{q} f := by
  simp only [Memref.view_whole, View.set_whole]
theorem pts_row0 (f : Buf (Elt F) (v2Loc d)) :
    (((TileW.oRow0 L).view.loc (TileW.thr d L) ↦[(TileW.oRow0 L).view.set]{fullShare} f : sProp 𝕄)) = v2Loc d ↦[rowSet (rowIx (cL L) (iL L) 0)]{fullShare} f := by
  rw [TileW.set_oRow0]; rfl
theorem pts_row1 (f : Buf (Elt F) (v2Loc d)) :
    (((TileW.oRow1 L).view.loc (TileW.thr d L) ↦[(TileW.oRow1 L).view.set]{fullShare} f : sProp 𝕄)) = v2Loc d ↦[rowSet (rowIx (cL L) (iL L) 1)]{fullShare} f := by
  rw [TileW.set_oRow1]; rfl

end Spell

theorem tileObl (hI : ∀ d i, (I d i).toNat < 100000) :
    (K (F := F)).TileObl (D (F := F)) 𝒱 (P I Tb O (Xt I Tb)) v₀ 0 := by
  intro d c i O' W hO _ _
  simp only [show (P I Tb O (Xt I Tb)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine BI.Entails.trans ?_ ((TileW.tile_body (U := UU) (coordsV ⟨_, hc.1⟩ ⟨_, hc.2⟩) d (tok16 (Fin.cast nCore_zero c) (Fin.cast nSub_zero i)) (tok16 (Fin.cast nCore_zero c) (Fin.cast nSub_zero i))
    (I d) (Tb d) (O d) (hI d) O' W hO).trans (wp_mono frame _ _ fun _ => ?_))
  · show iprop(_ ∗ emp ∗ tileRes I Tb d (Fin.cast nCore_zero c) (Fin.cast nSub_zero i) (O d) ∗ _ ∗ _ ∗ _) ⊢ _
    unfold tileRes rows2
    rw [pts_idx, pts_tab, pts_row0, pts_row1,
      show cL (coordsV ⟨_, hc.1⟩ ⟨_, hc.2⟩) = Fin.cast nCore_zero c from Fin.ext rfl, show iL (coordsV ⟨_, hc.1⟩ ⟨_, hc.2⟩) = Fin.cast nSub_zero i from Fin.ext rfl]
    iintro ⟨Hlv, -, ⟨H0, H1, Hr0, Hr1⟩, Hsb, Hss, HO⟩
    isplitl [Hlv]; · iexact Hlv
    isplitl [H0]; · iexact H0
    isplitl [H1]; · iexact H1
    isplitl [Hr0]; · iexact Hr0
    isplitl [Hr1]; · iexact Hr1
    isplitl [Hsb]; · iexact Hsb
    isplitl [Hss]; · iexact Hss
    iexact HO
  · show _ ⊢ iprop(tileRes I Tb d (Fin.cast nCore_zero c) (Fin.cast nSub_zero i) (Xt I Tb d) ∗ _ ∗ _ ∗ _)
    unfold tileRes rows2
    rw [pts_idx, pts_tab, pts_row0, pts_row1,
      show cL (coordsV ⟨_, hc.1⟩ ⟨_, hc.2⟩) = Fin.cast nCore_zero c from Fin.ext rfl, show iL (coordsV ⟨_, hc.1⟩ ⟨_, hc.2⟩) = Fin.cast nSub_zero i from Fin.ext rfl]
    iintro ⟨H0, H1, Hr0, Hr1, Hsb, Hss, %W', %hW', HO⟩
    isplitl [H0 H1 Hr0 Hr1]
    · isplitl [H0]; · iexact H0
      isplitl [H1]; · iexact H1
      isplitl [Hr0]; · iexact Hr0
      iexact Hr1
    isplitl [Hsb]; · iexact Hsb
    isplitl [Hss]; · iexact Hss
    iexists W'; isplitr
    · ipureintro; exact fun p hp => (hW' p hp).imp_right Or.inl
    · iexact HO

end Cert.Proof.W

end
-- ==== Proof.ElemW.lean ====
/-
  The launch element of the ghost state: the launch handshakes' rounds, the pipeline's staging cells' rounds (dealt to
  each device's TensorCore as its cells' ghost state and duty tokens), and the transfers' counters (dropped: the
  tiles' copies need no schedule).
-/
import proofs.«204094_g4578435138101_retrytranche1_754_22_alg».proof.Proof.PayW

noncomputable section

namespace Cert.Proof.W

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (I : (d : Dev nD) → Buf (Elt F) (v0Loc d)) (Tb : (d : Dev nD) → Buf (Elt F) (v1Loc d))
  (O X : (d : Dev nD) → Buf (Elt F) (v2Loc d))

abbrev adm : (p : Fin 1) → (pcfgs (F := F) p).Adm := fun p => (cfgs p).toPCfg_adm

/-- What @main's proof starts from on device `d`: the pipeline's cells' ghost state and its duty tokens. -/
def G (d : Dev nD) : sProp 𝕄 :=
  iprop(Pipeline.cellsGhost (nD := nD) (τ := τ) cfgs EP 0 d ∗ Pipeline.toksInit (nD := nD) (τ := τ) cfgs EP 0 d)

def u₀ : UU := ((initOf (K (F := F)).hsCells (K (F := F)).hsToks, initOf (Pipeline.cells (nD := nD) (τ := τ) cfgs cellOf_inj) (Pipeline.launchToks (nD := nD) (τ := τ) cfgs cellOf_inj)), 1)

theorem ownU_split3 (a : UH) (b : UP) : (ownU (((a, b), (1 : Counters)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (Prod.mk_mem_op (URA.mem_op_one a) (URA.mem_one_op b)) (URA.mem_op_one (1 : Counters))))

theorem bigSep_emp' {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P I Tb O X).x q thr) := by
  unfold u₀
  iintro Hu
  ihave H := (ownU_split3 (F := F) _ _) $$ Hu
  icases H with ⟨HH, HP⟩
  imod (Pipeline.fund_ghost (nD := nD) (τ := τ) cfgs EP cellOf_inj) $$ HP with ⟨Hg, Ht⟩
  imodintro
  isplitl [HH]; · iexact HH
  isplitl [Hg Ht]
  · unfold G
    rw [bigSep_sep']
    isplitl [Hg]
    · iapply (Entails.of_eq (show (bigSep Finset.univ fun c : Dev nD => bigSep Finset.univ fun p : Fin 1 => (Pipeline.cellsGhost (nD := nD) (τ := τ) cfgs EP p c : sProp 𝕄))
          = bigSep Finset.univ fun c : Dev nD => Pipeline.cellsGhost (nD := nD) (τ := τ) cfgs EP 0 c from bigSep_congr fun c _ => bigSep_univ_of_subsingleton (0 : Fin 1)))
      iexact Hg
    · iapply (Entails.of_eq (show (bigSep Finset.univ fun c : Dev nD => bigSep Finset.univ fun p : Fin 1 => (Pipeline.toksInit (nD := nD) (τ := τ) cfgs EP p c : sProp 𝕄))
          = bigSep Finset.univ fun c : Dev nD => Pipeline.toksInit (nD := nD) (τ := τ) cfgs EP 0 c from bigSep_congr fun c _ => bigSep_univ_of_subsingleton (0 : Fin 1)))
      iexact Ht
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.Proof.W

end
-- ==== Proof.RegionWord.lean ====
/-
  The TensorCore pallas_call of the program (custom_call 1, pipeline 0): a grid of 25 points over four windows —
  the first operand (64 × 100000) in blocks of 4096 columns, the second (64 × 1024) whole and fetched once, the
  third (1 × 100000) in blocks of 4096 columns, the result (100000 × 1024) in blocks of 4096 rows written back at
  every point — whose last blocks overhang the arrays: the cut fetches leave the staging rows past the arrays' end
  at words nothing names, and the cut write-back writes only the rows inside the array.

  The body contracts the first operand's block with the second operand over their leading axis into a zero
  accumulator, adds the third operand's block transposed and broadcast along the rows, and stores the whole
  result block. At a generic float instance the contraction is not known to read, for a row inside the array,
  only the words inside the array, so the proof data is RELATIONAL: the three operands' staging buffers are left
  as found, and the result's holds the payload at the operands' blocks filled out past the arrays' end with SOME
  words. The region's record: entered with the four arrays whole at any contents, it returns the three operands
  as they were and the result at contents the write-backs may leave (`Final`).
-/
import proofs.«204094_g4578435138101_retrytranche1_754_22_alg».proof.Proof.Gen.Kernel.Launch
import proofs.«204094_g4578435138101_retrytranche1_754_22_alg».proof.Proof.Gen.Kernel.Points
import proofs.«204094_g4578435138101_retrytranche1_754_22_alg».proof.Proof.Gen.Kernel.Skeleton
import Idealize.ShloMosaic.Lib.Pipeline.Regions
import Idealize.ShloMosaic.Lib.Tactic

noncomputable section

namespace Cert.Proof.RegionW

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]
variable {Ix : Type} [DecidableEq Ix] {U : Type} [URA U] {Lvl : Type} [Preorder Lvl]

local notation "𝕄" => MT nD τ sig Ix (Elt F) ℕ U Lvl

/-- The contents type of a TensorCore buffer on core `c`. -/
abbrev Bf (c : Dev nD) (b : Ref sig .tc) : Type := Buf (Elt F) ((c : Thread nD τ).loc b)

/-- The first point of the grid. -/
abbrev t0 : Fin cfg1.N := ⟨0, by decide⟩

section Data

variable (c : Dev nD) (A3 : Bf (F := F) c main_v3) (X2 : Bf (F := F) c main_v2) (B4 : Bf (F := F) c main_v4) (O5 : Bf (F := F) c main_v5)

/-- The block of the first operand the fetch at point `t` reads: its part inside the array. -/
def wblk (t : Fin cfg1.N) : (win1_0.xblock (grid1.coords t)).Idx → Elt F .f32 :=
  (win1_0.blk t).view.read (Elt F) A3
/-- The second operand's one block, as the fetch at the first point reads it. -/
def xblk : (win1_1.xblock (grid1.coords t0)).Idx → Elt F .f32 :=
  (win1_1.blk t0).view.read (Elt F) X2
/-- The block of the third operand the fetch at point `t` reads: its part inside the array. -/
def bblk (t : Fin cfg1.N) : (win1_2.xblock (grid1.coords t)).Idx → Elt F .f32 :=
  (win1_2.blk t).view.read (Elt F) B4

/-- What the body may leave in the result's staging buffer at point `t`: its payload at the three operands'
    blocks as the fetches leave them in the staging buffers — the part inside the array, filled out with some words. -/
def OutAt (t : Fin cfg1.N) (Z : S4096x1024.Idx → Elt F .f32) : Prop :=
  ∃ (d0 : S64x4096.Idx → Elt F .f32) (d1 : S64x1024.Idx → Elt F .f32) (d2 : S1x4096.Idx → Elt F .f32),
    Z = k1_pay1 (win1_0.fill (grid1.coords t) d0 (wblk c A3 t)) (win1_1.fill (grid1.coords t0) d1 (xblk c X2))
      (win1_2.fill (grid1.coords t) d2 (bblk c B4 t))

variable (O : CellTallies nD τ sig Ix) (W₀ : Waits sig Ix)

/-- The proof data of the pipeline on core `c`, entered with the four arrays at `A3`, `X2`, `B4`, `O5`, the core
    owing `O` throughout and its recorded wait pairs within `W₀`: the three operands' staging buffers are left as
    found; the result's holds the payload. -/
def rdat : RDat τ (Elt F) Ix ℕ U Lvl cfg1 c where
  A w := match w with
    | ⟨0, _⟩ => A3
    | ⟨1, _⟩ => X2
    | ⟨2, _⟩ => B4
    | ⟨3, _⟩ => O5
  after w t := match w with
    | ⟨0, _⟩ => fun Y Z => Z = Y
    | ⟨1, _⟩ => fun Y Z => Z = Y
    | ⟨2, _⟩ => fun Y Z => Z = Y
    | ⟨3, _⟩ => fun _ Z => OutAt c A3 X2 B4 t Z
  Φ _ := iprop(emp)
  q _ := fullShare
  owed _ := O
  recorded _ := ↑W₀

/-! ### What the body finds in the operands' staging buffers -/

/-- The first operand's buffer, fetched at every point: its block, filled out. -/
theorem finds0 (t : Fin cfg1.N) (Y : S64x4096.Idx → Elt F .f32)
    (h : (rdat (U := U) (Lvl := Lvl) c A3 X2 B4 O5 O W₀).Finds 0 t Y) : ∃ d, Y = win1_0.fill (grid1.coords t) d (wblk c A3 t) :=
  ((rdat (U := U) (Lvl := Lvl) c A3 X2 B4 O5 O W₀).finds_of_fetch (w := 0) (fetch1_0 t) Y).mp h

/-- The third operand's likewise. -/
theorem finds2 (t : Fin cfg1.N) (Y : S1x4096.Idx → Elt F .f32)
    (h : (rdat (U := U) (Lvl := Lvl) c A3 X2 B4 O5 O W₀).Finds 2 t Y) : ∃ d, Y = win1_2.fill (grid1.coords t) d (bblk c B4 t) :=
  ((rdat (U := U) (Lvl := Lvl) c A3 X2 B4 O5 O W₀).finds_of_fetch (w := 2) (fetch1_2 t) Y).mp h

/-- The second operand's one buffer, fetched at the first point and left as found by every body: what that fetch left. -/
theorem finds1 : ∀ (n : Nat) (t : Fin cfg1.N), t.val = n → ∀ (Y : S64x1024.Idx → Elt F .f32),
    (rdat (U := U) (Lvl := Lvl) c A3 X2 B4 O5 O W₀).Finds 1 t Y → ∃ d, Y = win1_1.fill (grid1.coords t0) d (xblk c X2)
  | 0, t, ht, Y, h => by
    obtain rfl : t = t0 := Fin.ext ht
    exact ((rdat (U := U) (Lvl := Lvl) c A3 X2 B4 O5 O W₀).finds_of_fetch (w := 1) ((fetch1_1 t0).mpr rfl) Y).mp h
  | n + 1, t, ht, Y, h => by
    have hlt := t.isLt
    have hN : cfg1.N = 25 := N_1
    have hf : (cfg1.win 1).fetch t = false :=
      Bool.eq_false_iff.mpr fun hh => by have := (fetch1_1 t).mp hh; omega
    have hfl : ∀ u, (cfg1.win 1).flush u = false := fun u => by simp [Window.flush]
    rw [(rdat (U := U) (Lvl := Lvl) c A3 X2 B4 O5 O W₀).finds_of_pos hf (by omega)] at h
    rcases h with h | ⟨Y', hY', hafter⟩
    · rw [hfl] at h; exact absurd h Bool.false_ne_true
    · have e : Y = Y' := hafter
      subst e
      exact finds1 n _ (by simp only [ht]; omega) Y hY'

end Data

section Body

variable (c : Dev nD)

/-- One case of the body's triple: the four staging memrefs are the whole buffers `b0` … `b3`. The loads are
    at offsets zero and the buffers' own sizes, so each reads the contents; the unmasked store writes the payload. -/
local macro "body_case" b0:ident b1:ident b2:ident b3:ident : tactic => `(tactic| (
    have hz : (![0, 0] : Fin 2 → Nat) = fun _ => 0 := funext fun a => by fin_cases a <;> rfl
    have hr0 : (Memref.whole $b0 : Memref sig .tc _ _ _).view.readAt (Elt F) (Rect.unit (s := S64x4096) ![0, 0] S64x4096.size
        inb_S64x4096_S64x4096_0_0).toLoadRect = id := funext (Memref.readAt_unit_zero (Elt F) $b0 hz _)
    have hr1 : (Memref.whole $b1 : Memref sig .tc _ _ _).view.readAt (Elt F) (Rect.unit (s := S64x1024) ![0, 0] S64x1024.size
        inb_S64x1024_S64x1024_0_0).toLoadRect = id := funext (Memref.readAt_unit_zero (Elt F) $b1 hz _)
    have hr2 : (Memref.whole $b2 : Memref sig .tc _ _ _).view.readAt (Elt F) (Rect.unit (s := S1x4096) ![0, 0] S1x4096.size
        inb_S1x4096_S1x4096_0_0).toLoadRect = id := funext (Memref.readAt_unit_zero (Elt F) $b2 hz _)
    have hw3 : ∀ f w, (((Memref.whole $b3).access (Rect.unit (s := S4096x1024) ![0, 0] S4096x1024.size inb_S4096x1024_S4096x1024_0_0)) :
        View sig .tc _ _ _).write (Elt F) f w Finset.univ = w := Memref.write_access_unit_zero_univ (Elt F) $b3 hz _
    simp only [owns_whole_eq, cc1__proj_body_eq_skeleton]; unfold cc1__proj_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k1_pay1 f0 f1 f2; isplitr; · ipureintro; rw [hf0, hf1, hf2]
      iexact H3))

set_option maxHeartbeats 4000000 in
/-- The kernel body on staging buffers `s0` … `s3` of the four windows: the whole loads of the three operands'
    buffers, the payload, the dead load of the result's buffer, the whole store — the result's buffer ends holding
    the payload of what the other three hold, those unchanged. -/
theorem sound_kernel (E : Set ℕ) (i : grid1.Coords) (s0 : Fin 2) (s1 : Fin 1) (s2 : Fin 2) (s3 : Fin 2)
    (Y0 : S64x4096.Idx → Elt F .f32) (Y1 : S64x1024.Idx → Elt F .f32) (Y2 : S1x4096.Idx → Elt F .f32)
    (Y3 : S4096x1024.Idx → Elt F .f32) (K : PUnit → sProp 𝕄) :
    iprop((owns (c : Thread nD τ) (stage1_0 s0) fullShare Y0 ∗ owns (c : Thread nD τ) (stage1_1 s1) fullShare Y1
            ∗ owns (c : Thread nD τ) (stage1_2 s2) fullShare Y2 ∗ owns (c : Thread nD τ) (stage1_3 s3) fullShare Y3)
          ∗ (iprop(owns (c : Thread nD τ) (stage1_0 s0) fullShare Y0 ∗ owns (c : Thread nD τ) (stage1_1 s1) fullShare Y1
                  ∗ owns (c : Thread nD τ) (stage1_2 s2) fullShare Y2
                  ∗ owns (c : Thread nD τ) (stage1_3 s3) fullShare (k1_pay1 Y0 Y1 Y2)) -∗ K ⟨⟩))
      ⊢ wp frame (wpE (defs₀ (F := F)) Variants.none c none) E
          (cc1__proj_body i (stage1_0 s0) (hstage1_0 s0) (stage1_1 s1) (hstage1_1 s1) (stage1_2 s2) (hstage1_2 s2)
            (stage1_3 s3) (hstage1_3 s3)) K := by
  fin_cases s0 <;> fin_cases s1 <;> fin_cases s2 <;> fin_cases s3
  · body_case cc1_stg0_0 cc1_stg1_0 cc1_stg2_0 cc1_stg3_0
  · body_case cc1_stg0_0 cc1_stg1_0 cc1_stg2_0 cc1_stg3_1
  · body_case cc1_stg0_0 cc1_stg1_0 cc1_stg2_1 cc1_stg3_0
  · body_case cc1_stg0_0 cc1_stg1_0 cc1_stg2_1 cc1_stg3_1
  · body_case cc1_stg0_1 cc1_stg1_0 cc1_stg2_0 cc1_stg3_0
  · body_case cc1_stg0_1 cc1_stg1_0 cc1_stg2_0 cc1_stg3_1
  · body_case cc1_stg0_1 cc1_stg1_0 cc1_stg2_1 cc1_stg3_0
  · body_case cc1_stg0_1 cc1_stg1_0 cc1_stg2_1 cc1_stg3_1

end Body

section Obligation

variable (c : Dev nD) (A3 : Bf (F := F) c main_v3) (X2 : Bf (F := F) c main_v2) (B4 : Bf (F := F) c main_v4) (O5 : Bf (F := F) c main_v5)
  (O : CellTallies nD τ sig Ix) (W₀ : Waits sig Ix) (ι : Ix)

/-- The library's body obligation, from `sound_kernel` at the point's staging buffers: the operands' buffers arrive
    holding what the fetches left (`finds0`, `finds1`, `finds2`) and leave holding that; the result's leaves
    holding the payload of those, which is what `OutAt` says; the invariant is `emp` and the dues are constant. -/
theorem body_obligation : (rdat (U := U) (Lvl := Lvl) c A3 X2 B4 O5 O W₀).BodyObligation (defs₀ (F := F)) Variants.none ι Set.univ :=
  fun t Y hY => by
    obtain ⟨d0, h0⟩ := finds0 (U := U) (Lvl := Lvl) c A3 X2 B4 O5 O W₀ t (Y 0) (hY 0)
    obtain ⟨d1, h1⟩ := finds1 (U := U) (Lvl := Lvl) c A3 X2 B4 O5 O W₀ t.val t rfl (Y 1) (hY 1)
    obtain ⟨d2, h2⟩ := finds2 (U := U) (Lvl := Lvl) c A3 X2 B4 O5 O W₀ t (Y 2) (hY 2)
    rw [bigSep_W1, bigSep_W1]
    rw [show (rdat (U := U) (Lvl := Lvl) c A3 X2 B4 O5 O W₀).Φ t.succ = (rdat (U := U) (Lvl := Lvl) c A3 X2 B4 O5 O W₀).Φ t.castSucc from rfl,
      show (rdat (U := U) (Lvl := Lvl) c A3 X2 B4 O5 O W₀).owesAt ι t.succ = (rdat (U := U) (Lvl := Lvl) c A3 X2 B4 O5 O W₀).owesAt ι t.castSucc from rfl]
    iintro ⟨HΦ, Ho, H0, H1, H2, H3⟩
    iapply (sound_kernel (F := F) c Set.univ (grid1.coords t) ((cfg1.slots t 0).cast nbuf1_0) ((cfg1.slots t 1).cast nbuf1_1)
      ((cfg1.slots t 2).cast nbuf1_2) ((cfg1.slots t 3).cast nbuf1_3) (Y 0) (Y 1) (Y 2) (Y 3) _)
    isplitl [H0 H1 H2 H3]
    · isplitl [H0]; · iexact H0
      isplitl [H1]; · iexact H1
      isplitl [H2]; · iexact H2
      iexact H3
    iintro ⟨H0, H1, H2, H3⟩
    isplitl [HΦ]; · iexact HΦ
    isplitl [Ho]; · iexact Ho
    isplitl [H0]
    · iexists Y 0; isplitr; · ipureintro; exact rfl
      iexact H0
    isplitl [H1]
    · iexists Y 1; isplitr; · ipureintro; exact rfl
      iexact H1
    isplitl [H2]
    · iexists Y 2; isplitr; · ipureintro; exact rfl
      iexact H2
    · iexists k1_pay1 (Y 0) (Y 1) (Y 2); isplitr
      · ipureintro; exact ⟨d0, d1, d2, by rw [← h0, ← h1, ← h2]⟩
      iexact H3

end Obligation

section Region
variable (ι : Ix) (L : GSem nD τ sig → Finset Ix) (lv : GSem nD τ sig → Ix → Lvl)

/-- The prefetched tables' admissible contents: the pallas_call has no table. -/
abbrev adm : (p : Fin 1) → (pcfgs (F := F) p).Adm := fun p => (cfgs p).toPCfg_adm
/-- The kernel's variants: none. -/
abbrev 𝒱₀ : Variants := Variants.none

variable (A3 : (c : Dev nD) → Bf (F := F) c main_v3) (X2 : (c : Dev nD) → Bf (F := F) c main_v2)
  (B4 : (c : Dev nD) → Bf (F := F) c main_v4) (O5 : (c : Dev nD) → Bf (F := F) c main_v5)
  (O : Dev nD → CellTallies nD τ sig Ix) (W₀ : Dev nD → Waits sig Ix)

/-- The proof data family: the one pipeline's, on every core. -/
def rdats : (p : Fin 1) → (c : Dev nD) → RDat τ (Elt F) Ix ℕ U Lvl (Pipeline.pin (pcfgs (F := F)) adm p) c :=
  fun _ c => rdat (U := U) (Lvl := Lvl) c (A3 c) (X2 c) (B4 c) (O5 c) (O c) (W₀ c)

/-- What the result array may hold after the region: its entry contents overwritten, in point order, at each
    point's block (the part inside the array) by the rows inside the array of a payload the body may have left.
    (It does not depend on `O` or `W₀`: the relation `ArrAt` reads the arrays and `after` only.) -/
def Final (c : Dev nD) (R : Bf (F := F) c main_v5) : Prop :=
  (rdat (Ix := Ix) (U := U) (Lvl := Lvl) c (A3 c) (X2 c) (B4 c) (O5 c) (O c) (W₀ c)).ArrAt 3 cfg1.N R

/-- The arrays after the write-backs, as points-tos of the buffers behind them at the full share. -/
theorem arraysAt_eq (c : Dev nD) (n : Nat) :
    (rdats (Ix := Ix) (U := U) (Lvl := Lvl) A3 X2 B4 O5 O W₀ 0 c).arraysAt n
      = bigSep Finset.univ fun w : Fin 4 => (iprop(∃ G, ⌜(rdats (Ix := Ix) (U := U) (Lvl := Lvl) A3 X2 B4 O5 O W₀ 0 c).ArrAt w n G⌝
          ∗ ((cfg1.win w).arr.view.loc (c : Thread nD τ) ↦{fullShare} G)) : sProp 𝕄) := by
  unfold RDat.arraysAt
  exact bigSep_congr fun w _ => by
    rw [(launch1.arr_whole w).set_eq_univ, (rdats (Ix := Ix) (U := U) (Lvl := Lvl) A3 X2 B4 O5 O W₀ 0 c).share_full fun _ => rfl]

set_option backward.isDefEq.respectTransparency.types false in
/-- The region over the thread state "the four arrays whole, what rides along, the core's dues": entered with the
    arrays at `A3`, `X2`, `B4`, `O5`; left with the three operands as they were and the result at contents
    `Final` holds of; every wait pair the region records is at index `ι`. -/
def reg (Rst : Dev nD → sProp 𝕄)
    (hmw : ∀ (c : Dev nD) (sm : SemLoc sig), (levAts L lv : sProp 𝕄) ⊢ MayWait (c : Thread nD τ) sm ι (O c)) :
    Pipeline.RDat.RegionSeg (pcfgs (F := F)) adm (rdats (Ix := Ix) (U := U) (Lvl := Lvl) A3 X2 B4 O5 O W₀) ι defs₀ 𝒱₀ L lv 0 where
  win := launch1.win.to₀
  block_pos := launch1.block_pos
  stage_whole := launch1.stage_whole
  K := PEmpty
  osem k := k.elim
  ho := Pipeline.OwnSemFacts.none _
  hbody c := body_obligation (U := U) (Lvl := Lvl) c (A3 c) (X2 c) (B4 c) (O5 c) (O c) (W₀ c) ι
  hwaits c := Pipeline.RDat.cellsWaits_intro (Pipeline.pin (pcfgs (F := F)) adm) (rdats (Ix := Ix) (U := U) (Lvl := Lvl) A3 X2 B4 O5 O W₀) ι 0 c
    fun w s t => hmw c _
  pre c := iprop(((c : Thread nD τ).loc main_v3 ↦{fullShare} A3 c) ∗ ((c : Thread nD τ).loc main_v2 ↦{fullShare} X2 c)
      ∗ ((c : Thread nD τ).loc main_v4 ↦{fullShare} B4 c) ∗ ((c : Thread nD τ).loc main_v5 ↦{fullShare} O5 c)
      ∗ Rst c ∗ owes (c : Thread nD τ) (O c) (W₀ c))
  post c := iprop(((c : Thread nD τ).loc main_v3 ↦{fullShare} A3 c) ∗ ((c : Thread nD τ).loc main_v2 ↦{fullShare} X2 c)
      ∗ ((c : Thread nD τ).loc main_v4 ↦{fullShare} B4 c)
      ∗ (∃ R, ⌜Final (Ix := Ix) (U := U) (Lvl := Lvl) A3 X2 B4 O5 O W₀ c R⌝ ∗ ((c : Thread nD τ).loc main_v5 ↦{fullShare} R))
      ∗ Rst c ∗ ∃ W, ⌜∀ p ∈ W, p ∈ W₀ c ∨ p.2 = ι⌝ ∗ owes (c : Thread nD τ) (O c) W)
  X _ := BI.emp
  Y _ := BI.emp
  Z c := Rst c
  hentry c := by
    rw [Pipeline.ownSems0_none, Pipeline.RDat.arrays_eq (pcfgs (F := F)) adm (rdats (Ix := Ix) (U := U) (Lvl := Lvl) A3 X2 B4 O5 O W₀) 0 c
      launch1.arr_whole ((rdats (Ix := Ix) (U := U) (Lvl := Lvl) A3 X2 B4 O5 O W₀ 0 c).share_full fun _ => rfl), bigSep_W1]
    iintro ⟨⟨H3, H2, H4, H5, HR, HO⟩, -, -⟩
    imodintro
    isplitl [H3 H2 H4 H5]
    · isplitl [H3]; · iexact H3
      isplitl [H2]; · iexact H2
      isplitl [H4]; · iexact H4
      iexact H5
    isplitr; · unfold Pipeline.prefHeld; rw [show (Finset.univ : Finset (Fin 0)) = ∅ from rfl, BI.bigSep_empty]; iempintro
    isplitl [HO]
    · unfold RDat.owesAt Pipeline.owesWithin
      iexists W₀ c; isplitr; · ipureintro; exact fun _ h => Or.inl h
      iexact HO
    isplitr; · iempintro
    iexact HR
  hin c := by
    iintro ⟨-, -, -⟩; iempintro
  hout c := by
    rw [Pipeline.ownSems0_none, scopedRest1_eq]
    iintro -
    isplitr; · iempintro
    isplitr <;> iempintro
  hexit c := by
    rw [arraysAt_eq, bigSep_W1]
    iintro ⟨⟨⟨%F3, %h3, H3⟩, ⟨%F2, %h2, H2⟩, ⟨%F4, %h4, H4⟩, ⟨%F5, %h5, H5⟩⟩, HO, -, HR⟩
    have e3 : F3 = A3 c := Eq.mp (congrFun (RDat.ArrAt_in (rdats (Ix := Ix) (U := U) (Lvl := Lvl) A3 X2 B4 O5 O W₀ 0 c) (0 : Fin 4) rfl _) F3) h3
    have e2 : F2 = X2 c := Eq.mp (congrFun (RDat.ArrAt_in (rdats (Ix := Ix) (U := U) (Lvl := Lvl) A3 X2 B4 O5 O W₀ 0 c) (1 : Fin 4) rfl _) F2) h2
    have e4 : F4 = B4 c := Eq.mp (congrFun (RDat.ArrAt_in (rdats (Ix := Ix) (U := U) (Lvl := Lvl) A3 X2 B4 O5 O W₀ 0 c) (2 : Fin 4) rfl _) F4) h4
    subst e3; subst e2; subst e4
    imodintro
    isplitl [H3]; · iexact H3
    isplitl [H2]; · iexact H2
    isplitl [H4]; · iexact H4
    isplitl [H5]
    · iexists F5; isplitr; · ipureintro; exact h5
      iexact H5
    isplitl [HR]; · iexact HR
    unfold RDat.owesAt Pipeline.owesWithin
    icases HO with ⟨%W, %hW, HO⟩; iexists W; isplitr
    · ipureintro; intro p hp
      rcases hW (Finset.mem_coe.mpr hp) with h | ⟨w, s, rfl⟩
      · exact Or.inl (Finset.mem_coe.mp h)
      · exact Or.inr rfl
    iexact HO

end Region

/-- info: 'Cert.Proof.RegionW.reg' depends on axioms: [propext, Classical.choice, Quot.sound] -/
#guard_msgs in #print axioms reg

end Cert.Proof.RegionW

end
-- ==== Proof.MainW.lean ====
/-
  @main on the TensorCore: two transposes on the host, the SparseCore call (the inputs' read shares and the
  output's rows handed to the two SparseCores and taken back), a transpose and a reshape on the host, the
  projection pipeline's region, and the final transpose.  Every array is carried at a named value: a host
  operation's result at the operation's function of its operands, the SparseCore call's at the tiles'
  whole-array function, the region's at contents its relation `Final` holds of.
-/
import proofs.«204094_g4578435138101_retrytranche1_754_22_alg».proof.Proof.ElemW
import proofs.«204094_g4578435138101_retrytranche1_754_22_alg».proof.Proof.RegionWord

noncomputable section

namespace Cert.Proof.W

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_sdiff_result wp_hlo_within)
open Idealize.ShloMosaic.Tactic
open Idealize.ShloMosaic.Transfers (shareTok shareDrop pointsTo_toks_split pointsTo_toks_join)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's arrays and the host operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

/-- The TensorCore's unscoped buffers: @main's eleven arrays. -/
abbrev tcRefs : Finset (DevRef τ sig) := {a0', a1', a2', a3', v0', v1', v2', v3', v4', v5', v6'}

abbrev op0 : HloOp τ sig (Elt F) := StableHlo.unary main_arg0 main_v0 ((transpose S20x1024 [1, 0] · Facts₀.transposes_S1024x20_S20x1024_1_0) : (⟨S1024x20, .i32⟩ : BufTy).Contents (Elt F) → (⟨S20x1024, .i32⟩ : BufTy).Contents (Elt F))
abbrev op1 : HloOp τ sig (Elt F) := StableHlo.unary main_arg1 main_v1 ((transpose S64x100000 [1, 0] · Facts₀.transposes_S100000x64_S64x100000_1_0) : (⟨S100000x64, .f32⟩ : BufTy).Contents (Elt F) → (⟨S64x100000, .f32⟩ : BufTy).Contents (Elt F))
abbrev op2 : HloOp τ sig (Elt F) := StableHlo.unary main_arg2 main_v3 ((transpose S64x100000 [1, 0] · Facts₀.transposes_S100000x64_S64x100000_1_0) : (⟨S100000x64, .f32⟩ : BufTy).Contents (Elt F) → (⟨S64x100000, .f32⟩ : BufTy).Contents (Elt F))
abbrev op3 : HloOp τ sig (Elt F) := StableHlo.reshape main_arg3 main_v4 rfl Facts₀.shapeCasts_S100000_S1x100000
abbrev op4 : HloOp τ sig (Elt F) := StableHlo.unary main_v5 main_v6 ((transpose S1024x100000 [1, 0] · Facts₀.transposes_S100000x1024_S1024x100000_1_0) : (⟨S100000x1024, .f32⟩ : BufTy).Contents (Elt F) → (⟨S1024x100000, .f32⟩ : BufTy).Contents (Elt F))

theorem h0 : (op0 (F := F)).bufs ⊆ tcRefs := show ({a0', v0'} : Finset (DevRef τ sig)) ⊆ tcRefs by decide
theorem h1 : (op1 (F := F)).bufs ⊆ tcRefs := show ({a1', v1'} : Finset (DevRef τ sig)) ⊆ tcRefs by decide
theorem h2 : (op2 (F := F)).bufs ⊆ tcRefs := show ({a2', v3'} : Finset (DevRef τ sig)) ⊆ tcRefs by decide
theorem h3 : (op3 (F := F)).bufs ⊆ tcRefs := show ({a3', v4'} : Finset (DevRef τ sig)) ⊆ tcRefs by decide
theorem h4 : (op4 (F := F)).bufs ⊆ tcRefs := show ({v5', v6'} : Finset (DevRef τ sig)) ⊆ tcRefs by decide

/-- The launch valuation, and the arrays' values along @main. -/
def V0 (d : Dev nD) : Valuation τ sig (Elt F) := fun b => m (d, b)
def Va (d : Dev nD) : Valuation τ sig (Elt F) := (op1 (F := F)).result ((op0 (F := F)).result (V0 m d))

variable (X : (d : Dev nD) → Buf (Elt F) (v2Loc d))

def Vb (d : Dev nD) : Valuation τ sig (Elt F) := Function.update (Va m d) v2' (X d)
def Vc (d : Dev nD) : Valuation τ sig (Elt F) := (op3 (F := F)).result ((op2 (F := F)).result (Vb m X d))
def Vd (d : Dev nD) (R : Buf (Elt F) (v5Loc d)) : Valuation τ sig (Elt F) := Function.update (Vc m X d) v5' R
def Ve (d : Dev nD) (R : Buf (Elt F) (v5Loc d)) : Valuation τ sig (Elt F) := (op4 (F := F)).result (Vd m X d R)

/-- The SparseCore call's operands and the output array's contents before it. -/
abbrev Iv (d : Dev nD) : Buf (Elt F) (v0Loc d) := Va m d v0'
abbrev Tv (d : Dev nD) : Buf (Elt F) (v1Loc d) := Va m d v1'
abbrev Ov (d : Dev nD) : Buf (Elt F) (v2Loc d) := Va m d v2'

theorem unscoped_held (d : Dev nD) : (unscopedBufs d (fun b => m ((SparseCore.T d).loc b)) : sProp 𝕄) = held (T d) tcRefs (V0 m d) := by
  unfold unscopedBufs held
  rw [show tcRefs = (Finset.univ.filter fun b : Ref sig .tc => ¬ b.isScoped).map ⟨Proc.devRef .tc, Proc.devRef_injective _⟩ by decide, bigSep_map]
  rfl

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem v2_rows2 (d : Dev nD) (f : Buf (Elt F) (v2Loc d)) :
    (v2Loc d ↦{fullShare} f : sProp 𝕄) = bigSep Finset.univ fun c : Fin 2 => bigSep Finset.univ fun i : Fin 16 => rows2 d c i f := by
  rw [v2_rows]; exact bigSep_congr fun c _ => bigSep_congr fun i _ => bigSep_fin2 _

section Call
variable (I : (d : Dev nD) → Buf (Elt F) (v0Loc d)) (Tb : (d : Dev nD) → Buf (Elt F) (v1Loc d)) (O : (d : Dev nD) → Buf (Elt F) (v2Loc d))

theorem st0_eq (d : Dev nD) : (bigSep Finset.univ fun c : Fin ((K (F := F)).nCore 0) => (P I Tb O X).st 0 d c)
    = iprop((bigSep Finset.univ fun c : Fin 2 => (v0Loc d ↦{tok2 c} I d : sProp 𝕄)) ∗ (bigSep Finset.univ fun c : Fin 2 => (v1Loc d ↦{tok2 c} Tb d : sProp 𝕄))
        ∗ bigSep Finset.univ fun c : Fin 2 => bigSep Finset.univ fun i : Fin 16 => rows2 d c i (O d)) := by
  show (bigSep Finset.univ fun c : Fin ((K (F := F)).nCore 0) => coreRes I Tb d (Fin.cast nCore_zero c) (O d)) = _
  rw [bigSep_cores (F := F) (fun c => coreRes I Tb d c (O d))]
  unfold coreRes
  rw [bigSep_sep', bigSep_sep']
theorem dn0_eq (d : Dev nD) : (bigSep Finset.univ fun c : Fin ((K (F := F)).nCore 0) => (P I Tb O X).dn 0 d c)
    = iprop((bigSep Finset.univ fun c : Fin 2 => (v0Loc d ↦{tok2 c} I d : sProp 𝕄)) ∗ (bigSep Finset.univ fun c : Fin 2 => (v1Loc d ↦{tok2 c} Tb d : sProp 𝕄))
        ∗ bigSep Finset.univ fun c : Fin 2 => bigSep Finset.univ fun i : Fin 16 => rows2 d c i (X d)) := by
  show (bigSep Finset.univ fun c : Fin ((K (F := F)).nCore 0) => coreRes I Tb d (Fin.cast nCore_zero c) (X d)) = _
  rw [bigSep_cores (F := F) (fun c => coreRes I Tb d c (X d))]
  unfold coreRes
  rw [bigSep_sep', bigSep_sep']
end Call

theorem held_pick3 (d : Dev nD) (V : Valuation τ sig (Elt F)) :
    (held (T d) tcRefs V : sProp 𝕄) = iprop(((v0Loc d ↦{fullShare} V v0') ∗ (v1Loc d ↦{fullShare} V v1') ∗ (v2Loc d ↦{fullShare} V v2'))
      ∗ held (T d) (tcRefs \ {v0', v1', v2'}) V) := by
  rw [held_sub_split (T d) (show ({v0', v1', v2'} : Finset (DevRef τ sig)) ⊆ tcRefs by decide) V]
  unfold held
  rw [SparseCore.bigSep_insert' (by decide), SparseCore.bigSep_insert' (by decide), bigSep_singleton]
theorem held_pick4 (d : Dev nD) (V : Valuation τ sig (Elt F)) :
    (held (T d) tcRefs V : sProp 𝕄) = iprop(((v3Loc d ↦{fullShare} V v3') ∗ (v2Loc d ↦{fullShare} V v2') ∗ (v4Loc d ↦{fullShare} V v4') ∗ (v5Loc d ↦{fullShare} V v5'))
      ∗ held (T d) (tcRefs \ {v3', v2', v4', v5'}) V) := by
  rw [held_sub_split (T d) (show ({v3', v2', v4', v5'} : Finset (DevRef τ sig)) ⊆ tcRefs by decide) V]
  unfold held
  rw [SparseCore.bigSep_insert' (by decide), SparseCore.bigSep_insert' (by decide), SparseCore.bigSep_insert' (by decide), bigSep_singleton]
theorem held_pick5 (d : Dev nD) (V : Valuation τ sig (Elt F)) :
    (held (T d) tcRefs V : sProp 𝕄) = iprop(((a0Loc d ↦{fullShare} V a0') ∗ (a1Loc d ↦{fullShare} V a1') ∗ (a2Loc d ↦{fullShare} V a2') ∗ (a3Loc d ↦{fullShare} V a3') ∗ (v6Loc d ↦{fullShare} V v6'))
      ∗ held (T d) (tcRefs \ {a0', a1', a2', a3', v6'}) V) := by
  rw [held_sub_split (T d) (show ({a0', a1', a2', a3', v6'} : Finset (DevRef τ sig)) ⊆ tcRefs by decide) V]
  unfold held
  rw [SparseCore.bigSep_insert' (by decide), SparseCore.bigSep_insert' (by decide), SparseCore.bigSep_insert' (by decide), SparseCore.bigSep_insert' (by decide), bigSep_singleton]

theorem held_update_rest (d : Dev nD) (V : Valuation τ sig (Elt F)) (b : DevRef τ sig) (f : b.ty.Contents (Elt F)) (S : Finset (DevRef τ sig)) (hb : b ∉ S) :
    (held (T d) S (Function.update V b f) : sProp 𝕄) = held (T d) S V :=
  bigSep_congr fun b' hb' => by rw [Function.update_of_ne (fun e : b' = b => hb (by rw [← e]; exact hb'))]

/-- After the call: the three arrays back among the eleven, the output at the tiles' function. -/
theorem held_call_back (d : Dev nD) :
    iprop(((v0Loc d ↦{fullShare} Va m d v0') ∗ (v1Loc d ↦{fullShare} Va m d v1') ∗ (v2Loc d ↦{fullShare} X d))
      ∗ held (T d) (tcRefs \ {v0', v1', v2'}) (Va m d)) = (held (T d) tcRefs (Vb m X d) : sProp 𝕄) := by
  unfold Vb
  rw [held_pick3 (F := F) d (Function.update (Va m d) v2' (X d)), held_update_rest (F := F) d (Va m d) v2' (X d) _ (by decide),
    Function.update_of_ne (show v0' ≠ v2' by decide), Function.update_of_ne (show v1' ≠ v2' by decide), Function.update_self]

/-! ## The region's arrays, as families over the devices -/

abbrev A3f (c : Dev nD) : RegionW.Bf (F := F) c main_v3 := Vc m X c v3'
abbrev X2f (c : Dev nD) : RegionW.Bf (F := F) c main_v2 := Vc m X c v2'
abbrev B4f (c : Dev nD) : RegionW.Bf (F := F) c main_v4 := Vc m X c v4'
abbrev O5f (c : Dev nD) : RegionW.Bf (F := F) c main_v5 := Vc m X c v5'
abbrev Otc (c : Dev nD) : CellTallies nD τ sig (HIx 1) := (K (F := F)).Otc c 1

/-- The result array's contents after the region: what the pipeline's relation holds of. -/
def FinalR (W : Waits sig (HIx 1)) (d : Dev nD) (R : Buf (Elt F) (v5Loc d)) : Prop :=
  RegionW.Final (Ix := HIx 1) (U := UU) (Lvl := ℕ) (A3f m X) (X2f m X) (B4f m X) (O5f m X) (Otc (F := F)) (fun _ => W) d R

/-- What @main leaves: the eleven arrays at their final values, the result of the region at contents `FinalR` holds of. -/
def FIN (d : Dev nD) : sProp 𝕄 := iprop(∃ W R, ⌜FinalR m X W d R⌝ ∗ held (T d) tcRefs (Ve m X d R))

theorem held_region_back (d : Dev nD) (R : Buf (Elt F) (v5Loc d)) :
    iprop(((v3Loc d ↦{fullShare} Vc m X d v3') ∗ (v2Loc d ↦{fullShare} Vc m X d v2') ∗ (v4Loc d ↦{fullShare} Vc m X d v4') ∗ (v5Loc d ↦{fullShare} R))
      ∗ held (T d) (tcRefs \ {v3', v2', v4', v5'}) (Vc m X d)) = (held (T d) tcRefs (Vd m X d R) : sProp 𝕄) := by
  unfold Vd
  rw [held_pick4 (F := F) d (Function.update (Vc m X d) v5' R), held_update_rest (F := F) d (Vc m X d) v5' R _ (by decide),
    Function.update_of_ne (show v3' ≠ v5' by decide), Function.update_of_ne (show v2' ≠ v5' by decide), Function.update_of_ne (show v4' ≠ v5' by decide), Function.update_self]

/-- An array no operation of @main writes ends at its launch contents. -/
theorem Ve_arg (d : Dev nD) (R : Buf (Elt F) (v5Loc d)) (b : DevRef τ sig) (h0 : b ∉ ({v0'} : Finset (DevRef τ sig))) (h1 : b ∉ ({v1'} : Finset (DevRef τ sig))) (h2 : b ≠ v2')
    (h3 : b ∉ ({v3'} : Finset (DevRef τ sig))) (h4 : b ∉ ({v4'} : Finset (DevRef τ sig))) (h5 : b ≠ v5') (h6 : b ∉ ({v6'} : Finset (DevRef τ sig))) :
    Ve m X d R b = V0 m d b := by
  unfold Ve Vd Vc Vb Va
  rw [(op4 (F := F)).result_of_not_mem _ h6, Function.update_of_ne h5, (op3 (F := F)).result_of_not_mem _ h4, (op2 (F := F)).result_of_not_mem _ h3,
    Function.update_of_ne h2, (op1 (F := F)).result_of_not_mem _ h1, (op0 (F := F)).result_of_not_mem _ h0]

section RegPrePost
open Idealize.ShloMosaic.TcCoe
variable {Ix : Type} [DecidableEq Ix] {U : Type} [URA U] {Lvl : Type} [Preorder Lvl]
variable (ι : Ix) (L : GSem nD τ sig → Finset Ix) (lv : GSem nD τ sig → Ix → Lvl)
  (A3 : (c : Dev nD) → RegionW.Bf (F := F) c main_v3) (X2 : (c : Dev nD) → RegionW.Bf (F := F) c main_v2)
  (B4 : (c : Dev nD) → RegionW.Bf (F := F) c main_v4) (O5 : (c : Dev nD) → RegionW.Bf (F := F) c main_v5)
  (O : Dev nD → CellTallies nD τ sig Ix) (W₀ : Dev nD → Waits sig Ix) (Rst : Dev nD → sProp (MT nD τ sig Ix (Elt F) ℕ U Lvl))
  (hmw : ∀ (c : Dev nD) (sm : SemLoc sig), (levAts L lv : sProp (MT nD τ sig Ix (Elt F) ℕ U Lvl)) ⊢ MayWait (c : Thread nD τ) sm ι (O c))
theorem reg_pre (c : Dev nD) : (RegionW.reg ι L lv A3 X2 B4 O5 O W₀ Rst hmw).pre c
    = iprop(((c : Thread nD τ).loc main_v3 ↦{fullShare} A3 c) ∗ ((c : Thread nD τ).loc main_v2 ↦{fullShare} X2 c)
      ∗ ((c : Thread nD τ).loc main_v4 ↦{fullShare} B4 c) ∗ ((c : Thread nD τ).loc main_v5 ↦{fullShare} O5 c)
      ∗ Rst c ∗ owes (c : Thread nD τ) (O c) (W₀ c)) := rfl
theorem reg_post (c : Dev nD) : (RegionW.reg ι L lv A3 X2 B4 O5 O W₀ Rst hmw).post c
    = iprop(((c : Thread nD τ).loc main_v3 ↦{fullShare} A3 c) ∗ ((c : Thread nD τ).loc main_v2 ↦{fullShare} X2 c)
      ∗ ((c : Thread nD τ).loc main_v4 ↦{fullShare} B4 c)
      ∗ (∃ R, ⌜RegionW.Final (Ix := Ix) (U := U) (Lvl := Lvl) A3 X2 B4 O5 O W₀ c R⌝ ∗ ((c : Thread nD τ).loc main_v5 ↦{fullShare} R))
      ∗ Rst c ∗ ∃ W, ⌜∀ p ∈ W, p ∈ W₀ c ∨ p.2 = ι⌝ ∗ owes (c : Thread nD τ) (O c) W) := rfl
end RegPrePost

/-- The TensorCore's handshake state but what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))
theorem tcSt_eq (d : Dev nD) (n : ℕ) : ((K (F := F)).tcSt EH d n : sProp 𝕄)
    = iprop((∃ W, ⌜(K (F := F)).WBelow (T d) W (8 * n)⌝ ∗ owes (T d) ((K (F := F)).Otc d n) W) ∗ tcRest (F := F) d n) := rfl

theorem hmain [∀ e, Nonempty (Elt F e)] (κ : GSem nD τ sig → ℕ) (d : Dev nD) :
    iprop((K (F := F)).ctx EH (P (Iv m) (Tv m) (Ov m) X) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m X d) := by
  unfold SparseCore.Cfg.tcRes
  rw [unscoped_held]
  simp only [main, wp_bind, wp_pure]
  iintro ⟨#Hctx, Hst, ⟨Hb, Hheld, -, -⟩, HG⟩
  -- the two transposes
  iapply (wp_hlo_within 𝒱 (SparseCore.T d) none Set.univ (op := op0) (S := tcRefs) h0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := tcRefs) h1 (V := (op0 (F := F)).result (V0 m d))) $$ [Hb Hheld]
  · isplitl [Hb]; · iexact Hb
    iexact Hheld
  iintro ⟨Hb, Hheld⟩
  rw [wp_ret]; imodintro
  -- the SparseCore call: the inputs' read shares and the output's rows out, and back
  ihave Hheld := (Entails.of_eq (show (held (T d) tcRefs ((op1 (F := F)).result ((op0 (F := F)).result (V0 m d))) : sProp 𝕄) = held (T d) tcRefs (Va m d) from rfl)) $$ Hheld
  ihave Hh := (Entails.of_eq (held_pick3 (F := F) d (Va m d))) $$ Hheld
  icases Hh with ⟨⟨H0, H1, H2⟩, Hrest⟩
  ihave H0' := (pointsTo_toks_split fullShare 2) $$ H0
  icases H0' with ⟨H0d, H0t⟩
  ihave H1' := (pointsTo_toks_split fullShare 2) $$ H1
  icases H1' with ⟨H1d, H1t⟩
  ihave H2' := (Entails.of_eq (v2_rows2 (F := F) d _)) $$ H2
  iapply ((K (F := F)).wp_run (D (F := F)) 𝒱 (EH := EH) (P := P (Iv m) (Tv m) (Ov m) X) κ d 0) $$ [Hst H0t H1t H2' H0d H1d Hrest Hb HG]
  isplitr; · iexact Hctx
  isplitl [Hst]; · iexact Hst
  isplitl [H0t H1t H2']
  · rw [st0_eq]
    isplitl [H0t]; · iexact H0t
    isplitl [H1t]; · iexact H1t
    iexact H2'
  iintro ⟨Hst, Hdn⟩
  ihave Hdn' := (Entails.of_eq (dn0_eq (F := F) X (Iv m) (Tv m) (Ov m) d)) $$ Hdn
  icases Hdn' with ⟨H0t, H1t, H2'⟩
  ihave H0 := (pointsTo_toks_join fullShare 2) $$ [H0d H0t]
  · isplitl [H0d] <;> iassumption
  ihave H1 := (pointsTo_toks_join fullShare 2) $$ [H1d H1t]
  · isplitl [H1d] <;> iassumption
  ihave H2 := (Entails.of_eq (v2_rows2 (F := F) d (X d)).symm) $$ H2'
  ihave Hheld := (Entails.of_eq (held_call_back (F := F) m X d)) $$ [H0 H1 H2 Hrest]
  · isplitl [H0 H1 H2]
    · isplitl [H0]; · iexact H0
      isplitl [H1]; · iexact H1
      iexact H2
    · iexact Hrest
  -- a transpose and a reshape
  iapply (wp_hlo_within 𝒱 (SparseCore.T d) none Set.univ (op := op2) (S := tcRefs) h2 (V := Vb m X d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := tcRefs) h3 (V := (op2 (F := F)).result (Vb m X d))) $$ [Hb Hheld]
  · isplitl [Hb]; · iexact Hb
    iexact Hheld
  iintro ⟨Hb, Hheld⟩
  rw [wp_ret]; imodintro
  -- the projection pipeline's region
  ihave Hheld := (Entails.of_eq (show (held (T d) tcRefs ((op3 (F := F)).result ((op2 (F := F)).result (Vb m X d))) : sProp 𝕄) = held (T d) tcRefs (Vc m X d) from rfl)) $$ Hheld
  ihave Hh := (Entails.of_eq (held_pick4 (F := F) d (Vc m X d))) $$ Hheld
  icases Hh with ⟨⟨H3, H2, H4, H5⟩, Hrest⟩
  ihave Hst := (Entails.of_eq (show ((K (F := F)).tcSt EH d ((0 : Fin 1).val + 1) : sProp 𝕄) = (K (F := F)).tcSt EH d 1 from rfl)) $$ Hst
  ihave Hst' := (Entails.of_eq (tcSt_eq (F := F) d 1)) $$ Hst
  icases Hst' with ⟨⟨%W, %hW, HO⟩, Hstr⟩
  ihave HG' := (Entails.of_eq (show G (F := F) d = iprop(Pipeline.cellsGhost (nD := nD) (τ := τ) cfgs EP 0 d ∗ Pipeline.toksInit (nD := nD) (τ := τ) cfgs EP 0 d) from rfl)) $$ HG
  icases HG' with ⟨Hcg, Htk⟩
  ihave Hlev := (SparseCore.Cfg.ctx_levAts κ) $$ Hctx
  have hOtc : ∀ (c : Dev nD) (g : GSem nD τ sig), Otc (F := F) c g none = 0 := fun c g => by
    show (K (F := F)).Otc c 1 g none = 0
    rw [(K (F := F)).Otc_end c (le_refl 1)]; rfl
  iapply ((K (F := F)).wp_liftProg (D (F := F)) 𝒱 (SparseCore.T d) Set.univ none (Prog.lift (.customCall (Pipeline.entry 0) ())) _)
  iapply (Pipeline.RDat.RegionSeg.wp (pcfgs (F := F)) RegionW.adm
      (RegionW.rdats (Ix := HIx 1) (U := UU) (Lvl := ℕ) (A3f m X) (X2f m X) (B4f m X) (O5f m X) (Otc (F := F)) (fun _ => W))
      (none : HIx 1) cellOf_inj EP defs₀ RegionW.𝒱₀ (K (F := F)).L (K (F := F)).lev
      (RegionW.reg (none : HIx 1) (K (F := F)).L (K (F := F)).lev (A3f m X) (X2f m X) (B4f m X) (O5f m X) (Otc (F := F)) (fun _ => W) (fun _ => iprop(emp))
        (fun c sm => (K (F := F)).mayWait_none sm (hOtc c)))
      d none (fun _ h => nomatch h) (fun a => .ret a) _) $$ [H3 H2 H4 H5 HO Hb Hcg Htk Hrest Hstr]
  isplitl [Hrest Hstr]
  · rw [reg_post]
    iintro ⟨Hb, H3, H2, H4, ⟨%R, %hR, H5⟩, -, ⟨%W', %hW', HO⟩⟩
    rw [wp_ret]; imodintro
    ihave Hheld := (Entails.of_eq (held_region_back (F := F) m X d R)) $$ [H3 H2 H4 H5 Hrest]
    · isplitl [H3 H2 H4 H5]
      · isplitl [H3]; · iexact H3
        isplitl [H2]; · iexact H2
        isplitl [H4]; · iexact H4
        iexact H5
      · iexact Hrest
    -- the final transpose
    iapply (wp_hlo_within 𝒱 (SparseCore.T d) none Set.univ (op := op4) (S := tcRefs) h4 (V := Vd m X d R)) $$ [Hb Hheld]
    · isplitl [Hb]; · iexact Hb
      iexact Hheld
    iintro ⟨Hb, Hheld⟩
    rw [wp_ret]; imodintro; imodintro
    isplitl [HO Hstr]
    · iapply (Entails.of_eq (tcSt_eq (F := F) d 1).symm)
      isplitl [HO]
      · iexists W'; isplitr
        · ipureintro
          intro p hp
          rcases hW' p hp with h | h
          · exact hW p h
          · rw [h]; exact Nat.zero_le _
        · iexact HO
      · iexact Hstr
    · unfold FIN
      iexists W, R; isplitr
      · ipureintro; exact hR
      · iexact Hheld
  isplitl [Hb]; · iexact Hb
  isplitl [H3 H2 H4 H5 HO]
  · rw [reg_pre]
    isplitl [H3]; · iexact H3
    isplitl [H2]; · iexact H2
    isplitl [H4]; · iexact H4
    isplitl [H5]; · iexact H5
    isplitr; · iempintro
    iexact HO
  isplitr; · iexact Hlev
  isplitl [Hcg]; · iexact Hcg
  iexact Htk

/-! ## Reading the claim off the final memory -/

def fq (d : Dev nD) (s' : Phys nD τ sig (Elt F)) : Prop :=
  (∃ W R, FinalR m X W d R ∧ s'.mem.mem (v6Loc d) = Ve m X d R v6') ∧ s'.mem.mem (a0Loc d) = m (a0Loc d) ∧ s'.mem.mem (a1Loc d) = m (a1Loc d)
    ∧ s'.mem.mem (a2Loc d) = m (a2Loc d) ∧ s'.mem.mem (a3Loc d) = m (a3Loc d)

theorem hfin (d : Dev nD) (s' : Phys nD τ sig (Elt F)) : iprop(FIN m X d ∗ SI s') ⊢ (⌜fq m X d s'⌝ : sProp 𝕄) := by
  unfold FIN
  iintro ⟨⟨%W, %R, %hR, Hheld⟩, HSI⟩
  ihave Hh := (Entails.of_eq (held_pick5 (F := F) d (Ve m X d R))) $$ Hheld
  icases Hh with ⟨⟨Ha0, Ha1, Ha2, Ha3, Hv6⟩, -⟩
  ihave H := (persistent_entails_right (SI_pointsTo_agree (st := s') (ℓ := a0Loc d) (I := Finset.univ) (q := fullShare) (f := Ve m X d R a0'))) $$ [HSI Ha0]
  · isplitl [HSI] <;> iassumption
  icases H with ⟨%h0, HSI, -⟩
  ihave H := (persistent_entails_right (SI_pointsTo_agree (st := s') (ℓ := a1Loc d) (I := Finset.univ) (q := fullShare) (f := Ve m X d R a1'))) $$ [HSI Ha1]
  · isplitl [HSI] <;> iassumption
  icases H with ⟨%h1, HSI, -⟩
  ihave H := (persistent_entails_right (SI_pointsTo_agree (st := s') (ℓ := a2Loc d) (I := Finset.univ) (q := fullShare) (f := Ve m X d R a2'))) $$ [HSI Ha2]
  · isplitl [HSI] <;> iassumption
  icases H with ⟨%h2, HSI, -⟩
  ihave H := (persistent_entails_right (SI_pointsTo_agree (st := s') (ℓ := a3Loc d) (I := Finset.univ) (q := fullShare) (f := Ve m X d R a3'))) $$ [HSI Ha3]
  · isplitl [HSI] <;> iassumption
  icases H with ⟨%h3, HSI, -⟩
  ihave H := (SI_pointsTo_agree (st := s') (ℓ := v6Loc d) (I := Finset.univ) (q := fullShare) (f := Ve m X d R v6')) $$ [HSI Hv6]
  · isplitl [HSI] <;> iassumption
  icases H with %h6
  ipureintro
  refine ⟨⟨W, R, hR, funext fun i => h6 i (Finset.mem_univ i)⟩, ?_, ?_, ?_, ?_⟩
  · exact (funext fun i => h0 i (Finset.mem_univ i)).trans (Ve_arg (F := F) m X d R a0' (by decide) (by decide) (by decide) (by decide) (by decide) (by decide) (by decide))
  · exact (funext fun i => h1 i (Finset.mem_univ i)).trans (Ve_arg (F := F) m X d R a1' (by decide) (by decide) (by decide) (by decide) (by decide) (by decide) (by decide))
  · exact (funext fun i => h2 i (Finset.mem_univ i)).trans (Ve_arg (F := F) m X d R a2' (by decide) (by decide) (by decide) (by decide) (by decide) (by decide) (by decide))
  · exact (funext fun i => h3 i (Finset.mem_univ i)).trans (Ve_arg (F := F) m X d R a3' (by decide) (by decide) (by decide) (by decide) (by decide) (by decide) (by decide))

end Cert.Proof.W

end
-- ==== Proof.RunW.lean ====
/-
  The kernel's run as printed, at the word level: every weakly fair execution of the TensorCore's @main beside the
  SparseCores' sequencers and tiles terminates, faults nowhere, leaves the four arguments as they were and the result
  at the transpose of contents the projection pipeline's relation holds of.
-/
import proofs.«204094_g4578435138101_retrytranche1_754_22_alg».proof.Proof.TileOblW
import proofs.«204094_g4578435138101_retrytranche1_754_22_alg».proof.Proof.MainW
import proofs.«204094_g4578435138101_retrytranche1_754_22_alg».proof.Proof.IdxRange

noncomputable section

namespace Cert.Proof.W

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-- The transposed embedding sums the SparseCore call leaves. -/
abbrev Xm (d : Dev nD) : Buf (Elt F) (v2Loc d) := Xt (Iv m) (Tv m) d

/-- What every final memory satisfies. -/
def QC : PUnit × MemSt nD τ sig (Elt F) → Prop := fun r => ∀ c : Dev nD,
  (∃ W R, FinalR m (Xm m) W c R ∧ r.2.mem (v6Loc c) = Ve m (Xm m) c R v6') ∧ r.2.mem (a0Loc c) = m (a0Loc c) ∧ r.2.mem (a1Loc c) = m (a1Loc c)
    ∧ r.2.mem (a2Loc c) = m (a2Loc c) ∧ r.2.mem (a3Loc c) = m (a3Loc c)

theorem run_main [∀ e, Nonempty (Elt F e)] (hI : ∀ d i, (Iv m d i).toNat < 100000) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (Iv m) (Tv m) (Ov m) (Xm m)) facts v₀
    (fun q hq => match q with | 0 => nomatch hq)
    (fun q _ => match q with | 0 => tileObl (Iv m) (Tv m) (Ov m) hI)
    (fun q _ => match q with | 0 => SparseCore.Cfg.VecSplit.of_plain (vecSplit (Iv m) (Tv m) (Ov m) (Xm m)))
    m ρ main (G (F := F)) (FIN m (Xm m)) (u₀ (F := F)) (sep_elim_left.trans (hu₀ (Iv m) (Tv m) (Ov m) (Xm m))) (hmain m ρ (Xm m)) (fq m (Xm m)) (hfin m (Xm m)) (QC m) (fun _ h => h)

/-- The transposed array of context words the tiles read is the transpose of the first argument: the second host
    transpose does not write it. -/
theorem Iv_eq (d : Dev nD) : Iv m d = transpose S20x1024 [1, 0] (m (a0Loc d)) Facts₀.transposes_S1024x20_S20x1024_1_0 := by
  show (op1 (F := F)).result ((op0 (F := F)).result (V0 m d)) v0' = _
  rw [(op1 (F := F)).result_of_not_mem _ (show v0' ∉ ({v1'} : Finset (DevRef τ sig)) by decide)]
  exact StableHlo.unary_result _ _ _ _ _ _

/-- The precondition bounds every context word, so every word the tiles read names a table row. -/
theorem hI_of_pre [Cert.Pre_input_domain.Facts]
    (hpre : ∀ c : Dev nD, Cert.Pre_input_domain.fn (F := F) (m (a0Loc c)) (m (a1Loc c)) (m (a2Loc c)) (m (a3Loc c)) = fun _ => 1#1) :
    ∀ d i, (Iv m d i).toNat < 100000 := by
  intro d i
  rw [Iv_eq]
  exact Cert.Bridge.idxT_range (m (a0Loc d)) (m (a1Loc d)) (m (a2Loc d)) (m (a3Loc d)) (hpre d) i

end Cert.Proof.W

end
-- ==== Proof.LibChainSum.lean ====
/-
  A general fact about a sum written out from the left, independent of any particular program: twenty terms added
  one after the other, `((…((g 0 + g 1) + g 2)…) + g 19)`, are the sum of the family over its twenty indices, in any
  commutative monoid (the extended reals a float is read as at the ideal instance among them).  At the ideal instance a
  float addition is the sum of extended reals, so the same chain written with the instance's addition is that sum too.
-/
import Mathlib.Algebra.BigOperators.Fin
import Idealize.ShloMosaic.PureOps.Ideal

open scoped BigOperators

namespace Cert.Lib.ChainSum

open Idealize.ShloMosaic

/-- Twenty terms added from the left are the sum over the twenty indices. -/
theorem sum20 {M : Type*} [AddCommMonoid M] (g : Fin 20 → M) :
    g 0 + g 1 + g 2 + g 3 + g 4 + g 5 + g 6 + g 7 + g 8 + g 9 + g 10 + g 11 + g 12 + g 13 + g 14 + g 15 + g 16 + g 17
        + g 18 + g 19 = ∑ j : Fin 20, g j := by
  simp only [Fin.sum_univ_castSucc, Fin.sum_univ_zero, zero_add]
  rfl

/-- At the ideal instance a float addition is the sum of the two extended reals. -/
theorem addf_ideal {φ : FTy} (a b : Ideal φ) : FloatOps.addf (F := Ideal) a b = a + b := rfl

/-- The chain of twenty float additions from the left, at the ideal instance, is the sum over the twenty indices. -/
theorem addf_chain20 {φ : FTy} (g : Fin 20 → Ideal φ) :
    FloatOps.addf (FloatOps.addf (FloatOps.addf (FloatOps.addf (FloatOps.addf (FloatOps.addf (FloatOps.addf (FloatOps.addf (FloatOps.addf (FloatOps.addf
    (FloatOps.addf (FloatOps.addf (FloatOps.addf (FloatOps.addf (FloatOps.addf (FloatOps.addf (FloatOps.addf (FloatOps.addf (FloatOps.addf
      (g 0) (g 1)) (g 2)) (g 3)) (g 4)) (g 5)) (g 6)) (g 7)) (g 8)) (g 9)) (g 10)) (g 11)) (g 12)) (g 13)) (g 14)) (g 15)) (g 16)) (g 17)) (g 18)) (g 19)
      = ∑ j : Fin 20, g j :=
  sum20 (M := EReal) g

end Cert.Lib.ChainSum
-- ==== Proof.TileValue.lean ====
/-
  The vector subcores' result at the ideal instance.  Entry `(r, b)` of the kernel's summed-embedding array is the
  chain of twenty float additions, from the left, of the table entries the twenty context words of batch column `b`
  name in table row `r`; at the ideal instance a float addition is the sum of extended reals, so the chain is the sum
  over the twenty words, and the entry a word names is the table at the word's row number.
-/
import proofs.«204094_g4578435138101_retrytranche1_754_22_alg».proof.Proof.TileIdeal
import proofs.«204094_g4578435138101_retrytranche1_754_22_alg».proof.Proof.Spec
import proofs.«204094_g4578435138101_retrytranche1_754_22_alg».proof.Proof.LibChainSum
import Idealize.ShloMosaic.Lib.ValueIdx
import Idealize.ShloMosaic.PureOps.Ideal

noncomputable section

open scoped BigOperators

namespace Cert.Proof.TileI

open Cert.KernelIdeal Idealize.ShloMosaic Idealize.ShloMosaic.ValueIdx

/-- THE SUMMED EMBEDDING READ AT `(r, b)`: the sum over the twenty context words of batch column `b` of the table's
    row-`r` entries at the rows the words name. -/
theorem XT_apply (I : IVec S20x1024 32) (Tb : FVec Ideal S64x100000 .f32) (r : Fin 64) (b : Fin 1024) :
    XT (F := Ideal) I Tb (ix2 r b) = ∑ j : Fin 20, Tb (ix2 r (Cert.Spec.rowOf (I (ix2 j b)))) :=
  Cert.Lib.ChainSum.addf_chain20 (φ := .f32) (fun j => Tb (ix2 r (Cert.Spec.rowOf (I (ix2 j b)))))

end Cert.Proof.TileI

end
-- ==== Proof.RegionValue.lean ====
/-
  The VALUE of the TensorCore pallas_call's result, at the ideal values: whatever contents the region may leave in
  the result array (`Final`, RegionIdeal.lean), its row `v`, column `b` is

      (∑ k : Fin 64, first operand (k, v) × second operand (k, b)) + third operand (0, v)

  for every row of the array. The body's payload at an index of the block is that sum over the staged blocks
  (`pay_apply`: the contraction into a zero accumulator is the plain sum over the one contracted axis; the third
  operand's block is transposed and broadcast along the rows); at a row inside the array it reads only words the
  fetches landed (`wfill_apply`, `xfill_apply`, `bfill_apply`), so the rows a point writes back are the block of
  ONE whole-array function (`cut_out`), whatever words the cut fetches left past the arrays' end; the blocks'
  rows are 0‥4095, 4096‥8191, …, the last block's cut where the array ends, so the 25 write-backs cover every row
  (`arrAt_rows`), and rows past the array's end are never written.
-/
import proofs.«204094_g4578435138101_retrytranche1_754_22_alg».proof.Proof.RegionIdeal
import Idealize.ShloMosaic.Lib.ValueIdx
import Idealize.ShloMosaic.Lib.ValueLayout
import Idealize.ShloMosaic.Lib.Pipeline.Value
import Idealize.ShloMosaic.PureOps.Ideal.Laws

noncomputable section

namespace Cert.Proof.RegionI

open Cert.KernelIdeal Cert.KernelIdeal.Gen

open Idealize.ShloMosaic
open Idealize.ShloMosaic.TcCoe Idealize.ShloMosaic.ValueIdx
open Idealize.SL Idealize.SL.RA Idealize.SL.Sem
open Idealize.ShloMosaic.Pipeline (RDat Cfg Window)

variable {Ix : Type} [DecidableEq Ix] {U : Type} [URA U] {Lvl : Type} [Preorder Lvl]

/-- The contraction's dimension numbers: both operands contract their leading axis. -/
local notation "𝔇" => dot_S64x4096_S64x1024_S4096x1024_0_0_1_1_n_n

/-- The body's payload at an index: the sum over the contracted coordinate of the operands' products, plus the
    third operand's entry of that row. At the ideal values. -/
theorem pay_apply (W' : Vec Ideal S64x4096 .f32) (X' : Vec Ideal S64x1024 .f32) (B' : Vec Ideal S1x4096 .f32)
    (p : Fin 4096) (q : Fin 1024) :
    k1_pay1 (F := Ideal) W' X' B' (ix2 p q)
      = (∑ k : Fin 64, (W' (ix2 k p) : EReal) * (X' (ix2 k q) : EReal)) + (B' (ix2 (0 : Fin 1) p) : EReal) := by
  unfold k1_pay1
  simp only [shapeCast_self]
  rw [addf_apply]
  congr 1
  · simp only [matmul]
    rw [Ideal.matmul_constant_zero_apply, ← Equiv.sum_comp (contrEquiv1 𝔇 64 rfl rfl).symm]
    refine Finset.sum_congr rfl fun k _ => ?_
    have c2 := contrEquiv1_symm_val 𝔇 64 rfl rfl k
    have l2 : (𝔇).lhsIdx (ix2 p q) ((contrEquiv1 𝔇 64 rfl rfl).symm k) = ix2 k p := by
      funext ax; apply Fin.ext
      match ax with
      | ⟨0, _⟩ => simp [DotDims.lhsIdx, dot_S64x4096_S64x1024_S4096x1024_0_0_1_1_n_n]; exact c2
      | ⟨1, _⟩ => simp [DotDims.lhsIdx, dot_S64x4096_S64x1024_S4096x1024_0_0_1_1_n_n]; rfl
    have r2 : (𝔇).rhsIdx (ix2 p q) ((contrEquiv1 𝔇 64 rfl rfl).symm k) = ix2 k q := by
      funext ax; apply Fin.ext
      match ax with
      | ⟨0, _⟩ => simp [DotDims.rhsIdx, dot_S64x4096_S64x1024_S4096x1024_0_0_1_1_n_n]; exact c2
      | ⟨1, _⟩ => simp [DotDims.rhsIdx, dot_S64x4096_S64x1024_S4096x1024_0_0_1_1_n_n]; rfl
    rw [l2, r2]
  · rw [broadcastTo_apply _ _ _ (ix2 p (0 : Fin 1)) (fun a => match a with
      | ⟨0, _⟩ => by simp
      | ⟨1, _⟩ => by simp), transpose_ix2_apply]

/-! ## The printed index maps and cuts -/

/-- The windows' block indices and the sizes their transfers move, decided over the grid: the first and third
    operands' blocks and the result's move together along the long axis, the last one cut at the array's end. -/
theorem idx_facts : ∀ t : Fin cfg1.N,
    win1_0.index t (0 : Fin 2) = 0 ∧ win1_0.index t (1 : Fin 2) = t.val
    ∧ win1_2.index t (0 : Fin 2) = 0 ∧ win1_2.index t (1 : Fin 2) = t.val
    ∧ win1_3.index t (0 : Fin 2) = t.val ∧ win1_3.index t (1 : Fin 2) = 0
    ∧ win1_0.xsize (grid1.coords t) (0 : Fin 2) = 64
    ∧ win1_0.xsize (grid1.coords t) (1 : Fin 2) = win1_3.xsize (grid1.coords t) (0 : Fin 2)
    ∧ win1_2.xsize (grid1.coords t) (0 : Fin 2) = 1
    ∧ win1_2.xsize (grid1.coords t) (1 : Fin 2) = win1_3.xsize (grid1.coords t) (0 : Fin 2)
    ∧ win1_3.xsize (grid1.coords t) (1 : Fin 2) = 1024
    ∧ win1_3.xsize (grid1.coords t) (0 : Fin 2) ≤ 4096
    ∧ t.val * 4096 + win1_3.xsize (grid1.coords t) (0 : Fin 2) ≤ 100000
    ∧ (100000 ≤ t.val * 4096 + 4096 → t.val * 4096 + win1_3.xsize (grid1.coords t) (0 : Fin 2) = 100000)
    ∧ (t.val * 4096 + 4096 ≤ 100000 → win1_3.xsize (grid1.coords t) (0 : Fin 2) = 4096) :=
  (by decide +kernel : ∀ t : Fin grid1.N, _)

/-- The second operand's one block is the whole array. -/
theorem idx_facts1 : win1_1.index t0 (0 : Fin 2) = 0 ∧ win1_1.index t0 (1 : Fin 2) = 0
    ∧ win1_1.xsize (grid1.coords t0) (0 : Fin 2) = 64 ∧ win1_1.xsize (grid1.coords t0) (1 : Fin 2) = 1024 := by
  decide +kernel

/-- An index of the result array is in point `t`'s block iff its row is among the block's rows inside the array. -/
theorem mem_blk3 (t : Fin cfg1.N) (i : S100000x1024.Idx) :
    i ∈ (win1_3.blk t).view.setOn Finset.univ
      ↔ t.val * 4096 ≤ (i 0 : Nat) ∧ (i 0 : Nat) < t.val * 4096 + win1_3.xsize (grid1.coords t) (0 : Fin 2) := by
  obtain ⟨-, -, -, -, e30, e31, -, -, -, -, x31, -, -, -, -⟩ := idx_facts t
  rw [View.setOn_univ]
  show i ∈ ((View.whole main_v5).slice (win1_3.rect t)).set ↔ _
  rw [View.set_slice_whole, Rect.mem_set_unit]
  have h1 : (i 1 : Nat) < 1024 := (i 1).isLt
  constructor
  · intro h
    have h0 : win1_3.index t (0 : Fin 2) * 4096 ≤ (i 0 : Nat) ∧ (i 0 : Nat) < win1_3.index t (0 : Fin 2) * 4096 + win1_3.xsize (grid1.coords t) (0 : Fin 2) := h 0
    omega
  · intro h a
    match a with
    | ⟨0, _⟩ =>
      show win1_3.index t (0 : Fin 2) * 4096 ≤ (i 0 : Nat) ∧ (i 0 : Nat) < win1_3.index t (0 : Fin 2) * 4096 + win1_3.xsize (grid1.coords t) (0 : Fin 2)
      omega
    | ⟨1, _⟩ =>
      show win1_3.index t (1 : Fin 2) * 1024 ≤ (i 1 : Nat) ∧ (i 1 : Nat) < win1_3.index t (1 : Fin 2) * 1024 + win1_3.xsize (grid1.coords t) (1 : Fin 2)
      omega

/-! ## The value -/

section Value

variable (c : Dev nD) (A3 : Bf (F := Ideal) c main_v3) (X2 : Bf (F := Ideal) c main_v2) (B4 : Bf (F := Ideal) c main_v4)
  (O5 : Bf (F := Ideal) c main_v5)

/-- The operands read as arrays of extended reals. -/
def a3 : S64x100000.Idx → EReal := A3
def x2 : S64x1024.Idx → EReal := X2
def b4 : S1x100000.Idx → EReal := B4

/-- The result: row `v`, column `b` holds the contraction over the operands' leading axis of column `v` of the first
    with column `b` of the second, plus the third's entry `v`. -/
def Hval : S100000x1024.Idx → EReal := fun i =>
  (∑ k : Fin 64, a3 c A3 (ix2 k (i 0)) * x2 c X2 (ix2 k (i 1))) + b4 c B4 (ix2 (0 : Fin 1) (i 0))

/-- A block read of the first operand: the array at the block's offset. -/
theorem wblk_apply (u : Fin cfg1.N) (y0 : (win1_0.xblock (grid1.coords u)).Idx) :
    wblk c A3 u y0 = a3 c A3 ((win1_0.blk u).view.emb y0) := by
  unfold wblk a3; rw [View.read_apply]; rfl

theorem xblk_apply (y1 : (win1_1.xblock (grid1.coords t0)).Idx) :
    xblk c X2 y1 = x2 c X2 ((win1_1.blk t0).view.emb y1) := by
  unfold xblk x2; rw [View.read_apply]; rfl

theorem bblk_apply (u : Fin cfg1.N) (y2 : (win1_2.xblock (grid1.coords u)).Idx) :
    bblk c B4 u y2 = b4 c B4 ((win1_2.blk u).view.emb y2) := by
  unfold bblk b4; rw [View.read_apply]; rfl

/-- The first operand's staged block at a column inside the array. -/
theorem wfill_apply (u : Fin cfg1.N) (d0 : S64x4096.Idx → Elt Ideal .f32) (k : Fin 64) (p : Fin 4096)
    (hp : p.val < win1_3.xsize (grid1.coords u) (0 : Fin 2)) (hrow : u.val * 4096 + p.val < 100000) :
    win1_0.fill (grid1.coords u) d0 (wblk c A3 u) (ix2 k p) = a3 c A3 (ix2 k (⟨u.val * 4096 + p.val, hrow⟩ : Fin 100000)) := by
  obtain ⟨e00, e01, -, -, -, -, x00, x01, -, -, -, -, -, -, -⟩ := idx_facts u
  have hk0 : k.val < win1_0.xsize (grid1.coords u) (0 : Fin 2) := by rw [x00]; exact k.isLt
  have hk1 : p.val < win1_0.xsize (grid1.coords u) (1 : Fin 2) := by rw [x01]; exact hp
  let y0 : (win1_0.xblock (grid1.coords u)).Idx := fun a => match a with | ⟨0, _⟩ => ⟨k.val, hk0⟩ | ⟨1, _⟩ => ⟨p.val, hk1⟩
  have e : ix2 k p = win1_0.xinj (grid1.coords u) y0 := funext fun a => Fin.ext (match a with | ⟨0, _⟩ => rfl | ⟨1, _⟩ => rfl)
  rw [e, Window.fill_xinj, wblk_apply]
  congr 1; funext a; apply Fin.ext
  match a with
  | ⟨0, _⟩ => show win1_0.index u (0 : Fin 2) * 64 + 1 * k.val = k.val; omega
  | ⟨1, _⟩ => show win1_0.index u (1 : Fin 2) * 4096 + 1 * p.val = u.val * 4096 + p.val; omega

/-- The second operand's staged block. -/
theorem xfill_apply (d1 : S64x1024.Idx → Elt Ideal .f32) (k : Fin 64) (q : Fin 1024) :
    win1_1.fill (grid1.coords t0) d1 (xblk c X2) (ix2 k q) = x2 c X2 (ix2 k q) := by
  obtain ⟨f10, f11, y10, y11⟩ := idx_facts1
  have hk0 : k.val < win1_1.xsize (grid1.coords t0) (0 : Fin 2) := by rw [y10]; exact k.isLt
  have hk1 : q.val < win1_1.xsize (grid1.coords t0) (1 : Fin 2) := by rw [y11]; exact q.isLt
  let y1 : (win1_1.xblock (grid1.coords t0)).Idx := fun a => match a with | ⟨0, _⟩ => ⟨k.val, hk0⟩ | ⟨1, _⟩ => ⟨q.val, hk1⟩
  have e : ix2 k q = win1_1.xinj (grid1.coords t0) y1 := funext fun a => Fin.ext (match a with | ⟨0, _⟩ => rfl | ⟨1, _⟩ => rfl)
  rw [e, Window.fill_xinj, xblk_apply]
  congr 1; funext a; apply Fin.ext
  match a with
  | ⟨0, _⟩ => show win1_1.index t0 (0 : Fin 2) * 64 + 1 * k.val = k.val; omega
  | ⟨1, _⟩ => show win1_1.index t0 (1 : Fin 2) * 1024 + 1 * q.val = q.val; omega

/-- The third operand's staged block at an entry inside the array. -/
theorem bfill_apply (u : Fin cfg1.N) (d2 : S1x4096.Idx → Elt Ideal .f32) (p : Fin 4096)
    (hp : p.val < win1_3.xsize (grid1.coords u) (0 : Fin 2)) (hrow : u.val * 4096 + p.val < 100000) :
    win1_2.fill (grid1.coords u) d2 (bblk c B4 u) (ix2 (0 : Fin 1) p)
      = b4 c B4 (ix2 (0 : Fin 1) (⟨u.val * 4096 + p.val, hrow⟩ : Fin 100000)) := by
  obtain ⟨-, -, e20, e21, -, -, -, -, x20, x21, -, -, -, -, -⟩ := idx_facts u
  have hk0 : (0 : Nat) < win1_2.xsize (grid1.coords u) (0 : Fin 2) := by rw [x20]; exact Nat.one_pos
  have hk1 : p.val < win1_2.xsize (grid1.coords u) (1 : Fin 2) := by rw [x21]; exact hp
  let y2 : (win1_2.xblock (grid1.coords u)).Idx := fun a => match a with | ⟨0, _⟩ => ⟨0, hk0⟩ | ⟨1, _⟩ => ⟨p.val, hk1⟩
  have e : ix2 (0 : Fin 1) p = win1_2.xinj (grid1.coords u) y2 := funext fun a => Fin.ext (match a with | ⟨0, _⟩ => rfl | ⟨1, _⟩ => rfl)
  rw [e, Window.fill_xinj, bblk_apply]
  congr 1; funext a; apply Fin.ext
  match a with
  | ⟨0, _⟩ => show win1_2.index u (0 : Fin 2) * 1 + 1 * 0 = 0; omega
  | ⟨1, _⟩ => show win1_2.index u (1 : Fin 2) * 4096 + 1 * p.val = u.val * 4096 + p.val; omega

/-- WHAT A POINT WRITES BACK: the rows inside the array of any payload the body may leave are the block of `Hval`. -/
theorem cut_out (u : Fin cfg1.N) (Z : S4096x1024.Idx → Elt Ideal .f32) (h : OutAt c A3 X2 B4 u Z) :
    win1_3.cut (grid1.coords u) Z = (win1_3.blk u).view.read (Elt Ideal) (Hval c A3 X2 B4) := by
  obtain ⟨d0, d1, d2, rfl⟩ := h
  obtain ⟨-, -, -, -, e30, e31, -, -, -, -, x31, x30le, hin, -, -⟩ := idx_facts u
  funext y
  have hy0 : (y 0 : Nat) < win1_3.xsize (grid1.coords u) (0 : Fin 2) := (y 0).isLt
  have hy1 : (y 1 : Nat) < win1_3.xsize (grid1.coords u) (1 : Fin 2) := (y 1).isLt
  obtain ⟨p, hp⟩ : ∃ p : Fin 4096, p.val = (y 0).val := ⟨⟨(y 0).val, by omega⟩, rfl⟩
  obtain ⟨q, hq⟩ : ∃ q : Fin 1024, q.val = (y 1).val := ⟨⟨(y 1).val, by omega⟩, rfl⟩
  have hj : win1_3.xinj (grid1.coords u) y = ix2 p q :=
    funext fun a => Fin.ext (match a with | ⟨0, _⟩ => hp.symm | ⟨1, _⟩ => hq.symm)
  have hrow : u.val * 4096 + p.val < 100000 := by omega
  have h0 : ((win1_3.blk u).view.emb y) (0 : Fin 2) = (⟨u.val * 4096 + p.val, hrow⟩ : Fin 100000) :=
    Fin.ext (by show win1_3.index u (0 : Fin 2) * 4096 + 1 * (y 0).val = u.val * 4096 + p.val; omega)
  have h1 : ((win1_3.blk u).view.emb y) (1 : Fin 2) = q :=
    Fin.ext (by show win1_3.index u (1 : Fin 2) * 1024 + 1 * (y 1).val = q.val; omega)
  rw [View.read_apply]
  show k1_pay1 (F := Ideal) _ _ _ (win1_3.xinj (grid1.coords u) y) = Hval c A3 X2 B4 ((win1_3.blk u).view.emb y)
  rw [hj, pay_apply]
  simp only [wfill_apply c A3 u d0 _ p (by omega) hrow, xfill_apply c X2 d1, bfill_apply c B4 u d2 p (by omega) hrow]
  unfold Hval
  simp only [h0, h1]

end Value

/-! ## From the blocks to the array -/

section Final

variable (c : Dev nD) (A3 : Bf (F := Ideal) c main_v3) (X2 : Bf (F := Ideal) c main_v2) (B4 : Bf (F := Ideal) c main_v4)
  (O5 : Bf (F := Ideal) c main_v5) (O : CellTallies nD τ sig Ix) (W₀ : Waits sig Ix)

/-- One write-back: the array before it, overwritten on the point's block by the block of `Hval`. -/
theorem arrStep_eq (u : Fin cfg1.N) (P : Bf (F := Ideal) c main_v5 → Prop) (G : Bf (F := Ideal) c main_v5)
    (h : (rdat (F := Ideal) (Ix := Ix) (U := U) (Lvl := Lvl) c A3 X2 B4 O5 O W₀).ArrStep 3 u P G) :
    ∃ G₀, P G₀ ∧ G = ((win1_3.blk u).view.setOn Finset.univ).piecewise (Hval c A3 X2 B4) G₀ := by
  obtain ⟨G₀, Z, hG₀, ⟨Y, -, hZ⟩, rfl⟩ := h
  have hZ' : OutAt c A3 X2 B4 u Z := hZ
  refine ⟨G₀, hG₀, ?_⟩
  show (win1_3.blk u).view.write (Elt Ideal) G₀ (win1_3.cut (grid1.coords u) Z) Finset.univ = _
  rw [cut_out c A3 X2 B4 u Z hZ', View.write_read_eq_piecewise]

/-- After the write-backs of the points below `n`, the rows below `4096 n` hold `Hval`: row `v` is written by
    point `v / 4096`, whose block is cut at the array's end only where the array ends. -/
theorem arrAt_rows : ∀ (n : Nat), n ≤ cfg1.N → ∀ G : Bf (F := Ideal) c main_v5,
    (rdat (F := Ideal) (Ix := Ix) (U := U) (Lvl := Lvl) c A3 X2 B4 O5 O W₀).ArrAt 3 n G →
    ∀ i : S100000x1024.Idx, (i 0 : Nat) < n * 4096 → G i = Hval c A3 X2 B4 i
  | 0, _, _, _, i, hi => absurd hi (by omega)
  | n + 1, hn, G, hG, i, hi => by
    have hlt : n < cfg1.N := hn
    have hstep : (rdat (F := Ideal) (Ix := Ix) (U := U) (Lvl := Lvl) c A3 X2 B4 O5 O W₀).ArrAt 3 (n + 1)
        = (rdat (F := Ideal) (Ix := Ix) (U := U) (Lvl := Lvl) c A3 X2 B4 O5 O W₀).ArrStep 3 ⟨n, hlt⟩
            ((rdat (F := Ideal) (Ix := Ix) (U := U) (Lvl := Lvl) c A3 X2 B4 O5 O W₀).ArrAt 3 n) := by
      show (if h : n < cfg1.N then (if (cfg1.win 3).flush ⟨n, h⟩ then _ else _) else _) = _
      rw [dif_pos hlt, if_pos (flush1_3 ⟨n, hlt⟩)]
    rw [hstep] at hG
    obtain ⟨G₀, hG₀, rfl⟩ := arrStep_eq (Ix := Ix) (U := U) (Lvl := Lvl) c A3 X2 B4 O5 O W₀ ⟨n, hlt⟩ _ G hG
    by_cases hm : i ∈ (win1_3.blk ⟨n, hlt⟩).view.setOn Finset.univ
    · rw [Finset.piecewise_eq_of_mem _ _ _ hm]
    · rw [Finset.piecewise_eq_of_notMem _ _ _ hm]
      refine arrAt_rows n (Nat.le_of_lt hlt) G₀ hG₀ i ?_
      rw [mem_blk3] at hm
      obtain ⟨-, -, -, -, -, -, -, -, -, -, -, hle, hin, hcut, hfull⟩ := idx_facts ⟨n, hlt⟩
      have hi0 : (i 0 : Nat) < 100000 := (i 0).isLt
      simp only [] at hm hle hin hcut hfull
      omega

end Final

/-- THE VALUE of the region's result: every row `v`, column `b` of any contents `Final` holds of is the contraction
    of the first operand's column `v` with the second's column `b` plus the third's entry `v`. At the ideal values. -/
theorem final_value (A3 : (c : Dev nD) → Bf (F := Ideal) c main_v3) (X2 : (c : Dev nD) → Bf (F := Ideal) c main_v2)
    (B4 : (c : Dev nD) → Bf (F := Ideal) c main_v4) (O5 : (c : Dev nD) → Bf (F := Ideal) c main_v5)
    (O : Dev nD → CellTallies nD τ sig Ix) (W₀ : Dev nD → Waits sig Ix) (c : Dev nD) (R : Bf (F := Ideal) c main_v5)
    (h : Final (F := Ideal) (Ix := Ix) (U := U) (Lvl := Lvl) A3 X2 B4 O5 O W₀ c R) (v : Fin 100000) (b : Fin 1024) :
    (R : S100000x1024.Idx → EReal) (ix2 v b)
      = (∑ k : Fin 64, a3 c (A3 c) (ix2 k v) * x2 c (X2 c) (ix2 k b)) + b4 c (B4 c) (ix2 (0 : Fin 1) v) :=
  arrAt_rows (Ix := Ix) (U := U) (Lvl := Lvl) c (A3 c) (X2 c) (B4 c) (O5 c) (O c) (W₀ c) cfg1.N le_rfl R h (ix2 v b)
    (by show v.val < grid1.N * 4096; rw [N_1]; have := v.isLt; omega)

/-- info: 'Cert.Proof.RegionI.final_value' depends on axioms: [propext, Classical.choice, Quot.sound] -/
#guard_msgs in #print axioms final_value

end Cert.Proof.RegionI

end
-- ==== Proof.ValueI.lean ====
/-
  The kernel's result is the target function.  Along the entry function the result array is the transpose of what the
  last stage leaves; the last stage's result at `(v, b)` is `(∑ d, Wᵀ[d, v] · X[d, b]) + biasRow[0, v]` over the arrays
  it is handed — the transposed projection, the summed embedding the vector subcores computed and the bias as one row —
  and the summed embedding at `(d, b)` is the sum over the twenty context words of the transposed table's entries they
  name.  Put together, the result at `(b, v)` is the target function's value there.
-/
import proofs.«204094_g4578435138101_retrytranche1_754_22_alg».proof.Proof.ValsI
import proofs.«204094_g4578435138101_retrytranche1_754_22_alg».proof.Proof.TileOblI
import proofs.«204094_g4578435138101_retrytranche1_754_22_alg».proof.Proof.TileValue
import proofs.«204094_g4578435138101_retrytranche1_754_22_alg».proof.Proof.BridgeValue
import proofs.«204094_g4578435138101_retrytranche1_754_22_alg».proof.Proof.IdxRange
import proofs.«204094_g4578435138101_retrytranche1_754_22_alg».proof.Proof.RegionValue

noncomputable section

open scoped BigOperators

namespace Cert.Proof.I

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.Sem

variable (m : (ℓ : Loc nD τ sig) → Buf (Elt Ideal) ℓ) (c : Dev nD)

/-- The last stage's three operands and its result, at the types of their tensor values. -/
abbrev A3t : FVec Ideal S64x100000 .f32 := A3f m (Xt (Iv m) (Tv m)) c
abbrev X2t : FVec Ideal S64x1024 .f32 := X2f m (Xt (Iv m) (Tv m)) c
abbrev B4t : FVec Ideal S1x100000 .f32 := B4f m (Xt (Iv m) (Tv m)) c
abbrev Rt (R : Buf (Elt Ideal) (v5Loc c)) : FVec Ideal S100000x1024 .f32 := R
/-- The four arguments, at the types of their tensor values. -/
abbrev a0t : IVec S1024x20 32 := m (a0Loc c)
abbrev a1t : FVec Ideal S100000x64 .f32 := m (a1Loc c)
abbrev a2t : FVec Ideal S100000x64 .f32 := m (a2Loc c)
abbrev a3t : FVec Ideal S100000 .f32 := m (a3Loc c)

theorem A3t_eq : A3t m c = transpose S64x100000 [1, 0] (a2t m c) Facts₀.transposes_S100000x64_S64x100000_1_0 :=
  A3_eq m _ c
theorem X2t_eq : X2t m c = TileI.XT (F := Ideal) (Iv m c) (Tv m c) := X2_eq m _ c
theorem B4t_eq : B4t m c = Cert.Bridge.biasRow (a3t m c) := B4_eq m _ c

/-- The summed embedding the vector subcores leave, read at `(r, b)`, over the entry function's two transposes. -/
theorem X2t_apply (r : Fin 64) (b : Fin 1024) :
    X2t m c (ix2 r b)
      = ∑ j : Fin 20, (transpose S64x100000 [1, 0] (a1t m c) Facts₀.transposes_S100000x64_S64x100000_1_0)
          (ix2 r (Cert.Spec.rowOf ((transpose S20x1024 [1, 0] (a0t m c) Facts₀.transposes_S1024x20_S20x1024_1_0) (ix2 j b)))) := by
  rw [X2t_eq, TileI.XT_apply, Iv_eq, Tv_eq]

/-- The result array after the entry function is the target function of the four arguments, given what the last
    stage's result holds at every index. -/
theorem value_eq_of (R : Buf (Elt Ideal) (v5Loc c))
    (hfv : ∀ (v : Fin 100000) (b : Fin 1024), Rt c R (ix2 v b)
      = (∑ d : Fin 64, A3t m c (ix2 d v) * X2t m c (ix2 d b)) + B4t m c (ix2 (0 : Fin 1) v)) :
    Ve m (Xt (Iv m) (Tv m)) c R v6' = Cert.Spec.G (m (a0Loc c)) (m (a1Loc c)) (m (a2Loc c)) (m (a3Loc c)) := by
  refine (Ve_v6 m _ c R).trans ?_
  refine Cert.Bridge.out_eq_G' (a0t m c) (a1t m c) (a2t m c) (a3t m c) (X2t m c) (Rt c R) (B4t m c)
    (fun v => ?_) (X2t_apply m c) (fun v b => ?_)
  · rw [B4t_eq]
    exact Cert.Bridge.biasRow_apply _ 0 v
  · have h := hfv v b
    rw [A3t_eq] at h
    exact h

/-- THE KERNEL'S RESULT IS THE TARGET FUNCTION: whatever contents of the result array the last stage's relation holds
    of, the result array after the entry function is the target function of the four arguments. -/
theorem value_eq (W : Waits sig (HIx 1)) (R : Buf (Elt Ideal) (v5Loc c))
    (hR : FinalR m (Xt (Iv m) (Tv m)) W c R) :
    Ve m (Xt (Iv m) (Tv m)) c R v6' = Cert.Spec.G (m (a0Loc c)) (m (a1Loc c)) (m (a2Loc c)) (m (a3Loc c)) :=
  value_eq_of m c R fun v b =>
    RegionI.final_value (Ix := HIx 1) (U := UU) (Lvl := ℕ) (A3f m (Xt (Iv m) (Tv m))) (X2f m (Xt (Iv m) (Tv m)))
      (B4f m (Xt (Iv m) (Tv m))) (O5f m (Xt (Iv m) (Tv m))) (Otc (F := Ideal)) (fun _ => W) c R hR v b

end Cert.Proof.I

end
-- ==== Proof.RefRun.lean ====
/-
  The reference program's run.  Its entry function is a straight line of host operations once the two outlined
  helper functions are unfolded at their call sites: thirty operations, listed here in order over the call
  records' buffers.  Every weakly fair execution ends with each buffer at the fold of the operations' results
  over the launch contents.
-/
import proofs.«204094_g4578435138101_retrytranche1_754_22_alg».proof.Proof.Gen.ReferenceIdeal
import Idealize.ShloMosaic.Lib.StableHlo.Run

noncomputable section

namespace Cert.RefSide

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The entry function's operations in order, the two calls unfolded: the row lookup's twenty-three (the wrap of a
    negative index, the range test, the gather, the fill), then the sum over the context axis, the transpose, the
    contraction, the bias broadcast twice and the final sum. -/
abbrev ops : List (HloOp τ sig (Elt F)) :=
  [ TRef.nullary main_call0.c (constantI S_ 32 0#32),
    TRef.unary main_call0.c main_call0.v0 (broadcastInDim S1024x20 ![] bcast_S_S1024x20),
    TRef.binary (.of main_arg0) main_call0.v0 main_call0.v1 (cmpi .slt),
    TRef.nullary main_call0.c_0 (constantI S_ 32 100000#32),
    TRef.unary main_call0.c_0 main_call0.v2 (broadcastInDim S1024x20 ![] bcast_S_S1024x20),
    TRef.binary (.of main_arg0) main_call0.v2 main_call0.v3 addi,
    TRef.ternary main_call0.v1 main_call0.v3 (.of main_arg0) main_call0.call0.v0 select,
    TRef.unary main_call0.call0.v0 main_call0.v5 (broadcastInDim S1024x20x1 ![0, 1] bcast_S1024x20_S1024x20x1_0_1),
    TRef.nullary main_call0.c_1 (constantI S1 32 99999#32),
    TRef.nullary main_call0.c_2 (constantI S_ 32 0#32),
    TRef.unary main_call0.c_2 main_call0.v6 (broadcastInDim S1024x20x1 ![] bcast_S_S1024x20x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x20x1 ![0, 1, 2] bcast_S1x1x1_S1024x20x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x20x1_S1024x20_d2 h_S_),
    TRef.binary (.of main_arg1) main_call0.v5 main_call0.v13 (fun x i => Host.gather gather_S100000x64_S1024x20x1_S1024x20x64_2_0_n_n_0_2_164 x i),
    TRef.unary main_call0.v12 main_call0.v14 (broadcastInDim S1024x20x64 ![0, 1] bcast_S1024x20_S1024x20x64_0_1),
    TRef.nullary main_call0.cst (constant S_ .f32 0x7FC00000#32),
    TRef.unary main_call0.cst main_call0.v15 (broadcastInDim S1024x20x64 ![] bcast_S_S1024x20x64),
    TRef.ternary main_call0.v14 main_call0.v13 main_call0.v15 main_call0.v16 select,
    nullary main_cst (constant S_ .f32 0x00000000#32),
    binary main_v0 main_cst main_v1 ((fun x v => Host.reduceAdd x v reducesTo_S1024x20x64_S1024x64_d1 h_S_) : (⟨S1024x20x64, .f32⟩ : BufTy).Contents (Elt F) → (⟨S_, .f32⟩ : BufTy).Contents (Elt F) → (⟨S1024x64, .f32⟩ : BufTy).Contents (Elt F)),
    unary main_arg2 main_v2 ((transpose S64x100000 [1, 0] · transposes_S100000x64_S64x100000_1_0) : (⟨S100000x64, .f32⟩ : BufTy).Contents (Elt F) → (⟨S64x100000, .f32⟩ : BufTy).Contents (Elt F)),
    binary main_v1 main_v2 main_v3 ((fun l r => Host.dotGeneral dot_S1024x64_S64x100000_S1024x100000_1_0_0_1_n_n none l r) : (⟨S1024x64, .f32⟩ : BufTy).Contents (Elt F) → (⟨S64x100000, .f32⟩ : BufTy).Contents (Elt F) → (⟨S1024x100000, .f32⟩ : BufTy).Contents (Elt F)),
    unary main_arg3 main_v4 (broadcastInDim S1x100000 ![1] bcast_S100000_S1x100000_1 : (⟨S100000, .f32⟩ : BufTy).Contents (Elt F) → (⟨S1x100000, .f32⟩ : BufTy).Contents (Elt F)),
    unary main_v4 main_v5 (broadcastInDim S1024x100000 ![0, 1] bcast_S1x100000_S1024x100000_0_1 : (⟨S1x100000, .f32⟩ : BufTy).Contents (Elt F) → (⟨S1024x100000, .f32⟩ : BufTy).Contents (Elt F)),
    binary main_v3 main_v5 main_v6 (addf : (⟨S1024x100000, .f32⟩ : BufTy).Contents (Elt F) → (⟨S1024x100000, .f32⟩ : BufTy).Contents (Elt F) → (⟨S1024x100000, .f32⟩ : BufTy).Contents (Elt F)) ]

set_option maxRecDepth 1024 in
/-- The entry function is that straight line: the helpers' definitions unfolded at their calls, both sides are one
    chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., unary_bufs_sub .., binary_bufs_sub .., unary_bufs_sub .., unary_bufs_sub ..,
    binary_bufs_sub ..⟩

/-- From any memory with zero counters every weakly fair execution of the entry function terminates, and every
    final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefTerm.lean ====
/-
  The reference program's result as one composed term of its four arguments, and its run stated with that term.
  The row lookup wraps a negative index by the table's height, tests the wrapped index against the table's range,
  gathers the rows and fills the rows whose index is out of range; the rest sums the looked-up rows over the
  context axis, contracts the sum with the transposed projection and adds the bias broadcast over the batch.
-/
import proofs.«204094_g4578435138101_retrytranche1_754_22_alg».proof.Proof.RefRun

noncomputable section

namespace Cert.RefSide

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The index after the wrap: a negative index has the table's height added. -/
def wrapIdx (inp : IVec S1024x20 32) : IVec S1024x20 32 :=
  select (cmpi .slt inp (broadcastInDim S1024x20 ![] bcast_S_S1024x20 (constantI S_ 32 0#32)))
    (addi inp (broadcastInDim S1024x20 ![] bcast_S_S1024x20 (constantI S_ 32 100000#32))) inp

/-- The wrapped indices as the gather's start indices, one component each. -/
def startIdx (inp : IVec S1024x20 32) : IVec S1024x20x1 32 :=
  broadcastInDim S1024x20x1 ![0, 1] bcast_S1024x20_S1024x20x1_0_1 (wrapIdx inp)

/-- Whether each wrapped index names a row of the table. -/
def inRange (inp : IVec S1024x20 32) : IVec S1024x20 1 :=
  Host.reduce IntOp.andi
    (andi (cmpi .sge (startIdx inp) (broadcastInDim S1024x20x1 ![] bcast_S_S1024x20x1 (constantI S_ 32 0#32)))
      (cmpi .sle (startIdx inp) (broadcastInDim S1024x20x1 ![0, 1, 2] bcast_S1x1x1_S1024x20x1_0_1_2
        (broadcastInDim S1x1x1 ![2] bcast_S1_S1x1x1_2 (constantI S1 32 99999#32)))))
    (constantI S_ 1 1#1) reducesTo_S1024x20x1_S1024x20_d2 h_S_

/-- The looked-up rows: the gathered row where the index is in range, the fill value elsewhere. -/
def takeVal (inp : IVec S1024x20 32) (emb : FVec F S100000x64 .f32) : FVec F S1024x20x64 .f32 :=
  select (broadcastInDim S1024x20x64 ![0, 1] bcast_S1024x20_S1024x20x64_0_1 (inRange inp))
    (Host.gather gather_S100000x64_S1024x20x1_S1024x20x64_2_0_n_n_0_2_164 emb (startIdx inp))
    (broadcastInDim S1024x20x64 ![] bcast_S_S1024x20x64 (constant S_ .f32 0x7FC00000#32))

/-- The whole result. -/
def refVal (inp : IVec S1024x20 32) (emb W : FVec F S100000x64 .f32) (bias : FVec F S100000 .f32) : FVec F S1024x100000 .f32 :=
  addf
    (Host.dotGeneral dot_S1024x64_S64x100000_S1024x100000_1_0_0_1_n_n none
      (Host.reduceAdd (takeVal inp emb) (constant S_ .f32 0x00000000#32) reducesTo_S1024x20x64_S1024x64_d1 h_S_)
      (transpose S64x100000 [1, 0] W transposes_S100000x64_S64x100000_1_0))
    (broadcastInDim S1024x100000 ![0, 1] bcast_S1x100000_S1024x100000_0_1
      (broadcastInDim S1x100000 ![1] bcast_S100000_S1x100000_1 bias))

attribute [local irreducible] Host.reduce Host.gather Host.reduceAdd in
set_option maxRecDepth 8192 in
set_option maxHeartbeats 400000 in
/-- The fold of the operations at the result buffer is the composed term of the four arguments' contents. -/
theorem out_eq (V : Valuation τ sig (Elt F)) :
    after ops V (main_v6 : DevRef τ sig)
      = refVal (V (main_arg0 : DevRef τ sig)) (V (main_arg1 : DevRef τ sig)) (V (main_arg2 : DevRef τ sig))
          (V (main_arg3 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- The run with the result as the composed term: every weakly fair execution terminates with the result buffer at
    `refVal` of the arguments' launch contents and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
          = refVal (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v6).trans (out_eq _), (h c main_arg0).trans (arg0_eq _),
      (h c main_arg1).trans (arg1_eq _), (h c main_arg2).trans (arg2_eq _), (h c main_arg3).trans (arg3_eq _)⟩)
    (run_main m ρ)

end Cert.RefSide

end
-- ==== Proof.LibRowTake.lean ====
/-
  A general fact about a row lookup on the host, independent of any particular program: `x[idx]` for a table
  `x : [N, C]` and an array of row numbers `idx : [R, K]` (carried as `[R, K, 1]`) lowers to a gather with offset axis 2,
  collapsed axis 0, start index map `[0]`, index-vector axis 2 and slices of one whole row.  Read at result index
  `(r, k, c)` it is the table at column `c` of the row the start index `idx[r, k, 0]` names, read as a signed integer
  and clamped into `[0, N - 1]`.
-/
import Idealize.ShloMosaic.PureOps
import Idealize.ShloMosaic.Lib.ValueIdx

namespace Cert.Lib.RowTake

open Idealize.ShloMosaic Idealize.ShloMosaic.ValueIdx

/-- The dimension numbers of a row lookup: operand `[N, C]`, start indices `[R, K, 1]`, result `[R, K, C]`. -/
abbrev rowTakeDims (N C R K : Nat)
    (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

/-- THE ROW LOOKUP READ AT `(r, k, c)`: column `c` of the row `ρ`, where `ρ` is the start index `idx[r, k, 0]` read as a
    signed integer and clamped into `[0, N - 1]`. -/
theorem gather_rowTake_apply {α : Type} {N C R K w : Nat}
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (r : Fin R) (k : Fin K) (c : Fin C)
    (ρ : Fin N) (hρ : ρ.val = min (idx (ix3 r k (0 : Fin 1))).toInt.toNat (N - 1)) :
    Host.gather (rowTakeDims N C R K wf) x idx (ix3 r k c) = x (ix2 ρ c) := by
  unfold Host.gather
  refine congrArg x ?_
  funext a
  refine Fin.ext ?_
  match a with
  | ⟨0, _⟩ =>
    -- the row axis: collapsed, its start the clamped start index
    show (rowTakeDims N C R K wf).start (ix3 r k c) idx 0 + (rowTakeDims N C R K wf).batchCoord (ix3 r k c) 0
      + (rowTakeDims N C R K wf).offCoord (ix3 r k c) 0 = ρ.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N C R K wf).startIndexMap from List.mem_singleton.mpr rfl)]
    have hsi : (rowTakeDims N C R K wf).siIdx (ix3 r k c) ⟨List.idxOf (0 : Fin 2) (rowTakeDims N C R K wf).startIndexMap,
        List.idxOf_lt_length_iff.2 (List.mem_singleton.mpr rfl)⟩ = ix3 r k (0 : Fin 1) := by
      funext b; refine Fin.ext ?_
      match b with
      | ⟨0, _⟩ => rfl
      | ⟨1, _⟩ => rfl
      | ⟨2, _⟩ => rfl
    rw [hsi, hρ]
    rfl
  | ⟨1, _⟩ =>
    -- the column axis: no start index names it, and the result's offset coordinate is the column
    show (rowTakeDims N C R K wf).start (ix3 r k c) idx 1 + (rowTakeDims N C R K wf).batchCoord (ix3 r k c) 1
      + (rowTakeDims N C R K wf).offCoord (ix3 r k c) 1 = c.val
    rw [GatherDims.batchCoord_eq_zero _ _ _ List.not_mem_nil]
    have hs : (rowTakeDims N C R K wf).start (ix3 r k c) idx 1 = 0 := by
      unfold GatherDims.start
      have h : (1 : Fin 2) ∉ (rowTakeDims N C R K wf).startIndexMap := (by decide : (1 : Fin 2) ∉ ([0] : List (Fin 2)))
      rw [dif_neg h]
    have ho : (rowTakeDims N C R K wf).offCoord (ix3 r k c) 1 = c.val := by
      unfold GatherDims.offCoord
      have h : (1 : Fin 2) ∈ (rowTakeDims N C R K wf).sKept := (by decide : (1 : Fin 2) ∈ ([1] : List (Fin 2)))
      rw [dif_pos h]
      rfl
    rw [hs, ho]; omega

end Cert.Lib.RowTake
-- ==== Proof.LibColumnTake.lean ====
/-
  Two general facts about `jnp.take(x, idx, axis = 1)` on the host, for any operand `x : [R, N]` and index vector of
  length `C` (carried as `[C, 1]`), independent of any particular program.

  * `gather_colTake_apply`: the gather with offset axis 0, collapsed axis 1, start index map `[1]`, index-vector axis 1 and
    slice sizes `[R, 1]`, read at result index `(r, j)`, is the operand at row `r` and at the column the `j`-th start
    index names — read as a signed integer and clamped into `[0, N - 1]`.
  * `reduce_andi_eq_one_of_forall`: a reduction by `and` of one-bit words from the initial word 1 is 1 wherever every word
    is 1 (the converse of the library's reading of `jnp.all`).
-/
import Idealize.ShloMosaic.PureOps
import Idealize.ShloMosaic.Lib.ValueIdx
import Idealize.ShloMosaic.Lib.ReduceAll

namespace Cert.Lib.ColumnTake

open Idealize.ShloMosaic Idealize.ShloMosaic.ValueIdx

/-- The dimension numbers of a take along axis 1: operand `[R, N]`, start indices `[C, 1]`, result `[R, C]`. -/
abbrev colTakeDims (R N C : Nat)
    (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

/-- THE COLUMN TAKE READ AT `(r, j)`: row `r` of the operand at the column the `j`-th start index names, read signed and
    clamped into `[0, N - 1]`. -/
theorem gather_colTake_apply {α : Type} {R N C w : Nat} (hN : 0 < N)
    (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ w) (r : Fin R) (j : Fin C) :
    Host.gather (colTakeDims R N C wf) x idx (ix2 r j)
      = x (ix2 r ⟨min (idx (ix2 j (0 : Fin 1))).toInt.toNat (N - 1), by omega⟩) := by
  unfold Host.gather
  congr 1
  funext a
  refine Fin.ext ?_
  show (colTakeDims R N C wf).start (ix2 r j) idx a + (colTakeDims R N C wf).batchCoord (ix2 r j) a
      + (colTakeDims R N C wf).offCoord (ix2 r j) a = _
  rw [GatherDims.batchCoord_eq_zero _ _ _ List.not_mem_nil, Nat.add_zero]
  match a with
  | ⟨0, _⟩ =>
    -- the row axis: no start index names it, and the result's offset coordinate is the row
    have hs : (colTakeDims R N C wf).start (ix2 r j) idx (0 : Fin 2) = 0 := by
      unfold GatherDims.start
      rw [dif_neg (show (0 : Fin 2) ∉ [(1 : Fin 2)] from by decide)]
    have ho : (colTakeDims R N C wf).offCoord (ix2 r j) (0 : Fin 2) = r.val := by
      unfold GatherDims.offCoord
      rw [dif_pos ((GatherDims.mem_sKept _ _).2 ⟨show (0 : Fin 2) ∉ [(1 : Fin 2)] from by decide, List.not_mem_nil⟩)]
      rfl
    show (colTakeDims R N C wf).start (ix2 r j) idx (0 : Fin 2) + (colTakeDims R N C wf).offCoord (ix2 r j) (0 : Fin 2) = r.val
    rw [hs, ho, Nat.zero_add]
  | ⟨1, _⟩ =>
    -- the column axis: collapsed, its start the clamped start index
    have ho : (colTakeDims R N C wf).offCoord (ix2 r j) (1 : Fin 2) = 0 :=
      GatherDims.offCoord_eq_zero _ _ _ (fun h => ((GatherDims.mem_sKept _ _).1 h).1 (List.mem_singleton.mpr rfl))
    show (colTakeDims R N C wf).start (ix2 r j) idx (1 : Fin 2) + (colTakeDims R N C wf).offCoord (ix2 r j) (1 : Fin 2)
      = min (idx (ix2 j (0 : Fin 1))).toInt.toNat (N - 1)
    rw [ho, Nat.add_zero]
    unfold GatherDims.start
    rw [dif_pos (show (1 : Fin 2) ∈ (colTakeDims R N C wf).startIndexMap from List.mem_singleton.mpr rfl)]
    have hsi : (colTakeDims R N C wf).siIdx (ix2 r j) ⟨List.idxOf (1 : Fin 2) (colTakeDims R N C wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl

/-- A left fold by `and` from 1 over one-bit words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A reduction by `and` from an initial word 1 over words that are all 1 is 1 everywhere. -/
theorem reduce_andi_eq_one_of_forall {s t u : Shape} {axes : List (Fin s.rank)} (x : s.Idx → BitVec 1)
    (init : u.Idx → BitVec 1) (h : s.ReducesTo axes t) (hu : 0 < u.numel) (hinit : init (Shape.Idx.first hu) = 1#1)
    (hx : ∀ i, x i = 1#1) (j : t.Idx) : Host.reduce IntOp.andi x init h hu j = 1#1 := by
  rw [Host.reduce_eq_foldl, hinit]
  exact foldl_andi_one x _ fun n _ => hx n

end Cert.Lib.ColumnTake
-- ==== Proof.RefValue.lean ====
/-
  The reference's composed term is the target function, wherever every context word is a row number.
  Read at result index `(r, v)`: the sum is `(∑ d, x[r, d] · Wᵀ[d, v]) + bias[v]` with `x[r, d] = 0 + ∑ k, rows[r, k, d]`,
  and the looked-up row `rows[r, k, d]` is the table at the row the word `inp[r, k]` names: the wrap of a negative index
  does nothing to a word that is not negative, the range test holds of every word, and the gather's clamp does nothing to
  a word already between 0 and the last row.
-/
import proofs.«204094_g4578435138101_retrytranche1_754_22_alg».proof.Defs
import proofs.«204094_g4578435138101_retrytranche1_754_22_alg».proof.Proof.RefTerm
import proofs.«204094_g4578435138101_retrytranche1_754_22_alg».proof.Proof.RefPre
import proofs.«204094_g4578435138101_retrytranche1_754_22_alg».proof.Proof.Spec
import proofs.«204094_g4578435138101_retrytranche1_754_22_alg».proof.Proof.LibRowTake
import proofs.«204094_g4578435138101_retrytranche1_754_22_alg».proof.Proof.LibColumnTake
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RefSide

open Cert.ReferenceIdeal Idealize.ShloMosaic Idealize.ShloMosaic.ValueIdx Idealize.SL.Sem
open Cert.ReferenceIdeal.Facts₀ Cert.ReferenceIdeal.Facts

variable [Cert.ReferenceIdeal.Facts]

/-- Every context word is a row number, as a signed integer. -/
def InRange (inp : IVec S1024x20 32) : Prop :=
  ∀ (b : Fin 1024) (j : Fin 20), 0 ≤ (inp (ix2 b j)).toInt ∧ (inp (ix2 b j)).toInt ≤ 99999

theorem toInt_zero32 : (0#32 : BitVec 32).toInt = 0 := by decide
theorem toInt_last32 : (99999#32 : BitVec 32).toInt = 99999 := by decide

/-- The wrap does nothing to a word that is not negative. -/
theorem wrapIdx_apply {inp : IVec S1024x20 32} (hr : InRange inp) (b : Fin 1024) (j : Fin 20) :
    wrapIdx inp (ix2 b j) = inp (ix2 b j) := by
  unfold wrapIdx
  rw [select_apply]
  have hc : cmpi .slt inp (broadcastInDim S1024x20 ![] bcast_S_S1024x20 (constantI S_ 32 0#32)) (ix2 b j) = 0#1 := by
    refine eq_zero_of_ne_one fun h => ?_
    have h' : IntOp.cmpi .slt (inp (ix2 b j)) 0#32 = 1#1 := h
    have h2 := IntOp.cmpi_slt.1 h'
    rw [toInt_zero32] at h2
    have := (hr b j).1
    omega
  rw [hc, select_zero]

/-- The gather's start index at `(b, j, 0)` is the word `inp[b, j]`. -/
theorem startIdx_apply {inp : IVec S1024x20 32} (hr : InRange inp) (b : Fin 1024) (j : Fin 20) (z : Fin 1) :
    startIdx inp (ix3 b j z) = inp (ix2 b j) := by
  unfold startIdx
  rw [broadcastInDim_apply _ _ _ _ (ix2 b j) (fun a => match a with | ⟨0, _⟩ => rfl | ⟨1, _⟩ => rfl)]
  exact wrapIdx_apply hr b j

/-- The range test holds of every word. -/
theorem inRange_apply {inp : IVec S1024x20 32} (hr : InRange inp) (b : Fin 1024) (j : Fin 20) :
    inRange inp (ix2 b j) = 1#1 := by
  unfold inRange
  refine Cert.Lib.ColumnTake.reduce_andi_eq_one_of_forall _ _ _ _ rfl (fun i => ?_) _
  obtain ⟨b', j', z, rfl⟩ : ∃ b' j' z, i = ix3 b' j' z := ⟨i 0, i 1, i 2, eq_ix3 i⟩
  show IntOp.andi (IntOp.cmpi .sge (startIdx inp (ix3 b' j' z)) 0#32)
    (IntOp.cmpi .sle (startIdx inp (ix3 b' j' z)) 99999#32) = 1#1
  rw [startIdx_apply hr]
  exact IntOp.andi_eq_one.2 ⟨IntOp.cmpi_sge.2 (by rw [toInt_zero32]; exact (hr b' j').1),
    IntOp.cmpi_sle.2 (by rw [toInt_last32]; exact (hr b' j').2)⟩

/-- The looked-up row at `(b, j, d)` is the table at the row the word `inp[b, j]` names, column `d`. -/
theorem takeVal_apply {inp : IVec S1024x20 32} (hr : InRange inp) (emb : FVec Ideal S100000x64 .f32)
    (b : Fin 1024) (j : Fin 20) (d : Fin 64) :
    takeVal inp emb (ix3 b j d) = emb (ix2 (Cert.Spec.rowOf (inp (ix2 b j))) d) := by
  unfold takeVal
  rw [select_apply,
    broadcastInDim_apply _ _ (inRange inp) (ix3 b j d) (ix2 b j) (fun a => match a with | ⟨0, _⟩ => rfl | ⟨1, _⟩ => rfl),
    inRange_apply hr, select_one]
  have hg : gather_S100000x64_S1024x20x1_S1024x20x64_2_0_n_n_0_2_164
      = Cert.Lib.RowTake.rowTakeDims 100000 64 1024 20 gather_S100000x64_S1024x20x1_S1024x20x64_2_0_n_n_0_2_164.wf := rfl
  rw [hg]
  refine Cert.Lib.RowTake.gather_rowTake_apply _ emb (startIdx inp) b j d _ ?_
  rw [startIdx_apply hr]
  obtain ⟨h1, h2⟩ := toNat_of_range (hr b j)
  show (inp (ix2 b j)).toNat % 100000 = min (inp (ix2 b j)).toInt.toNat (100000 - 1)
  rw [h1, Nat.mod_eq_of_lt h2]
  omega

/-- THE REFERENCE IS THE TARGET FUNCTION wherever every context word is a row number. -/
theorem refVal_eq_G {inp : IVec S1024x20 32} (hr : InRange inp) (emb W : FVec Ideal S100000x64 .f32)
    (bias : FVec Ideal S100000 .f32) : refVal (F := Ideal) inp emb W bias = Cert.Spec.G inp emb W bias := by
  funext i
  obtain ⟨r, v, rfl⟩ : ∃ r v, i = ix2 r v := ⟨i 0, i 1, eq_ix2 i⟩
  show refVal inp emb W bias (ix2 r v) = (∑ d : Fin 64, Cert.Spec.embSum inp emb r d * W (ix2 v d)) + bias (ix1 v)
  unfold refVal
  rw [addf_apply]
  congr 1
  · -- the contraction over the sixty-four coordinates
    simp only [Host.dotGeneral]
    rw [Ideal.dotGeneral_apply]
    rw [← Equiv.sum_comp (contrEquiv1 dot_S1024x64_S64x100000_S1024x100000_1_0_0_1_n_n 64 rfl rfl).symm]
    refine Finset.sum_congr rfl fun d _ => ?_
    have hl : dot_S1024x64_S64x100000_S1024x100000_1_0_0_1_n_n.lhsIdx (ix2 r v)
        ((contrEquiv1 dot_S1024x64_S64x100000_S1024x100000_1_0_0_1_n_n 64 rfl rfl).symm d) = ix2 r d := by
      funext a; refine Fin.ext ?_
      match a with
      | ⟨0, _⟩ => rfl
      | ⟨1, _⟩ => rfl
    have hrr : dot_S1024x64_S64x100000_S1024x100000_1_0_0_1_n_n.rhsIdx (ix2 r v)
        ((contrEquiv1 dot_S1024x64_S64x100000_S1024x100000_1_0_0_1_n_n 64 rfl rfl).symm d) = ix2 d v := by
      funext a; refine Fin.ext ?_
      match a with
      | ⟨0, _⟩ => rfl
      | ⟨1, _⟩ => rfl
    rw [hl, hrr, transpose_ix2_apply]
    congr 1
    -- the sum over the twenty context words, from the initial value zero
    show Ideal.hostReduceAdd reducesTo_S1024x20x64_S1024x64_d1 (takeVal inp emb)
        (constant (F := Ideal) S_ .f32 0x00000000#32 (Shape.Idx.first h_S_)) (ix2 r d) = Cert.Spec.embSum inp emb r d
    rw [Ideal.hostReduceAdd_single reducesTo_S1024x20x64_S1024x64_d1 (by decide : S1024x20x64.Reduces [1] S1024x64),
      constant_apply, Ideal.ofBits_zero_f32, zero_add]
    unfold Cert.Spec.embSum
    refine Finset.sum_congr rfl fun j _ => ?_
    have hlift : (by decide : S1024x20x64.Reduces [1] S1024x64).lift (ix2 r d) j = ix3 r j d := by
      funext a; refine Fin.ext ?_
      match a with
      | ⟨0, _⟩ => rfl
      | ⟨1, _⟩ => rfl
      | ⟨2, _⟩ => rfl
    rw [hlift]
    exact takeVal_apply hr emb r j d
  · -- the bias, broadcast over the batch
    rw [broadcastInDim_apply _ _ _ (ix2 r v) (ix2 (0 : Fin 1) v) (fun a => match a with | ⟨0, _⟩ => rfl | ⟨1, _⟩ => rfl),
      broadcastInDim_apply _ _ bias (ix2 (0 : Fin 1) v) (ix1 v) (fun a => match a with | ⟨0, _⟩ => rfl)]

/-- The reference's run, with the target function as its result: from any memory of which the precondition holds
    every weakly fair execution terminates, the result buffer holds the target function of the four arguments and the
    arguments are unchanged. -/
theorem ref_run [Cert.Pre_input_domain.Facts]
    (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v6)
          = Cert.Spec.G (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono
    (fun _ h c => ⟨(h c).1.trans (refVal_eq_G (fun b j => pre_range _ _ _ _ (hpre c) b j) _ _ _), (h c).2⟩)
    (run_term (F := Ideal) m g)

/-- The frame alone: from any memory every weakly fair execution terminates with the four arguments unchanged. -/
theorem ref_frame
    (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono (fun _ h c => (h c).2) (run_term (F := Ideal) m g)

end Cert.RefSide

end
-- ==== Proof.lean ====
/-
  The five conjuncts.  Both kernel programs run by one proof, written once over the float instance: the SparseCore
  call's thirty-two tiles each gather and add the twenty table rows of their two output rows, the TensorCore's
  pipeline projects the summed embeddings block by block and adds the bias, and the host transposes around them.
  At the exact instance the result is, index by index, `(∑ d, (∑ j, emb[inp[b, j], d]) · W[v, d]) + bias[v]`,
  which is what the reference's gather, row sum, matrix product and broadcast add compute; the context words are
  row numbers by the precondition, so the reference's index wrap and out-of-range fill do nothing.
-/
import proofs.«204094_g4578435138101_retrytranche1_754_22_alg».proof.Defs
import proofs.«204094_g4578435138101_retrytranche1_754_22_alg».proof.Proof.Gen.Kernel
import proofs.«204094_g4578435138101_retrytranche1_754_22_alg».proof.Proof.Gen.KernelIdeal
import proofs.«204094_g4578435138101_retrytranche1_754_22_alg».proof.Proof.Gen.ReferenceIdeal
import proofs.«204094_g4578435138101_retrytranche1_754_22_alg».proof.Proof.Gen.Pre_input_domain
import proofs.«204094_g4578435138101_retrytranche1_754_22_alg».proof.Proof.RunI
import proofs.«204094_g4578435138101_retrytranche1_754_22_alg».proof.Proof.RunW
import proofs.«204094_g4578435138101_retrytranche1_754_22_alg».proof.Proof.ValueI
import proofs.«204094_g4578435138101_retrytranche1_754_22_alg».proof.Proof.RefValue
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_input_domain.Facts := Cert.Pre_input_domain.Gen.facts

/-- The kernel as printed runs to the end, faults nowhere and leaves its arguments unchanged. -/
theorem frame_k : Cert.frame_Kernel := fun m ρ hpre =>
  (θ_run Cert.Kernel.defs _ _).mono (fun _ h c => ⟨(h c).2.1, (h c).2.2.1, (h c).2.2.2.1, (h c).2.2.2.2⟩)
    (Cert.Proof.W.run_main (F := Bits) m ρ (Cert.Proof.W.hI_of_pre m hpre))

/-- So does its idealization. -/
theorem frame_ki : Cert.frame_KernelIdeal := fun m ρ hpre =>
  (θ_run Cert.KernelIdeal.defs _ _).mono (fun _ h c => ⟨(h c).2.1, (h c).2.2.1, (h c).2.2.2.1, (h c).2.2.2.2⟩)
    (Cert.Proof.I.run_main (F := Ideal) m ρ (Cert.Proof.I.hI_of_pre m hpre))

/-- The reference is host operations only. -/
theorem frame_ri : Cert.frame_ReferenceIdeal := fun m g _ => Cert.RefSide.ref_frame m g

/-- At the exact instance both programs end at the one function `Cert.Spec.G` of the arguments. -/
theorem algebraic : Cert.algebraic_KernelIdeal_ReferenceIdeal := by
  intro m ρ m' ρ' hpre hagree
  refine ⟨fun c => Cert.Spec.G (m (Cert.Proof.I.a0Loc c)) (m (Cert.Proof.I.a1Loc c)) (m (Cert.Proof.I.a2Loc c)) (m (Cert.Proof.I.a3Loc c)), ?_, ?_⟩
  · refine (θ_run Cert.KernelIdeal.defs _ _).mono (fun r h c => ?_) (Cert.Proof.I.run_main (F := Ideal) m ρ (Cert.Proof.I.hI_of_pre m hpre))
    obtain ⟨⟨W, R, hR, h6⟩, h0, h1, h2, h3⟩ := h c
    exact ⟨h6.trans (Cert.Proof.I.value_eq m c W R hR), h0, h1, h2, h3⟩
  · have hpre' : Cert.Pre_ReferenceIdeal m' := fun c => by
      rw [(hagree c).1, (hagree c).2.1, (hagree c).2.2.1, (hagree c).2.2.2]; exact hpre c
    refine (θ_run Cert.ReferenceIdeal.defs _ _).mono (fun r h c => ?_) (Cert.RefSide.ref_run m' ρ' hpre')
    obtain ⟨h6, h0, h1, h2, h3⟩ := h c
    refine ⟨?_, h0, h1, h2, h3⟩
    rw [h6, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
